-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2048 : Shape := ⟨2, ![2048, 2048]⟩
abbrev S2048x16 : Shape := ⟨2, ![2048, 16]⟩
abbrev S16x32 : Shape := ⟨2, ![16, 32]⟩
abbrev S32 : Shape := ⟨1, ![32]⟩
abbrev S32x16 : Shape := ⟨2, ![32, 16]⟩
abbrev S16 : Shape := ⟨1, ![16]⟩
abbrev S1 : Shape := ⟨1, ![1]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S2048x16 : S_.BroadcastsInDim S2048x16 (![] : Fin 0 → Fin S2048x16.rank)
  reducesTo_S2048x16_S_d0_1 : S2048x16.ReducesTo [0, 1] S_
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S1 : S_.BroadcastsInDim S1 (![] : Fin 0 → Fin S1.rank)
  reducesTo_S1_S_d0 : S1.ReducesTo [0] S_

variable [Facts]

def fn_part2 {F : FTy → Type} [FloatOps F] (main_arg0 : FVec F S2048x2048 .f32) (main_v33 : IVec S_ 1) : IVec S_ 1 :=
  let main_cst_12 : FVec F S_ .f32 := constant S_ .f32 0x00000000#32
  let main_v34 : FVec F S2048x2048 .f32 := broadcastInDim S2048x2048 ![] bcast_S_S2048x2048 main_cst_12
  let main_v35 : IVec S2048x2048 1 := cmpf .oeq main_arg0 main_v34
  let main_cst_13 : FVec F S_ .f32 := constant S_ .f32 0x3F800000#32
  let main_v36 : FVec F S2048x2048 .f32 := broadcastInDim S2048x2048 ![] bcast_S_S2048x2048 main_cst_13
  let main_v37 : IVec S2048x2048 1 := cmpf .oeq main_arg0 main_v36
  let main_v38 : IVec S2048x2048 1 := ori main_v35 main_v37
  let main_c_14 : IVec S_ 1 := constantI S_ 1 1#1
  let main_v39 : IVec S_ 1 := (fun x v => Host.reduce IntOp.andi x v reducesTo_S2048x2048_S_d0_1 h_S_) main_v38 main_c_14
  let main_v40 : IVec S_ 1 := andi main_v33 main_v39
  main_v40

def fn_part1 {F : FTy → Type} [FloatOps F] (main_arg0 : FVec F S2048x2048 .f32) (main_arg4 : FVec F S32x16 .f32) (main_arg5 : FVec F S16 .f32) (main_arg6 : FVec F S1 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x16 .f32 := Host.absf main_arg4
  let main_cst_6 : FVec F S_ .f32 := constant S_ .f32 0x7F800000#32
  let main_v20 : FVec F S32x16 .f32 := broadcastInDim S32x16 ![] bcast_S_S32x16 main_cst_6
  let main_v21 : IVec S32x16 1 := cmpf .olt main_v19 main_v20
  let main_c_7 : IVec S_ 1 := constantI S_ 1 1#1
  let main_v22 : IVec S_ 1 := (fun x v => Host.reduce IntOp.andi x v reducesTo_S32x16_S_d0_1 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg0 main_v33

def fn {F : FTy → Type} [FloatOps F] (main_arg0 : FVec F S2048x2048 .f32) (main_arg1 : FVec F S2048x16 .f32) (main_arg2 : FVec F S16x32 .f32) (main_arg3 : FVec F S32 .f32) (main_arg4 : FVec F S32x16 .f32) (main_arg5 : FVec F S16 .f32) (main_arg6 : FVec F S1 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048x16 .f32 := Host.absf main_arg1
  let main_cst_0 : FVec F S_ .f32 := constant S_ .f32 0x7F800000#32
  let main_v5 : FVec F S2048x16 .f32 := broadcastInDim S2048x16 ![] bcast_S_S2048x16 main_cst_0
  let main_v6 : IVec S2048x16 1 := cmpf .olt main_v4 main_v5
  let main_c_1 : IVec S_ 1 := constantI S_ 1 1#1
  let main_v7 : IVec S_ 1 := (fun x v => Host.reduce IntOp.andi x v reducesTo_S2048x16_S_d0_1 h_S_) main_v6 main_c_1
  let main_v8 : IVec S_ 1 := andi main_v3 main_v7
  let main_v9 : FVec F S16x32 .f32 := Host.absf main_arg2
  let main_cst_2 : FVec F S_ .f32 := constant S_ .f32 0x7F800000#32
  let main_v10 : FVec F S16x32 .f32 := broadcastInDim S16x32 ![] bcast_S_S16x32 main_cst_2
  let main_v11 : IVec S16x32 1 := cmpf .olt main_v9 main_v10
  let main_c_3 : IVec S_ 1 := constantI S_ 1 1#1
  let main_v12 : IVec S_ 1 := (fun x v => Host.reduce IntOp.andi x v reducesTo_S16x32_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg0 main_arg4 main_arg5 main_arg6 main_v13 main_v16
-- ==== Kernel.lean ====
abbrev S2048x2048 : Shape := ⟨2, ![2048, 2048]⟩
abbrev S2048x16 : Shape := ⟨2, ![2048, 16]⟩
abbrev S16x32 : Shape := ⟨2, ![16, 32]⟩
abbrev S32 : Shape := ⟨1, ![32]⟩
abbrev S32x16 : Shape := ⟨2, ![32, 16]⟩
abbrev S16 : Shape := ⟨1, ![16]⟩
abbrev S1 : Shape := ⟨1, ![1]⟩
abbrev S1x32 : Shape := ⟨2, ![1, 32]⟩
abbrev S1x16 : Shape := ⟨2, ![1, 16]⟩
abbrev S1x1 : Shape := ⟨2, ![1, 1]⟩
abbrev S2048 : Shape := ⟨1, ![2048]⟩
abbrev S1x2048 : Shape := ⟨2, ![1, 2048]⟩
abbrev S2048x1 : Shape := ⟨2, ![2048, 1]⟩
abbrev S2048x32 : Shape := ⟨2, ![2048, 32]⟩

abbrev nBuf : Space → Nat
  | .hbm => 11
  | .vmem => 8
  | .smem => 0
  | _ => 0

abbrev bufTy : (tb : Table) → Fin (tcTables nBuf tb) → BufTy
  | .hbm, ⟨0, _⟩ => ⟨S2048x2048, .f32⟩
  | .hbm, ⟨1, _⟩ => ⟨S2048x16, .f32⟩
  | .hbm, ⟨2, _⟩ => ⟨S16x32, .f32⟩
  | .hbm, ⟨3, _⟩ => ⟨S32, .f32⟩
  | .hbm, ⟨4, _⟩ => ⟨S32x16, .f32⟩
  | .hbm, ⟨5, _⟩ => ⟨S16, .f32⟩
  | .hbm, ⟨6, _⟩ => ⟨S1, .f32⟩
  | .hbm, ⟨7, _⟩ => ⟨S1x32, .f32⟩
  | .hbm, ⟨8, _⟩ => ⟨S1x16, .f32⟩
  | .hbm, ⟨9, _⟩ => ⟨S1x1, .f32⟩
  | .hbm, ⟨10, _⟩ => ⟨S2048x16, .f32⟩
  | .local _ .vmem, ⟨0, _⟩ => ⟨S2048x2048, .f32⟩
  | .local _ .vmem, ⟨1, _⟩ => ⟨S2048x16, .f32⟩
  | .local _ .vmem, ⟨2, _⟩ => ⟨S16x32, .f32⟩
  | .local _ .vmem, ⟨3, _⟩ => ⟨S1x32, .f32⟩
  | .local _ .vmem, ⟨4, _⟩ => ⟨S32x16, .f32⟩
  | .local _ .vmem, ⟨5, _⟩ => ⟨S1x16, .f32⟩
  | .local _ .vmem, ⟨6, _⟩ => ⟨S1x1, .f32⟩
  | .local _ .vmem, ⟨7, _⟩ => ⟨S2048x16, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S2048x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

class Facts₀ : Prop where
  shapeCasts_S32_S1x32 : S32.ShapeCasts S1x32
  shapeCasts_S16_S1x16 : S16.ShapeCasts S1x16
  shapeCasts_S1_S1x1 : S1.ShapeCasts S1x1
  inb_S2048x2048_S2048x2048_0_0 : ∀ a, (![0, 0] : Fin 2 → Nat) a + S2048x2048.size a ≤ S2048x2048.size a
  h_S2048x2048 : 0 < S2048x2048.numel
  reduces_S2048x2048_S2048 : S2048x2048.Reduces [0] S2048
  shapeCasts_S2048_S1x2048 : S2048.ShapeCasts S1x2048
  transposes_S1x2048_p1_0_S2048x1 : S1x2048.Transposes [1, 0] S2048x1
  inb_S2048x16_S2048x16_0_0 : ∀ a, (![0, 0] : Fin 2 → Nat) a + S2048x16.size a ≤ S2048x16.size a
  h_S2048x16 : 0 < S2048x16.numel
  inb_S16x32_S16x32_0_0 : ∀ a, (![0, 0] : Fin 2 → Nat) a + S16x32.size a ≤ S16x32.size a
  h_S16x32 : 0 < S16x32.numel
  broadcasts_S2048x1_S2048x32 : S2048x1.Broadcasts S2048x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2048x32 : S1x32.Broadcasts S2048x32
  inb_S32x16_S32x16_0_0 : ∀ a, (![0, 0] : Fin 2 → Nat) a + S32x16.size a ≤ S32x16.size a
  h_S32x16 : 0 < S32x16.numel
  broadcasts_S2048x1_S2048x16 : S2048x1.Broadcasts S2048x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2048x16 : S1x16.Broadcasts S2048x16
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  dot_S2048x16_S16x32_S2048x32_1_0_0_1_n_n_wf : DotDims.WF S2048x16 S16x32 S2048x32 [1] [0] [0] [1] [] []
  dot_S2048x2048_S2048x32_S2048x32_0_0_1_1_n_n_wf : DotDims.WF S2048x2048 S2048x32 S2048x32 [0] [0] [1] [1] [] []
  dot_S2048x32_S32x16_S2048x16_1_0_0_1_n_n_wf : DotDims.WF S2048x32 S32x16 S2048x16 [1] [0] [0] [1] [] []
  dot_S2048x2048_S2048x16_S2048x16_0_0_1_1_n_n_wf : DotDims.WF S2048x2048 S2048x16 S2048x16 [0] [0] [1] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole
  hstage0_7 : ∀ j, (stage0_7 j).IsWhole

variable [Facts₀]

def dot_S2048x16_S16x32_S2048x32_1_0_0_1_n_n : DotDims S2048x16 S16x32 S2048x32 where
  lhsContracting := [1]
  rhsContracting := [0]
  lhsNonContracting := [0]
  rhsNonContracting := [1]
  lhsBatch := []
  rhsBatch := []
  wf := dot_S2048x16_S16x32_S2048x32_1_0_0_1_n_n_wf
def dot_S2048x2048_S2048x32_S2048x32_0_0_1_1_n_n : DotDims S2048x2048 S2048x32 S2048x32 where
  lhsContracting := [0]
  rhsContracting := [0]
  lhsNonContracting := [1]
  rhsNonContracting := [1]
  lhsBatch := []
  rhsBatch := []
  wf := dot_S2048x2048_S2048x32_S2048x32_0_0_1_1_n_n_wf
def dot_S2048x32_S32x16_S2048x16_1_0_0_1_n_n : DotDims S2048x32 S32x16 S2048x16 where
  lhsContracting := [1]
  rhsContracting := [0]
  lhsNonContracting := [0]
  rhsNonContracting := [1]
  lhsBatch := []
  rhsBatch := []
  wf := dot_S2048x32_S32x16_S2048x16_1_0_0_1_n_n_wf
def dot_S2048x2048_S2048x16_S2048x16_0_0_1_1_n_n : DotDims S2048x2048 S2048x16 S2048x16 where
  lhsContracting := [0]
  rhsContracting := [0]
  lhsNonContracting := [1]
  rhsNonContracting := [1]
  lhsBatch := []
  rhsBatch := []
  wf := dot_S2048x2048_S2048x16_S2048x16_0_0_1_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_v0) false false (stage0_3 0) (sem0_3 0) (Memref.isWhole_whole _) (hstage0_3 0)

abbrev win0_4 : Pipeline.Window sig grid0 :=
  Pipeline.Window.whole (Memref.whole main_arg4) false false (stage0_4 0) (sem0_4 0) (Memref.isWhole_whole _) (hstage0_4 0)

abbrev win0_5 : Pipeline.Window sig grid0 :=
  Pipeline.Window.whole (Memref.whole main_v1) false false (stage0_5 0) (sem0_5 0) (Memref.isWhole_whole _) (hstage0_5 0)

abbrev win0_6 : Pipeline.Window sig grid0 :=
  Pipeline.Window.whole (Memref.whole main_v2) false false (stage0_6 0) (sem0_6 0) (Memref.isWhole_whole _) (hstage0_6 0)

abbrev win0_7 : Pipeline.Window sig grid0 :=
  Pipeline.Window.whole (Memref.whole main_v3) true false (stage0_7 0) (sem0_7 0) (Memref.isWhole_whole _) (hstage0_7 0)

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S2048x2048 : Shape := ⟨2, ![2048, 2048]⟩
abbrev S2048x16 : Shape := ⟨2, ![2048, 16]⟩
abbrev S16x32 : Shape := ⟨2, ![16, 32]⟩
abbrev S32 : Shape := ⟨1, ![32]⟩
abbrev S32x16 : Shape := ⟨2, ![32, 16]⟩
abbrev S16 : Shape := ⟨1, ![16]⟩
abbrev S1 : Shape := ⟨1, ![1]⟩
abbrev S_ : Shape := ⟨0, ![]⟩
abbrev S4194304 : Shape := ⟨1, ![4194304]⟩
abbrev S4194304x1 : Shape := ⟨2, ![4194304, 1]⟩
abbrev S2048 : Shape := ⟨1, ![2048]⟩
abbrev S4196352 : Shape := ⟨1, ![4196352]⟩
abbrev S4196352x1 : Shape := ⟨2, ![4196352, 1]⟩
abbrev S2048x32 : Shape := ⟨2, ![2048, 32]⟩
abbrev S4196352x32 : Shape := ⟨2, ![4196352, 32]⟩
abbrev S1x32 : Shape := ⟨2, ![1, 32]⟩
abbrev S4196352x16 : Shape := ⟨2, ![4196352, 16]⟩
abbrev S1x16 : Shape := ⟨2, ![1, 16]⟩
abbrev S1x1 : Shape := ⟨2, ![1, 1]⟩

abbrev nBuf : Space → Nat
  | .hbm => 254
  | .vmem => 0
  | .smem => 0
  | _ => 0

abbrev hbmTy0_0 (i : Nat) : BufTy := match i % 128 with
  | 0 => ⟨S2048x2048, .f32⟩
  | 1 => ⟨S2048x16, .f32⟩
  | 2 => ⟨S16x32, .f32⟩
  | 3 => ⟨S32, .f32⟩
  | 4 => ⟨S32x16, .f32⟩
  | 5 => ⟨S16, .f32⟩
  | 6 => ⟨S1, .f32⟩
  | 7 => ⟨S_, .f32⟩
  | 8 => ⟨S2048x2048, .f32⟩
  | 9 => ⟨S2048x2048, .i1⟩
  | 10 => ⟨S4194304, .i1⟩
  | 11 => ⟨S4194304, .i32⟩
  | 12 => ⟨S_, .i32⟩
  | 13 => ⟨S_, .i32⟩
  | 14 => ⟨S4194304, .i32⟩
  | 15 => ⟨S_, .i32⟩
  | 16 => ⟨S4194304, .i32⟩
  | 17 => ⟨S_, .i32⟩
  | 18 => ⟨S_, .i32⟩
  | 19 => ⟨S4194304, .i32⟩
  | 20 => ⟨S4194304, .i32⟩
  | 21 => ⟨S_, .i32⟩
  | 22 => ⟨S4194304, .i32⟩
  | 23 => ⟨S4194304, .i1⟩
  | 24 => ⟨S_, .i32⟩
  | 25 => ⟨S4194304, .i32⟩
  | 26 => ⟨S4194304, .i32⟩
  | 27 => ⟨S4194304, .i32⟩
  | 28 => ⟨S4194304x1, .i32⟩
  | 29 => ⟨S_, .i32⟩
  | 30 => ⟨S4194304, .i32⟩
  | 31 => ⟨S4194304, .i32⟩
  | 32 => ⟨S_, .i32⟩
  | 33 => ⟨S_, .i32⟩
  | 34 => ⟨S4194304, .i32⟩
  | 35 => ⟨S_, .i32⟩
  | 36 => ⟨S4194304, .i32⟩
  | 37 => ⟨S4194304, .i32⟩
  | 38 => ⟨S4194304, .i32⟩
  | 39 => ⟨S_, .i32⟩
  | 40 => ⟨S4194304, .i32⟩
  | 41 => ⟨S4194304, .i1⟩
  | 42 => ⟨S4194304, .i32⟩
  | 43 => ⟨S4194304, .i32⟩
  | 44 => ⟨S_, .i32⟩
  | 45 => ⟨S4194304, .i32⟩
  | 46 => ⟨S4194304, .i1⟩
  | 47 => ⟨S4194304, .i1⟩
  | 48 => ⟨S_, .i32⟩
  | 49 => ⟨S4194304, .i32⟩
  | 50 => ⟨S4194304, .i32⟩
  | 51 => ⟨S4194304, .i32⟩
  | 52 => ⟨S_, .i32⟩
  | 53 => ⟨S_, .i32⟩
  | 54 => ⟨S_, .i32⟩
  | 55 => ⟨S_, .i1⟩
  | 56 => ⟨S_, .i32⟩
  | 57 => ⟨S_, .i32⟩
  | 58 => ⟨S4194304, .i32⟩
  | 59 => ⟨S4194304, .i32⟩
  | 60 => ⟨S_, .i32⟩
  | 61 => ⟨S4194304, .i32⟩
  | 62 => ⟨S4194304, .i1⟩
  | 63 => ⟨S_, .i32⟩
  | 64 => ⟨S4194304, .i32⟩
  | 65 => ⟨S4194304, .i1⟩
  | 66 => ⟨S_, .i32⟩
  | 67 => ⟨S_, .i1⟩
  | 68 => ⟨S4194304, .i1⟩
  | 69 => ⟨S4194304, .i1⟩
  | 70 => ⟨S4194304, .i1⟩
  | 71 => ⟨S4194304, .i32⟩
  | 72 => ⟨S4194304, .i32⟩
  | 73 => ⟨S4194304, .i32⟩
  | 74 => ⟨S_, .i32⟩
  | 75 => ⟨S4194304, .i32⟩
  | 76 => ⟨S4194304, .i32⟩
  | 77 => ⟨S4194304, .i32⟩
  | 78 => ⟨S_, .i32⟩
  | 79 => ⟨S4194304, .i32⟩
  | 80 => ⟨S4194304, .i1⟩
  | 81 => ⟨S4194304, .i32⟩
  | 82 => ⟨S4194304, .i32⟩
  | 83 => ⟨S_, .i32⟩
  | 84 => ⟨S4194304, .i32⟩
  | 85 => ⟨S4194304, .i1⟩
  | 86 => ⟨S4194304, .i1⟩
  | 87 => ⟨S_, .i32⟩
  | 88 => ⟨S4194304, .i32⟩
  | 89 => ⟨S4194304, .i32⟩
  | 90 => ⟨S4194304, .i32⟩
  | 91 => ⟨S_, .i32⟩
  | 92 => ⟨S_, .i32⟩
  | 93 => ⟨S_, .i32⟩
  | 94 => ⟨S_, .i1⟩
  | 95 => ⟨S_, .i32⟩
  | 96 => ⟨S_, .i32⟩
  | 97 => ⟨S4194304, .i32⟩
  | 98 => ⟨S4194304, .i32⟩
  | 99 => ⟨S_, .i32⟩
  | 100 => ⟨S4194304, .i32⟩
  | 101 => ⟨S4194304, .i1⟩
  | 102 => ⟨S_, .i32⟩
  | 103 => ⟨S4194304, .i32⟩
  | 104 => ⟨S4194304, .i1⟩
  | 105 => ⟨S_, .i32⟩
  | 106 => ⟨S_, .i1⟩
  | 107 => ⟨S4194304, .i1⟩
  | 108 => ⟨S4194304, .i1⟩
  | 109 => ⟨S4194304, .i1⟩
  | 110 => ⟨S4194304, .i32⟩
  | 111 => ⟨S4194304, .i32⟩
  | 112 => ⟨S4194304, .i32⟩
  | 113 => ⟨S4194304, .i32⟩
  | 114 => ⟨S2048x2048, .i32⟩
  | 115 => ⟨S_, .i32⟩
  | 116 => ⟨S_, .i32⟩
  | 117 => ⟨S4194304, .i32⟩
  | 118 => ⟨S4194304, .i1⟩
  | 119 => ⟨S_, .i32⟩
  | 120 => ⟨S_, .i32⟩
  | 121 => ⟨S4194304, .i32⟩
  | 122 => ⟨S4194304, .i32⟩
  | 123 => ⟨S_, .i32⟩
  | 124 => ⟨S_, .i32⟩
  | 125 => ⟨S4194304, .i32⟩
  | 126 => ⟨S4194304, .i32⟩
  | 127 => ⟨S_, .f32⟩
  | _ => ⟨S2048x2048, .f32⟩

abbrev hbmTy0_1 (i : Nat) : BufTy := match i % 128 with
  | 0 => ⟨S2048x2048, .f32⟩
  | 1 => ⟨S2048x2048, .i1⟩
  | 2 => ⟨S2048x2048, .i32⟩
  | 3 => ⟨S_, .i32⟩
  | 4 => ⟨S_, .i32⟩
  | 5 => ⟨S4194304, .i32⟩
  | 6 => ⟨S4194304, .i32⟩
  | 7 => ⟨S4194304, .i1⟩
  | 8 => ⟨S2048, .i32⟩
  | 9 => ⟨S4196352, .i32⟩
  | 10 => ⟨S4196352, .i32⟩
  | 11 => ⟨S_, .i1⟩
  | 12 => ⟨S2048, .i1⟩
  | 13 => ⟨S4196352, .i1⟩
  | 14 => ⟨S4196352, .f32⟩
  | 15 => ⟨S_, .f32⟩
  | 16 => ⟨S2048, .f32⟩
  | 17 => ⟨S_, .i32⟩
  | 18 => ⟨S4196352, .i32⟩
  | 19 => ⟨S4196352, .i1⟩
  | 20 => ⟨S_, .i32⟩
  | 21 => ⟨S4196352, .i32⟩
  | 22 => ⟨S4196352, .i32⟩
  | 23 => ⟨S4196352, .i32⟩
  | 24 => ⟨S4196352x1, .i32⟩
  | 25 => ⟨S2048, .f32⟩
  | 26 => ⟨S_, .f32⟩
  | 27 => ⟨S2048, .f32⟩
  | 28 => ⟨S2048, .i1⟩
  | 29 => ⟨S2048, .f32⟩
  | 30 => ⟨S_, .f32⟩
  | 31 => ⟨S2048, .f32⟩
  | 32 => ⟨S2048, .f32⟩
  | 33 => ⟨S_, .f32⟩
  | 34 => ⟨S_, .f32⟩
  | 35 => ⟨S2048, .f32⟩
  | 36 => ⟨S2048, .f32⟩
  | 37 => ⟨S_, .i32⟩
  | 38 => ⟨S4196352, .i32⟩
  | 39 => ⟨S4196352, .i1⟩
  | 40 => ⟨S_, .i32⟩
  | 41 => ⟨S4196352, .i32⟩
  | 42 => ⟨S4196352, .i32⟩
  | 43 => ⟨S4196352, .i32⟩
  | 44 => ⟨S4196352x1, .i32⟩
  | 45 => ⟨S4196352, .f32⟩
  | 46 => ⟨S_, .i32⟩
  | 47 => ⟨S4196352, .i32⟩
  | 48 => ⟨S4196352, .i1⟩
  | 49 => ⟨S_, .i32⟩
  | 50 => ⟨S4196352, .i32⟩
  | 51 => ⟨S4196352, .i32⟩
  | 52 => ⟨S4196352, .i32⟩
  | 53 => ⟨S4196352x1, .i32⟩
  | 54 => ⟨S4196352, .f32⟩
  | 55 => ⟨S4196352, .f32⟩
  | 56 => ⟨S4196352, .f32⟩
  | 57 => ⟨S2048x32, .f32⟩
  | 58 => ⟨S_, .i32⟩
  | 59 => ⟨S4196352, .i32⟩
  | 60 => ⟨S4196352, .i1⟩
  | 61 => ⟨S_, .i32⟩
  | 62 => ⟨S4196352, .i32⟩
  | 63 => ⟨S4196352, .i32⟩
  | 64 => ⟨S4196352, .i32⟩
  | 65 => ⟨S4196352x1, .i32⟩
  | 66 => ⟨S4196352x32, .f32⟩
  | 67 => ⟨S4196352x1, .f32⟩
  | 68 => ⟨S4196352x32, .f32⟩
  | 69 => ⟨S4196352x32, .f32⟩
  | 70 => ⟨S_, .f32⟩
  | 71 => ⟨S2048x32, .f32⟩
  | 72 => ⟨S_, .i32⟩
  | 73 => ⟨S4196352, .i32⟩
  | 74 => ⟨S4196352, .i1⟩
  | 75 => ⟨S_, .i32⟩
  | 76 => ⟨S4196352, .i32⟩
  | 77 => ⟨S4196352, .i32⟩
  | 78 => ⟨S4196352, .i32⟩
  | 79 => ⟨S4196352x1, .i32⟩
  | 80 => ⟨S2048x32, .f32⟩
  | 81 => ⟨S1x32, .f32⟩
  | 82 => ⟨S2048x32, .f32⟩
  | 83 => ⟨S2048x32, .f32⟩
  | 84 => ⟨S_, .f32⟩
  | 85 => ⟨S2048x32, .f32⟩
  | 86 => ⟨S2048x32, .f32⟩
  | 87 => ⟨S2048x16, .f32⟩
  | 88 => ⟨S_, .i32⟩
  | 89 => ⟨S4196352, .i32⟩
  | 90 => ⟨S4196352, .i1⟩
  | 91 => ⟨S_, .i32⟩
  | 92 => ⟨S4196352, .i32⟩
  | 93 => ⟨S4196352, .i32⟩
  | 94 => ⟨S4196352, .i32⟩
  | 95 => ⟨S4196352x1, .i32⟩
  | 96 => ⟨S4196352x16, .f32⟩
  | 97 => ⟨S4196352x1, .f32⟩
  | 98 => ⟨S4196352x16, .f32⟩
  | 99 => ⟨S4196352x16, .f32⟩
  | 100 => ⟨S_, .f32⟩
  | 101 => ⟨S2048x16, .f32⟩
  | 102 => ⟨S_, .i32⟩
  | 103 => ⟨S4196352, .i32⟩
  | 104 => ⟨S4196352, .i1⟩
  | 105 => ⟨S_, .i32⟩
  | 106 => ⟨S4196352, .i32⟩
  | 107 => ⟨S4196352, .i32⟩
  | 108 => ⟨S4196352, .i32⟩
  | 109 => ⟨S4196352x1, .i32⟩
  | 110 => ⟨S2048x16, .f32⟩
  | 111 => ⟨S1x16, .f32⟩
  | 112 => ⟨S2048x16, .f32⟩
  | 113 => ⟨S2048x16, .f32⟩
  | 114 => ⟨S2048x16, .f32⟩
  | 115 => ⟨S1x1, .f32⟩
  | 116 => ⟨S2048x16, .f32⟩
  | 117 => ⟨S2048x16, .f32⟩
  | 118 => ⟨S2048x16, .f32⟩
  | 119 => ⟨S2048x16, .f32⟩
  | 120 => ⟨S_, .f32⟩
  | 121 => ⟨S2048x16, .f32⟩
  | 122 => ⟨S2048x16, .f32⟩
  | 123 => ⟨S_, .f32⟩
  | 124 => ⟨S2048x16, .f32⟩
  | 125 => ⟨S2048x16, .f32⟩
  | _ => ⟨S2048x2048, .f32⟩

abbrev hbmTy (i : Nat) : BufTy := match i / 128 with
  | 0 => hbmTy0_0 i
  | 1 => hbmTy0_1 i
  | _ => ⟨S2048x2048, .f32⟩

abbrev bufTy : (tb : Table) → Fin (tcTables nBuf tb) → BufTy
  | .hbm, ⟨i, _⟩ => hbmTy i
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_call0_v0 : Ref sig .tc := ⟨.hbm, 10, rfl⟩
abbrev main_call0_v1 : Ref sig .tc := ⟨.hbm, 11, rfl⟩
abbrev main_call0_call0_c : Ref sig .tc := ⟨.hbm, 12, rfl⟩
abbrev main_call0_call0_v0 : Ref sig .tc := ⟨.hbm, 13, rfl⟩
abbrev main_v2 : Ref sig .tc := ⟨.hbm, 14, rfl⟩
abbrev main_c : Ref sig .tc := ⟨.hbm, 15, rfl⟩
abbrev main_v3 : Ref sig .tc := ⟨.hbm, 16, rfl⟩
abbrev main_c_0 : Ref sig .tc := ⟨.hbm, 17, rfl⟩
abbrev main_call1_v0 : Ref sig .tc := ⟨.hbm, 18, rfl⟩
abbrev main_call1_v1 : Ref sig .tc := ⟨.hbm, 19, rfl⟩
abbrev main_v4 : Ref sig .tc := ⟨.hbm, 20, rfl⟩
abbrev main_c_1 : Ref sig .tc := ⟨.hbm, 21, rfl⟩
abbrev main_v5 : Ref sig .tc := ⟨.hbm, 22, rfl⟩
abbrev main_v6 : Ref sig .tc := ⟨.hbm, 23, rfl⟩
abbrev main_c_2 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c_3 : Ref sig .tc := ⟨.hbm, 29, rfl⟩
abbrev main_v11 : Ref sig .tc := ⟨.hbm, 30, rfl⟩
abbrev main_v12 : Ref sig .tc := ⟨.hbm, 31, rfl⟩
abbrev main_call2_call0_c : Ref sig .tc := ⟨.hbm, 32, rfl⟩
abbrev main_call2_call0_v0 : Ref sig .tc := ⟨.hbm, 33, rfl⟩
abbrev main_v13 : Ref sig .tc := ⟨.hbm, 34, rfl⟩
abbrev main_c_4 : Ref sig .tc := ⟨.hbm, 35, rfl⟩
abbrev main_call3_v0 : Ref sig .tc := ⟨.hbm, 36, rfl⟩
abbrev main_call3_v1 : Ref sig .tc := ⟨.hbm, 37, rfl⟩
abbrev main_call3_v2 : Ref sig .tc := ⟨.hbm, 38, rfl⟩
abbrev main_call3_v3 : Ref sig .tc := ⟨.hbm, 39, rfl⟩
abbrev main_call3_v4 : Ref sig .tc := ⟨.hbm, 40, rfl⟩
abbrev main_call3_v5 : Ref sig .tc := ⟨.hbm, 41, rfl⟩
abbrev main_call3_v6 : Ref sig .tc := ⟨.hbm, 42, rfl⟩
abbrev main_call3_v7 : Ref sig .tc := ⟨.hbm, 43, rfl⟩
abbrev main_call3_c : Ref sig .tc := ⟨.hbm, 44, rfl⟩
abbrev main_call3_v8 : Ref sig .tc := ⟨.hbm, 45, rfl⟩
abbrev main_call3_v9 : Ref sig .tc := ⟨.hbm, 46, rfl⟩
abbrev main_call3_v10 : Ref sig .tc := ⟨.hbm, 47, rfl⟩
abbrev main_call3_c_0 : Ref sig .tc := ⟨.hbm, 48, rfl⟩
abbrev main_call3_v11 : Ref sig .tc := ⟨.hbm, 49, rfl⟩
abbrev main_call3_v12 : Ref sig .tc := ⟨.hbm, 50, rfl⟩
abbrev main_v14 : Ref sig .tc := ⟨.hbm, 51, rfl⟩
abbrev main_c_5 : Ref sig .tc := ⟨.hbm, 52, rfl⟩
abbrev main_call4_v0 : Ref sig .tc := ⟨.hbm, 53, rfl⟩
abbrev main_call4_c : Ref sig .tc := ⟨.hbm, 54, rfl⟩
abbrev main_call4_v1 : Ref sig .tc := ⟨.hbm, 55, rfl⟩
abbrev main_call4_c_0 : Ref sig .tc := ⟨.hbm, 56, rfl⟩
abbrev main_call4_v2 : Ref sig .tc := ⟨.hbm, 57, rfl⟩
abbrev main_call4_v3 : Ref sig .tc := ⟨.hbm, 58, rfl⟩
abbrev main_call4_v4 : Ref sig .tc := ⟨.hbm, 59, rfl⟩
abbrev main_call4_c_1 : Ref sig .tc := ⟨.hbm, 60, rfl⟩
abbrev main_call4_v5 : Ref sig .tc := ⟨.hbm, 61, rfl⟩
abbrev main_call4_v6 : Ref sig .tc := ⟨.hbm, 62, rfl⟩
abbrev main_call4_c_2 : Ref sig .tc := ⟨.hbm, 63, rfl⟩
abbrev main_call4_v7 : Ref sig .tc := ⟨.hbm, 64, rfl⟩
abbrev main_call4_v8 : Ref sig .tc := ⟨.hbm, 65, rfl⟩
abbrev main_call4_c_3 : Ref sig .tc := ⟨.hbm, 66, rfl⟩
abbrev main_call4_v9 : Ref sig .tc := ⟨.hbm, 67, rfl⟩
abbrev main_call4_v10 : Ref sig .tc := ⟨.hbm, 68, rfl⟩
abbrev main_call4_v11 : Ref sig .tc := ⟨.hbm, 69, rfl⟩
abbrev main_call4_v12 : Ref sig .tc := ⟨.hbm, 70, rfl⟩
abbrev main_call4_v13 : Ref sig .tc := ⟨.hbm, 71, rfl⟩
abbrev main_call4_v14 : Ref sig .tc := ⟨.hbm, 72, rfl⟩
abbrev main_v15 : Ref sig .tc := ⟨.hbm, 73, rfl⟩
abbrev main_c_6 : Ref sig .tc := ⟨.hbm, 74, rfl⟩
abbrev main_call5_v0 : Ref sig .tc := ⟨.hbm, 75, rfl⟩
abbrev main_call5_v1 : Ref sig .tc := ⟨.hbm, 76, rfl⟩
abbrev main_call5_v2 : Ref sig .tc := ⟨.hbm, 77, rfl⟩
abbrev main_call5_v3 : Ref sig .tc := ⟨.hbm, 78, rfl⟩
abbrev main_call5_v4 : Ref sig .tc := ⟨.hbm, 79, rfl⟩
abbrev main_call5_v5 : Ref sig .tc := ⟨.hbm, 80, rfl⟩
abbrev main_call5_v6 : Ref sig .tc := ⟨.hbm, 81, rfl⟩
abbrev main_call5_v7 : Ref sig .tc := ⟨.hbm, 82, rfl⟩
abbrev main_call5_c : Ref sig .tc := ⟨.hbm, 83, rfl⟩
abbrev main_call5_v8 : Ref sig .tc := ⟨.hbm, 84, rfl⟩
abbrev main_call5_v9 : Ref sig .tc := ⟨.hbm, 85, rfl⟩
abbrev main_call5_v10 : Ref sig .tc := ⟨.hbm, 86, rfl⟩
abbrev main_call5_c_0 : Ref sig .tc := ⟨.hbm, 87, rfl⟩
abbrev main_call5_v11 : Ref sig .tc := ⟨.hbm, 88, rfl⟩
abbrev main_call5_v12 : Ref sig .tc := ⟨.hbm, 89, rfl⟩
abbrev main_v16 : Ref sig .tc := ⟨.hbm, 90, rfl⟩
abbrev main_c_7 : Ref sig .tc := ⟨.hbm, 91, rfl⟩
abbrev main_call6_v0 : Ref sig .tc := ⟨.hbm, 92, rfl⟩
abbrev main_call6_c : Ref sig .tc := ⟨.hbm, 93, rfl⟩
abbrev main_call6_v1 : Ref sig .tc := ⟨.hbm, 94, rfl⟩
abbrev main_call6_c_0 : Ref sig .tc := ⟨.hbm, 95, rfl⟩
abbrev main_call6_v2 : Ref sig .tc := ⟨.hbm, 96, rfl⟩
abbrev main_call6_v3 : Ref sig .tc := ⟨.hbm, 97, rfl⟩
abbrev main_call6_v4 : Ref sig .tc := ⟨.hbm, 98, rfl⟩
abbrev main_call6_c_1 : Ref sig .tc := ⟨.hbm, 99, rfl⟩
abbrev main_call6_v5 : Ref sig .tc := ⟨.hbm, 100, rfl⟩
abbrev main_call6_v6 : Ref sig .tc := ⟨.hbm, 101, rfl⟩
abbrev main_call6_c_2 : Ref sig .tc := ⟨.hbm, 102, rfl⟩
abbrev main_call6_v7 : Ref sig .tc := ⟨.hbm, 103, rfl⟩
abbrev main_call6_v8 : Ref sig .tc := ⟨.hbm, 104, rfl⟩
abbrev main_call6_c_3 : Ref sig .tc := ⟨.hbm, 105, rfl⟩
abbrev main_call6_v9 : Ref sig .tc := ⟨.hbm, 106, rfl⟩
abbrev main_call6_v10 : Ref sig .tc := ⟨.hbm, 107, rfl⟩
abbrev main_call6_v11 : Ref sig .tc := ⟨.hbm, 108, rfl⟩
abbrev main_call6_v12 : Ref sig .tc := ⟨.hbm, 109, rfl⟩
abbrev main_call6_v13 : Ref sig .tc := ⟨.hbm, 110, rfl⟩
abbrev main_call6_v14 : Ref sig .tc := ⟨.hbm, 111, rfl⟩
abbrev main_v17 : Ref sig .tc := ⟨.hbm, 112, rfl⟩
abbrev main_v18 : Ref sig .tc := ⟨.hbm, 113, rfl⟩
abbrev main_v19 : Ref sig .tc := ⟨.hbm, 114, rfl⟩
abbrev main_c_8 : Ref sig .tc := ⟨.hbm, 115, rfl⟩
abbrev main_v20 : Ref sig .tc := ⟨.hbm, 116, rfl⟩
abbrev main_v21 : Ref sig .tc := ⟨.hbm, 117, rfl⟩
abbrev main_v22 : Ref sig .tc := ⟨.hbm, 118, rfl⟩
abbrev main_c_9 : Ref sig .tc := ⟨.hbm, 119, rfl⟩
abbrev main_call7_v0 : Ref sig .tc := ⟨.hbm, 120, rfl⟩
abbrev main_call7_v1 : Ref sig .tc := ⟨.hbm, 121, rfl⟩
abbrev main_v23 : Ref sig .tc := ⟨.hbm, 122, rfl⟩
abbrev main_c_10 : Ref sig .tc := ⟨.hbm, 123, rfl⟩
abbrev main_call8_v0 : Ref sig .tc := ⟨.hbm, 124, rfl⟩
abbrev main_call8_v1 : Ref sig .tc := ⟨.hbm, 125, rfl⟩
abbrev main_v24 : Ref sig .tc := ⟨.hbm, 126, rfl⟩
abbrev main_call9_cst : Ref sig .tc := ⟨.hbm, 127, rfl⟩
abbrev main_call9_v0 : Ref sig .tc := ⟨.hbm, 128, rfl⟩
abbrev main_call9_v1 : Ref sig .tc := ⟨.hbm, 129, rfl⟩
abbrev main_call9_v2 : Ref sig .tc := ⟨.hbm, 130, rfl⟩
abbrev main_call9_c : Ref sig .tc := ⟨.hbm, 131, rfl⟩
abbrev main_v25 : Ref sig .tc := ⟨.hbm, 132, rfl⟩
abbrev main_v26 : Ref sig .tc := ⟨.hbm, 133, rfl⟩
abbrev main_v27 : Ref sig .tc := ⟨.hbm, 134, rfl⟩
abbrev main_v28 : Ref sig .tc := ⟨.hbm, 135, rfl⟩
abbrev main_v29 : Ref sig .tc := ⟨.hbm, 136, rfl⟩
abbrev main_v30 : Ref sig .tc := ⟨.hbm, 137, rfl⟩
abbrev main_v31 : Ref sig .tc := ⟨.hbm, 138, rfl⟩
abbrev main_c_11 : Ref sig .tc := ⟨.hbm, 139, rfl⟩
abbrev main_v32 : Ref sig .tc := ⟨.hbm, 140, rfl⟩
abbrev main_v33 : Ref sig .tc := ⟨.hbm, 141, rfl⟩
abbrev main_v34 : Ref sig .tc := ⟨.hbm, 142, rfl⟩
abbrev main_cst_12 : Ref sig .tc := ⟨.hbm, 143, rfl⟩
abbrev main_v35 : Ref sig .tc := ⟨.hbm, 144, rfl⟩
abbrev main_c_13 : Ref sig .tc := ⟨.hbm, 145, rfl⟩
abbrev main_v36 : Ref sig .tc := ⟨.hbm, 146, rfl⟩
abbrev main_v37 : Ref sig .tc := ⟨.hbm, 147, rfl⟩
abbrev main_c_14 : Ref sig .tc := ⟨.hbm, 148, rfl⟩
abbrev main_v38 : Ref sig .tc := ⟨.hbm, 149, rfl⟩
abbrev main_v39 : Ref sig .tc := ⟨.hbm, 150, rfl⟩
abbrev main_v40 : Ref sig .tc := ⟨.hbm, 151, rfl⟩
abbrev main_v41 : Ref sig .tc := ⟨.hbm, 152, rfl⟩
abbrev main_v42 : Ref sig .tc := ⟨.hbm, 153, rfl⟩
abbrev main_cst_15 : Ref sig .tc := ⟨.hbm, 154, rfl⟩
abbrev main_v43 : Ref sig .tc := ⟨.hbm, 155, rfl⟩
abbrev main_v44 : Ref sig .tc := ⟨.hbm, 156, rfl⟩
abbrev main_v45 : Ref sig .tc := ⟨.hbm, 157, rfl⟩
abbrev main_cst_16 : Ref sig .tc := ⟨.hbm, 158, rfl⟩
abbrev main_v46 : Ref sig .tc := ⟨.hbm, 159, rfl⟩
abbrev main_v47 : Ref sig .tc := ⟨.hbm, 160, rfl⟩
abbrev main_cst_17 : Ref sig .tc := ⟨.hbm, 161, rfl⟩
abbrev main_call10_v0 : Ref sig .tc := ⟨.hbm, 162, rfl⟩
abbrev main_call10_v1 : Ref sig .tc := ⟨.hbm, 163, rfl⟩
abbrev main_v48 : Ref sig .tc := ⟨.hbm, 164, rfl⟩
abbrev main_c_18 : Ref sig .tc := ⟨.hbm, 165, rfl⟩
abbrev main_v49 : Ref sig .tc := ⟨.hbm, 166, rfl⟩
abbrev main_v50 : Ref sig .tc := ⟨.hbm, 167, rfl⟩
abbrev main_c_19 : Ref sig .tc := ⟨.hbm, 168, rfl⟩
abbrev main_v51 : Ref sig .tc := ⟨.hbm, 169, rfl⟩
abbrev main_v52 : Ref sig .tc := ⟨.hbm, 170, rfl⟩
abbrev main_v53 : Ref sig .tc := ⟨.hbm, 171, rfl⟩
abbrev main_v54 : Ref sig .tc := ⟨.hbm, 172, rfl⟩
abbrev main_v55 : Ref sig .tc := ⟨.hbm, 173, rfl⟩
abbrev main_c_20 : Ref sig .tc := ⟨.hbm, 174, rfl⟩
abbrev main_v56 : Ref sig .tc := ⟨.hbm, 175, rfl⟩
abbrev main_v57 : Ref sig .tc := ⟨.hbm, 176, rfl⟩
abbrev main_c_21 : Ref sig .tc := ⟨.hbm, 177, rfl⟩
abbrev main_v58 : Ref sig .tc := ⟨.hbm, 178, rfl⟩
abbrev main_v59 : Ref sig .tc := ⟨.hbm, 179, rfl⟩
abbrev main_v60 : Ref sig .tc := ⟨.hbm, 180, rfl⟩
abbrev main_v61 : Ref sig .tc := ⟨.hbm, 181, rfl⟩
abbrev main_v62 : Ref sig .tc := ⟨.hbm, 182, rfl⟩
abbrev main_v63 : Ref sig .tc := ⟨.hbm, 183, rfl⟩
abbrev main_v64 : Ref sig .tc := ⟨.hbm, 184, rfl⟩
abbrev main_v65 : Ref sig .tc := ⟨.hbm, 185, rfl⟩
abbrev main_c_22 : Ref sig .tc := ⟨.hbm, 186, rfl⟩
abbrev main_v66 : Ref sig .tc := ⟨.hbm, 187, rfl⟩
abbrev main_v67 : Ref sig .tc := ⟨.hbm, 188, rfl⟩
abbrev main_c_23 : Ref sig .tc := ⟨.hbm, 189, rfl⟩
abbrev main_v68 : Ref sig .tc := ⟨.hbm, 190, rfl⟩
abbrev main_v69 : Ref sig .tc := ⟨.hbm, 191, rfl⟩
abbrev main_v70 : Ref sig .tc := ⟨.hbm, 192, rfl⟩
abbrev main_v71 : Ref sig .tc := ⟨.hbm, 193, rfl⟩
abbrev main_v72 : Ref sig .tc := ⟨.hbm, 194, rfl⟩
abbrev main_v73 : Ref sig .tc := ⟨.hbm, 195, rfl⟩
abbrev main_v74 : Ref sig .tc := ⟨.hbm, 196, rfl⟩
abbrev main_v75 : Ref sig .tc := ⟨.hbm, 197, rfl⟩
abbrev main_cst_24 : Ref sig .tc := ⟨.hbm, 198, rfl⟩
abbrev main_v76 : Ref sig .tc := ⟨.hbm, 199, rfl⟩
abbrev main_c_25 : Ref sig .tc := ⟨.hbm, 200, rfl⟩
abbrev main_v77 : Ref sig .tc := ⟨.hbm, 201, rfl⟩
abbrev main_v78 : Ref sig .tc := ⟨.hbm, 202, rfl⟩
abbrev main_c_26 : Ref sig .tc := ⟨.hbm, 203, rfl⟩
abbrev main_v79 : Ref sig .tc := ⟨.hbm, 204, rfl⟩
abbrev main_v80 : Ref sig .tc := ⟨.hbm, 205, rfl⟩
abbrev main_v81 : Ref sig .tc := ⟨.hbm, 206, rfl⟩
abbrev main_v82 : Ref sig .tc := ⟨.hbm, 207, rfl⟩
abbrev main_v83 : Ref sig .tc := ⟨.hbm, 208, rfl⟩
abbrev main_v84 : Ref sig .tc := ⟨.hbm, 209, rfl⟩
abbrev main_v85 : Ref sig .tc := ⟨.hbm, 210, rfl⟩
abbrev main_v86 : Ref sig .tc := ⟨.hbm, 211, rfl⟩
abbrev main_call11_cst : Ref sig .tc := ⟨.hbm, 212, rfl⟩
abbrev main_call11_v0 : Ref sig .tc := ⟨.hbm, 213, rfl⟩
abbrev main_v87 : Ref sig .tc := ⟨.hbm, 214, rfl⟩
abbrev main_v88 : Ref sig .tc := ⟨.hbm, 215, rfl⟩
abbrev main_c_27 : Ref sig .tc := ⟨.hbm, 216, rfl⟩
abbrev main_v89 : Ref sig .tc := ⟨.hbm, 217, rfl⟩
abbrev main_v90 : Ref sig .tc := ⟨.hbm, 218, rfl⟩
abbrev main_c_28 : Ref sig .tc := ⟨.hbm, 219, rfl⟩
abbrev main_v91 : Ref sig .tc := ⟨.hbm, 220, rfl⟩
abbrev main_v92 : Ref sig .tc := ⟨.hbm, 221, rfl⟩
abbrev main_v93 : Ref sig .tc := ⟨.hbm, 222, rfl⟩
abbrev main_v94 : Ref sig .tc := ⟨.hbm, 223, rfl⟩
abbrev main_v95 : Ref sig .tc := ⟨.hbm, 224, rfl⟩
abbrev main_v96 : Ref sig .tc := ⟨.hbm, 225, rfl⟩
abbrev main_v97 : Ref sig .tc := ⟨.hbm, 226, rfl⟩
abbrev main_v98 : Ref sig .tc := ⟨.hbm, 227, rfl⟩
abbrev main_cst_29 : Ref sig .tc := ⟨.hbm, 228, rfl⟩
abbrev main_v99 : Ref sig .tc := ⟨.hbm, 229, rfl⟩
abbrev main_c_30 : Ref sig .tc := ⟨.hbm, 230, rfl⟩
abbrev main_v100 : Ref sig .tc := ⟨.hbm, 231, rfl⟩
abbrev main_v101 : Ref sig .tc := ⟨.hbm, 232, rfl⟩
abbrev main_c_31 : Ref sig .tc := ⟨.hbm, 233, rfl⟩
abbrev main_v102 : Ref sig .tc := ⟨.hbm, 234, rfl⟩
abbrev main_v103 : Ref sig .tc := ⟨.hbm, 235, rfl⟩
abbrev main_v104 : Ref sig .tc := ⟨.hbm, 236, rfl⟩
abbrev main_v105 : Ref sig .tc := ⟨.hbm, 237, rfl⟩
abbrev main_v106 : Ref sig .tc := ⟨.hbm, 238, rfl⟩
abbrev main_v107 : Ref sig .tc := ⟨.hbm, 239, rfl⟩
abbrev main_v108 : Ref sig .tc := ⟨.hbm, 240, rfl⟩
abbrev main_v109 : Ref sig .tc := ⟨.hbm, 241, rfl⟩
abbrev main_v110 : Ref sig .tc := ⟨.hbm, 242, rfl⟩
abbrev main_v111 : Ref sig .tc := ⟨.hbm, 243, rfl⟩
abbrev main_v112 : Ref sig .tc := ⟨.hbm, 244, rfl⟩
abbrev main_v113 : Ref sig .tc := ⟨.hbm, 245, rfl⟩
abbrev main_v114 : Ref sig .tc := ⟨.hbm, 246, rfl⟩
abbrev main_v115 : Ref sig .tc := ⟨.hbm, 247, rfl⟩
abbrev main_cst_32 : Ref sig .tc := ⟨.hbm, 248, rfl⟩
abbrev main_v116 : Ref sig .tc := ⟨.hbm, 249, rfl⟩
abbrev main_v117 : Ref sig .tc := ⟨.hbm, 250, rfl⟩
abbrev main_cst_33 : Ref sig .tc := ⟨.hbm, 251, rfl⟩
abbrev main_v118 : Ref sig .tc := ⟨.hbm, 252, rfl⟩
abbrev main_v119 : Ref sig .tc := ⟨.hbm, 253, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  shapeCasts_S2048x2048_S4194304 : S2048x2048.ShapeCasts S4194304
  natLt_1_32 : 1 < 32
  bcast_S_S_ : S_.BroadcastsInDim S_ (![] : Fin 0 → Fin S_.rank)
  reduceWindows_S4194304_S4194304_w4194304s1p4194303_0 : S4194304.ReduceWindows (![4194304] : Fin 1 → Nat) ![1] ![4194303] ![0] S4194304
  h_S_ : 0 < S_.numel
  bcast_S_S4194304 : S_.BroadcastsInDim S4194304 (![] : Fin 0 → Fin S4194304.rank)
  bcast_S4194304_S4194304x1_0 : S4194304.BroadcastsInDim S4194304x1 (![0] : Fin 1 → Fin S4194304x1.rank)
  reducesTo_S2048x2048_S_d0_1 : S2048x2048.ReducesTo [0, 1] S_
  concatenates_S4194304_S2048_S4196352_d0 : Shape.Concatenates [S4194304, S2048] S4196352 0
  bcast_S_S2048 : S_.BroadcastsInDim S2048 (![] : Fin 0 → Fin S2048.rank)
  bcast_S_S4196352 : S_.BroadcastsInDim S4196352 (![] : Fin 0 → Fin S4196352.rank)
  bcast_S4196352_S4196352x1_0 : S4196352.BroadcastsInDim S4196352x1 (![0] : Fin 1 → Fin S4196352x1.rank)
  bcast_S4196352x1_S4196352x32_0_1 : S4196352x1.BroadcastsInDim S4196352x32 (![0, 1] : Fin 2 → Fin S4196352x32.rank)
  bcast_S_S2048x32 : S_.BroadcastsInDim S2048x32 (![] : Fin 0 → Fin S2048x32.rank)
  bcast_S32_S1x32_1 : S32.BroadcastsInDim S1x32 (![1] : Fin 1 → Fin S1x32.rank)
  bcast_S1x32_S2048x32_0_1 : S1x32.BroadcastsInDim S2048x32 (![0, 1] : Fin 2 → Fin S2048x32.rank)
  bcast_S4196352x1_S4196352x16_0_1 : S4196352x1.BroadcastsInDim S4196352x16 (![0, 1] : Fin 2 → Fin S4196352x16.rank)
  bcast_S_S2048x16 : S_.BroadcastsInDim S2048x16 (![] : Fin 0 → Fin S2048x16.rank)
  bcast_S16_S1x16_1 : S16.BroadcastsInDim S1x16 (![1] : Fin 1 → Fin S1x16.rank)
  bcast_S1x16_S2048x16_0_1 : S1x16.BroadcastsInDim S2048x16 (![0, 1] : Fin 2 → Fin S2048x16.rank)
  bcast_S1_S1x1_1 : S1.BroadcastsInDim S1x1 (![1] : Fin 1 → Fin S1x1.rank)
  bcast_S1x1_S2048x16_0_1 : S1x1.BroadcastsInDim S2048x16 (![0, 1] : Fin 2 → Fin S2048x16.rank)
  scatter_S4194304_S4194304x1_S4194304_n_0_0_1_wf : ScatterDims.WF S4194304 S4194304x1 S4194304 [] [0] [0] 1
  scatter_S2048_S4196352x1_S4196352_n_0_0_1_wf : ScatterDims.WF S2048 S4196352x1 S4196352 [] [0] [0] 1
  gather_S2048_S4196352x1_S4196352_n_0_n_n_0_1_1_wf : GatherDims.WF S2048 S4196352x1 S4196352 [] [0] [] [0] [] 1 ![1]
  dot_S2048x16_S16x32_S2048x32_1_0_0_1_n_n_wf : DotDims.WF S2048x16 S16x32 S2048x32 [1] [0] [0] [1] [] []
  gather_S2048x32_S4196352x1_S4196352x32_1_0_n_n_0_1_132_wf : GatherDims.WF S2048x32 S4196352x1 S4196352x32 [1] [0] [] [0] [] 1 ![1, 32]
  scatter_S2048x32_S4196352x1_S4196352x32_1_0_0_1_wf : ScatterDims.WF S2048x32 S4196352x1 S4196352x32 [1] [0] [0] 1
  dot_S2048x32_S32x16_S2048x16_1_0_0_1_n_n_wf : DotDims.WF S2048x32 S32x16 S2048x16 [1] [0] [0] [1] [] []
  gather_S2048x16_S4196352x1_S4196352x16_1_0_n_n_0_1_116_wf : GatherDims.WF S2048x16 S4196352x1 S4196352x16 [1] [0] [] [0] [] 1 ![1, 16]
  scatter_S2048x16_S4196352x1_S4196352x16_1_0_0_1_wf : ScatterDims.WF S2048x16 S4196352x1 S4196352x16 [1] [0] [0] 1

variable [Facts₀]

def scatter_S4194304_S4194304x1_S4194304_n_0_0_1 : ScatterDims S4194304 S4194304x1 S4194304 where
  updateWindowDims := []
  insertedWindowDims := [0]
  scatterDimsToOperandDims := [0]
  indexVectorDim := 1
  wf := scatter_S4194304_S4194304x1_S4194304_n_0_0_1_wf
def scatter_S2048_S4196352x1_S4196352_n_0_0_1 : ScatterDims S2048 S4196352x1 S4196352 where
  updateWindowDims := []
  insertedWindowDims := [0]
  scatterDimsToOperandDims := [0]
  indexVectorDim := 1
  wf := scatter_S2048_S4196352x1_S4196352_n_0_0_1_wf
def gather_S2048_S4196352x1_S4196352_n_0_n_n_0_1_1 : GatherDims S2048 S4196352x1 S4196352 where
  offsetDims := []
  collapsedSliceDims := [0]
  operandBatchingDims := []
  startIndicesBatchingDims := []
  startIndexMap := [0]
  indexVectorDim := 1
  sliceSizes := ![1]
  wf := gather_S2048_S4196352x1_S4196352_n_0_n_n_0_1_1_wf
def dot_S2048x16_S16x32_S2048x32_1_0_0_1_n_n : DotDims S2048x16 S16x32 S2048x32 where
  lhsContracting := [1]
  rhsContracting := [0]
  lhsNonContracting := [0]
  rhsNonContracting := [1]
  lhsBatch := []
  rhsBatch := []
  wf := dot_S2048x16_S16x32_S2048x32_1_0_0_1_n_n_wf
def gather_S2048x32_S4196352x1_S4196352x32_1_0_n_n_0_1_132 : GatherDims S2048x32 S4196352x1 S4196352x32 where
  offsetDims := [1]
  collapsedSliceDims := [0]
  operandBatchingDims := []
  startIndicesBatchingDims := []
  startIndexMap := [0]
  indexVectorDim := 1
  sliceSizes := ![1, 32]
  wf := gather_S2048x32_S4196352x1_S4196352x32_1_0_n_n_0_1_132_wf
def scatter_S2048x32_S4196352x1_S4196352x32_1_0_0_1 : ScatterDims S2048x32 S4196352x1 S4196352x32 where
  updateWindowDims := [1]
  insertedWindowDims := [0]
  scatterDimsToOperandDims := [0]
  indexVectorDim := 1
  wf := scatter_S2048x32_S4196352x1_S4196352x32_1_0_0_1_wf
def dot_S2048x32_S32x16_S2048x16_1_0_0_1_n_n : DotDims S2048x32 S32x16 S2048x16 where
  lhsContracting := [1]
  rhsContracting := [0]
  lhsNonContracting := [0]
  rhsNonContracting := [1]
  lhsBatch := []
  rhsBatch := []
  wf := dot_S2048x32_S32x16_S2048x16_1_0_0_1_n_n_wf
def gather_S2048x16_S4196352x1_S4196352x16_1_0_n_n_0_1_116 : GatherDims S2048x16 S4196352x1 S4196352x16 where
  offsetDims := [1]
  collapsedSliceDims := [0]
  operandBatchingDims := []
  startIndicesBatchingDims := []
  startIndexMap := [0]
  indexVectorDim := 1
  sliceSizes := ![1, 16]
  wf := gather_S2048x16_S4196352x1_S4196352x16_1_0_n_n_0_1_116_wf
def scatter_S2048x16_S4196352x1_S4196352x16_1_0_0_1 : ScatterDims S2048x16 S4196352x1 S4196352x16 where
  updateWindowDims := [1]
  insertedWindowDims := [0]
  scatterDimsToOperandDims := [0]
  indexVectorDim := 1
  wf := scatter_S2048x16_S4196352x1_S4196352x16_1_0_0_1_wf

class Facts : Prop extends Facts₀ where

variable [Facts]
-- ==== Proof.GcnSpec.lean ====
/-
  The two-layer graph convolution network as ONE function of its argument arrays, entry by entry, on the
  extended reals.

  For an adjacency matrix `A` (entry `(i, j)` is the weight of the edge from node `i` to node `j`), node
  features `x`, weights `W1`, `W2`, biases `b1`, `b2` and a scalar `sp`:

    deg j   = (∑ i, A (i, j)) + 1                      the in-degree of `j` with its self loop
    dis j   = 1 / √(deg j)
    conv h  = dis p · ((∑ i, A (i, p) · (dis i · h i)) + dis p · h p)       one propagation step at node `p`
    g1      = max (conv (x · W1) + b1) 0
    g2      = conv (g1 · W2) + b2 + x
    out     = logistic (sp · g2)

  The literal `1` is kept as the word of `1.0`, `0` as the word of `0.0`.
-/
import Idealize.ShloMosaic.PureOps.Ideal
import Idealize.ShloMosaic.Lib.ValueIdx

noncomputable section

namespace Cert.Gcn

open Idealize.ShloMosaic Idealize.ShloMosaic.ValueIdx

abbrev SA : Shape := ⟨2, ![2048, 2048]⟩
abbrev SX : Shape := ⟨2, ![2048, 16]⟩
abbrev SW1 : Shape := ⟨2, ![16, 32]⟩
abbrev SB1 : Shape := ⟨1, ![32]⟩
abbrev SW2 : Shape := ⟨2, ![32, 16]⟩
abbrev SB2 : Shape := ⟨1, ![16]⟩
abbrev SP : Shape := ⟨1, ![1]⟩

/-- The word of `1.0` and the word of `0.0`, read as extended reals. -/
abbrev one32 : EReal := Ideal.ofBits .f32 0x3F800000#32
abbrev zero32 : EReal := Ideal.ofBits .f32 0x00000000#32

/-- The in-degree of node `j` counted with its self loop. -/
def deg (A : FVec Ideal SA .f32) (j : Fin 2048) : EReal := (∑ i : Fin 2048, A (ix2 i j)) + one32

/-- The symmetric normalisation factor of node `j`. -/
def dis (A : FVec Ideal SA .f32) (j : Fin 2048) : EReal := Ideal.rsqrt (deg A j)

/-- One propagation step of a feature table `h` (any number of columns) at node `p`, column `q`. -/
def conv {C : ℕ} (A : FVec Ideal SA .f32) (h : Fin 2048 → Fin C → EReal) (p : Fin 2048) (q : Fin C) : EReal :=
  dis A p * ((∑ i : Fin 2048, A (ix2 i p) * (dis A i * h i q)) + dis A p * h p q)

/-- The first layer's linear map. -/
def lin1 (x : FVec Ideal SX .f32) (W1 : FVec Ideal SW1 .f32) (p : Fin 2048) (q : Fin 32) : EReal :=
  ∑ k : Fin 16, x (ix2 p k) * W1 (ix2 k q)

/-- The first layer: propagate, add the bias, clamp below at zero. -/
def g1 (A : FVec Ideal SA .f32) (x : FVec Ideal SX .f32) (W1 : FVec Ideal SW1 .f32) (b1 : FVec Ideal SB1 .f32)
    (p : Fin 2048) (q : Fin 32) : EReal :=
  max (conv A (lin1 x W1) p q + b1 (ix1 q)) zero32

/-- The second layer's linear map. -/
def lin2 (A : FVec Ideal SA .f32) (x : FVec Ideal SX .f32) (W1 : FVec Ideal SW1 .f32) (b1 : FVec Ideal SB1 .f32)
    (W2 : FVec Ideal SW2 .f32) (p : Fin 2048) (c : Fin 16) : EReal :=
  ∑ q : Fin 32, g1 A x W1 b1 p q * W2 (ix2 q c)

/-- The second layer with its bias and the skip connection. -/
def g2 (A : FVec Ideal SA .f32) (x : FVec Ideal SX .f32) (W1 : FVec Ideal SW1 .f32) (b1 : FVec Ideal SB1 .f32)
    (W2 : FVec Ideal SW2 .f32) (b2 : FVec Ideal SB2 .f32) (p : Fin 2048) (c : Fin 16) : EReal :=
  conv A (lin2 A x W1 b1 W2) p c + b2 (ix1 c) + x (ix2 p c)

/-- The network's output array. -/
def out (A : FVec Ideal SA .f32) (x : FVec Ideal SX .f32) (W1 : FVec Ideal SW1 .f32) (b1 : FVec Ideal SB1 .f32)
    (W2 : FVec Ideal SW2 .f32) (b2 : FVec Ideal SB2 .f32) (sp : FVec Ideal SP .f32) : FVec Ideal SX .f32 :=
  fun j => Ideal.logistic (sp (ix1 0) * g2 A x W1 b1 W2 b2 (j 0) (j 1))

end Cert.Gcn

end
-- ==== Proof.KernelOps.lean ====
/-
  The layout and contraction operations of a dense two-layer graph convolution, each read at ONE index of its
  result, on the extended reals: a column sum, a vector seen as a one-row matrix, a row turned into a column, a
  column or a row repeated across a matrix, the two matrix products (rows by columns; columns by columns, the
  product with the transposed left factor), and the entry of a one-by-one matrix.
-/
import Idealize.ShloMosaic.PureOps.Ideal.Laws
import Idealize.ShloMosaic.Lib.ValueIdx
import Idealize.ShloMosaic.Lib.Pipeline.Value

noncomputable section

open scoped BigOperators

namespace Cert.Gcn.Kern

open Idealize.ShloMosaic Idealize.ShloMosaic.ValueIdx

/-- The sum over the rows of an n-by-m matrix, at column j. -/
theorem colsum_apply {n m : Nat} (A : FVec Ideal ⟨2, ![n, m]⟩ .f32) (acc : BitVec FTy.f32.bits)
    (h : Shape.Reduces ⟨2, ![n, m]⟩ [0] ⟨1, ![m]⟩) (hφ : FKind.Formats .f32)
    (hacc : acc = FKind.add.neutral .f32 hφ) (j : Fin m) :
    multiReduction (F := Ideal) .add [0] ⟨1, ![m]⟩ A acc h hφ hacc (ix1 j) = ∑ i : Fin n, A (ix2 i j) := by
  refine (Ideal.multiReduction_add_single A _ h hφ hacc (ix1 j)).trans ?_
  refine Finset.sum_congr rfl fun i _ => congrArg A (funext fun a => Fin.ext ?_)
  match a with
  | ⟨0, _⟩ => rfl
  | ⟨1, _⟩ => rfl

/-- A vector of length m seen as a 1-by-m matrix: entry (0, j) is entry j. -/
theorem rowOfVec_apply {α : Type} {m : Nat} (v : (⟨1, ![m]⟩ : Shape).Idx → α)
    (h : Shape.ShapeCasts ⟨1, ![m]⟩ ⟨2, ![1, m]⟩) (z : Fin 1) (j : Fin m) :
    shapeCast ⟨2, ![1, m]⟩ v h (ix2 z j) = v (ix1 j) := by
  refine shapeCast_apply v h (ix2 z j) (ix1 j) ?_
  rw [Shape.rowMajor_val_two, Shape.rowMajor_val_one]
  show j.val = z.val * m + j.val
  have := z.isLt
  have hz : z.val = 0 := by omega
  rw [hz]; omega

/-- A 1-by-m row turned into an m-by-1 column: entry (p, 0) is entry (0, p). -/
theorem colOfRow_apply {α : Type} {m : Nat} (x : (⟨2, ![1, m]⟩ : Shape).Idx → α)
    (h : Shape.Transposes ⟨2, ![1, m]⟩ [1, 0] ⟨2, ![m, 1]⟩) (p : Fin m) (z : Fin 1) :
    transpose ⟨2, ![m, 1]⟩ [1, 0] x h (ix2 p z) = x (ix2 z p) := by
  refine transpose_apply [1, 0] x h (ix2 p z) (ix2 z p) fun b => ?_
  match b with
  | ⟨0, _⟩ => rfl
  | ⟨1, _⟩ => rfl

/-- An m-by-1 column repeated across k columns: entry (p, q) is entry (p, 0). -/
theorem colBroadcast_apply {α : Type} {m k : Nat} (x : (⟨2, ![m, 1]⟩ : Shape).Idx → α)
    (h : Shape.Broadcasts ⟨2, ![m, 1]⟩ ⟨2, ![m, k]⟩) (p : Fin m) (q : Fin k) (z : Fin 1) :
    broadcastTo ⟨2, ![m, k]⟩ x h (ix2 p q) = x (ix2 p z) := by
  refine broadcastTo_apply x h (ix2 p q) (ix2 p z) fun a => ?_
  match a with
  | ⟨0, _⟩ =>
    show p.val = if m = 1 then 0 else p.val
    have := p.isLt
    split_ifs <;> omega
  | ⟨1, _⟩ =>
    show z.val = if (1 : Nat) = 1 then 0 else q.val
    have := z.isLt
    rw [if_pos rfl]; omega

/-- A 1-by-k row repeated down m rows: entry (p, q) is entry (0, q). -/
theorem rowBroadcast_apply {α : Type} {m k : Nat} (x : (⟨2, ![1, k]⟩ : Shape).Idx → α)
    (h : Shape.Broadcasts ⟨2, ![1, k]⟩ ⟨2, ![m, k]⟩) (p : Fin m) (q : Fin k) (z : Fin 1) :
    broadcastTo ⟨2, ![m, k]⟩ x h (ix2 p q) = x (ix2 z q) := by
  refine broadcastTo_apply x h (ix2 p q) (ix2 z q) fun a => ?_
  match a with
  | ⟨0, _⟩ =>
    show z.val = if (1 : Nat) = 1 then 0 else p.val
    have := z.isLt
    rw [if_pos rfl]; omega
  | ⟨1, _⟩ =>
    show q.val = if k = 1 then 0 else q.val
    have := q.isLt
    split_ifs <;> omega

/-- The one entry of a 1-by-1 matrix. -/
theorem extract00_apply {α : Type} (x : (⟨2, ![1, 1]⟩ : Shape).Idx → α)
    (h : ∀ a, (![0, 0] : Fin 2 → Nat) a < (⟨2, ![1, 1]⟩ : Shape).size a) :
    extractAt ![0, 0] x h = x (ix2 (0 : Fin 1) (0 : Fin 1)) := by
  unfold extractAt
  refine congrArg x (funext fun a => Fin.ext ?_)
  match a with
  | ⟨0, _⟩ => rfl
  | ⟨1, _⟩ => rfl

/-- Rows by columns: the product of an m-by-k and a k-by-n matrix accumulated into zero, at (a, b). -/
theorem matmul_rows_cols_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims _ _ _) prec A B (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- Columns by columns: the product of the TRANSPOSE of a k-by-m matrix with a k-by-n matrix (both factors contracted
    along their rows) accumulated into zero, at (a, b). -/
theorem matmul_cols_cols_apply {m k n : Nat} {φ₁ φ₂ : FTy}
    (w : DotDims.WF ⟨2, ![k, m]⟩ ⟨2, ![k, n]⟩ ⟨2, ![m, n]⟩ [0] [0] [1] [1] [] [])
    (prec : Option ContractPrecision) (A : FVec Ideal ⟨2, ![k, m]⟩ φ₁) (B : FVec Ideal ⟨2, ![k, n]⟩ φ₂)
    (a : Fin m) (b : Fin n) :
    matmul (⟨[0], [0], [1], [1], [], [], w⟩ : DotDims _ _ _) prec A B (constant (F := Ideal) ⟨2, ![m, n]⟩ .f32 0x00000000#32) (ix2 a b)
      = ∑ c : Fin k, A (ix2 c a) * B (ix2 c b) := by
  show FloatOps.matmul _ prec A B _ (ix2 a b) = _
  rw [Ideal.matmul_constant_zero_apply,
    ← Equiv.sum_comp (contrEquiv1 (⟨[0], [0], [1], [1], [], [], w⟩ : DotDims ⟨2, ![k, m]⟩ ⟨2, ![k, n]⟩ ⟨2, ![m, n]⟩) k rfl rfl).symm]
  refine Finset.sum_congr rfl fun c _ => ?_
  have c2 := contrEquiv1_symm_val
    (⟨[0], [0], [1], [1], [], [], w⟩ : DotDims ⟨2, ![k, m]⟩ ⟨2, ![k, n]⟩ ⟨2, ![m, n]⟩) k rfl rfl c
  have l2 : (⟨[0], [0], [1], [1], [], [], w⟩ : DotDims ⟨2, ![k, m]⟩ ⟨2, ![k, n]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![k, m]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.Gcn.Kern

end
-- ==== Proof.KernelPayload.lean ====
/-
  The dense graph-convolution kernel's stored value, read at one entry (p, c): it is the network function
  `Cert.Gcn.out` of the loaded arrays, once the two bias rows and the scalar are known to be the reshaped
  bias vectors and parameter.
-/
import proofs.«173982_g33990371181433_cont_sun_m_937_10_alg».proof.Proof.Gen.KernelIdeal.Skeleton
import proofs.«173982_g33990371181433_cont_sun_m_937_10_alg».proof.Proof.GcnSpec
import proofs.«173982_g33990371181433_cont_sun_m_937_10_alg».proof.Proof.KernelOps

noncomputable section

open scoped BigOperators

namespace Cert.KernelIdeal.Dense

open Cert.KernelIdeal Cert.KernelIdeal.Gen Idealize.ShloMosaic Idealize.ShloMosaic.ValueIdx Cert.Gcn.Kern

/-! ## The operations at this network's sizes -/

theorem colsum (A : FVec Ideal S2048x2048 .f32) (h : Shape.Reduces S2048x2048 [0] S2048) (hφ : FKind.Formats .f32)
    (hacc : (0x00000000#32 : BitVec FTy.f32.bits) = FKind.add.neutral .f32 hφ) (j : Fin 2048) :
    multiReduction (F := Ideal) .add [0] S2048 A 0x00000000#32 h hφ hacc (ix1 j) = ∑ i : Fin 2048, A (ix2 i j) :=
  colsum_apply A _ h hφ hacc j

theorem row2048 (v : FVec Ideal S2048 .f32) (h : S2048.ShapeCasts S1x2048) (j : Fin 2048) :
    shapeCast S1x2048 v h (ix2 (0 : Fin 1) j) = v (ix1 j) :=
  rowOfVec_apply v h 0 j

theorem col_across32 (x : FVec Ideal S2048x1 .f32) (h : S2048x1.Broadcasts S2048x32) (p : Fin 2048) (q : Fin 32) :
    broadcastTo S2048x32 x h (ix2 p q) = x (ix2 p (0 : Fin 1)) :=
  colBroadcast_apply x h p q 0

theorem col_across16 (x : FVec Ideal S2048x1 .f32) (h : S2048x1.Broadcasts S2048x16) (p : Fin 2048) (q : Fin 16) :
    broadcastTo S2048x16 x h (ix2 p q) = x (ix2 p (0 : Fin 1)) :=
  colBroadcast_apply x h p q 0

theorem row_down32 (x : FVec Ideal S1x32 .f32) (h : S1x32.Broadcasts S2048x32) (p : Fin 2048) (q : Fin 32) :
    broadcastTo S2048x32 x h (ix2 p q) = x (ix2 (0 : Fin 1) q) :=
  rowBroadcast_apply x h p q 0

theorem row_down16 (x : FVec Ideal S1x16 .f32) (h : S1x16.Broadcasts S2048x16) (p : Fin 2048) (q : Fin 16) :
    broadcastTo S2048x16 x h (ix2 p q) = x (ix2 (0 : Fin 1) q) :=
  rowBroadcast_apply x h p q 0

theorem entry00 (x : FVec Ideal S1x1 .f32) (h : ∀ a, (![0, 0] : Fin 2 → Nat) a < S1x1.size a) :
    extractAt ![0, 0] x h = x (ix2 (0 : Fin 1) (0 : Fin 1)) :=
  extract00_apply x h

theorem mm_x_w1 (A : FVec Ideal S2048x16 .f32) (B : FVec Ideal S16x32 .f32) (a : Fin 2048) (b : Fin 32) :
    matmul dot_S2048x16_S16x32_S2048x32_1_0_0_1_n_n none A B (constant (F := Ideal) S2048x32 .f32 0x00000000#32) (ix2 a b)
      = ∑ k : Fin 16, A (ix2 a k) * B (ix2 k b) :=
  matmul_rows_cols_apply _ none A B a b

theorem mm_g_w2 (A : FVec Ideal S2048x32 .f32) (B : FVec Ideal S32x16 .f32) (a : Fin 2048) (b : Fin 16) :
    matmul dot_S2048x32_S32x16_S2048x16_1_0_0_1_n_n none A B (constant (F := Ideal) S2048x16 .f32 0x00000000#32) (ix2 a b)
      = ∑ k : Fin 32, A (ix2 a k) * B (ix2 k b) :=
  matmul_rows_cols_apply _ none A B a b

theorem mm_At_32 (A : FVec Ideal S2048x2048 .f32) (B : FVec Ideal S2048x32 .f32) (a : Fin 2048) (b : Fin 32) :
    matmul dot_S2048x2048_S2048x32_S2048x32_0_0_1_1_n_n none A B (constant (F := Ideal) S2048x32 .f32 0x00000000#32) (ix2 a b)
      = ∑ i : Fin 2048, A (ix2 i a) * B (ix2 i b) :=
  matmul_cols_cols_apply _ none A B a b

theorem mm_At_16 (A : FVec Ideal S2048x2048 .f32) (B : FVec Ideal S2048x16 .f32) (a : Fin 2048) (b : Fin 16) :
    matmul dot_S2048x2048_S2048x16_S2048x16_0_0_1_1_n_n none A B (constant (F := Ideal) S2048x16 .f32 0x00000000#32) (ix2 a b)
      = ∑ i : Fin 2048, A (ix2 i a) * B (ix2 i b) :=
  matmul_cols_cols_apply _ none A B a b

/-- The index a 2048-by-1 column's entry (p, 0) is read from in the 1-by-2048 row it transposes. -/
theorem src_col (h : S1x2048.Transposes [1, 0] S2048x1) (p : Fin 2048) :
    h.src (ix2 p (0 : Fin 1)) = ix2 (0 : Fin 1) p :=
  colOfRow_apply (α := S1x2048.Idx) id h p 0

/-! ## The stored value at an entry -/

theorem payload_apply (v0 : FVec Ideal S2048x2048 .f32) (v7 : FVec Ideal S2048x16 .f32) (v8 : FVec Ideal S16x32 .f32)
    (v16 : FVec Ideal S1x32 .f32) (v22 : FVec Ideal S32x16 .f32) (v30 : FVec Ideal S1x16 .f32) (v35 : FVec Ideal S1x1 .f32)
    (b1 : FVec Ideal Cert.Gcn.SB1 .f32) (b2 : FVec Ideal Cert.Gcn.SB2 .f32) (sp : FVec Ideal Cert.Gcn.SP .f32)
    (hb1 : ∀ q : Fin 32, v16 (ix2 (0 : Fin 1) q) = b1 (ix1 q))
    (hb2 : ∀ q : Fin 16, v30 (ix2 (0 : Fin 1) q) = b2 (ix1 q))
    (hsp : v35 (ix2 (0 : Fin 1) (0 : Fin 1)) = sp (ix1 (0 : Fin 1)))
    (p : Fin 2048) (c : Fin 16) :
    k0_pay1 (k0_pay2 v0 v7 v8 v16 v22 v30 v35) (ix2 p c) = Cert.Gcn.out v0 v7 v8 b1 v22 b2 sp (ix2 p c) := by
  show k0_pay1 (F := Ideal) (k0_pay2 v0 v7 v8 v16 v22 v30 v35) (ix2 p c)
    = Ideal.logistic (sp (ix1 (0 : Fin 1)) * Cert.Gcn.g2 v0 v7 v8 b1 v22 b2 p c)
  unfold k0_pay1 k0_pay2
  simp only [logistic, rsqrt, mulf_apply, addf_apply, maximumf_apply, broadcast_apply, shapeCast_self, entry00, col_across16, col_across32, row_down16, row_down32, transpose, src_col, row2048, mm_x_w1, mm_At_32, mm_g_w2, mm_At_16, hb1, hb2, hsp]
  have hR : ∀ j : Fin 2048, multiReduction (F := Ideal) .add [0] S2048 v0 0x00000000#32 reduces_S2048x2048_S2048 (.inl rfl) rfl (ix1 j)
      = ∑ i : Fin 2048, v0 (ix2 i j) := fun j => colsum v0 _ _ _ j
  generalize multiReduction (F := Ideal) .add [0] S2048 v0 0x00000000#32 reduces_S2048x2048_S2048 (.inl rfl) rfl = R at hR ⊢
  simp only [hR]
  simp only [Cert.Gcn.g2, Cert.Gcn.conv, Cert.Gcn.lin2, Cert.Gcn.g1, Cert.Gcn.lin1, Cert.Gcn.dis, Cert.Gcn.deg]
  rfl

end Cert.KernelIdeal.Dense

end
-- ==== Proof.KernelValue.lean ====
/-
  The dense graph-convolution kernel's run: its one grid point writes back the whole result array, which is the
  network function `Cert.Gcn.out` of the seven argument arrays. Every window's block is its whole array; three of
  the windows stage arrays the host filled just before the region by reshaping a bias vector or the scalar parameter.
-/
import proofs.«173982_g33990371181433_cont_sun_m_937_10_alg».proof.Defs
import proofs.«173982_g33990371181433_cont_sun_m_937_10_alg».proof.Proof.Gen.KernelIdeal.Frame
import proofs.«173982_g33990371181433_cont_sun_m_937_10_alg».proof.Proof.Gen.KernelIdeal.Value
import proofs.«173982_g33990371181433_cont_sun_m_937_10_alg».proof.Proof.KernelPayload
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Dense

open Cert.KernelIdeal Cert.KernelIdeal.Gen Cert.Gcn.Kern

variable (m : (ℓ : Loc nD τ sig) → Buf (Elt Ideal) ℓ) (ρ : Dev nD → PrngReg)

theorem zero_offsets : (![0, 0] : Fin 2 → Nat) = fun _ => 0 := funext fun a => by fin_cases a <;> rfl

/-! ## What the body leaves in the result's buffer, from whole blocks -/

/-- The one store's payload of the loaded blocks: each load and the store go through the whole-buffer rectangle. -/
theorem out_eq_payload (x0 : Vec Ideal S2048x2048 .f32) (x1 : Vec Ideal S2048x16 .f32) (x2 : Vec Ideal S16x32 .f32)
    (x3 : Vec Ideal S1x32 .f32) (x4 : Vec Ideal S32x16 .f32) (x5 : Vec Ideal S1x16 .f32) (x6 : Vec Ideal S1x1 .f32) :
    out0_7 x0 x1 x2 x3 x4 x5 x6 = k0_pay1 (k0_pay2 x0 x1 x2 x3 x4 x5 x6) := by
  unfold out0_7
  rw [View.canon_unit_zero zero_offsets]
  simp only [View.ld_unit_zero (S := S2048x2048) zero_offsets, View.ld_unit_zero (S := S2048x16) zero_offsets,
    View.ld_unit_zero (S := S16x32) zero_offsets, View.ld_unit_zero (S := S1x32) zero_offsets,
    View.ld_unit_zero (S := S32x16) zero_offsets, View.ld_unit_zero (S := S1x16) zero_offsets,
    View.ld_unit_zero (S := S1x1) zero_offsets]

/-- With the two bias rows and the scalar the reshaped bias vectors and parameter, that is the network function. -/
theorem out_eq_network (A : Vec Ideal S2048x2048 .f32) (x : Vec Ideal S2048x16 .f32) (W1 : Vec Ideal S16x32 .f32)
    (b1 : FVec Ideal S32 .f32) (W2 : Vec Ideal S32x16 .f32) (b2 : FVec Ideal S16 .f32) (sp : FVec Ideal S1 .f32) :
    out0_7 A x W1 (shapeCast S1x32 b1 shapeCasts_S32_S1x32) W2 (shapeCast S1x16 b2 shapeCasts_S16_S1x16)
        (shapeCast S1x1 sp shapeCasts_S1_S1x1)
      = Cert.Gcn.out A x W1 b1 W2 b2 sp := by
  rw [out_eq_payload]
  funext j
  obtain ⟨p, c, rfl⟩ : ∃ (p : Fin 2048) (c : Fin 16), j = ix2 p c := ⟨j 0, j 1, eq_ix2 j⟩
  exact payload_apply A x W1 _ W2 _ _ b1 b2 sp (fun q => rowOfVec_apply b1 _ 0 q) (fun q => rowOfVec_apply b2 _ 0 q)
    (rowOfVec_apply sp _ 0 0) p c

/-! ## The arrays the host reshaped before the region -/

/-- The first bias row is the first bias vector seen as a one-row matrix. -/
theorem V_bias1 (c : Dev nD) : (V m c main_v0 : S1x32.Idx → EReal)
    = shapeCast S1x32 (m ((c : Thread nD τ).loc main_arg3)) shapeCasts_S32_S1x32 := by
  dsimp only [Gen.V, Gen.hostOps0]; after_results; rfl

/-- The second bias row likewise. -/
theorem V_bias2 (c : Dev nD) : (V m c main_v1 : S1x16.Idx → EReal)
    = shapeCast S1x16 (m ((c : Thread nD τ).loc main_arg5)) shapeCasts_S16_S1x16 := by
  dsimp only [Gen.V, Gen.hostOps0]; after_results; rfl

/-- The scalar parameter as a one-by-one matrix. -/
theorem V_scalar (c : Dev nD) : (V m c main_v2 : S1x1.Idx → EReal)
    = shapeCast S1x1 (m ((c : Thread nD τ).loc main_arg6)) shapeCasts_S1_S1x1 := by
  dsimp only [Gen.V, Gen.hostOps0]; after_results; rfl

/-! ## Every window's block is its whole array -/

theorem iblk0_eq (c : Dev nD) (t : Fin cfg0.N) :
    (iblk m c 0 t : Vec Ideal S2048x2048 .f32) = m ((c : Thread nD τ).loc main_arg0) :=
  (Memref.read_access_unit_zero (Elt Ideal) main_arg0 (off := fun a => win0_0.index t a * S2048x2048.size a)
    (funext fun a => Nat.zero_mul _) (fun a => by show 0 * _ + _ ≤ _; omega) (V m c main_arg0)).trans (V_main_arg0 m c)

theorem iblk1_eq (c : Dev nD) (t : Fin cfg0.N) :
    (iblk m c 1 t : Vec Ideal S2048x16 .f32) = m ((c : Thread nD τ).loc main_arg1) :=
  (Memref.read_access_unit_zero (Elt Ideal) main_arg1 (off := fun a => win0_1.index t a * S2048x16.size a)
    (funext fun a => Nat.zero_mul _) (fun a => by show 0 * _ + _ ≤ _; omega) (V m c main_arg1)).trans (V_main_arg1 m c)

theorem iblk2_eq (c : Dev nD) (t : Fin cfg0.N) :
    (iblk m c 2 t : Vec Ideal S16x32 .f32) = m ((c : Thread nD τ).loc main_arg2) :=
  (Memref.read_access_unit_zero (Elt Ideal) main_arg2 (off := fun a => win0_2.index t a * S16x32.size a)
    (funext fun a => Nat.zero_mul _) (fun a => by show 0 * _ + _ ≤ _; omega) (V m c main_arg2)).trans (V_main_arg2 m c)

theorem iblk3_eq (c : Dev nD) (t : Fin cfg0.N) :
    (iblk m c 3 t : Vec Ideal S1x32 .f32) = shapeCast S1x32 (m ((c : Thread nD τ).loc main_arg3)) shapeCasts_S32_S1x32 :=
  (Memref.read_access_unit_zero (Elt Ideal) main_v0 (off := fun a => win0_3.index t a * S1x32.size a)
    (funext fun a => Nat.zero_mul _) (fun a => by show 0 * _ + _ ≤ _; omega) (V m c main_v0)).trans (V_bias1 m c)

theorem iblk4_eq (c : Dev nD) (t : Fin cfg0.N) :
    (iblk m c 4 t : Vec Ideal S32x16 .f32) = m ((c : Thread nD τ).loc main_arg4) :=
  (Memref.read_access_unit_zero (Elt Ideal) main_arg4 (off := fun a => win0_4.index t a * S32x16.size a)
    (funext fun a => Nat.zero_mul _) (fun a => by show 0 * _ + _ ≤ _; omega) (V m c main_arg4)).trans (V_main_arg4 m c)

theorem iblk5_eq (c : Dev nD) (t : Fin cfg0.N) :
    (iblk m c 5 t : Vec Ideal S1x16 .f32) = shapeCast S1x16 (m ((c : Thread nD τ).loc main_arg5)) shapeCasts_S16_S1x16 :=
  (Memref.read_access_unit_zero (Elt Ideal) main_v1 (off := fun a => win0_5.index t a * S1x16.size a)
    (funext fun a => Nat.zero_mul _) (fun a => by show 0 * _ + _ ≤ _; omega) (V m c main_v1)).trans (V_bias2 m c)

theorem iblk6_eq (c : Dev nD) (t : Fin cfg0.N) :
    (iblk m c 6 t : Vec Ideal S1x1 .f32) = shapeCast S1x1 (m ((c : Thread nD τ).loc main_arg6)) shapeCasts_S1_S1x1 :=
  (Memref.read_access_unit_zero (Elt Ideal) main_v2 (off := fun a => win0_6.index t a * S1x1.size a)
    (funext fun a => Nat.zero_mul _) (fun a => by show 0 * _ + _ ≤ _; omega) (V m c main_v2)).trans (V_scalar m c)

/-! ## The result array -/

/-- The network function of the argument arrays as launched. -/
abbrev result (c : Dev nD) : Buf (Elt Ideal) ((c : Thread nD τ).loc main_v3) :=
  Cert.Gcn.out (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))

/-- What the body leaves in the result's buffer at the grid's one point is `result`. -/
theorem after_eq (c : Dev nD) (t : Fin cfg0.N) :
    out0_7 (iblk m c 0 t) (iblk m c 1 t) (iblk m c 2 t) (iblk m c 3 t) (iblk m c 4 t) (iblk m c 5 t) (iblk m c 6 t) = result m c := by
  rw [iblk0_eq m c t, iblk1_eq m c t, iblk2_eq m c t, iblk3_eq m c t, iblk4_eq m c t, iblk5_eq m c t, iblk6_eq m c t]
  exact out_eq_network _ _ _ _ _ _ _

/-- So the point writes back `result` read through the result window's block, which is the whole array. -/
theorem flushed_eq (c : Dev nD) (t : Fin cfg0.N) :
    (dats m 0 c).flushed 7 t = ((cfg0.win 7).blk t).view.read (Elt Ideal) (result m c) := by
  rw [Value.flushed7 m c t, after_eq m c t]
  exact (Memref.read_access_unit_zero (Elt Ideal) main_v3 (off := fun a => win0_7.index t a * S2048x16.size a)
    (funext fun a => Nat.zero_mul _) (fun a => by show 0 * _ + _ ≤ _; omega) (result m c)).symm

/-- The one block covers the array, so the array ends holding `result`. -/
theorem final (c : Dev nD) : (dats m 0 c).arrAt 7 cfg0.N = result m c :=
  (dats m 0 c).arrAt_eq_of_cover 7 (result m c) (fun t _ => flushed_eq m c t) fun i =>
    ⟨t0_0, flush0_7 t0_0, by
      show i ∈ ((View.whole main_v3).slice (win0_7.rect t0_0)).set
      rw [View.set_slice_whole, Rect.mem_set_unit]
      intro a
      have h0 : (i 0 : Nat) < 2048 := (i 0).isLt
      have h1 : (i 1 : Nat) < 16 := (i 1).isLt
      match a with
      | ⟨0, _⟩ => show 0 * 2048 ≤ (i 0 : Nat) ∧ (i 0 : Nat) < 0 * 2048 + 2048; omega
      | ⟨1, _⟩ => show 0 * 16 ≤ (i 1 : Nat) ∧ (i 1 : Nat) < 0 * 16 + 16; omega⟩

/-! ## The run -/

theorem run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
        r.2.mem ((c.tc : Thread Cert.KernelIdeal.nD Cert.KernelIdeal.τ).loc Cert.KernelIdeal.main_v3)
          = Cert.Gcn.out (m ((c.tc : Thread _ _).loc Cert.KernelIdeal.main_arg0)) (m ((c.tc : Thread _ _).loc Cert.KernelIdeal.main_arg1)) (m ((c.tc : Thread _ _).loc Cert.KernelIdeal.main_arg2)) (m ((c.tc : Thread _ _).loc Cert.KernelIdeal.main_arg3)) (m ((c.tc : Thread _ _).loc Cert.KernelIdeal.main_arg4)) (m ((c.tc : Thread _ _).loc Cert.KernelIdeal.main_arg5)) (m ((c.tc : Thread _ _).loc Cert.KernelIdeal.main_arg6))
        ∧ r.2.mem ((c.tc : Thread _ _).loc Cert.KernelIdeal.main_arg0) = m ((c.tc : Thread _ _).loc Cert.KernelIdeal.main_arg0)
        ∧ r.2.mem ((c.tc : Thread _ _).loc Cert.KernelIdeal.main_arg1) = m ((c.tc : Thread _ _).loc Cert.KernelIdeal.main_arg1)
        ∧ r.2.mem ((c.tc : Thread _ _).loc Cert.KernelIdeal.main_arg2) = m ((c.tc : Thread _ _).loc Cert.KernelIdeal.main_arg2)
        ∧ r.2.mem ((c.tc : Thread _ _).loc Cert.KernelIdeal.main_arg3) = m ((c.tc : Thread _ _).loc Cert.KernelIdeal.main_arg3)
        ∧ r.2.mem ((c.tc : Thread _ _).loc Cert.KernelIdeal.main_arg4) = m ((c.tc : Thread _ _).loc Cert.KernelIdeal.main_arg4)
        ∧ r.2.mem ((c.tc : Thread _ _).loc Cert.KernelIdeal.main_arg5) = m ((c.tc : Thread _ _).loc Cert.KernelIdeal.main_arg5)
        ∧ r.2.mem ((c.tc : Thread _ _).loc Cert.KernelIdeal.main_arg6) = m ((c.tc : Thread _ _).loc Cert.KernelIdeal.main_arg6)) :=
  (θ_run defs _ _).mono (fun r h c => ⟨(h c).1.trans (final m c), (h c).2⟩) (Value.run_blocks m ρ)

end Cert.KernelIdeal.Dense

end
-- ==== Proof.RefRunOps.lean ====
/-
  The reference program's @main as a straight line of host operations: every `func.call` replaced by the
  operations of the function it calls (and, inside those, of the functions they call), each stated over the
  buffers that one call names. The line is cut at statement boundaries of @main into consecutive segments;
  their concatenation is the whole program, in order. With each segment: that its operations touch TensorCore
  references only, and that each determines its results.
-/
import proofs.«173982_g33990371181433_cont_sun_m_937_10_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- `%cst`, `%0`, `%1`. -/
abbrev seg00 : List (HloOp τ sig (Elt F)) :=
  [ StableHlo.nullary main_cst (constant S_ .f32 0x00000000#32),
    StableHlo.unary main_cst main_v0 (broadcastInDim S2048x2048 ![] bcast_S_S2048x2048 : (⟨S_, .f32⟩ : BufTy).Contents (Elt F) → (⟨S2048x2048, .f32⟩ : BufTy).Contents (Elt F)),
    StableHlo.binary main_arg0 main_v0 main_v1 (cmpf .une : (⟨S2048x2048, .f32⟩ : BufTy).Contents (Elt F) → (⟨S2048x2048, .f32⟩ : BufTy).Contents (Elt F) → (⟨S2048x2048, .i1⟩ : BufTy).Contents (Elt F)) ]

/-- the call `%2 = cumsum(…)` inlined (5 operations). -/
abbrev seg01 : List (HloOp τ sig (Elt F)) :=
  [ StableHlo.TRef.reshape (StableHlo.TRef.of main_v1 : StableHlo.TRef sig ⟨S2048x2048, .i1⟩) main_call0.v0 rfl shapeCasts_S2048x2048_S4194304,
    StableHlo.TRef.unary main_call0.v0 main_call0.v1 (extui 32 · natLt_1_32),
    StableHlo.TRef.nullary main_call0.call0.c (constantI S_ 32 0#32),
    StableHlo.TRef.unary main_call0.call0.c main_call0.call0.v0 (broadcastInDim S_ ![] bcast_S_S_),
    StableHlo.TRef.binary main_call0.v1 main_call0.call0.v0 main_call0.call0.v1 (fun x v => Host.reduceWindow IntOp.addi ![4194304] ![1] ![4194303] ![0] x v reduceWindows_S4194304_S4194304_w4194304s1p4194303_0 h_S_) ]

/-- `%c`, `%3`, `%c_0`, the call `%4 = clip(…)` inlined (3 operations), `%c_1`, `%5`, `%6`, `%c_2`, `%7`, `%8`, `%9`, `%10`, `%c_3`, `%11`, `%12`. -/
abbrev seg02 : List (HloOp τ sig (Elt F)) :=
  [ StableHlo.nullary main_c (constantI S_ 32 0#32),
    StableHlo.unary main_c main_v3 (broadcastInDim S4194304 ![] bcast_S_S4194304 : (⟨S_, .i32⟩ : BufTy).Contents (Elt F) → (⟨S4194304, .i32⟩ : BufTy).Contents (Elt F)),
    StableHlo.nullary main_c_0 (constantI S_ 32 0#32),
    StableHlo.TRef.unary (StableHlo.TRef.of main_c_0 : StableHlo.TRef sig ⟨S_, .i32⟩) main_call1.v0 id,
    StableHlo.TRef.unary main_call1.v0 main_call1.v1 (broadcastInDim S4194304 ![] bcast_S_S4194304),
    StableHlo.TRef.binary main_call1.v1 (StableHlo.TRef.of main_v2 : StableHlo.TRef sig ⟨S4194304, .i32⟩) main_call1.v2 maxsi,
    StableHlo.nullary main_c_1 (constantI S_ 32 0#32),
    StableHlo.unary main_c_1 main_v5 (broadcastInDim S4194304 ![] bcast_S_S4194304 : (⟨S_, .i32⟩ : BufTy).Contents (Elt F) → (⟨S4194304, .i32⟩ : BufTy).Contents (Elt F)),
    StableHlo.binary main_v4 main_v5 main_v6 (cmpi .slt : (⟨S4194304, .i32⟩ : BufTy).Contents (Elt F) → (⟨S4194304, .i32⟩ : BufTy).Contents (Elt F) → (⟨S4194304, .i1⟩ : BufTy).Contents (Elt F)),
    StableHlo.nullary main_c_2 (constantI S_ 32 4194304#32),
    StableHlo.unary main_c_2 main_v7 (broadcastInDim S4194304 ![] bcast_S_S4194304 : (⟨S_, .i32⟩ : BufTy).Contents (Elt F) → (⟨S4194304, .i32⟩ : BufTy).Contents (Elt F)),
    StableHlo.binary main_v4 main_v7 main_v8 (addi : (⟨S4194304, .i32⟩ : BufTy).Contents (Elt F) → (⟨S4194304, .i32⟩ : BufTy).Contents (Elt F) → (⟨S4194304, .i32⟩ : BufTy).Contents (Elt F)),
    StableHlo.ternary main_v6 main_v8 main_v4 main_v9 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    StableHlo.unary main_v9 main_v10 (broadcastInDim S4194304x1 ![0] bcast_S4194304_S4194304x1_0 : (⟨S4194304, .i32⟩ : BufTy).Contents (Elt F) → (⟨S4194304x1, .i32⟩ : BufTy).Contents (Elt F)),
    StableHlo.nullary main_c_3 (constantI S_ 32 1#32),
    StableHlo.unary main_c_3 main_v11 (broadcastInDim S4194304 ![] bcast_S_S4194304 : (⟨S_, .i32⟩ : BufTy).Contents (Elt F) → (⟨S4194304, .i32⟩ : BufTy).Contents (Elt F)),
    StableHlo.ternary main_v3 main_v10 main_v11 main_v12 ((fun x i u => Host.scatter scatter_S4194304_S4194304x1_S4194304_n_0_0_1 IntOp.addi x i u) : (⟨S4194304, .i32⟩ : BufTy).Contents (Elt F) → (⟨S4194304x1, .i32⟩ : BufTy).Contents (Elt F) → (⟨S4194304, .i32⟩ : BufTy).Contents (Elt F) → (⟨S4194304, .i32⟩ : BufTy).Contents (Elt F)) ]

/-- the call `%13 = cumsum_1(…)` inlined (3 operations). -/
abbrev seg03 : List (HloOp τ sig (Elt F)) :=
  [ StableHlo.TRef.nullary main_call2.call0.c (constantI S_ 32 0#32),
    StableHlo.TRef.unary main_call2.call0.c main_call2.call0.v0 (broadcastInDim S_ ![] bcast_S_S_),
    StableHlo.TRef.binary (StableHlo.TRef.of main_v12 : StableHlo.TRef sig ⟨S4194304, .i32⟩) main_call2.call0.v0 main_call2.call0.v1 (fun x v => Host.reduceWindow IntOp.addi ![4194304] ![1] ![4194303] ![0] x v reduceWindows_S4194304_S4194304_w4194304s1p4194303_0 h_S_) ]

/-- `%c_4`, the call `%14 = floor_divide(…)` inlined (16 operations). -/
abbrev seg04 : List (HloOp τ sig (Elt F)) :=
  [ StableHlo.nullary main_c_4 (constantI S_ 32 2048#32),
    StableHlo.TRef.unary (StableHlo.TRef.of main_c_4 : StableHlo.TRef sig ⟨S_, .i32⟩) main_call3.v0 (broadcastInDim S4194304 ![] bcast_S_S4194304),
    StableHlo.TRef.binary (StableHlo.TRef.of main_v13 : StableHlo.TRef sig ⟨S4194304, .i32⟩) main_call3.v0 main_call3.v1 Host.divsi,
    StableHlo.TRef.unary (StableHlo.TRef.of main_v13 : StableHlo.TRef sig ⟨S4194304, .i32⟩) main_call3.v2 signi,
    StableHlo.TRef.unary (StableHlo.TRef.of main_c_4 : StableHlo.TRef sig ⟨S_, .i32⟩) main_call3.v3 signi,
    StableHlo.TRef.unary main_call3.v3 main_call3.v4 (broadcastInDim S4194304 ![] bcast_S_S4194304),
    StableHlo.TRef.binary main_call3.v2 main_call3.v4 main_call3.v5 (cmpi .ne),
    StableHlo.TRef.unary (StableHlo.TRef.of main_c_4 : StableHlo.TRef sig ⟨S_, .i32⟩) main_call3.v6 (broadcastInDim S4194304 ![] bcast_S_S4194304),
    StableHlo.TRef.binary (StableHlo.TRef.of main_v13 : StableHlo.TRef sig ⟨S4194304, .i32⟩) main_call3.v6 main_call3.v7 Host.remsi,
    StableHlo.TRef.nullary main_call3.c (constantI S_ 32 0#32),
    StableHlo.TRef.unary main_call3.c main_call3.v8 (broadcastInDim S4194304 ![] bcast_S_S4194304),
    StableHlo.TRef.binary main_call3.v7 main_call3.v8 main_call3.v9 (cmpi .ne),
    StableHlo.TRef.binary main_call3.v5 main_call3.v9 main_call3.v10 andi,
    StableHlo.TRef.nullary main_call3.c_0 (constantI S_ 32 1#32),
    StableHlo.TRef.unary main_call3.c_0 main_call3.v11 (broadcastInDim S4194304 ![] bcast_S_S4194304),
    StableHlo.TRef.binary main_call3.v1 main_call3.v11 main_call3.v12 subi,
    StableHlo.TRef.ternary main_call3.v10 main_call3.v12 main_call3.v1 main_call3.call0.v0 select ]

/-- `%c_5`, the call `%15 = remainder(…)` inlined (21 operations). -/
abbrev seg05 : List (HloOp τ sig (Elt F)) :=
  [ StableHlo.nullary main_c_5 (constantI S_ 32 2048#32),
    StableHlo.TRef.unary (StableHlo.TRef.of main_c_5 : StableHlo.TRef sig ⟨S_, .i32⟩) main_call4.v0 id,
    StableHlo.TRef.nullary main_call4.c (constantI S_ 32 0#32),
    StableHlo.TRef.binary main_call4.v0 main_call4.c main_call4.v1 (cmpi .eq),
    StableHlo.TRef.nullary main_call4.c_0 (constantI S_ 32 1#32),
    StableHlo.TRef.ternary main_call4.v1 main_call4.c_0 main_call4.v0 main_call4.call0.v0 select,
    StableHlo.TRef.unary main_call4.call0.v0 main_call4.v3 (broadcastInDim S4194304 ![] bcast_S_S4194304),
    StableHlo.TRef.binary (StableHlo.TRef.of main_v14 : StableHlo.TRef sig ⟨S4194304, .i32⟩) main_call4.v3 main_call4.v4 Host.remsi,
    StableHlo.TRef.nullary main_call4.c_1 (constantI S_ 32 0#32),
    StableHlo.TRef.unary main_call4.c_1 main_call4.v5 (broadcastInDim S4194304 ![] bcast_S_S4194304),
    StableHlo.TRef.binary main_call4.v4 main_call4.v5 main_call4.v6 (cmpi .ne),
    StableHlo.TRef.nullary main_call4.c_2 (constantI S_ 32 0#32),
    StableHlo.TRef.unary main_call4.c_2 main_call4.v7 (broadcastInDim S4194304 ![] bcast_S_S4194304),
    StableHlo.TRef.binary main_call4.v4 main_call4.v7 main_call4.v8 (cmpi .slt),
    StableHlo.TRef.nullary main_call4.c_3 (constantI S_ 32 0#32),
    StableHlo.TRef.binary main_call4.call0.v0 main_call4.c_3 main_call4.v9 (cmpi .slt),
    StableHlo.TRef.unary main_call4.v9 main_call4.v10 (broadcastInDim S4194304 ![] bcast_S_S4194304),
    StableHlo.TRef.binary main_call4.v8 main_call4.v10 main_call4.v11 (cmpi .ne),
    StableHlo.TRef.binary main_call4.v11 main_call4.v6 main_call4.v12 andi,
    StableHlo.TRef.unary main_call4.call0.v0 main_call4.v13 (broadcastInDim S4194304 ![] bcast_S_S4194304),
    StableHlo.TRef.binary main_call4.v4 main_call4.v13 main_call4.v14 addi,
    StableHlo.TRef.ternary main_call4.v12 main_call4.v14 main_call4.v4 main_call4.v15 select ]

/-- `%c_6`, the call `%16 = floor_divide(…)` inlined (16 operations). -/
abbrev seg06 : List (HloOp τ sig (Elt F)) :=
  [ StableHlo.nullary main_c_6 (constantI S_ 32 1#32),
    StableHlo.TRef.unary (StableHlo.TRef.of main_c_6 : StableHlo.TRef sig ⟨S_, .i32⟩) main_call5.v0 (broadcastInDim S4194304 ![] bcast_S_S4194304),
    StableHlo.TRef.binary (StableHlo.TRef.of main_v13 : StableHlo.TRef sig ⟨S4194304, .i32⟩) main_call5.v0 main_call5.v1 Host.divsi,
    StableHlo.TRef.unary (StableHlo.TRef.of main_v13 : StableHlo.TRef sig ⟨S4194304, .i32⟩) main_call5.v2 signi,
    StableHlo.TRef.unary (StableHlo.TRef.of main_c_6 : StableHlo.TRef sig ⟨S_, .i32⟩) main_call5.v3 signi,
    StableHlo.TRef.unary main_call5.v3 main_call5.v4 (broadcastInDim S4194304 ![] bcast_S_S4194304),
    StableHlo.TRef.binary main_call5.v2 main_call5.v4 main_call5.v5 (cmpi .ne),
    StableHlo.TRef.unary (StableHlo.TRef.of main_c_6 : StableHlo.TRef sig ⟨S_, .i32⟩) main_call5.v6 (broadcastInDim S4194304 ![] bcast_S_S4194304),
    StableHlo.TRef.binary (StableHlo.TRef.of main_v13 : StableHlo.TRef sig ⟨S4194304, .i32⟩) main_call5.v6 main_call5.v7 Host.remsi,
    StableHlo.TRef.nullary main_call5.c (constantI S_ 32 0#32),
    StableHlo.TRef.unary main_call5.c main_call5.v8 (broadcastInDim S4194304 ![] bcast_S_S4194304),
    StableHlo.TRef.binary main_call5.v7 main_call5.v8 main_call5.v9 (cmpi .ne),
    StableHlo.TRef.binary main_call5.v5 main_call5.v9 main_call5.v10 andi,
    StableHlo.TRef.nullary main_call5.c_0 (constantI S_ 32 1#32),
    StableHlo.TRef.unary main_call5.c_0 main_call5.v11 (broadcastInDim S4194304 ![] bcast_S_S4194304),
    StableHlo.TRef.binary main_call5.v1 main_call5.v11 main_call5.v12 subi,
    StableHlo.TRef.ternary main_call5.v10 main_call5.v12 main_call5.v1 main_call5.call0.v0 select ]

/-- `%c_7`, the call `%17 = remainder(…)` inlined (21 operations). -/
abbrev seg07 : List (HloOp τ sig (Elt F)) :=
  [ StableHlo.nullary main_c_7 (constantI S_ 32 2048#32),
    StableHlo.TRef.unary (StableHlo.TRef.of main_c_7 : StableHlo.TRef sig ⟨S_, .i32⟩) main_call6.v0 id,
    StableHlo.TRef.nullary main_call6.c (constantI S_ 32 0#32),
    StableHlo.TRef.binary main_call6.v0 main_call6.c main_call6.v1 (cmpi .eq),
    StableHlo.TRef.nullary main_call6.c_0 (constantI S_ 32 1#32),
    StableHlo.TRef.ternary main_call6.v1 main_call6.c_0 main_call6.v0 main_call6.call0.v0 select,
    StableHlo.TRef.unary main_call6.call0.v0 main_call6.v3 (broadcastInDim S4194304 ![] bcast_S_S4194304),
    StableHlo.TRef.binary (StableHlo.TRef.of main_v16 : StableHlo.TRef sig ⟨S4194304, .i32⟩) main_call6.v3 main_call6.v4 Host.remsi,
    StableHlo.TRef.nullary main_call6.c_1 (constantI S_ 32 0#32),
    StableHlo.TRef.unary main_call6.c_1 main_call6.v5 (broadcastInDim S4194304 ![] bcast_S_S4194304),
    StableHlo.TRef.binary main_call6.v4 main_call6.v5 main_call6.v6 (cmpi .ne),
    StableHlo.TRef.nullary main_call6.c_2 (constantI S_ 32 0#32),
    StableHlo.TRef.unary main_call6.c_2 main_call6.v7 (broadcastInDim S4194304 ![] bcast_S_S4194304),
    StableHlo.TRef.binary main_call6.v4 main_call6.v7 main_call6.v8 (cmpi .slt),
    StableHlo.TRef.nullary main_call6.c_3 (constantI S_ 32 0#32),
    StableHlo.TRef.binary main_call6.call0.v0 main_call6.c_3 main_call6.v9 (cmpi .slt),
    StableHlo.TRef.unary main_call6.v9 main_call6.v10 (broadcastInDim S4194304 ![] bcast_S_S4194304),
    StableHlo.TRef.binary main_call6.v8 main_call6.v10 main_call6.v11 (cmpi .ne),
    StableHlo.TRef.binary main_call6.v11 main_call6.v6 main_call6.v12 andi,
    StableHlo.TRef.unary main_call6.call0.v0 main_call6.v13 (broadcastInDim S4194304 ![] bcast_S_S4194304),
    StableHlo.TRef.binary main_call6.v4 main_call6.v13 main_call6.v14 addi,
    StableHlo.TRef.ternary main_call6.v12 main_call6.v14 main_call6.v4 main_call6.v15 select ]

/-- `%18`, `%19`, `%c_8`, `%20`, `%21`, `%22`, `%c_9`, the call `%23 = _where_3(…)` inlined (3 operations), `%c_10`, the call `%24 = _where_3(…)` inlined (3 operations). -/
abbrev seg08 : List (HloOp τ sig (Elt F)) :=
  [ StableHlo.nullary main_v18 (iotaInDim S4194304 32 0),
    StableHlo.unary main_v1 main_v19 ((extui 32 · natLt_1_32) : (⟨S2048x2048, .i1⟩ : BufTy).Contents (Elt F) → (⟨S2048x2048, .i32⟩ : BufTy).Contents (Elt F)),
    StableHlo.nullary main_c_8 (constantI S_ 32 0#32),
    StableHlo.binary main_v19 main_c_8 main_v20 ((fun x v => Host.reduce IntOp.addi x v reducesTo_S2048x2048_S_d0_1 h_S_) : (⟨S2048x2048, .i32⟩ : BufTy).Contents (Elt F) → (⟨S_, .i32⟩ : BufTy).Contents (Elt F) → (⟨S_, .i32⟩ : BufTy).Contents (Elt F)),
    StableHlo.unary main_v20 main_v21 (broadcastInDim S4194304 ![] bcast_S_S4194304 : (⟨S_, .i32⟩ : BufTy).Contents (Elt F) → (⟨S4194304, .i32⟩ : BufTy).Contents (Elt F)),
    StableHlo.binary main_v18 main_v21 main_v22 (cmpi .sge : (⟨S4194304, .i32⟩ : BufTy).Contents (Elt F) → (⟨S4194304, .i32⟩ : BufTy).Contents (Elt F) → (⟨S4194304, .i1⟩ : BufTy).Contents (Elt F)),
    StableHlo.nullary main_c_9 (constantI S_ 32 0#32),
    StableHlo.TRef.unary (StableHlo.TRef.of main_c_9 : StableHlo.TRef sig ⟨S_, .i32⟩) main_call7.v0 id,
    StableHlo.TRef.unary main_call7.v0 main_call7.v1 (broadcastInDim S4194304 ![] bcast_S_S4194304),
    StableHlo.TRef.ternary (StableHlo.TRef.of main_v22 : StableHlo.TRef sig ⟨S4194304, .i1⟩) main_call7.v1 (StableHlo.TRef.of main_v15 : StableHlo.TRef sig ⟨S4194304, .i32⟩) main_call7.v2 select,
    StableHlo.nullary main_c_10 (constantI S_ 32 0#32),
    StableHlo.TRef.unary (StableHlo.TRef.of main_c_10 : StableHlo.TRef sig ⟨S_, .i32⟩) main_call8.v0 id,
    StableHlo.TRef.unary main_call8.v0 main_call8.v1 (broadcastInDim S4194304 ![] bcast_S_S4194304),
    StableHlo.TRef.ternary (StableHlo.TRef.of main_v22 : StableHlo.TRef sig ⟨S4194304, .i1⟩) main_call8.v1 (StableHlo.TRef.of main_v17 : StableHlo.TRef sig ⟨S4194304, .i32⟩) main_call8.v2 select ]

/-- the call `%25 = count_nonzero(…)` inlined (6 operations), `%26`, `%27`, `%28`. -/
abbrev seg09 : List (HloOp τ sig (Elt F)) :=
  [ StableHlo.TRef.nullary main_call9.cst (constant S_ .f32 0x00000000#32),
    StableHlo.TRef.unary main_call9.cst main_call9.v0 (broadcastInDim S2048x2048 ![] bcast_S_S2048x2048),
    StableHlo.TRef.binary (StableHlo.TRef.of main_arg0 : StableHlo.TRef sig ⟨S2048x2048, .f32⟩) main_call9.v0 main_call9.v1 (cmpf .une),
    StableHlo.TRef.unary main_call9.v1 main_call9.v2 (extui 32 · natLt_1_32),
    StableHlo.TRef.nullary main_call9.c (constantI S_ 32 0#32),
    StableHlo.TRef.binary main_call9.v2 main_call9.c main_call9.v3 (fun x v => Host.reduce IntOp.addi x v reducesTo_S2048x2048_S_d0_1 h_S_),
    StableHlo.nullary main_v26 (iotaInDim S4194304 32 0),
    StableHlo.unary main_v25 main_v27 (broadcastInDim S4194304 ![] bcast_S_S4194304 : (⟨S_, .i32⟩ : BufTy).Contents (Elt F) → (⟨S4194304, .i32⟩ : BufTy).Contents (Elt F)),
    StableHlo.binary main_v26 main_v27 main_v28 (cmpi .slt : (⟨S4194304, .i32⟩ : BufTy).Contents (Elt F) → (⟨S4194304, .i32⟩ : BufTy).Contents (Elt F) → (⟨S4194304, .i1⟩ : BufTy).Contents (Elt F)) ]

/-- `%29`, `%30`, `%31`, `%c_11`, `%32`, `%33`, `%34`. -/
abbrev seg10 : List (HloOp τ sig (Elt F)) :=
  [ StableHlo.nullary main_v29 (iotaInDim S2048 32 0),
    StableHlo.binary main_v23 main_v29 main_v30 ((fun a b => concatenate S4196352 0 [⟨S4194304, a⟩, ⟨S2048, b⟩] concatenates_S4194304_S2048_S4196352_d0) : (⟨S4194304, .i32⟩ : BufTy).Contents (Elt F) → (⟨S2048, .i32⟩ : BufTy).Contents (Elt F) → (⟨S4196352, .i32⟩ : BufTy).Contents (Elt F)),
    StableHlo.binary main_v24 main_v29 main_v31 ((fun a b => concatenate S4196352 0 [⟨S4194304, a⟩, ⟨S2048, b⟩] concatenates_S4194304_S2048_S4196352_d0) : (⟨S4194304, .i32⟩ : BufTy).Contents (Elt F) → (⟨S2048, .i32⟩ : BufTy).Contents (Elt F) → (⟨S4196352, .i32⟩ : BufTy).Contents (Elt F)),
    StableHlo.nullary main_c_11 (constantI S_ 1 1#1),
    StableHlo.unary main_c_11 main_v32 (broadcastInDim S2048 ![] bcast_S_S2048 : (⟨S_, .i1⟩ : BufTy).Contents (Elt F) → (⟨S2048, .i1⟩ : BufTy).Contents (Elt F)),
    StableHlo.binary main_v28 main_v32 main_v33 ((fun a b => concatenate S4196352 0 [⟨S4194304, a⟩, ⟨S2048, b⟩] concatenates_S4194304_S2048_S4196352_d0) : (⟨S4194304, .i1⟩ : BufTy).Contents (Elt F) → (⟨S2048, .i1⟩ : BufTy).Contents (Elt F) → (⟨S4196352, .i1⟩ : BufTy).Contents (Elt F)),
    StableHlo.unary main_v33 main_v34 (uitofp .f32 : (⟨S4196352, .i1⟩ : BufTy).Contents (Elt F) → (⟨S4196352, .f32⟩ : BufTy).Contents (Elt F)) ]

/-- `%cst_12`, `%35`, `%c_13`, `%36`, `%37`, `%c_14`, `%38`, `%39`, `%40`, `%41`, `%42`. -/
abbrev seg11 : List (HloOp τ sig (Elt F)) :=
  [ StableHlo.nullary main_cst_12 (constant S_ .f32 0x00000000#32),
    StableHlo.unary main_cst_12 main_v35 (broadcastInDim S2048 ![] bcast_S_S2048 : (⟨S_, .f32⟩ : BufTy).Contents (Elt F) → (⟨S2048, .f32⟩ : BufTy).Contents (Elt F)),
    StableHlo.nullary main_c_13 (constantI S_ 32 0#32),
    StableHlo.unary main_c_13 main_v36 (broadcastInDim S4196352 ![] bcast_S_S4196352 : (⟨S_, .i32⟩ : BufTy).Contents (Elt F) → (⟨S4196352, .i32⟩ : BufTy).Contents (Elt F)),
    StableHlo.binary main_v31 main_v36 main_v37 (cmpi .slt : (⟨S4196352, .i32⟩ : BufTy).Contents (Elt F) → (⟨S4196352, .i32⟩ : BufTy).Contents (Elt F) → (⟨S4196352, .i1⟩ : BufTy).Contents (Elt F)),
    StableHlo.nullary main_c_14 (constantI S_ 32 2048#32),
    StableHlo.unary main_c_14 main_v38 (broadcastInDim S4196352 ![] bcast_S_S4196352 : (⟨S_, .i32⟩ : BufTy).Contents (Elt F) → (⟨S4196352, .i32⟩ : BufTy).Contents (Elt F)),
    StableHlo.binary main_v31 main_v38 main_v39 (addi : (⟨S4196352, .i32⟩ : BufTy).Contents (Elt F) → (⟨S4196352, .i32⟩ : BufTy).Contents (Elt F) → (⟨S4196352, .i32⟩ : BufTy).Contents (Elt F)),
    StableHlo.ternary main_v37 main_v39 main_v31 main_v40 (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)),
    StableHlo.unary main_v40 main_v41 (broadcastInDim S4196352x1 ![0] bcast_S4196352_S4196352x1_0 : (⟨S4196352, .i32⟩ : BufTy).Contents (Elt F) → (⟨S4196352x1, .i32⟩ : BufTy).Contents (Elt F)),
    StableHlo.ternary main_v35 main_v41 main_v34 main_v42 ((fun x i u => Host.scatterAdd scatter_S2048_S4196352x1_S4196352_n_0_0_1 x i u) : (⟨S2048, .f32⟩ : BufTy).Contents (Elt F) → (⟨S4196352x1, .i32⟩ : BufTy).Contents (Elt F) → (⟨S4196352, .f32⟩ : BufTy).Contents (Elt F) → (⟨S2048, .f32⟩ : BufTy).Contents (Elt F)) ]

/-- `%cst_15`, `%43`, `%44`, `%45`, `%cst_16`, `%46`, `%47`, `%cst_17`, the call `%48 = _where_4(…)` inlined (3 operations), `%c_18`, `%49`, `%50`, `%c_19`, `%51`, `%52`, `%53`, `%54`, `%55`. -/
abbrev seg12 : List (HloOp τ sig (Elt F)) :=
  [ StableHlo.nullary main_cst_15 (constant S_ .f32 0x00000000#32),
    StableHlo.unary main_cst_15 main_v43 (broadcastInDim S2048 ![] bcast_S_S2048 : (⟨S_, .f32⟩ : BufTy).Contents (Elt F) → (⟨S2048, .f32⟩ : BufTy).Contents (Elt F)),
    StableHlo.binary main_v42 main_v43 main_v44 (cmpf .ogt : (⟨S2048, .f32⟩ : BufTy).Contents (Elt F) → (⟨S2048, .f32⟩ : BufTy).Contents (Elt F) → (⟨S2048, .i1⟩ : BufTy).Contents (Elt F)),
    StableHlo.unary main_v42 main_v45 (Host.sqrt : (⟨S2048, .f32⟩ : BufTy).Contents (Elt F) → (⟨S2048, .f32⟩ : BufTy).Contents (Elt F)),
    StableHlo.nullary main_cst_16 (constant S_ .f32 0x3F800000#32),
    StableHlo.unary main_cst_16 main_v46 (broadcastInDim S2048 ![] bcast_S_S2048 : (⟨S_, .f32⟩ : BufTy).Contents (Elt F) → (⟨S2048, .f32⟩ : BufTy).Contents (Elt F)),
    StableHlo.binary main_v46 main_v45 main_v47 (Host.divf : (⟨S2048, .f32⟩ : BufTy).Contents (Elt F) → (⟨S2048, .f32⟩ : BufTy).Contents (Elt F) → (⟨S2048, .f32⟩ : BufTy).Contents (Elt F)),
    StableHlo.nullary main_cst_17 (constant S_ .f32 0x00000000#32),
    StableHlo.TRef.unary (StableHlo.TRef.of main_cst_17 : StableHlo.TRef sig ⟨S_, .f32⟩) main_call10.v0 id,
    StableHlo.TRef.unary main_call10.v0 main_call10.v1 (broadcastInDim S2048 ![] bcast_S_S2048),
    StableHlo.TRef.ternary (StableHlo.TRef.of main_v44 : StableHlo.TRef sig ⟨S2048, .i1⟩) (StableHlo.TRef.of main_v47 : StableHlo.TRef sig ⟨S2048, .f32⟩) main_call10.v1 main_call10.v2 select,
    StableHlo.nullary main_c_18 (constantI S_ 32 0#32),
    StableHlo.unary main_c_18 main_v49 (broadcastInDim S4196352 ![] bcast_S_S4196352 : (⟨S_, .i32⟩ : BufTy).Contents (Elt F) → (⟨S4196352, .i32⟩ : BufTy).Contents (Elt F)),
    StableHlo.binary main_v30 main_v49 main_v50 (cmpi .slt : (⟨S4196352, .i32⟩ : BufTy).Contents (Elt F) → (⟨S4196352, .i32⟩ : BufTy).Contents (Elt F) → (⟨S4196352, .i1⟩ : BufTy).Contents (Elt F)),
    StableHlo.nullary main_c_19 (constantI S_ 32 2048#32),
    StableHlo.unary main_c_19 main_v51 (broadcastInDim S4196352 ![] bcast_S_S4196352 : (⟨S_, .i32⟩ : BufTy).Contents (Elt F) → (⟨S4196352, .i32⟩ : BufTy).Contents (Elt F)),
    StableHlo.binary main_v30 main_v51 main_v52 (addi : (⟨S4196352, .i32⟩ : BufTy).Contents (Elt F) → (⟨S4196352, .i32⟩ : BufTy).Contents (Elt F) → (⟨S4196352, .i32⟩ : BufTy).Contents (Elt F)),
    StableHlo.ternary main_v50 main_v52 main_v30 main_v53 (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)),
    StableHlo.unary main_v53 main_v54 (broadcastInDim S4196352x1 ![0] bcast_S4196352_S4196352x1_0 : (⟨S4196352, .i32⟩ : BufTy).Contents (Elt F) → (⟨S4196352x1, .i32⟩ : BufTy).Contents (Elt F)),
    StableHlo.binary main_v48 main_v54 main_v55 ((fun x i => Host.gather gather_S2048_S4196352x1_S4196352_n_0_n_n_0_1_1 x i) : (⟨S2048, .f32⟩ : BufTy).Contents (Elt F) → (⟨S4196352x1, .i32⟩ : BufTy).Contents (Elt F) → (⟨S4196352, .f32⟩ : BufTy).Contents (Elt F)) ]

/-- `%c_20`, `%56`, `%57`, `%c_21`, `%58`, `%59`, `%60`, `%61`, `%62`, `%63`, `%64`, `%65`, `%c_22`, `%66`, `%67`, `%c_23`, `%68`, `%69`, `%70`, `%71`, `%72`, `%73`, `%74`, `%75`. -/
abbrev seg13 : List (HloOp τ sig (Elt F)) :=
  [ StableHlo.nullary main_c_20 (constantI S_ 32 0#32),
    StableHlo.unary main_c_20 main_v56 (broadcastInDim S4196352 ![] bcast_S_S4196352 : (⟨S_, .i32⟩ : BufTy).Contents (Elt F) → (⟨S4196352, .i32⟩ : BufTy).Contents (Elt F)),
    StableHlo.binary main_v31 main_v56 main_v57 (cmpi .slt : (⟨S4196352, .i32⟩ : BufTy).Contents (Elt F) → (⟨S4196352, .i32⟩ : BufTy).Contents (Elt F) → (⟨S4196352, .i1⟩ : BufTy).Contents (Elt F)),
    StableHlo.nullary main_c_21 (constantI S_ 32 2048#32),
    StableHlo.unary main_c_21 main_v58 (broadcastInDim S4196352 ![] bcast_S_S4196352 : (⟨S_, .i32⟩ : BufTy).Contents (Elt F) → (⟨S4196352, .i32⟩ : BufTy).Contents (Elt F)),
    StableHlo.binary main_v31 main_v58 main_v59 (addi : (⟨S4196352, .i32⟩ : BufTy).Contents (Elt F) → (⟨S4196352, .i32⟩ : BufTy).Contents (Elt F) → (⟨S4196352, .i32⟩ : BufTy).Contents (Elt F)),
    StableHlo.ternary main_v57 main_v59 main_v31 main_v60 (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)),
    StableHlo.unary main_v60 main_v61 (broadcastInDim S4196352x1 ![0] bcast_S4196352_S4196352x1_0 : (⟨S4196352, .i32⟩ : BufTy).Contents (Elt F) → (⟨S4196352x1, .i32⟩ : BufTy).Contents (Elt F)),
    StableHlo.binary main_v48 main_v61 main_v62 ((fun x i => Host.gather gather_S2048_S4196352x1_S4196352_n_0_n_n_0_1_1 x i) : (⟨S2048, .f32⟩ : BufTy).Contents (Elt F) → (⟨S4196352x1, .i32⟩ : BufTy).Contents (Elt F) → (⟨S4196352, .f32⟩ : BufTy).Contents (Elt F)),
    StableHlo.binary main_v55 main_v62 main_v63 (mulf : (⟨S4196352, .f32⟩ : BufTy).Contents (Elt F) → (⟨S4196352, .f32⟩ : BufTy).Contents (Elt F) → (⟨S4196352, .f32⟩ : BufTy).Contents (Elt F)),
    StableHlo.binary main_v63 main_v34 main_v64 (mulf : (⟨S4196352, .f32⟩ : BufTy).Contents (Elt F) → (⟨S4196352, .f32⟩ : BufTy).Contents (Elt F) → (⟨S4196352, .f32⟩ : BufTy).Contents (Elt F)),
    StableHlo.binary main_arg1 main_arg2 main_v65 ((fun l r => Host.dotGeneral dot_S2048x16_S16x32_S2048x32_1_0_0_1_n_n none l r) : (⟨S2048x16, .f32⟩ : BufTy).Contents (Elt F) → (⟨S16x32, .f32⟩ : BufTy).Contents (Elt F) → (⟨S2048x32, .f32⟩ : BufTy).Contents (Elt F)),
    StableHlo.nullary main_c_22 (constantI S_ 32 0#32),
    StableHlo.unary main_c_22 main_v66 (broadcastInDim S4196352 ![] bcast_S_S4196352 : (⟨S_, .i32⟩ : BufTy).Contents (Elt F) → (⟨S4196352, .i32⟩ : BufTy).Contents (Elt F)),
    StableHlo.binary main_v30 main_v66 main_v67 (cmpi .slt : (⟨S4196352, .i32⟩ : BufTy).Contents (Elt F) → (⟨S4196352, .i32⟩ : BufTy).Contents (Elt F) → (⟨S4196352, .i1⟩ : BufTy).Contents (Elt F)),
    StableHlo.nullary main_c_23 (constantI S_ 32 2048#32),
    StableHlo.unary main_c_23 main_v68 (broadcastInDim S4196352 ![] bcast_S_S4196352 : (⟨S_, .i32⟩ : BufTy).Contents (Elt F) → (⟨S4196352, .i32⟩ : BufTy).Contents (Elt F)),
    StableHlo.binary main_v30 main_v68 main_v69 (addi : (⟨S4196352, .i32⟩ : BufTy).Contents (Elt F) → (⟨S4196352, .i32⟩ : BufTy).Contents (Elt F) → (⟨S4196352, .i32⟩ : BufTy).Contents (Elt F)),
    StableHlo.ternary main_v67 main_v69 main_v30 main_v70 (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)),
    StableHlo.unary main_v70 main_v71 (broadcastInDim S4196352x1 ![0] bcast_S4196352_S4196352x1_0 : (⟨S4196352, .i32⟩ : BufTy).Contents (Elt F) → (⟨S4196352x1, .i32⟩ : BufTy).Contents (Elt F)),
    StableHlo.binary main_v65 main_v71 main_v72 ((fun x i => Host.gather gather_S2048x32_S4196352x1_S4196352x32_1_0_n_n_0_1_132 x i) : (⟨S2048x32, .f32⟩ : BufTy).Contents (Elt F) → (⟨S4196352x1, .i32⟩ : BufTy).Contents (Elt F) → (⟨S4196352x32, .f32⟩ : BufTy).Contents (Elt F)),
    StableHlo.unary main_v64 main_v73 (broadcastInDim S4196352x1 ![0] bcast_S4196352_S4196352x1_0 : (⟨S4196352, .f32⟩ : BufTy).Contents (Elt F) → (⟨S4196352x1, .f32⟩ : BufTy).Contents (Elt F)),
    StableHlo.unary main_v73 main_v74 (broadcastInDim S4196352x32 ![0, 1] bcast_S4196352x1_S4196352x32_0_1 : (⟨S4196352x1, .f32⟩ : BufTy).Contents (Elt F) → (⟨S4196352x32, .f32⟩ : BufTy).Contents (Elt F)),
    StableHlo.binary main_v72 main_v74 main_v75 (mulf : (⟨S4196352x32, .f32⟩ : BufTy).Contents (Elt F) → (⟨S4196352x32, .f32⟩ : BufTy).Contents (Elt F) → (⟨S4196352x32, .f32⟩ : BufTy).Contents (Elt F)) ]

/-- `%cst_24`, `%76`, `%c_25`, `%77`, `%78`, `%c_26`, `%79`, `%80`, `%81`, `%82`, `%83`, `%84`, `%85`, `%86`, the call `%87 = relu(…)` inlined (3 operations), `%88`, `%c_27`, `%89`. -/
abbrev seg14 : List (HloOp τ sig (Elt F)) :=
  [ StableHlo.nullary main_cst_24 (constant S_ .f32 0x00000000#32),
    StableHlo.unary main_cst_24 main_v76 (broadcastInDim S2048x32 ![] bcast_S_S2048x32 : (⟨S_, .f32⟩ : BufTy).Contents (Elt F) → (⟨S2048x32, .f32⟩ : BufTy).Contents (Elt F)),
    StableHlo.nullary main_c_25 (constantI S_ 32 0#32),
    StableHlo.unary main_c_25 main_v77 (broadcastInDim S4196352 ![] bcast_S_S4196352 : (⟨S_, .i32⟩ : BufTy).Contents (Elt F) → (⟨S4196352, .i32⟩ : BufTy).Contents (Elt F)),
    StableHlo.binary main_v31 main_v77 main_v78 (cmpi .slt : (⟨S4196352, .i32⟩ : BufTy).Contents (Elt F) → (⟨S4196352, .i32⟩ : BufTy).Contents (Elt F) → (⟨S4196352, .i1⟩ : BufTy).Contents (Elt F)),
    StableHlo.nullary main_c_26 (constantI S_ 32 2048#32),
    StableHlo.unary main_c_26 main_v79 (broadcastInDim S4196352 ![] bcast_S_S4196352 : (⟨S_, .i32⟩ : BufTy).Contents (Elt F) → (⟨S4196352, .i32⟩ : BufTy).Contents (Elt F)),
    StableHlo.binary main_v31 main_v79 main_v80 (addi : (⟨S4196352, .i32⟩ : BufTy).Contents (Elt F) → (⟨S4196352, .i32⟩ : BufTy).Contents (Elt F) → (⟨S4196352, .i32⟩ : BufTy).Contents (Elt F)),
    StableHlo.ternary main_v78 main_v80 main_v31 main_v81 (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)),
    StableHlo.unary main_v81 main_v82 (broadcastInDim S4196352x1 ![0] bcast_S4196352_S4196352x1_0 : (⟨S4196352, .i32⟩ : BufTy).Contents (Elt F) → (⟨S4196352x1, .i32⟩ : BufTy).Contents (Elt F)),
    StableHlo.ternary main_v76 main_v82 main_v75 main_v83 ((fun x i u => Host.scatterAdd scatter_S2048x32_S4196352x1_S4196352x32_1_0_0_1 x i u) : (⟨S2048x32, .f32⟩ : BufTy).Contents (Elt F) → (⟨S4196352x1, .i32⟩ : BufTy).Contents (Elt F) → (⟨S4196352x32, .f32⟩ : BufTy).Contents (Elt F) → (⟨S2048x32, .f32⟩ : BufTy).Contents (Elt F)),
    StableHlo.unary main_arg3 main_v84 (broadcastInDim S1x32 ![1] bcast_S32_S1x32_1 : (⟨S32, .f32⟩ : BufTy).Contents (Elt F) → (⟨S1x32, .f32⟩ : BufTy).Contents (Elt F)),
    StableHlo.unary main_v84 main_v85 (broadcastInDim S2048x32 ![0, 1] bcast_S1x32_S2048x32_0_1 : (⟨S1x32, .f32⟩ : BufTy).Contents (Elt F) → (⟨S2048x32, .f32⟩ : BufTy).Contents (Elt F)),
    StableHlo.binary main_v83 main_v85 main_v86 (addf : (⟨S2048x32, .f32⟩ : BufTy).Contents (Elt F) → (⟨S2048x32, .f32⟩ : BufTy).Contents (Elt F) → (⟨S2048x32, .f32⟩ : BufTy).Contents (Elt F)),
    StableHlo.TRef.nullary main_call11.cst (constant S_ .f32 0x00000000#32),
    StableHlo.TRef.unary main_call11.cst main_call11.v0 (broadcastInDim S2048x32 ![] bcast_S_S2048x32),
    StableHlo.TRef.binary (StableHlo.TRef.of main_v86 : StableHlo.TRef sig ⟨S2048x32, .f32⟩) main_call11.v0 main_call11.v1 maximumf,
    StableHlo.binary main_v87 main_arg4 main_v88 ((fun l r => Host.dotGeneral dot_S2048x32_S32x16_S2048x16_1_0_0_1_n_n none l r) : (⟨S2048x32, .f32⟩ : BufTy).Contents (Elt F) → (⟨S32x16, .f32⟩ : BufTy).Contents (Elt F) → (⟨S2048x16, .f32⟩ : BufTy).Contents (Elt F)),
    StableHlo.nullary main_c_27 (constantI S_ 32 0#32),
    StableHlo.unary main_c_27 main_v89 (broadcastInDim S4196352 ![] bcast_S_S4196352 : (⟨S_, .i32⟩ : BufTy).Contents (Elt F) → (⟨S4196352, .i32⟩ : BufTy).Contents (Elt F)) ]

/-- `%90`, `%c_28`, `%91`, `%92`, `%93`, `%94`, `%95`, `%96`, `%97`, `%98`, `%cst_29`, `%99`, `%c_30`, `%100`, `%101`, `%c_31`, `%102`, `%103`, `%104`, `%105`, `%106`. -/
abbrev seg15 : List (HloOp τ sig (Elt F)) :=
  [ StableHlo.binary main_v30 main_v89 main_v90 (cmpi .slt : (⟨S4196352, .i32⟩ : BufTy).Contents (Elt F) → (⟨S4196352, .i32⟩ : BufTy).Contents (Elt F) → (⟨S4196352, .i1⟩ : BufTy).Contents (Elt F)),
    StableHlo.nullary main_c_28 (constantI S_ 32 2048#32),
    StableHlo.unary main_c_28 main_v91 (broadcastInDim S4196352 ![] bcast_S_S4196352 : (⟨S_, .i32⟩ : BufTy).Contents (Elt F) → (⟨S4196352, .i32⟩ : BufTy).Contents (Elt F)),
    StableHlo.binary main_v30 main_v91 main_v92 (addi : (⟨S4196352, .i32⟩ : BufTy).Contents (Elt F) → (⟨S4196352, .i32⟩ : BufTy).Contents (Elt F) → (⟨S4196352, .i32⟩ : BufTy).Contents (Elt F)),
    StableHlo.ternary main_v90 main_v92 main_v30 main_v93 (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)),
    StableHlo.unary main_v93 main_v94 (broadcastInDim S4196352x1 ![0] bcast_S4196352_S4196352x1_0 : (⟨S4196352, .i32⟩ : BufTy).Contents (Elt F) → (⟨S4196352x1, .i32⟩ : BufTy).Contents (Elt F)),
    StableHlo.binary main_v88 main_v94 main_v95 ((fun x i => Host.gather gather_S2048x16_S4196352x1_S4196352x16_1_0_n_n_0_1_116 x i) : (⟨S2048x16, .f32⟩ : BufTy).Contents (Elt F) → (⟨S4196352x1, .i32⟩ : BufTy).Contents (Elt F) → (⟨S4196352x16, .f32⟩ : BufTy).Contents (Elt F)),
    StableHlo.unary main_v64 main_v96 (broadcastInDim S4196352x1 ![0] bcast_S4196352_S4196352x1_0 : (⟨S4196352, .f32⟩ : BufTy).Contents (Elt F) → (⟨S4196352x1, .f32⟩ : BufTy).Contents (Elt F)),
    StableHlo.unary main_v96 main_v97 (broadcastInDim S4196352x16 ![0, 1] bcast_S4196352x1_S4196352x16_0_1 : (⟨S4196352x1, .f32⟩ : BufTy).Contents (Elt F) → (⟨S4196352x16, .f32⟩ : BufTy).Contents (Elt F)),
    StableHlo.binary main_v95 main_v97 main_v98 (mulf : (⟨S4196352x16, .f32⟩ : BufTy).Contents (Elt F) → (⟨S4196352x16, .f32⟩ : BufTy).Contents (Elt F) → (⟨S4196352x16, .f32⟩ : BufTy).Contents (Elt F)),
    StableHlo.nullary main_cst_29 (constant S_ .f32 0x00000000#32),
    StableHlo.unary main_cst_29 main_v99 (broadcastInDim S2048x16 ![] bcast_S_S2048x16 : (⟨S_, .f32⟩ : BufTy).Contents (Elt F) → (⟨S2048x16, .f32⟩ : BufTy).Contents (Elt F)),
    StableHlo.nullary main_c_30 (constantI S_ 32 0#32),
    StableHlo.unary main_c_30 main_v100 (broadcastInDim S4196352 ![] bcast_S_S4196352 : (⟨S_, .i32⟩ : BufTy).Contents (Elt F) → (⟨S4196352, .i32⟩ : BufTy).Contents (Elt F)),
    StableHlo.binary main_v31 main_v100 main_v101 (cmpi .slt : (⟨S4196352, .i32⟩ : BufTy).Contents (Elt F) → (⟨S4196352, .i32⟩ : BufTy).Contents (Elt F) → (⟨S4196352, .i1⟩ : BufTy).Contents (Elt F)),
    StableHlo.nullary main_c_31 (constantI S_ 32 2048#32),
    StableHlo.unary main_c_31 main_v102 (broadcastInDim S4196352 ![] bcast_S_S4196352 : (⟨S_, .i32⟩ : BufTy).Contents (Elt F) → (⟨S4196352, .i32⟩ : BufTy).Contents (Elt F)),
    StableHlo.binary main_v31 main_v102 main_v103 (addi : (⟨S4196352, .i32⟩ : BufTy).Contents (Elt F) → (⟨S4196352, .i32⟩ : BufTy).Contents (Elt F) → (⟨S4196352, .i32⟩ : BufTy).Contents (Elt F)),
    StableHlo.ternary main_v101 main_v103 main_v31 main_v104 (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)),
    StableHlo.unary main_v104 main_v105 (broadcastInDim S4196352x1 ![0] bcast_S4196352_S4196352x1_0 : (⟨S4196352, .i32⟩ : BufTy).Contents (Elt F) → (⟨S4196352x1, .i32⟩ : BufTy).Contents (Elt F)),
    StableHlo.ternary main_v99 main_v105 main_v98 main_v106 ((fun x i u => Host.scatterAdd scatter_S2048x16_S4196352x1_S4196352x16_1_0_0_1 x i u) : (⟨S2048x16, .f32⟩ : BufTy).Contents (Elt F) → (⟨S4196352x1, .i32⟩ : BufTy).Contents (Elt F) → (⟨S4196352x16, .f32⟩ : BufTy).Contents (Elt F) → (⟨S2048x16, .f32⟩ : BufTy).Contents (Elt F)) ]

/-- `%107`, `%108`, `%109`, `%110`, `%111`, `%112`, `%113`, `%114`, `%115`, `%cst_32`, `%116`, `%117`, `%cst_33`, `%118`, `%119`. -/
abbrev seg16 : List (HloOp τ sig (Elt F)) :=
  [ StableHlo.unary main_arg5 main_v107 (broadcastInDim S1x16 ![1] bcast_S16_S1x16_1 : (⟨S16, .f32⟩ : BufTy).Contents (Elt F) → (⟨S1x16, .f32⟩ : BufTy).Contents (Elt F)),
    StableHlo.unary main_v107 main_v108 (broadcastInDim S2048x16 ![0, 1] bcast_S1x16_S2048x16_0_1 : (⟨S1x16, .f32⟩ : BufTy).Contents (Elt F) → (⟨S2048x16, .f32⟩ : BufTy).Contents (Elt F)),
    StableHlo.binary main_v106 main_v108 main_v109 (addf : (⟨S2048x16, .f32⟩ : BufTy).Contents (Elt F) → (⟨S2048x16, .f32⟩ : BufTy).Contents (Elt F) → (⟨S2048x16, .f32⟩ : BufTy).Contents (Elt F)),
    StableHlo.binary main_v109 main_arg1 main_v110 (addf : (⟨S2048x16, .f32⟩ : BufTy).Contents (Elt F) → (⟨S2048x16, .f32⟩ : BufTy).Contents (Elt F) → (⟨S2048x16, .f32⟩ : BufTy).Contents (Elt F)),
    StableHlo.unary main_arg6 main_v111 (broadcastInDim S1x1 ![1] bcast_S1_S1x1_1 : (⟨S1, .f32⟩ : BufTy).Contents (Elt F) → (⟨S1x1, .f32⟩ : BufTy).Contents (Elt F)),
    StableHlo.unary main_v111 main_v112 (broadcastInDim S2048x16 ![0, 1] bcast_S1x1_S2048x16_0_1 : (⟨S1x1, .f32⟩ : BufTy).Contents (Elt F) → (⟨S2048x16, .f32⟩ : BufTy).Contents (Elt F)),
    StableHlo.binary main_v112 main_v110 main_v113 (mulf : (⟨S2048x16, .f32⟩ : BufTy).Contents (Elt F) → (⟨S2048x16, .f32⟩ : BufTy).Contents (Elt F) → (⟨S2048x16, .f32⟩ : BufTy).Contents (Elt F)),
    StableHlo.unary main_v113 main_v114 (Host.negf : (⟨S2048x16, .f32⟩ : BufTy).Contents (Elt F) → (⟨S2048x16, .f32⟩ : BufTy).Contents (Elt F)),
    StableHlo.unary main_v114 main_v115 (Host.exp : (⟨S2048x16, .f32⟩ : BufTy).Contents (Elt F) → (⟨S2048x16, .f32⟩ : BufTy).Contents (Elt F)),
    StableHlo.nullary main_cst_32 (constant S_ .f32 0x3F800000#32),
    StableHlo.unary main_cst_32 main_v116 (broadcastInDim S2048x16 ![] bcast_S_S2048x16 : (⟨S_, .f32⟩ : BufTy).Contents (Elt F) → (⟨S2048x16, .f32⟩ : BufTy).Contents (Elt F)),
    StableHlo.binary main_v116 main_v115 main_v117 (addf : (⟨S2048x16, .f32⟩ : BufTy).Contents (Elt F) → (⟨S2048x16, .f32⟩ : BufTy).Contents (Elt F) → (⟨S2048x16, .f32⟩ : BufTy).Contents (Elt F)),
    StableHlo.nullary main_cst_33 (constant S_ .f32 0x3F800000#32),
    StableHlo.unary main_cst_33 main_v118 (broadcastInDim S2048x16 ![] bcast_S_S2048x16 : (⟨S_, .f32⟩ : BufTy).Contents (Elt F) → (⟨S2048x16, .f32⟩ : BufTy).Contents (Elt F)),
    StableHlo.binary main_v118 main_v117 main_v119 (Host.divf : (⟨S2048x16, .f32⟩ : BufTy).Contents (Elt F) → (⟨S2048x16, .f32⟩ : BufTy).Contents (Elt F) → (⟨S2048x16, .f32⟩ : BufTy).Contents (Elt F)) ]

/-- @main's operations in order, every call inlined: the segments one after the other. -/
abbrev ops : List (HloOp τ sig (Elt F)) :=
  seg00 ++ seg01 ++ seg02 ++ seg03 ++ seg04 ++ seg05 ++ seg06 ++ seg07 ++ seg08 ++ seg09 ++ seg10 ++ seg11 ++ seg12 ++ seg13 ++ seg14 ++ seg15 ++ seg16

theorem seg00_sub : (seg00 : List (HloOp τ sig (Elt F))).Forall fun op => op.bufs ⊆ tcRefs τ sig :=
  ⟨nullary_bufs_sub .., unary_bufs_sub .., binary_bufs_sub ..⟩

theorem seg00_fresh : ∀ op ∈ (seg00 : List (HloOp τ sig (Elt F))), op.fresh = ∅ := by
  intro _ h; (repeat (cases h with | head => rfl | tail _ h => ?_)); exact nomatch h

theorem seg01_sub : (seg01 : List (HloOp τ sig (Elt F))).Forall fun op => op.bufs ⊆ tcRefs τ sig :=
  ⟨reshape_bufs_sub .., unary_bufs_sub .., nullary_bufs_sub .., unary_bufs_sub .., binary_bufs_sub ..⟩

theorem seg01_fresh : ∀ op ∈ (seg01 : List (HloOp τ sig (Elt F))), op.fresh = ∅ := by
  intro _ h; (repeat (cases h with | head => rfl | tail _ h => ?_)); exact nomatch h

theorem seg02_sub : (seg02 : List (HloOp τ sig (Elt F))).Forall fun op => op.bufs ⊆ tcRefs τ sig :=
  ⟨nullary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub ..⟩

theorem seg02_fresh : ∀ op ∈ (seg02 : List (HloOp τ sig (Elt F))), op.fresh = ∅ := by
  intro _ h; (repeat (cases h with | head => rfl | tail _ h => ?_)); exact nomatch h

theorem seg03_sub : (seg03 : List (HloOp τ sig (Elt F))).Forall fun op => op.bufs ⊆ tcRefs τ sig :=
  ⟨nullary_bufs_sub .., unary_bufs_sub .., binary_bufs_sub ..⟩

theorem seg03_fresh : ∀ op ∈ (seg03 : List (HloOp τ sig (Elt F))), op.fresh = ∅ := by
  intro _ h; (repeat (cases h with | head => rfl | tail _ h => ?_)); exact nomatch h

theorem seg04_sub : (seg04 : List (HloOp τ sig (Elt F))).Forall fun op => op.bufs ⊆ tcRefs τ sig :=
  ⟨nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩

theorem seg04_fresh : ∀ op ∈ (seg04 : List (HloOp τ sig (Elt F))), op.fresh = ∅ := by
  intro _ h; (repeat (cases h with | head => rfl | tail _ h => ?_)); exact nomatch h

theorem seg05_sub : (seg05 : List (HloOp τ sig (Elt F))).Forall fun op => op.bufs ⊆ tcRefs τ sig :=
  ⟨nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩

theorem seg05_fresh : ∀ op ∈ (seg05 : List (HloOp τ sig (Elt F))), op.fresh = ∅ := by
  intro _ h; (repeat (cases h with | head => rfl | tail _ h => ?_)); exact nomatch h

theorem seg06_sub : (seg06 : List (HloOp τ sig (Elt F))).Forall fun op => op.bufs ⊆ tcRefs τ sig :=
  ⟨nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩

theorem seg06_fresh : ∀ op ∈ (seg06 : List (HloOp τ sig (Elt F))), op.fresh = ∅ := by
  intro _ h; (repeat (cases h with | head => rfl | tail _ h => ?_)); exact nomatch h

theorem seg07_sub : (seg07 : List (HloOp τ sig (Elt F))).Forall fun op => op.bufs ⊆ tcRefs τ sig :=
  ⟨nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩

theorem seg07_fresh : ∀ op ∈ (seg07 : List (HloOp τ sig (Elt F))), op.fresh = ∅ := by
  intro _ h; (repeat (cases h with | head => rfl | tail _ h => ?_)); exact nomatch h

theorem seg08_sub : (seg08 : List (HloOp τ sig (Elt F))).Forall fun op => op.bufs ⊆ tcRefs τ sig :=
  ⟨nullary_bufs_sub .., unary_bufs_sub .., nullary_bufs_sub .., binary_bufs_sub .., unary_bufs_sub .., binary_bufs_sub .., nullary_bufs_sub .., unary_bufs_sub .., unary_bufs_sub .., ternary_bufs_sub .., nullary_bufs_sub .., unary_bufs_sub .., unary_bufs_sub .., ternary_bufs_sub ..⟩

theorem seg08_fresh : ∀ op ∈ (seg08 : List (HloOp τ sig (Elt F))), op.fresh = ∅ := by
  intro _ h; (repeat (cases h with | head => rfl | tail _ h => ?_)); exact nomatch h

theorem seg09_sub : (seg09 : List (HloOp τ sig (Elt F))).Forall fun op => op.bufs ⊆ tcRefs τ sig :=
  ⟨nullary_bufs_sub .., unary_bufs_sub .., binary_bufs_sub .., unary_bufs_sub .., nullary_bufs_sub .., binary_bufs_sub .., nullary_bufs_sub .., unary_bufs_sub .., binary_bufs_sub ..⟩

theorem seg09_fresh : ∀ op ∈ (seg09 : List (HloOp τ sig (Elt F))), op.fresh = ∅ := by
  intro _ h; (repeat (cases h with | head => rfl | tail _ h => ?_)); exact nomatch h

theorem seg10_sub : (seg10 : List (HloOp τ sig (Elt F))).Forall fun op => op.bufs ⊆ tcRefs τ sig :=
  ⟨nullary_bufs_sub .., binary_bufs_sub .., binary_bufs_sub .., nullary_bufs_sub .., unary_bufs_sub .., binary_bufs_sub .., unary_bufs_sub ..⟩

theorem seg10_fresh : ∀ op ∈ (seg10 : List (HloOp τ sig (Elt F))), op.fresh = ∅ := by
  intro _ h; (repeat (cases h with | head => rfl | tail _ h => ?_)); exact nomatch h

theorem seg11_sub : (seg11 : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub .., unary_bufs_sub .., ternary_bufs_sub ..⟩

theorem seg11_fresh : ∀ op ∈ (seg11 : List (HloOp τ sig (Elt F))), op.fresh = ∅ := by
  intro _ h; (repeat (cases h with | head => rfl | tail _ h => ?_)); exact nomatch h

theorem seg12_sub : (seg12 : List (HloOp τ sig (Elt F))).Forall fun op => op.bufs ⊆ tcRefs τ sig :=
  ⟨nullary_bufs_sub .., unary_bufs_sub .., binary_bufs_sub .., unary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub ..⟩

theorem seg12_fresh : ∀ op ∈ (seg12 : List (HloOp τ sig (Elt F))), op.fresh = ∅ := by
  intro _ h; (repeat (cases h with | head => rfl | tail _ h => ?_)); exact nomatch h

theorem seg13_sub : (seg13 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub ..⟩

theorem seg13_fresh : ∀ op ∈ (seg13 : List (HloOp τ sig (Elt F))), op.fresh = ∅ := by
  intro _ h; (repeat (cases h with | head => rfl | tail _ h => ?_)); exact nomatch h

theorem seg14_sub : (seg14 : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub ..⟩

theorem seg14_fresh : ∀ op ∈ (seg14 : List (HloOp τ sig (Elt F))), op.fresh = ∅ := by
  intro _ h; (repeat (cases h with | head => rfl | tail _ h => ?_)); exact nomatch h

theorem seg15_sub : (seg15 : List (HloOp τ sig (Elt F))).Forall fun op => op.bufs ⊆ tcRefs τ sig :=
  ⟨binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub ..⟩

theorem seg15_fresh : ∀ op ∈ (seg15 : List (HloOp τ sig (Elt F))), op.fresh = ∅ := by
  intro _ h; (repeat (cases h with | head => rfl | tail _ h => ?_)); exact nomatch h

theorem seg16_sub : (seg16 : List (HloOp τ sig (Elt F))).Forall fun op => op.bufs ⊆ tcRefs τ sig :=
  ⟨unary_bufs_sub .., unary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub ..⟩

theorem seg16_fresh : ∀ op ∈ (seg16 : List (HloOp τ sig (Elt F))), op.fresh = ∅ := by
  intro _ h; (repeat (cases h with | head => rfl | tail _ h => ?_)); exact nomatch h

end Cert.ReferenceIdeal.HandRun

end
-- ==== Proof.RefRun.lean ====
/-
  The run of the reference program, read off its line of operations: each window of @main is the straight line of
  its segments (the called functions unfolded at their calls), @main is the straight line of all of them, and so every
  weakly fair execution of it ends with each buffer at the fold of the operations' results over the launch contents.
-/
import proofs.«173982_g33990371181433_cont_sun_m_937_10_alg».proof.Proof.RefRunOps

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

-- one chain of binds per window, re-associated: the rewrite under the chain recurses once per operation, and the
-- unfolded callees make the term large
set_option maxRecDepth 16384 in
set_option maxHeartbeats 4000000 in
/-- Statements of the first window of @main are the segments seg00 … seg11 run in order: the called functions'
    definitions unfolded at their calls, both sides are one chain of operation steps once sequencing is reassociated. -/
theorem part0_eq (d : Dev nD) : main_part0 (F := F) d = seq (seg00 ++ seg01 ++ seg02 ++ seg03 ++ seg04 ++ seg05 ++ seg06 ++ seg07 ++ seg08 ++ seg09 ++ seg10 ++ seg11) := by
  simp only [main_part0, fn_cumsum_0.body, fn_cumsum.body, fn_clip.body, fn_cumsum_1.body, fn_where.body, fn_floor_divide.body, fn_where_2.body, fn_remainder.body, fn_where_3.body, fn_count_nonzero.body, fn_where_4.body, fn_relu.body, seg00, seg01, seg02, seg03, seg04, seg05, seg06, seg07, seg08, seg09, seg10, seg11, seq, List.cons_append, List.nil_append, bind_assoc, pure_bind]
  rfl

-- one chain of binds per window, re-associated: the rewrite under the chain recurses once per operation, and the
-- unfolded callees make the term large
set_option maxRecDepth 16384 in
set_option maxHeartbeats 4000000 in
/-- Statements of the second window of @main are the segments seg12 … seg14 run in order: the called functions'
    definitions unfolded at their calls, both sides are one chain of operation steps once sequencing is reassociated. -/
theorem part1_eq (d : Dev nD) : main_part1 (F := F) d = seq (seg12 ++ seg13 ++ seg14) := by
  simp only [main_part1, fn_cumsum_0.body, fn_cumsum.body, fn_clip.body, fn_cumsum_1.body, fn_where.body, fn_floor_divide.body, fn_where_2.body, fn_remainder.body, fn_where_3.body, fn_count_nonzero.body, fn_where_4.body, fn_relu.body, seg12, seg13, seg14, seq, List.cons_append, List.nil_append, bind_assoc, pure_bind]
  rfl

-- one chain of binds per window, re-associated: the rewrite under the chain recurses once per operation, and the
-- unfolded callees make the term large
set_option maxRecDepth 16384 in
set_option maxHeartbeats 4000000 in
/-- Statements of the third window of @main are the segments seg15 … seg16 run in order: the called functions'
    definitions unfolded at their calls, both sides are one chain of operation steps once sequencing is reassociated. -/
theorem part2_eq (d : Dev nD) : main_part2 (F := F) d = seq (seg15 ++ seg16) := by
  simp only [main_part2, seg15, seg16, seq, List.cons_append, List.nil_append, bind_assoc, pure_bind]

/-- @main is its three windows run in order, each the straight line of its segments: the whole is the straight line of
    all the segments (a concatenation of lines run as one is the lines run one after the other). -/
theorem main_eq (d : Dev nD) : main (F := F) d = seq ops := by
  have e : main (F := F) d = (main_part0 d >>= fun _ => main_part1 d >>= fun _ => main_part2 d) := rfl
  rw [e, part0_eq, part1_eq, part2_eq]
  simp only [ops, seq_append, bind_assoc]

theorem scopedRefs_eq : (Finset.univ.filter fun b : Ref sig .tc => b.isScoped) = ∅ := by decide
theorem scopedSems_eq : (Finset.univ.filter fun sm : SemLoc sig => sm.isScoped .tc) = ∅ := by decide

/-! Each segment's operations touch TensorCore references only, stated element by element (the form that passes to a
    concatenation without unfolding it). -/
theorem seg00_sub_mem : ∀ op ∈ (seg00 : List (HloOp τ sig (Elt F))), op.bufs ⊆ tcRefs τ sig :=
  List.forall_iff_forall_mem.mp seg00_sub
theorem seg01_sub_mem : ∀ op ∈ (seg01 : List (HloOp τ sig (Elt F))), op.bufs ⊆ tcRefs τ sig :=
  List.forall_iff_forall_mem.mp seg01_sub
theorem seg02_sub_mem : ∀ op ∈ (seg02 : List (HloOp τ sig (Elt F))), op.bufs ⊆ tcRefs τ sig :=
  List.forall_iff_forall_mem.mp seg02_sub
theorem seg03_sub_mem : ∀ op ∈ (seg03 : List (HloOp τ sig (Elt F))), op.bufs ⊆ tcRefs τ sig :=
  List.forall_iff_forall_mem.mp seg03_sub
theorem seg04_sub_mem : ∀ op ∈ (seg04 : List (HloOp τ sig (Elt F))), op.bufs ⊆ tcRefs τ sig :=
  List.forall_iff_forall_mem.mp seg04_sub
theorem seg05_sub_mem : ∀ op ∈ (seg05 : List (HloOp τ sig (Elt F))), op.bufs ⊆ tcRefs τ sig :=
  List.forall_iff_forall_mem.mp seg05_sub
theorem seg06_sub_mem : ∀ op ∈ (seg06 : List (HloOp τ sig (Elt F))), op.bufs ⊆ tcRefs τ sig :=
  List.forall_iff_forall_mem.mp seg06_sub
theorem seg07_sub_mem : ∀ op ∈ (seg07 : List (HloOp τ sig (Elt F))), op.bufs ⊆ tcRefs τ sig :=
  List.forall_iff_forall_mem.mp seg07_sub
theorem seg08_sub_mem : ∀ op ∈ (seg08 : List (HloOp τ sig (Elt F))), op.bufs ⊆ tcRefs τ sig :=
  List.forall_iff_forall_mem.mp seg08_sub
theorem seg09_sub_mem : ∀ op ∈ (seg09 : List (HloOp τ sig (Elt F))), op.bufs ⊆ tcRefs τ sig :=
  List.forall_iff_forall_mem.mp seg09_sub
theorem seg10_sub_mem : ∀ op ∈ (seg10 : List (HloOp τ sig (Elt F))), op.bufs ⊆ tcRefs τ sig :=
  List.forall_iff_forall_mem.mp seg10_sub
theorem seg11_sub_mem : ∀ op ∈ (seg11 : List (HloOp τ sig (Elt F))), op.bufs ⊆ tcRefs τ sig :=
  List.forall_iff_forall_mem.mp seg11_sub
theorem seg12_sub_mem : ∀ op ∈ (seg12 : List (HloOp τ sig (Elt F))), op.bufs ⊆ tcRefs τ sig :=
  List.forall_iff_forall_mem.mp seg12_sub
theorem seg13_sub_mem : ∀ op ∈ (seg13 : List (HloOp τ sig (Elt F))), op.bufs ⊆ tcRefs τ sig :=
  List.forall_iff_forall_mem.mp seg13_sub
theorem seg14_sub_mem : ∀ op ∈ (seg14 : List (HloOp τ sig (Elt F))), op.bufs ⊆ tcRefs τ sig :=
  List.forall_iff_forall_mem.mp seg14_sub
theorem seg15_sub_mem : ∀ op ∈ (seg15 : List (HloOp τ sig (Elt F))), op.bufs ⊆ tcRefs τ sig :=
  List.forall_iff_forall_mem.mp seg15_sub
theorem seg16_sub_mem : ∀ op ∈ (seg16 : List (HloOp τ sig (Elt F))), op.bufs ⊆ tcRefs τ sig :=
  List.forall_iff_forall_mem.mp seg16_sub

/-- Operations of two lines that touch TensorCore references only still do once the lines are concatenated. -/
theorem sub_append {l₁ l₂ : List (HloOp τ sig (Elt F))} (h₁ : ∀ op ∈ l₁, op.bufs ⊆ tcRefs τ sig)
    (h₂ : ∀ op ∈ l₂, op.bufs ⊆ tcRefs τ sig) : ∀ op ∈ l₁ ++ l₂, op.bufs ⊆ tcRefs τ sig :=
  fun op h => (List.mem_append.mp h).elim (h₁ op) (h₂ op)

/-- Operations of two lines that each determine their results still do once the lines are concatenated. -/
theorem fresh_append {l₁ l₂ : List (HloOp τ sig (Elt F))} (h₁ : ∀ op ∈ l₁, op.fresh = ∅) (h₂ : ∀ op ∈ l₂, op.fresh = ∅) :
    ∀ op ∈ l₁ ++ l₂, op.fresh = ∅ :=
  fun op h => (List.mem_append.mp h).elim (h₁ op) (h₂ op)

/-- Every operation of the line touches TensorCore references only: segment by segment. -/
theorem ops_sub_mem : ∀ op ∈ (ops : List (HloOp τ sig (Elt F))), op.bufs ⊆ tcRefs τ sig :=
  (sub_append (sub_append (sub_append (sub_append (sub_append (sub_append (sub_append (sub_append (sub_append (sub_append (sub_append (sub_append (sub_append (sub_append (sub_append (sub_append seg00_sub_mem seg01_sub_mem) seg02_sub_mem) seg03_sub_mem) seg04_sub_mem) seg05_sub_mem) seg06_sub_mem) seg07_sub_mem) seg08_sub_mem) seg09_sub_mem) seg10_sub_mem) seg11_sub_mem) seg12_sub_mem) seg13_sub_mem) seg14_sub_mem) seg15_sub_mem) seg16_sub_mem)

/-- The same as a conjunction over the list, on every device (the line is the same on each). -/
theorem ops_sub : ∀ _ : Dev nD, (ops : List (HloOp τ sig (Elt F))).Forall fun op => op.bufs ⊆ tcRefs τ sig := by
  intro _
  apply List.forall_iff_forall_mem.mpr
  exact ops_sub_mem

/-- Every operation of the line determines its results: segment by segment. -/
theorem ops_fresh : ∀ op ∈ (ops : List (HloOp τ sig (Elt F))), op.fresh = ∅ :=
  (fresh_append (fresh_append (fresh_append (fresh_append (fresh_append (fresh_append (fresh_append (fresh_append (fresh_append (fresh_append (fresh_append (fresh_append (fresh_append (fresh_append (fresh_append (fresh_append seg00_fresh seg01_fresh) seg02_fresh) seg03_fresh) seg04_fresh) seg05_fresh) seg06_fresh) seg07_fresh) seg08_fresh) seg09_fresh) seg10_fresh) seg11_fresh) seg12_fresh) seg13_fresh) seg14_fresh) seg15_fresh) seg16_fresh)

/-- On every device, for any float values, from any memory with zero counters: every weakly fair execution of @main
    terminates, and every final state has each TensorCore buffer at the fold of the operations' results, in order, over
    the device's launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = StableHlo.after ops (StableHlo.launchContents m d) (Proc.devRef .tc b) :=
  run_seq scopedRefs_eq scopedSems_eq defs main (fun _ => ops) main_eq ops_sub m ρ (fun _ => ops_fresh)

/-- What two lines run one after the other leave is what the second leaves from what the first leaves. -/
private theorem after_concat (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- What the whole line leaves, read a segment at a time: each segment's fold over what the segments before it leave. -/
theorem after_ops (V : Valuation τ sig (Elt F)) :
    after ops V = after seg16 (after seg15 (after seg14 (after seg13 (after seg12 (after seg11 (after seg10 (after seg09 (after seg08 (after seg07 (after seg06 (after seg05 (after seg04 (after seg03 (after seg02 (after seg01 (after seg00 V)))))))))))))))) := by
  simp only [ops, after_concat]

end Cert.ReferenceIdeal.HandRun

end
-- ==== Proof.RefReadKeep.lean ====
/-
  Per segment of the reference's line of operations: the buffers its operations write, as a list of references,
  and that every operation of the segment writes into that list (so that a reference outside the list keeps its
  contents through the segment).
-/
import proofs.«173982_g33990371181433_cont_sun_m_937_10_alg».proof.Proof.RefRunOps

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The buffers that seg00's operations write. -/
abbrev seg00_W : List (Ref sig .tc) := [main_cst, main_v0, main_v1]
theorem seg00_writes : (seg00 : List (HloOp τ sig (Elt F))).Forall fun op => op.writes ⊆ (seg00_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- The buffers that seg01's operations write. -/
abbrev seg01_W : List (Ref sig .tc) := [main_call0_v0, main_call0_v1, main_call0_call0_c, main_call0_call0_v0, main_v2]
theorem seg01_writes : (seg01 : List (HloOp τ sig (Elt F))).Forall fun op => op.writes ⊆ (seg01_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- The buffers that seg02's operations write. -/
abbrev seg02_W : List (Ref sig .tc) := [main_c, main_v3, main_c_0, main_call1_v0, main_call1_v1, main_v4, main_c_1, main_v5, main_v6, main_c_2, main_v7, main_v8, main_v9, main_v10, main_c_3, main_v11, main_v12]
theorem seg02_writes : (seg02 : List (HloOp τ sig (Elt F))).Forall fun op => op.writes ⊆ (seg02_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- The buffers that seg03's operations write. -/
abbrev seg03_W : List (Ref sig .tc) := [main_call2_call0_c, main_call2_call0_v0, main_v13]
theorem seg03_writes : (seg03 : List (HloOp τ sig (Elt F))).Forall fun op => op.writes ⊆ (seg03_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- The buffers that seg04's operations write. -/
abbrev seg04_W : List (Ref sig .tc) := [main_c_4, main_call3_v0, main_call3_v1, main_call3_v2, main_call3_v3, main_call3_v4, main_call3_v5, main_call3_v6, main_call3_v7, main_call3_c, main_call3_v8, main_call3_v9, main_call3_v10, main_call3_c_0, main_call3_v11, main_call3_v12, main_v14]
theorem seg04_writes : (seg04 : List (HloOp τ sig (Elt F))).Forall fun op => op.writes ⊆ (seg04_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- The buffers that seg05's operations write. -/
abbrev seg05_W : List (Ref sig .tc) := [main_c_5, main_call4_v0, main_call4_c, main_call4_v1, main_call4_c_0, main_call4_v2, main_call4_v3, main_call4_v4, main_call4_c_1, main_call4_v5, main_call4_v6, main_call4_c_2, main_call4_v7, main_call4_v8, main_call4_c_3, main_call4_v9, main_call4_v10, main_call4_v11, main_call4_v12, main_call4_v13, main_call4_v14, main_v15]
theorem seg05_writes : (seg05 : List (HloOp τ sig (Elt F))).Forall fun op => op.writes ⊆ (seg05_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- The buffers that seg06's operations write. -/
abbrev seg06_W : List (Ref sig .tc) := [main_c_6, main_call5_v0, main_call5_v1, main_call5_v2, main_call5_v3, main_call5_v4, main_call5_v5, main_call5_v6, main_call5_v7, main_call5_c, main_call5_v8, main_call5_v9, main_call5_v10, main_call5_c_0, main_call5_v11, main_call5_v12, main_v16]
theorem seg06_writes : (seg06 : List (HloOp τ sig (Elt F))).Forall fun op => op.writes ⊆ (seg06_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- The buffers that seg07's operations write. -/
abbrev seg07_W : List (Ref sig .tc) := [main_c_7, main_call6_v0, main_call6_c, main_call6_v1, main_call6_c_0, main_call6_v2, main_call6_v3, main_call6_v4, main_call6_c_1, main_call6_v5, main_call6_v6, main_call6_c_2, main_call6_v7, main_call6_v8, main_call6_c_3, main_call6_v9, main_call6_v10, main_call6_v11, main_call6_v12, main_call6_v13, main_call6_v14, main_v17]
theorem seg07_writes : (seg07 : List (HloOp τ sig (Elt F))).Forall fun op => op.writes ⊆ (seg07_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- The buffers that seg08's operations write. -/
abbrev seg08_W : List (Ref sig .tc) := [main_v18, main_v19, main_c_8, main_v20, main_v21, main_v22, main_c_9, main_call7_v0, main_call7_v1, main_v23, main_c_10, main_call8_v0, main_call8_v1, main_v24]
theorem seg08_writes : (seg08 : List (HloOp τ sig (Elt F))).Forall fun op => op.writes ⊆ (seg08_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- The buffers that seg09's operations write. -/
abbrev seg09_W : List (Ref sig .tc) := [main_call9_cst, main_call9_v0, main_call9_v1, main_call9_v2, main_call9_c, main_v25, main_v26, main_v27, main_v28]
theorem seg09_writes : (seg09 : List (HloOp τ sig (Elt F))).Forall fun op => op.writes ⊆ (seg09_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- The buffers that seg10's operations write. -/
abbrev seg10_W : List (Ref sig .tc) := [main_v29, main_v30, main_v31, main_c_11, main_v32, main_v33, main_v34]
theorem seg10_writes : (seg10 : List (HloOp τ sig (Elt F))).Forall fun op => op.writes ⊆ (seg10_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- The buffers that seg11's operations write. -/
abbrev seg11_W : List (Ref sig .tc) := [main_cst_12, main_v35, main_c_13, main_v36, main_v37, main_c_14, main_v38, main_v39, main_v40, main_v41, main_v42]
theorem seg11_writes : (seg11 : List (HloOp τ sig (Elt F))).Forall fun op => op.writes ⊆ (seg11_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- The buffers that seg12's operations write. -/
abbrev seg12_W : List (Ref sig .tc) := [main_cst_15, main_v43, main_v44, main_v45, main_cst_16, main_v46, main_v47, main_cst_17, main_call10_v0, main_call10_v1, main_v48, main_c_18, main_v49, main_v50, main_c_19, main_v51, main_v52, main_v53, main_v54, main_v55]
theorem seg12_writes : (seg12 : List (HloOp τ sig (Elt F))).Forall fun op => op.writes ⊆ (seg12_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- The buffers that seg13's operations write. -/
abbrev seg13_W : List (Ref sig .tc) := [main_c_20, main_v56, main_v57, main_c_21, main_v58, main_v59, main_v60, main_v61, main_v62, main_v63, main_v64, main_v65, main_c_22, main_v66, main_v67, main_c_23, main_v68, main_v69, main_v70, main_v71, main_v72, main_v73, main_v74, main_v75]
theorem seg13_writes : (seg13 : List (HloOp τ sig (Elt F))).Forall fun op => op.writes ⊆ (seg13_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- The buffers that seg14's operations write. -/
abbrev seg14_W : List (Ref sig .tc) := [main_cst_24, main_v76, main_c_25, main_v77, main_v78, main_c_26, main_v79, main_v80, main_v81, main_v82, main_v83, main_v84, main_v85, main_v86, main_call11_cst, main_call11_v0, main_v87, main_v88, main_c_27, main_v89]
theorem seg14_writes : (seg14 : List (HloOp τ sig (Elt F))).Forall fun op => op.writes ⊆ (seg14_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- The buffers that seg15's operations write. -/
abbrev seg15_W : List (Ref sig .tc) := [main_v90, main_c_28, main_v91, main_v92, main_v93, main_v94, main_v95, main_v96, main_v97, main_v98, main_cst_29, main_v99, main_c_30, main_v100, main_v101, main_c_31, main_v102, main_v103, main_v104, main_v105, main_v106]
theorem seg15_writes : (seg15 : List (HloOp τ sig (Elt F))).Forall fun op => op.writes ⊆ (seg15_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- The buffers that seg16's operations write. -/
abbrev seg16_W : List (Ref sig .tc) := [main_v107, main_v108, main_v109, main_v110, main_v111, main_v112, main_v113, main_v114, main_v115, main_cst_32, main_v116, main_v117, main_cst_33, main_v118, main_v119]
theorem seg16_writes : (seg16 : List (HloOp τ sig (Elt F))).Forall fun op => op.writes ⊆ (seg16_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

end Cert.ReferenceIdeal.HandRun

end
-- ==== Proof.RefReadArgs.lean ====
/-
  The contents after the first segments of the reference's line of operations, as a chain: `valK V` is what
  the segments up to the `K`-th leave from `V`. A buffer the `K`-th segment does not write holds after it what it
  held before; @main's arguments, which no operation writes, hold their launch contents throughout.
-/
import proofs.«173982_g33990371181433_cont_sun_m_937_10_alg».proof.Proof.RefReadKeep

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The contents once the segments up to seg00 have run from `V`. -/
abbrev val00 (V : Valuation τ sig (Elt F)) : Valuation τ sig (Elt F) := after seg00 V
/-- A buffer that seg00 does not write keeps its contents through it. -/
theorem val00_keep (V : Valuation τ sig (Elt F)) (r : Ref sig .tc) (h : r ∉ seg00_W) :
    val00 V (Proc.devRef .tc r) = V (Proc.devRef .tc r) :=
  after_of_writes_sub seg00 _ seg00_writes h
theorem val00_arg0 (V : Valuation τ sig (Elt F)) :
    val00 V (Proc.devRef .tc main_arg0) = (V (Proc.devRef .tc main_arg0)) :=
  val00_keep V main_arg0 (by decide)
theorem val00_arg1 (V : Valuation τ sig (Elt F)) :
    val00 V (Proc.devRef .tc main_arg1) = (V (Proc.devRef .tc main_arg1)) :=
  val00_keep V main_arg1 (by decide)
theorem val00_arg2 (V : Valuation τ sig (Elt F)) :
    val00 V (Proc.devRef .tc main_arg2) = (V (Proc.devRef .tc main_arg2)) :=
  val00_keep V main_arg2 (by decide)
theorem val00_arg3 (V : Valuation τ sig (Elt F)) :
    val00 V (Proc.devRef .tc main_arg3) = (V (Proc.devRef .tc main_arg3)) :=
  val00_keep V main_arg3 (by decide)
theorem val00_arg4 (V : Valuation τ sig (Elt F)) :
    val00 V (Proc.devRef .tc main_arg4) = (V (Proc.devRef .tc main_arg4)) :=
  val00_keep V main_arg4 (by decide)
theorem val00_arg5 (V : Valuation τ sig (Elt F)) :
    val00 V (Proc.devRef .tc main_arg5) = (V (Proc.devRef .tc main_arg5)) :=
  val00_keep V main_arg5 (by decide)
theorem val00_arg6 (V : Valuation τ sig (Elt F)) :
    val00 V (Proc.devRef .tc main_arg6) = (V (Proc.devRef .tc main_arg6)) :=
  val00_keep V main_arg6 (by decide)

/-- The contents once the segments up to seg01 have run from `V`. -/
abbrev val01 (V : Valuation τ sig (Elt F)) : Valuation τ sig (Elt F) := after seg01 (val00 V)
/-- A buffer that seg01 does not write keeps its contents through it. -/
theorem val01_keep (V : Valuation τ sig (Elt F)) (r : Ref sig .tc) (h : r ∉ seg01_W) :
    val01 V (Proc.devRef .tc r) = val00 V (Proc.devRef .tc r) :=
  after_of_writes_sub seg01 _ seg01_writes h
theorem val01_arg0 (V : Valuation τ sig (Elt F)) :
    val01 V (Proc.devRef .tc main_arg0) = (V (Proc.devRef .tc main_arg0)) :=
  (val01_keep V main_arg0 (by decide)).trans (val00_arg0 V)
theorem val01_arg1 (V : Valuation τ sig (Elt F)) :
    val01 V (Proc.devRef .tc main_arg1) = (V (Proc.devRef .tc main_arg1)) :=
  (val01_keep V main_arg1 (by decide)).trans (val00_arg1 V)
theorem val01_arg2 (V : Valuation τ sig (Elt F)) :
    val01 V (Proc.devRef .tc main_arg2) = (V (Proc.devRef .tc main_arg2)) :=
  (val01_keep V main_arg2 (by decide)).trans (val00_arg2 V)
theorem val01_arg3 (V : Valuation τ sig (Elt F)) :
    val01 V (Proc.devRef .tc main_arg3) = (V (Proc.devRef .tc main_arg3)) :=
  (val01_keep V main_arg3 (by decide)).trans (val00_arg3 V)
theorem val01_arg4 (V : Valuation τ sig (Elt F)) :
    val01 V (Proc.devRef .tc main_arg4) = (V (Proc.devRef .tc main_arg4)) :=
  (val01_keep V main_arg4 (by decide)).trans (val00_arg4 V)
theorem val01_arg5 (V : Valuation τ sig (Elt F)) :
    val01 V (Proc.devRef .tc main_arg5) = (V (Proc.devRef .tc main_arg5)) :=
  (val01_keep V main_arg5 (by decide)).trans (val00_arg5 V)
theorem val01_arg6 (V : Valuation τ sig (Elt F)) :
    val01 V (Proc.devRef .tc main_arg6) = (V (Proc.devRef .tc main_arg6)) :=
  (val01_keep V main_arg6 (by decide)).trans (val00_arg6 V)

/-- The contents once the segments up to seg02 have run from `V`. -/
abbrev val02 (V : Valuation τ sig (Elt F)) : Valuation τ sig (Elt F) := after seg02 (val01 V)
/-- A buffer that seg02 does not write keeps its contents through it. -/
theorem val02_keep (V : Valuation τ sig (Elt F)) (r : Ref sig .tc) (h : r ∉ seg02_W) :
    val02 V (Proc.devRef .tc r) = val01 V (Proc.devRef .tc r) :=
  after_of_writes_sub seg02 _ seg02_writes h
theorem val02_arg0 (V : Valuation τ sig (Elt F)) :
    val02 V (Proc.devRef .tc main_arg0) = (V (Proc.devRef .tc main_arg0)) :=
  (val02_keep V main_arg0 (by decide)).trans (val01_arg0 V)
theorem val02_arg1 (V : Valuation τ sig (Elt F)) :
    val02 V (Proc.devRef .tc main_arg1) = (V (Proc.devRef .tc main_arg1)) :=
  (val02_keep V main_arg1 (by decide)).trans (val01_arg1 V)
theorem val02_arg2 (V : Valuation τ sig (Elt F)) :
    val02 V (Proc.devRef .tc main_arg2) = (V (Proc.devRef .tc main_arg2)) :=
  (val02_keep V main_arg2 (by decide)).trans (val01_arg2 V)
theorem val02_arg3 (V : Valuation τ sig (Elt F)) :
    val02 V (Proc.devRef .tc main_arg3) = (V (Proc.devRef .tc main_arg3)) :=
  (val02_keep V main_arg3 (by decide)).trans (val01_arg3 V)
theorem val02_arg4 (V : Valuation τ sig (Elt F)) :
    val02 V (Proc.devRef .tc main_arg4) = (V (Proc.devRef .tc main_arg4)) :=
  (val02_keep V main_arg4 (by decide)).trans (val01_arg4 V)
theorem val02_arg5 (V : Valuation τ sig (Elt F)) :
    val02 V (Proc.devRef .tc main_arg5) = (V (Proc.devRef .tc main_arg5)) :=
  (val02_keep V main_arg5 (by decide)).trans (val01_arg5 V)
theorem val02_arg6 (V : Valuation τ sig (Elt F)) :
    val02 V (Proc.devRef .tc main_arg6) = (V (Proc.devRef .tc main_arg6)) :=
  (val02_keep V main_arg6 (by decide)).trans (val01_arg6 V)

/-- The contents once the segments up to seg03 have run from `V`. -/
abbrev val03 (V : Valuation τ sig (Elt F)) : Valuation τ sig (Elt F) := after seg03 (val02 V)
/-- A buffer that seg03 does not write keeps its contents through it. -/
theorem val03_keep (V : Valuation τ sig (Elt F)) (r : Ref sig .tc) (h : r ∉ seg03_W) :
    val03 V (Proc.devRef .tc r) = val02 V (Proc.devRef .tc r) :=
  after_of_writes_sub seg03 _ seg03_writes h
theorem val03_arg0 (V : Valuation τ sig (Elt F)) :
    val03 V (Proc.devRef .tc main_arg0) = (V (Proc.devRef .tc main_arg0)) :=
  (val03_keep V main_arg0 (by decide)).trans (val02_arg0 V)
theorem val03_arg1 (V : Valuation τ sig (Elt F)) :
    val03 V (Proc.devRef .tc main_arg1) = (V (Proc.devRef .tc main_arg1)) :=
  (val03_keep V main_arg1 (by decide)).trans (val02_arg1 V)
theorem val03_arg2 (V : Valuation τ sig (Elt F)) :
    val03 V (Proc.devRef .tc main_arg2) = (V (Proc.devRef .tc main_arg2)) :=
  (val03_keep V main_arg2 (by decide)).trans (val02_arg2 V)
theorem val03_arg3 (V : Valuation τ sig (Elt F)) :
    val03 V (Proc.devRef .tc main_arg3) = (V (Proc.devRef .tc main_arg3)) :=
  (val03_keep V main_arg3 (by decide)).trans (val02_arg3 V)
theorem val03_arg4 (V : Valuation τ sig (Elt F)) :
    val03 V (Proc.devRef .tc main_arg4) = (V (Proc.devRef .tc main_arg4)) :=
  (val03_keep V main_arg4 (by decide)).trans (val02_arg4 V)
theorem val03_arg5 (V : Valuation τ sig (Elt F)) :
    val03 V (Proc.devRef .tc main_arg5) = (V (Proc.devRef .tc main_arg5)) :=
  (val03_keep V main_arg5 (by decide)).trans (val02_arg5 V)
theorem val03_arg6 (V : Valuation τ sig (Elt F)) :
    val03 V (Proc.devRef .tc main_arg6) = (V (Proc.devRef .tc main_arg6)) :=
  (val03_keep V main_arg6 (by decide)).trans (val02_arg6 V)

/-- The contents once the segments up to seg04 have run from `V`. -/
abbrev val04 (V : Valuation τ sig (Elt F)) : Valuation τ sig (Elt F) := after seg04 (val03 V)
/-- A buffer that seg04 does not write keeps its contents through it. -/
theorem val04_keep (V : Valuation τ sig (Elt F)) (r : Ref sig .tc) (h : r ∉ seg04_W) :
    val04 V (Proc.devRef .tc r) = val03 V (Proc.devRef .tc r) :=
  after_of_writes_sub seg04 _ seg04_writes h
theorem val04_arg0 (V : Valuation τ sig (Elt F)) :
    val04 V (Proc.devRef .tc main_arg0) = (V (Proc.devRef .tc main_arg0)) :=
  (val04_keep V main_arg0 (by decide)).trans (val03_arg0 V)
theorem val04_arg1 (V : Valuation τ sig (Elt F)) :
    val04 V (Proc.devRef .tc main_arg1) = (V (Proc.devRef .tc main_arg1)) :=
  (val04_keep V main_arg1 (by decide)).trans (val03_arg1 V)
theorem val04_arg2 (V : Valuation τ sig (Elt F)) :
    val04 V (Proc.devRef .tc main_arg2) = (V (Proc.devRef .tc main_arg2)) :=
  (val04_keep V main_arg2 (by decide)).trans (val03_arg2 V)
theorem val04_arg3 (V : Valuation τ sig (Elt F)) :
    val04 V (Proc.devRef .tc main_arg3) = (V (Proc.devRef .tc main_arg3)) :=
  (val04_keep V main_arg3 (by decide)).trans (val03_arg3 V)
theorem val04_arg4 (V : Valuation τ sig (Elt F)) :
    val04 V (Proc.devRef .tc main_arg4) = (V (Proc.devRef .tc main_arg4)) :=
  (val04_keep V main_arg4 (by decide)).trans (val03_arg4 V)
theorem val04_arg5 (V : Valuation τ sig (Elt F)) :
    val04 V (Proc.devRef .tc main_arg5) = (V (Proc.devRef .tc main_arg5)) :=
  (val04_keep V main_arg5 (by decide)).trans (val03_arg5 V)
theorem val04_arg6 (V : Valuation τ sig (Elt F)) :
    val04 V (Proc.devRef .tc main_arg6) = (V (Proc.devRef .tc main_arg6)) :=
  (val04_keep V main_arg6 (by decide)).trans (val03_arg6 V)

/-- The contents once the segments up to seg05 have run from `V`. -/
abbrev val05 (V : Valuation τ sig (Elt F)) : Valuation τ sig (Elt F) := after seg05 (val04 V)
/-- A buffer that seg05 does not write keeps its contents through it. -/
theorem val05_keep (V : Valuation τ sig (Elt F)) (r : Ref sig .tc) (h : r ∉ seg05_W) :
    val05 V (Proc.devRef .tc r) = val04 V (Proc.devRef .tc r) :=
  after_of_writes_sub seg05 _ seg05_writes h
theorem val05_arg0 (V : Valuation τ sig (Elt F)) :
    val05 V (Proc.devRef .tc main_arg0) = (V (Proc.devRef .tc main_arg0)) :=
  (val05_keep V main_arg0 (by decide)).trans (val04_arg0 V)
theorem val05_arg1 (V : Valuation τ sig (Elt F)) :
    val05 V (Proc.devRef .tc main_arg1) = (V (Proc.devRef .tc main_arg1)) :=
  (val05_keep V main_arg1 (by decide)).trans (val04_arg1 V)
theorem val05_arg2 (V : Valuation τ sig (Elt F)) :
    val05 V (Proc.devRef .tc main_arg2) = (V (Proc.devRef .tc main_arg2)) :=
  (val05_keep V main_arg2 (by decide)).trans (val04_arg2 V)
theorem val05_arg3 (V : Valuation τ sig (Elt F)) :
    val05 V (Proc.devRef .tc main_arg3) = (V (Proc.devRef .tc main_arg3)) :=
  (val05_keep V main_arg3 (by decide)).trans (val04_arg3 V)
theorem val05_arg4 (V : Valuation τ sig (Elt F)) :
    val05 V (Proc.devRef .tc main_arg4) = (V (Proc.devRef .tc main_arg4)) :=
  (val05_keep V main_arg4 (by decide)).trans (val04_arg4 V)
theorem val05_arg5 (V : Valuation τ sig (Elt F)) :
    val05 V (Proc.devRef .tc main_arg5) = (V (Proc.devRef .tc main_arg5)) :=
  (val05_keep V main_arg5 (by decide)).trans (val04_arg5 V)
theorem val05_arg6 (V : Valuation τ sig (Elt F)) :
    val05 V (Proc.devRef .tc main_arg6) = (V (Proc.devRef .tc main_arg6)) :=
  (val05_keep V main_arg6 (by decide)).trans (val04_arg6 V)

/-- The contents once the segments up to seg06 have run from `V`. -/
abbrev val06 (V : Valuation τ sig (Elt F)) : Valuation τ sig (Elt F) := after seg06 (val05 V)
/-- A buffer that seg06 does not write keeps its contents through it. -/
theorem val06_keep (V : Valuation τ sig (Elt F)) (r : Ref sig .tc) (h : r ∉ seg06_W) :
    val06 V (Proc.devRef .tc r) = val05 V (Proc.devRef .tc r) :=
  after_of_writes_sub seg06 _ seg06_writes h
theorem val06_arg0 (V : Valuation τ sig (Elt F)) :
    val06 V (Proc.devRef .tc main_arg0) = (V (Proc.devRef .tc main_arg0)) :=
  (val06_keep V main_arg0 (by decide)).trans (val05_arg0 V)
theorem val06_arg1 (V : Valuation τ sig (Elt F)) :
    val06 V (Proc.devRef .tc main_arg1) = (V (Proc.devRef .tc main_arg1)) :=
  (val06_keep V main_arg1 (by decide)).trans (val05_arg1 V)
theorem val06_arg2 (V : Valuation τ sig (Elt F)) :
    val06 V (Proc.devRef .tc main_arg2) = (V (Proc.devRef .tc main_arg2)) :=
  (val06_keep V main_arg2 (by decide)).trans (val05_arg2 V)
theorem val06_arg3 (V : Valuation τ sig (Elt F)) :
    val06 V (Proc.devRef .tc main_arg3) = (V (Proc.devRef .tc main_arg3)) :=
  (val06_keep V main_arg3 (by decide)).trans (val05_arg3 V)
theorem val06_arg4 (V : Valuation τ sig (Elt F)) :
    val06 V (Proc.devRef .tc main_arg4) = (V (Proc.devRef .tc main_arg4)) :=
  (val06_keep V main_arg4 (by decide)).trans (val05_arg4 V)
theorem val06_arg5 (V : Valuation τ sig (Elt F)) :
    val06 V (Proc.devRef .tc main_arg5) = (V (Proc.devRef .tc main_arg5)) :=
  (val06_keep V main_arg5 (by decide)).trans (val05_arg5 V)
theorem val06_arg6 (V : Valuation τ sig (Elt F)) :
    val06 V (Proc.devRef .tc main_arg6) = (V (Proc.devRef .tc main_arg6)) :=
  (val06_keep V main_arg6 (by decide)).trans (val05_arg6 V)

/-- The contents once the segments up to seg07 have run from `V`. -/
abbrev val07 (V : Valuation τ sig (Elt F)) : Valuation τ sig (Elt F) := after seg07 (val06 V)
/-- A buffer that seg07 does not write keeps its contents through it. -/
theorem val07_keep (V : Valuation τ sig (Elt F)) (r : Ref sig .tc) (h : r ∉ seg07_W) :
    val07 V (Proc.devRef .tc r) = val06 V (Proc.devRef .tc r) :=
  after_of_writes_sub seg07 _ seg07_writes h
theorem val07_arg0 (V : Valuation τ sig (Elt F)) :
    val07 V (Proc.devRef .tc main_arg0) = (V (Proc.devRef .tc main_arg0)) :=
  (val07_keep V main_arg0 (by decide)).trans (val06_arg0 V)
theorem val07_arg1 (V : Valuation τ sig (Elt F)) :
    val07 V (Proc.devRef .tc main_arg1) = (V (Proc.devRef .tc main_arg1)) :=
  (val07_keep V main_arg1 (by decide)).trans (val06_arg1 V)
theorem val07_arg2 (V : Valuation τ sig (Elt F)) :
    val07 V (Proc.devRef .tc main_arg2) = (V (Proc.devRef .tc main_arg2)) :=
  (val07_keep V main_arg2 (by decide)).trans (val06_arg2 V)
theorem val07_arg3 (V : Valuation τ sig (Elt F)) :
    val07 V (Proc.devRef .tc main_arg3) = (V (Proc.devRef .tc main_arg3)) :=
  (val07_keep V main_arg3 (by decide)).trans (val06_arg3 V)
theorem val07_arg4 (V : Valuation τ sig (Elt F)) :
    val07 V (Proc.devRef .tc main_arg4) = (V (Proc.devRef .tc main_arg4)) :=
  (val07_keep V main_arg4 (by decide)).trans (val06_arg4 V)
theorem val07_arg5 (V : Valuation τ sig (Elt F)) :
    val07 V (Proc.devRef .tc main_arg5) = (V (Proc.devRef .tc main_arg5)) :=
  (val07_keep V main_arg5 (by decide)).trans (val06_arg5 V)
theorem val07_arg6 (V : Valuation τ sig (Elt F)) :
    val07 V (Proc.devRef .tc main_arg6) = (V (Proc.devRef .tc main_arg6)) :=
  (val07_keep V main_arg6 (by decide)).trans (val06_arg6 V)

/-- The contents once the segments up to seg08 have run from `V`. -/
abbrev val08 (V : Valuation τ sig (Elt F)) : Valuation τ sig (Elt F) := after seg08 (val07 V)
/-- A buffer that seg08 does not write keeps its contents through it. -/
theorem val08_keep (V : Valuation τ sig (Elt F)) (r : Ref sig .tc) (h : r ∉ seg08_W) :
    val08 V (Proc.devRef .tc r) = val07 V (Proc.devRef .tc r) :=
  after_of_writes_sub seg08 _ seg08_writes h
theorem val08_arg0 (V : Valuation τ sig (Elt F)) :
    val08 V (Proc.devRef .tc main_arg0) = (V (Proc.devRef .tc main_arg0)) :=
  (val08_keep V main_arg0 (by decide)).trans (val07_arg0 V)
theorem val08_arg1 (V : Valuation τ sig (Elt F)) :
    val08 V (Proc.devRef .tc main_arg1) = (V (Proc.devRef .tc main_arg1)) :=
  (val08_keep V main_arg1 (by decide)).trans (val07_arg1 V)
theorem val08_arg2 (V : Valuation τ sig (Elt F)) :
    val08 V (Proc.devRef .tc main_arg2) = (V (Proc.devRef .tc main_arg2)) :=
  (val08_keep V main_arg2 (by decide)).trans (val07_arg2 V)
theorem val08_arg3 (V : Valuation τ sig (Elt F)) :
    val08 V (Proc.devRef .tc main_arg3) = (V (Proc.devRef .tc main_arg3)) :=
  (val08_keep V main_arg3 (by decide)).trans (val07_arg3 V)
theorem val08_arg4 (V : Valuation τ sig (Elt F)) :
    val08 V (Proc.devRef .tc main_arg4) = (V (Proc.devRef .tc main_arg4)) :=
  (val08_keep V main_arg4 (by decide)).trans (val07_arg4 V)
theorem val08_arg5 (V : Valuation τ sig (Elt F)) :
    val08 V (Proc.devRef .tc main_arg5) = (V (Proc.devRef .tc main_arg5)) :=
  (val08_keep V main_arg5 (by decide)).trans (val07_arg5 V)
theorem val08_arg6 (V : Valuation τ sig (Elt F)) :
    val08 V (Proc.devRef .tc main_arg6) = (V (Proc.devRef .tc main_arg6)) :=
  (val08_keep V main_arg6 (by decide)).trans (val07_arg6 V)

/-- The contents once the segments up to seg09 have run from `V`. -/
abbrev val09 (V : Valuation τ sig (Elt F)) : Valuation τ sig (Elt F) := after seg09 (val08 V)
/-- A buffer that seg09 does not write keeps its contents through it. -/
theorem val09_keep (V : Valuation τ sig (Elt F)) (r : Ref sig .tc) (h : r ∉ seg09_W) :
    val09 V (Proc.devRef .tc r) = val08 V (Proc.devRef .tc r) :=
  after_of_writes_sub seg09 _ seg09_writes h
theorem val09_arg0 (V : Valuation τ sig (Elt F)) :
    val09 V (Proc.devRef .tc main_arg0) = (V (Proc.devRef .tc main_arg0)) :=
  (val09_keep V main_arg0 (by decide)).trans (val08_arg0 V)
theorem val09_arg1 (V : Valuation τ sig (Elt F)) :
    val09 V (Proc.devRef .tc main_arg1) = (V (Proc.devRef .tc main_arg1)) :=
  (val09_keep V main_arg1 (by decide)).trans (val08_arg1 V)
theorem val09_arg2 (V : Valuation τ sig (Elt F)) :
    val09 V (Proc.devRef .tc main_arg2) = (V (Proc.devRef .tc main_arg2)) :=
  (val09_keep V main_arg2 (by decide)).trans (val08_arg2 V)
theorem val09_arg3 (V : Valuation τ sig (Elt F)) :
    val09 V (Proc.devRef .tc main_arg3) = (V (Proc.devRef .tc main_arg3)) :=
  (val09_keep V main_arg3 (by decide)).trans (val08_arg3 V)
theorem val09_arg4 (V : Valuation τ sig (Elt F)) :
    val09 V (Proc.devRef .tc main_arg4) = (V (Proc.devRef .tc main_arg4)) :=
  (val09_keep V main_arg4 (by decide)).trans (val08_arg4 V)
theorem val09_arg5 (V : Valuation τ sig (Elt F)) :
    val09 V (Proc.devRef .tc main_arg5) = (V (Proc.devRef .tc main_arg5)) :=
  (val09_keep V main_arg5 (by decide)).trans (val08_arg5 V)
theorem val09_arg6 (V : Valuation τ sig (Elt F)) :
    val09 V (Proc.devRef .tc main_arg6) = (V (Proc.devRef .tc main_arg6)) :=
  (val09_keep V main_arg6 (by decide)).trans (val08_arg6 V)

/-- The contents once the segments up to seg10 have run from `V`. -/
abbrev val10 (V : Valuation τ sig (Elt F)) : Valuation τ sig (Elt F) := after seg10 (val09 V)
/-- A buffer that seg10 does not write keeps its contents through it. -/
theorem val10_keep (V : Valuation τ sig (Elt F)) (r : Ref sig .tc) (h : r ∉ seg10_W) :
    val10 V (Proc.devRef .tc r) = val09 V (Proc.devRef .tc r) :=
  after_of_writes_sub seg10 _ seg10_writes h
theorem val10_arg0 (V : Valuation τ sig (Elt F)) :
    val10 V (Proc.devRef .tc main_arg0) = (V (Proc.devRef .tc main_arg0)) :=
  (val10_keep V main_arg0 (by decide)).trans (val09_arg0 V)
theorem val10_arg1 (V : Valuation τ sig (Elt F)) :
    val10 V (Proc.devRef .tc main_arg1) = (V (Proc.devRef .tc main_arg1)) :=
  (val10_keep V main_arg1 (by decide)).trans (val09_arg1 V)
theorem val10_arg2 (V : Valuation τ sig (Elt F)) :
    val10 V (Proc.devRef .tc main_arg2) = (V (Proc.devRef .tc main_arg2)) :=
  (val10_keep V main_arg2 (by decide)).trans (val09_arg2 V)
theorem val10_arg3 (V : Valuation τ sig (Elt F)) :
    val10 V (Proc.devRef .tc main_arg3) = (V (Proc.devRef .tc main_arg3)) :=
  (val10_keep V main_arg3 (by decide)).trans (val09_arg3 V)
theorem val10_arg4 (V : Valuation τ sig (Elt F)) :
    val10 V (Proc.devRef .tc main_arg4) = (V (Proc.devRef .tc main_arg4)) :=
  (val10_keep V main_arg4 (by decide)).trans (val09_arg4 V)
theorem val10_arg5 (V : Valuation τ sig (Elt F)) :
    val10 V (Proc.devRef .tc main_arg5) = (V (Proc.devRef .tc main_arg5)) :=
  (val10_keep V main_arg5 (by decide)).trans (val09_arg5 V)
theorem val10_arg6 (V : Valuation τ sig (Elt F)) :
    val10 V (Proc.devRef .tc main_arg6) = (V (Proc.devRef .tc main_arg6)) :=
  (val10_keep V main_arg6 (by decide)).trans (val09_arg6 V)

/-- The contents once the segments up to seg11 have run from `V`. -/
abbrev val11 (V : Valuation τ sig (Elt F)) : Valuation τ sig (Elt F) := after seg11 (val10 V)
/-- A buffer that seg11 does not write keeps its contents through it. -/
theorem val11_keep (V : Valuation τ sig (Elt F)) (r : Ref sig .tc) (h : r ∉ seg11_W) :
    val11 V (Proc.devRef .tc r) = val10 V (Proc.devRef .tc r) :=
  after_of_writes_sub seg11 _ seg11_writes h
theorem val11_arg0 (V : Valuation τ sig (Elt F)) :
    val11 V (Proc.devRef .tc main_arg0) = (V (Proc.devRef .tc main_arg0)) :=
  (val11_keep V main_arg0 (by decide)).trans (val10_arg0 V)
theorem val11_arg1 (V : Valuation τ sig (Elt F)) :
    val11 V (Proc.devRef .tc main_arg1) = (V (Proc.devRef .tc main_arg1)) :=
  (val11_keep V main_arg1 (by decide)).trans (val10_arg1 V)
theorem val11_arg2 (V : Valuation τ sig (Elt F)) :
    val11 V (Proc.devRef .tc main_arg2) = (V (Proc.devRef .tc main_arg2)) :=
  (val11_keep V main_arg2 (by decide)).trans (val10_arg2 V)
theorem val11_arg3 (V : Valuation τ sig (Elt F)) :
    val11 V (Proc.devRef .tc main_arg3) = (V (Proc.devRef .tc main_arg3)) :=
  (val11_keep V main_arg3 (by decide)).trans (val10_arg3 V)
theorem val11_arg4 (V : Valuation τ sig (Elt F)) :
    val11 V (Proc.devRef .tc main_arg4) = (V (Proc.devRef .tc main_arg4)) :=
  (val11_keep V main_arg4 (by decide)).trans (val10_arg4 V)
theorem val11_arg5 (V : Valuation τ sig (Elt F)) :
    val11 V (Proc.devRef .tc main_arg5) = (V (Proc.devRef .tc main_arg5)) :=
  (val11_keep V main_arg5 (by decide)).trans (val10_arg5 V)
theorem val11_arg6 (V : Valuation τ sig (Elt F)) :
    val11 V (Proc.devRef .tc main_arg6) = (V (Proc.devRef .tc main_arg6)) :=
  (val11_keep V main_arg6 (by decide)).trans (val10_arg6 V)

/-- The contents once the segments up to seg12 have run from `V`. -/
abbrev val12 (V : Valuation τ sig (Elt F)) : Valuation τ sig (Elt F) := after seg12 (val11 V)
/-- A buffer that seg12 does not write keeps its contents through it. -/
theorem val12_keep (V : Valuation τ sig (Elt F)) (r : Ref sig .tc) (h : r ∉ seg12_W) :
    val12 V (Proc.devRef .tc r) = val11 V (Proc.devRef .tc r) :=
  after_of_writes_sub seg12 _ seg12_writes h
theorem val12_arg0 (V : Valuation τ sig (Elt F)) :
    val12 V (Proc.devRef .tc main_arg0) = (V (Proc.devRef .tc main_arg0)) :=
  (val12_keep V main_arg0 (by decide)).trans (val11_arg0 V)
theorem val12_arg1 (V : Valuation τ sig (Elt F)) :
    val12 V (Proc.devRef .tc main_arg1) = (V (Proc.devRef .tc main_arg1)) :=
  (val12_keep V main_arg1 (by decide)).trans (val11_arg1 V)
theorem val12_arg2 (V : Valuation τ sig (Elt F)) :
    val12 V (Proc.devRef .tc main_arg2) = (V (Proc.devRef .tc main_arg2)) :=
  (val12_keep V main_arg2 (by decide)).trans (val11_arg2 V)
theorem val12_arg3 (V : Valuation τ sig (Elt F)) :
    val12 V (Proc.devRef .tc main_arg3) = (V (Proc.devRef .tc main_arg3)) :=
  (val12_keep V main_arg3 (by decide)).trans (val11_arg3 V)
theorem val12_arg4 (V : Valuation τ sig (Elt F)) :
    val12 V (Proc.devRef .tc main_arg4) = (V (Proc.devRef .tc main_arg4)) :=
  (val12_keep V main_arg4 (by decide)).trans (val11_arg4 V)
theorem val12_arg5 (V : Valuation τ sig (Elt F)) :
    val12 V (Proc.devRef .tc main_arg5) = (V (Proc.devRef .tc main_arg5)) :=
  (val12_keep V main_arg5 (by decide)).trans (val11_arg5 V)
theorem val12_arg6 (V : Valuation τ sig (Elt F)) :
    val12 V (Proc.devRef .tc main_arg6) = (V (Proc.devRef .tc main_arg6)) :=
  (val12_keep V main_arg6 (by decide)).trans (val11_arg6 V)

/-- The contents once the segments up to seg13 have run from `V`. -/
abbrev val13 (V : Valuation τ sig (Elt F)) : Valuation τ sig (Elt F) := after seg13 (val12 V)
/-- A buffer that seg13 does not write keeps its contents through it. -/
theorem val13_keep (V : Valuation τ sig (Elt F)) (r : Ref sig .tc) (h : r ∉ seg13_W) :
    val13 V (Proc.devRef .tc r) = val12 V (Proc.devRef .tc r) :=
  after_of_writes_sub seg13 _ seg13_writes h
theorem val13_arg0 (V : Valuation τ sig (Elt F)) :
    val13 V (Proc.devRef .tc main_arg0) = (V (Proc.devRef .tc main_arg0)) :=
  (val13_keep V main_arg0 (by decide)).trans (val12_arg0 V)
theorem val13_arg1 (V : Valuation τ sig (Elt F)) :
    val13 V (Proc.devRef .tc main_arg1) = (V (Proc.devRef .tc main_arg1)) :=
  (val13_keep V main_arg1 (by decide)).trans (val12_arg1 V)
theorem val13_arg2 (V : Valuation τ sig (Elt F)) :
    val13 V (Proc.devRef .tc main_arg2) = (V (Proc.devRef .tc main_arg2)) :=
  (val13_keep V main_arg2 (by decide)).trans (val12_arg2 V)
theorem val13_arg3 (V : Valuation τ sig (Elt F)) :
    val13 V (Proc.devRef .tc main_arg3) = (V (Proc.devRef .tc main_arg3)) :=
  (val13_keep V main_arg3 (by decide)).trans (val12_arg3 V)
theorem val13_arg4 (V : Valuation τ sig (Elt F)) :
    val13 V (Proc.devRef .tc main_arg4) = (V (Proc.devRef .tc main_arg4)) :=
  (val13_keep V main_arg4 (by decide)).trans (val12_arg4 V)
theorem val13_arg5 (V : Valuation τ sig (Elt F)) :
    val13 V (Proc.devRef .tc main_arg5) = (V (Proc.devRef .tc main_arg5)) :=
  (val13_keep V main_arg5 (by decide)).trans (val12_arg5 V)
theorem val13_arg6 (V : Valuation τ sig (Elt F)) :
    val13 V (Proc.devRef .tc main_arg6) = (V (Proc.devRef .tc main_arg6)) :=
  (val13_keep V main_arg6 (by decide)).trans (val12_arg6 V)

/-- The contents once the segments up to seg14 have run from `V`. -/
abbrev val14 (V : Valuation τ sig (Elt F)) : Valuation τ sig (Elt F) := after seg14 (val13 V)
/-- A buffer that seg14 does not write keeps its contents through it. -/
theorem val14_keep (V : Valuation τ sig (Elt F)) (r : Ref sig .tc) (h : r ∉ seg14_W) :
    val14 V (Proc.devRef .tc r) = val13 V (Proc.devRef .tc r) :=
  after_of_writes_sub seg14 _ seg14_writes h
theorem val14_arg0 (V : Valuation τ sig (Elt F)) :
    val14 V (Proc.devRef .tc main_arg0) = (V (Proc.devRef .tc main_arg0)) :=
  (val14_keep V main_arg0 (by decide)).trans (val13_arg0 V)
theorem val14_arg1 (V : Valuation τ sig (Elt F)) :
    val14 V (Proc.devRef .tc main_arg1) = (V (Proc.devRef .tc main_arg1)) :=
  (val14_keep V main_arg1 (by decide)).trans (val13_arg1 V)
theorem val14_arg2 (V : Valuation τ sig (Elt F)) :
    val14 V (Proc.devRef .tc main_arg2) = (V (Proc.devRef .tc main_arg2)) :=
  (val14_keep V main_arg2 (by decide)).trans (val13_arg2 V)
theorem val14_arg3 (V : Valuation τ sig (Elt F)) :
    val14 V (Proc.devRef .tc main_arg3) = (V (Proc.devRef .tc main_arg3)) :=
  (val14_keep V main_arg3 (by decide)).trans (val13_arg3 V)
theorem val14_arg4 (V : Valuation τ sig (Elt F)) :
    val14 V (Proc.devRef .tc main_arg4) = (V (Proc.devRef .tc main_arg4)) :=
  (val14_keep V main_arg4 (by decide)).trans (val13_arg4 V)
theorem val14_arg5 (V : Valuation τ sig (Elt F)) :
    val14 V (Proc.devRef .tc main_arg5) = (V (Proc.devRef .tc main_arg5)) :=
  (val14_keep V main_arg5 (by decide)).trans (val13_arg5 V)
theorem val14_arg6 (V : Valuation τ sig (Elt F)) :
    val14 V (Proc.devRef .tc main_arg6) = (V (Proc.devRef .tc main_arg6)) :=
  (val14_keep V main_arg6 (by decide)).trans (val13_arg6 V)

/-- The contents once the segments up to seg15 have run from `V`. -/
abbrev val15 (V : Valuation τ sig (Elt F)) : Valuation τ sig (Elt F) := after seg15 (val14 V)
/-- A buffer that seg15 does not write keeps its contents through it. -/
theorem val15_keep (V : Valuation τ sig (Elt F)) (r : Ref sig .tc) (h : r ∉ seg15_W) :
    val15 V (Proc.devRef .tc r) = val14 V (Proc.devRef .tc r) :=
  after_of_writes_sub seg15 _ seg15_writes h
theorem val15_arg0 (V : Valuation τ sig (Elt F)) :
    val15 V (Proc.devRef .tc main_arg0) = (V (Proc.devRef .tc main_arg0)) :=
  (val15_keep V main_arg0 (by decide)).trans (val14_arg0 V)
theorem val15_arg1 (V : Valuation τ sig (Elt F)) :
    val15 V (Proc.devRef .tc main_arg1) = (V (Proc.devRef .tc main_arg1)) :=
  (val15_keep V main_arg1 (by decide)).trans (val14_arg1 V)
theorem val15_arg2 (V : Valuation τ sig (Elt F)) :
    val15 V (Proc.devRef .tc main_arg2) = (V (Proc.devRef .tc main_arg2)) :=
  (val15_keep V main_arg2 (by decide)).trans (val14_arg2 V)
theorem val15_arg3 (V : Valuation τ sig (Elt F)) :
    val15 V (Proc.devRef .tc main_arg3) = (V (Proc.devRef .tc main_arg3)) :=
  (val15_keep V main_arg3 (by decide)).trans (val14_arg3 V)
theorem val15_arg4 (V : Valuation τ sig (Elt F)) :
    val15 V (Proc.devRef .tc main_arg4) = (V (Proc.devRef .tc main_arg4)) :=
  (val15_keep V main_arg4 (by decide)).trans (val14_arg4 V)
theorem val15_arg5 (V : Valuation τ sig (Elt F)) :
    val15 V (Proc.devRef .tc main_arg5) = (V (Proc.devRef .tc main_arg5)) :=
  (val15_keep V main_arg5 (by decide)).trans (val14_arg5 V)
theorem val15_arg6 (V : Valuation τ sig (Elt F)) :
    val15 V (Proc.devRef .tc main_arg6) = (V (Proc.devRef .tc main_arg6)) :=
  (val15_keep V main_arg6 (by decide)).trans (val14_arg6 V)

/-- The contents once the segments up to seg16 have run from `V`. -/
abbrev val16 (V : Valuation τ sig (Elt F)) : Valuation τ sig (Elt F) := after seg16 (val15 V)
/-- A buffer that seg16 does not write keeps its contents through it. -/
theorem val16_keep (V : Valuation τ sig (Elt F)) (r : Ref sig .tc) (h : r ∉ seg16_W) :
    val16 V (Proc.devRef .tc r) = val15 V (Proc.devRef .tc r) :=
  after_of_writes_sub seg16 _ seg16_writes h
theorem val16_arg0 (V : Valuation τ sig (Elt F)) :
    val16 V (Proc.devRef .tc main_arg0) = (V (Proc.devRef .tc main_arg0)) :=
  (val16_keep V main_arg0 (by decide)).trans (val15_arg0 V)
theorem val16_arg1 (V : Valuation τ sig (Elt F)) :
    val16 V (Proc.devRef .tc main_arg1) = (V (Proc.devRef .tc main_arg1)) :=
  (val16_keep V main_arg1 (by decide)).trans (val15_arg1 V)
theorem val16_arg2 (V : Valuation τ sig (Elt F)) :
    val16 V (Proc.devRef .tc main_arg2) = (V (Proc.devRef .tc main_arg2)) :=
  (val16_keep V main_arg2 (by decide)).trans (val15_arg2 V)
theorem val16_arg3 (V : Valuation τ sig (Elt F)) :
    val16 V (Proc.devRef .tc main_arg3) = (V (Proc.devRef .tc main_arg3)) :=
  (val16_keep V main_arg3 (by decide)).trans (val15_arg3 V)
theorem val16_arg4 (V : Valuation τ sig (Elt F)) :
    val16 V (Proc.devRef .tc main_arg4) = (V (Proc.devRef .tc main_arg4)) :=
  (val16_keep V main_arg4 (by decide)).trans (val15_arg4 V)
theorem val16_arg5 (V : Valuation τ sig (Elt F)) :
    val16 V (Proc.devRef .tc main_arg5) = (V (Proc.devRef .tc main_arg5)) :=
  (val16_keep V main_arg5 (by decide)).trans (val15_arg5 V)
theorem val16_arg6 (V : Valuation τ sig (Elt F)) :
    val16 V (Proc.devRef .tc main_arg6) = (V (Proc.devRef .tc main_arg6)) :=
  (val16_keep V main_arg6 (by decide)).trans (val15_arg6 V)

end Cert.ReferenceIdeal.HandRun

end
-- ==== Proof.RefStages.lean ====
/-
  The reference network, stage by stage, as plain functions of its argument arrays.

  The edge list of the graph is read off the adjacency matrix: `mask` marks the nonzero entries; `count1` is the
  running count of marked entries along the flattened matrix; `hist` counts, for each value `v`, the flat positions
  whose running count is `v`; `flat`, the running sum of that histogram, holds at `e` the flat position of the
  `(e+1)`-st marked entry; `floorDiv` and `remainder` split a flat position into its row and column; entries past
  the number of marked entries (`total`) are filled with zero (`fillPast`) and flagged invalid (`validBits`);
  `withLoops` appends one self loop per node.  Then the degrees are accumulated over the edge targets (`degree`),
  normalised (`invSqrt`, `norm`), and each layer gathers its table at the edge sources, scales by the edge weight and
  accumulates at the edge targets (`propagate`).
-/
import proofs.«173982_g33990371181433_cont_sun_m_937_10_alg».proof.Proof.Gen.ReferenceIdeal

noncomputable section

namespace Cert.ReferenceIdeal.Stages

open Cert.ReferenceIdeal Cert.ReferenceIdeal.Gen Idealize.ShloMosaic

variable {F : FTy → Type} [FloatOps F]

/-- The entries of the adjacency matrix that are not zero. -/
def mask (A : FVec F S2048x2048 .f32) : IVec S2048x2048 1 :=
  cmpf .une A (broadcastInDim S2048x2048 ![] bcast_S_S2048x2048 (constant S_ .f32 0x00000000#32))

/-- A running sum along a flat vector of words. -/
def runningSum (x : IVec S4194304 32) : IVec S4194304 32 :=
  Host.reduceWindow IntOp.addi ![4194304] ![1] ![4194303] ![0] x
    (broadcastInDim S_ ![] bcast_S_S_ (constantI S_ 32 0#32)) reduceWindows_S4194304_S4194304_w4194304s1p4194303_0 h_S_

/-- The running count of marked entries along the flattened matrix. -/
def count1 (m1 : IVec S2048x2048 1) : IVec S4194304 32 :=
  runningSum (extui 32 (shapeCast S4194304 m1 shapeCasts_S2048x2048_S4194304) natLt_1_32)

/-- The running counts as histogram positions: clamped below at zero, a negative one wrapped by the length. -/
def positions (c : IVec S4194304 32) : IVec S4194304 32 :=
  select
    (cmpi .slt (maxsi (broadcastInDim S4194304 ![] bcast_S_S4194304 (id (constantI S_ 32 0#32))) c)
      (broadcastInDim S4194304 ![] bcast_S_S4194304 (constantI S_ 32 0#32)))
    (addi (maxsi (broadcastInDim S4194304 ![] bcast_S_S4194304 (id (constantI S_ 32 0#32))) c)
      (broadcastInDim S4194304 ![] bcast_S_S4194304 (constantI S_ 32 4194304#32)))
    (maxsi (broadcastInDim S4194304 ![] bcast_S_S4194304 (id (constantI S_ 32 0#32))) c)

/-- The histogram of the running counts. -/
def hist (c : IVec S4194304 32) : IVec S4194304 32 :=
  Host.scatter scatter_S4194304_S4194304x1_S4194304_n_0_0_1 IntOp.addi
    (broadcastInDim S4194304 ![] bcast_S_S4194304 (constantI S_ 32 0#32))
    (broadcastInDim S4194304x1 ![0] bcast_S4194304_S4194304x1_0 (positions c))
    (broadcastInDim S4194304 ![] bcast_S_S4194304 (constantI S_ 32 1#32))

/-- Division rounding toward minus infinity, by a scalar. -/
def floorDiv (x : IVec S4194304 32) (d : IVec S_ 32) : IVec S4194304 32 :=
  select
    (andi (cmpi .ne (signi x) (broadcastInDim S4194304 ![] bcast_S_S4194304 (signi d)))
      (cmpi .ne (Host.remsi x (broadcastInDim S4194304 ![] bcast_S_S4194304 d))
        (broadcastInDim S4194304 ![] bcast_S_S4194304 (constantI S_ 32 0#32))))
    (subi (Host.divsi x (broadcastInDim S4194304 ![] bcast_S_S4194304 d))
      (broadcastInDim S4194304 ![] bcast_S_S4194304 (constantI S_ 32 1#32)))
    (Host.divsi x (broadcastInDim S4194304 ![] bcast_S_S4194304 d))

/-- The divisor a remainder is taken by: one in place of zero. -/
def divisor (d : IVec S_ 32) : IVec S_ 32 :=
  select (cmpi .eq (id d) (constantI S_ 32 0#32)) (constantI S_ 32 1#32) (id d)

/-- The remainder with the divisor's sign, by a scalar. -/
def remainder (y : IVec S4194304 32) (d : IVec S_ 32) : IVec S4194304 32 :=
  select
    (andi
      (cmpi .ne
        (cmpi .slt (Host.remsi y (broadcastInDim S4194304 ![] bcast_S_S4194304 (divisor d)))
          (broadcastInDim S4194304 ![] bcast_S_S4194304 (constantI S_ 32 0#32)))
        (broadcastInDim S4194304 ![] bcast_S_S4194304 (cmpi .slt (divisor d) (constantI S_ 32 0#32))))
      (cmpi .ne (Host.remsi y (broadcastInDim S4194304 ![] bcast_S_S4194304 (divisor d)))
        (broadcastInDim S4194304 ![] bcast_S_S4194304 (constantI S_ 32 0#32))))
    (addi (Host.remsi y (broadcastInDim S4194304 ![] bcast_S_S4194304 (divisor d)))
      (broadcastInDim S4194304 ![] bcast_S_S4194304 (divisor d)))
    (Host.remsi y (broadcastInDim S4194304 ![] bcast_S_S4194304 (divisor d)))

/-- The number of marked entries. -/
def total (m1 : IVec S2048x2048 1) : IVec S_ 32 :=
  Host.reduce IntOp.addi (extui 32 m1 natLt_1_32) (constantI S_ 32 0#32) reducesTo_S2048x2048_S_d0_1 h_S_

/-- Entries past the number of marked entries replaced by zero. -/
def fillPast (m1 : IVec S2048x2048 1) (v : IVec S4194304 32) : IVec S4194304 32 :=
  select (cmpi .sge (iotaInDim S4194304 32 0) (broadcastInDim S4194304 ![] bcast_S_S4194304 (total m1)))
    (broadcastInDim S4194304 ![] bcast_S_S4194304 (id (constantI S_ 32 0#32))) v

/-- Which entries of the edge list hold an edge. -/
def validBits (A : FVec F S2048x2048 .f32) : IVec S4194304 1 :=
  cmpi .slt (iotaInDim S4194304 32 0) (broadcastInDim S4194304 ![] bcast_S_S4194304 (total (mask A)))

/-- A per-edge vector followed by a per-node vector (the self loops). -/
def withLoops {α : Type} (a : S4194304.Idx → α) (b : S2048.Idx → α) : S4196352.Idx → α :=
  concatenate S4196352 0 [⟨S4194304, a⟩, ⟨S2048, b⟩] concatenates_S4194304_S2048_S4196352_d0

/-- The flat position of each listed edge. -/
def flat (A : FVec F S2048x2048 .f32) : IVec S4194304 32 := runningSum (hist (count1 (mask A)))

/-- The edges' sources, then the nodes themselves. -/
def src (A : FVec F S2048x2048 .f32) : IVec S4196352 32 :=
  withLoops (fillPast (mask A) (remainder (floorDiv (flat A) (constantI S_ 32 2048#32)) (constantI S_ 32 2048#32)))
    (iotaInDim S2048 32 0)

/-- The edges' targets, then the nodes themselves. -/
def dst (A : FVec F S2048x2048 .f32) : IVec S4196352 32 :=
  withLoops (fillPast (mask A) (remainder (floorDiv (flat A) (constantI S_ 32 1#32)) (constantI S_ 32 2048#32)))
    (iotaInDim S2048 32 0)

/-- The edges' weights before normalisation: one for an edge and for a self loop, zero for an empty entry. -/
def validf (A : FVec F S2048x2048 .f32) : FVec F S4196352 .f32 :=
  uitofp .f32 (withLoops (validBits A) (broadcastInDim S2048 ![] bcast_S_S2048 (constantI S_ 1 1#1)))

/-- Node numbers as a column of positions, a negative one wrapped by the number of nodes. -/
def column (i : IVec S4196352 32) : IVec S4196352x1 32 :=
  broadcastInDim S4196352x1 ![0] bcast_S4196352_S4196352x1_0
    (select (cmpi .slt i (broadcastInDim S4196352 ![] bcast_S_S4196352 (constantI S_ 32 0#32)))
      (addi i (broadcastInDim S4196352 ![] bcast_S_S4196352 (constantI S_ 32 2048#32))) i)

/-- The degrees: the weights accumulated at the targets. -/
def degree (A : FVec F S2048x2048 .f32) : FVec F S2048 .f32 :=
  Host.scatterAdd scatter_S2048_S4196352x1_S4196352_n_0_0_1
    (broadcastInDim S2048 ![] bcast_S_S2048 (constant S_ .f32 0x00000000#32)) (column (dst A)) (validf A)

/-- One over the square root of a positive degree, zero otherwise. -/
def invSqrt (deg : FVec F S2048 .f32) : FVec F S2048 .f32 :=
  select (cmpf .ogt deg (broadcastInDim S2048 ![] bcast_S_S2048 (constant S_ .f32 0x00000000#32)))
    (Host.divf (broadcastInDim S2048 ![] bcast_S_S2048 (constant S_ .f32 0x3F800000#32)) (Host.sqrt deg))
    (broadcastInDim S2048 ![] bcast_S_S2048 (id (constant S_ .f32 0x00000000#32)))

/-- A per-node vector read at each edge's node. -/
def pick (t : FVec F S2048 .f32) (i : IVec S4196352 32) : FVec F S4196352 .f32 :=
  Host.gather gather_S2048_S4196352x1_S4196352_n_0_n_n_0_1_1 t (column i)

/-- The normalised edge weights. -/
def norm (A : FVec F S2048x2048 .f32) : FVec F S4196352 .f32 :=
  mulf (mulf (pick (invSqrt (degree A)) (src A)) (pick (invSqrt (degree A)) (dst A))) (validf A)

/-- One propagation of a 32-column table along the edges. -/
def propagate32 (A : FVec F S2048x2048 .f32) (h : FVec F S2048x32 .f32) : FVec F S2048x32 .f32 :=
  Host.scatterAdd scatter_S2048x32_S4196352x1_S4196352x32_1_0_0_1
    (broadcastInDim S2048x32 ![] bcast_S_S2048x32 (constant S_ .f32 0x00000000#32)) (column (dst A))
    (mulf (Host.gather gather_S2048x32_S4196352x1_S4196352x32_1_0_n_n_0_1_132 h (column (src A)))
      (broadcastInDim S4196352x32 ![0, 1] bcast_S4196352x1_S4196352x32_0_1
        (broadcastInDim S4196352x1 ![0] bcast_S4196352_S4196352x1_0 (norm A))))

/-- One propagation of a 16-column table along the edges. -/
def propagate16 (A : FVec F S2048x2048 .f32) (h : FVec F S2048x16 .f32) : FVec F S2048x16 .f32 :=
  Host.scatterAdd scatter_S2048x16_S4196352x1_S4196352x16_1_0_0_1
    (broadcastInDim S2048x16 ![] bcast_S_S2048x16 (constant S_ .f32 0x00000000#32)) (column (dst A))
    (mulf (Host.gather gather_S2048x16_S4196352x1_S4196352x16_1_0_n_n_0_1_116 h (column (src A)))
      (broadcastInDim S4196352x16 ![0, 1] bcast_S4196352x1_S4196352x16_0_1
        (broadcastInDim S4196352x1 ![0] bcast_S4196352_S4196352x1_0 (norm A))))

/-- The first layer's output: propagate `x · W1`, add the bias, clamp below at zero. -/
def hidden (A : FVec F S2048x2048 .f32) (x : FVec F S2048x16 .f32) (W1 : FVec F S16x32 .f32) (b1 : FVec F S32 .f32) :
    FVec F S2048x32 .f32 :=
  maximumf
    (addf (propagate32 A (Host.dotGeneral dot_S2048x16_S16x32_S2048x32_1_0_0_1_n_n none x W1))
      (broadcastInDim S2048x32 ![0, 1] bcast_S1x32_S2048x32_0_1 (broadcastInDim S1x32 ![1] bcast_S32_S1x32_1 b1)))
    (broadcastInDim S2048x32 ![] bcast_S_S2048x32 (constant S_ .f32 0x00000000#32))

/-- The second layer with its bias and the skip connection. -/
def logits (A : FVec F S2048x2048 .f32) (x : FVec F S2048x16 .f32) (W1 : FVec F S16x32 .f32) (b1 : FVec F S32 .f32)
    (W2 : FVec F S32x16 .f32) (b2 : FVec F S16 .f32) : FVec F S2048x16 .f32 :=
  addf
    (addf (propagate16 A (Host.dotGeneral dot_S2048x32_S32x16_S2048x16_1_0_0_1_n_n none (hidden A x W1 b1) W2))
      (broadcastInDim S2048x16 ![0, 1] bcast_S1x16_S2048x16_0_1 (broadcastInDim S1x16 ![1] bcast_S16_S1x16_1 b2)))
    x

/-- The network's output: the logistic function of the scaled second layer. -/
def out (A : FVec F S2048x2048 .f32) (x : FVec F S2048x16 .f32) (W1 : FVec F S16x32 .f32) (b1 : FVec F S32 .f32)
    (W2 : FVec F S32x16 .f32) (b2 : FVec F S16 .f32) (sp : FVec F S1 .f32) : FVec F S2048x16 .f32 :=
  Host.divf (broadcastInDim S2048x16 ![] bcast_S_S2048x16 (constant S_ .f32 0x3F800000#32))
    (addf (broadcastInDim S2048x16 ![] bcast_S_S2048x16 (constant S_ .f32 0x3F800000#32))
      (Host.exp (Host.negf
        (mulf (broadcastInDim S2048x16 ![0, 1] bcast_S1x1_S2048x16_0_1 (broadcastInDim S1x1 ![1] bcast_S1_S1x1_1 sp))
          (logits A x W1 b1 W2 b2)))))

end Cert.ReferenceIdeal.Stages

end
-- ==== Proof.RefRead.lean ====
/-
  What the reference's line of operations leaves, read segment by segment down to one function of the arguments.

  Each segment's values that a later segment reads are first stated as functions of the contents the segment
  starts from (one result of each operation at its own buffer, every other buffer unchanged, composed in order).
  Then the contents after the first `k` segments are read at every buffer still needed: a buffer the `k`-th
  segment writes by that segment's statement over the contents before it, any other by what it held before. At
  the end the result buffer holds the network's output as the stages compose it, and the arguments are unchanged.
-/
import proofs.«173982_g33990371181433_cont_sun_m_937_10_alg».proof.Proof.RefRun
import proofs.«173982_g33990371181433_cont_sun_m_937_10_alg».proof.Proof.RefReadArgs
import proofs.«173982_g33990371181433_cont_sun_m_937_10_alg».proof.Proof.RefStages

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

-- the operations whose bodies are folds or searches over an operand's elements stay folded: no equation here looks inside them
attribute [local irreducible] Host.reduceWindow Host.scatter Host.scatterAdd Host.gather Host.reduce concatenate

/-! ## Each segment's values, from the contents it starts from -/

set_option maxRecDepth 16384 in
set_option maxHeartbeats 1000000 in
theorem seg00_v1 (V : Valuation τ sig (Elt F)) :
    after (seg00 (F := F)) V (Proc.devRef .tc main_v1) = Stages.mask (V (Proc.devRef .tc main_arg0)) := by
  simp only [seg00]
  after_results_simp
  rfl

set_option maxRecDepth 16384 in
set_option maxHeartbeats 1000000 in
theorem seg01_v2 (V : Valuation τ sig (Elt F)) :
    after (seg01 (F := F)) V (Proc.devRef .tc main_v2) = Stages.count1 (V (Proc.devRef .tc main_v1)) := by
  simp only [seg01]
  after_results_simp
  rfl

set_option maxRecDepth 16384 in
set_option maxHeartbeats 1000000 in
theorem seg02_v12 (V : Valuation τ sig (Elt F)) :
    after (seg02 (F := F)) V (Proc.devRef .tc main_v12) = Stages.hist (V (Proc.devRef .tc main_v2)) := by
  simp only [seg02]
  after_results_simp
  rfl

set_option maxRecDepth 16384 in
set_option maxHeartbeats 1000000 in
theorem seg03_v13 (V : Valuation τ sig (Elt F)) :
    after (seg03 (F := F)) V (Proc.devRef .tc main_v13) = Stages.runningSum (V (Proc.devRef .tc main_v12)) := by
  simp only [seg03]
  after_results_simp
  rfl

set_option maxRecDepth 16384 in
set_option maxHeartbeats 1000000 in
theorem seg04_v14 (V : Valuation τ sig (Elt F)) :
    after (seg04 (F := F)) V (Proc.devRef .tc main_v14) = Stages.floorDiv (V (Proc.devRef .tc main_v13)) (constantI S_ 32 2048#32) := by
  simp only [seg04]
  after_results_simp
  rfl

set_option maxRecDepth 16384 in
set_option maxHeartbeats 1000000 in
theorem seg05_v15 (V : Valuation τ sig (Elt F)) :
    after (seg05 (F := F)) V (Proc.devRef .tc main_v15) = Stages.remainder (V (Proc.devRef .tc main_v14)) (constantI S_ 32 2048#32) := by
  simp only [seg05]
  after_results_simp
  rfl

set_option maxRecDepth 16384 in
set_option maxHeartbeats 1000000 in
theorem seg06_v16 (V : Valuation τ sig (Elt F)) :
    after (seg06 (F := F)) V (Proc.devRef .tc main_v16) = Stages.floorDiv (V (Proc.devRef .tc main_v13)) (constantI S_ 32 1#32) := by
  simp only [seg06]
  after_results_simp
  rfl

set_option maxRecDepth 16384 in
set_option maxHeartbeats 1000000 in
theorem seg07_v17 (V : Valuation τ sig (Elt F)) :
    after (seg07 (F := F)) V (Proc.devRef .tc main_v17) = Stages.remainder (V (Proc.devRef .tc main_v16)) (constantI S_ 32 2048#32) := by
  simp only [seg07]
  after_results_simp
  rfl

set_option maxRecDepth 16384 in
set_option maxHeartbeats 1000000 in
theorem seg08_v23 (V : Valuation τ sig (Elt F)) :
    after (seg08 (F := F)) V (Proc.devRef .tc main_v23) = Stages.fillPast (V (Proc.devRef .tc main_v1)) (V (Proc.devRef .tc main_v15)) := by
  simp only [seg08]
  after_results_simp
  rfl

set_option maxRecDepth 16384 in
set_option maxHeartbeats 1000000 in
theorem seg08_v24 (V : Valuation τ sig (Elt F)) :
    after (seg08 (F := F)) V (Proc.devRef .tc main_v24) = Stages.fillPast (V (Proc.devRef .tc main_v1)) (V (Proc.devRef .tc main_v17)) := by
  simp only [seg08]
  after_results_simp
  rfl

set_option maxRecDepth 16384 in
set_option maxHeartbeats 1000000 in
theorem seg09_v28 (V : Valuation τ sig (Elt F)) :
    after (seg09 (F := F)) V (Proc.devRef .tc main_v28) = Stages.validBits (V (Proc.devRef .tc main_arg0)) := by
  simp only [seg09]
  after_results_simp
  rfl

set_option maxRecDepth 16384 in
set_option maxHeartbeats 1000000 in
theorem seg10_v30 (V : Valuation τ sig (Elt F)) :
    after (seg10 (F := F)) V (Proc.devRef .tc main_v30) = Stages.withLoops (V (Proc.devRef .tc main_v23)) (iotaInDim S2048 32 0) := by
  simp only [seg10]
  after_results_simp
  rfl

set_option maxRecDepth 16384 in
set_option maxHeartbeats 1000000 in
theorem seg10_v31 (V : Valuation τ sig (Elt F)) :
    after (seg10 (F := F)) V (Proc.devRef .tc main_v31) = Stages.withLoops (V (Proc.devRef .tc main_v24)) (iotaInDim S2048 32 0) := by
  simp only [seg10]
  after_results_simp
  rfl

set_option maxRecDepth 16384 in
set_option maxHeartbeats 1000000 in
theorem seg10_v34 (V : Valuation τ sig (Elt F)) :
    after (seg10 (F := F)) V (Proc.devRef .tc main_v34) = uitofp .f32 (Stages.withLoops (V (Proc.devRef .tc main_v28)) (broadcastInDim S2048 ![] bcast_S_S2048 (constantI S_ 1 1#1))) := by
  simp only [seg10]
  after_results_simp
  rfl

set_option maxRecDepth 16384 in
set_option maxHeartbeats 1000000 in
theorem seg11_v42 (V : Valuation τ sig (Elt F)) :
    after (seg11 (F := F)) V (Proc.devRef .tc main_v42) = Host.scatterAdd scatter_S2048_S4196352x1_S4196352_n_0_0_1 (broadcastInDim S2048 ![] bcast_S_S2048 (constant S_ .f32 0x00000000#32)) (Stages.column (V (Proc.devRef .tc main_v31))) (V (Proc.devRef .tc main_v34)) := by
  simp only [seg11]
  after_results_simp
  rfl

set_option maxRecDepth 16384 in
set_option maxHeartbeats 1000000 in
theorem seg12_v48 (V : Valuation τ sig (Elt F)) :
    after (seg12 (F := F)) V (Proc.devRef .tc main_v48) = Stages.invSqrt (V (Proc.devRef .tc main_v42)) := by
  simp only [seg12]
  after_results_simp
  rfl

set_option maxRecDepth 16384 in
set_option maxHeartbeats 1000000 in
theorem seg12_v55 (V : Valuation τ sig (Elt F)) :
    after (seg12 (F := F)) V (Proc.devRef .tc main_v55) = Stages.pick (Stages.invSqrt (V (Proc.devRef .tc main_v42))) (V (Proc.devRef .tc main_v30)) := by
  simp only [seg12]
  after_results_simp
  rfl

set_option maxRecDepth 16384 in
set_option maxHeartbeats 1000000 in
theorem seg13_v64 (V : Valuation τ sig (Elt F)) :
    after (seg13 (F := F)) V (Proc.devRef .tc main_v64) = mulf (mulf (V (Proc.devRef .tc main_v55)) (Stages.pick (V (Proc.devRef .tc main_v48)) (V (Proc.devRef .tc main_v31)))) (V (Proc.devRef .tc main_v34)) := by
  simp only [seg13]
  after_results_simp
  rfl

set_option maxRecDepth 16384 in
set_option maxHeartbeats 1000000 in
theorem seg13_v75 (V : Valuation τ sig (Elt F)) :
    after (seg13 (F := F)) V (Proc.devRef .tc main_v75) = mulf (Host.gather gather_S2048x32_S4196352x1_S4196352x32_1_0_n_n_0_1_132 (Host.dotGeneral dot_S2048x16_S16x32_S2048x32_1_0_0_1_n_n none (V (Proc.devRef .tc main_arg1)) (V (Proc.devRef .tc main_arg2))) (Stages.column (V (Proc.devRef .tc main_v30)))) (broadcastInDim S4196352x32 ![0, 1] bcast_S4196352x1_S4196352x32_0_1 (broadcastInDim S4196352x1 ![0] bcast_S4196352_S4196352x1_0 (mulf (mulf (V (Proc.devRef .tc main_v55)) (Stages.pick (V (Proc.devRef .tc main_v48)) (V (Proc.devRef .tc main_v31)))) (V (Proc.devRef .tc main_v34))))) := by
  simp only [seg13]
  after_results_simp
  rfl

set_option maxRecDepth 16384 in
set_option maxHeartbeats 1000000 in
theorem seg14_v88 (V : Valuation τ sig (Elt F)) :
    after (seg14 (F := F)) V (Proc.devRef .tc main_v88) = Host.dotGeneral dot_S2048x32_S32x16_S2048x16_1_0_0_1_n_n none (maximumf (addf (Host.scatterAdd scatter_S2048x32_S4196352x1_S4196352x32_1_0_0_1 (broadcastInDim S2048x32 ![] bcast_S_S2048x32 (constant S_ .f32 0x00000000#32)) (Stages.column (V (Proc.devRef .tc main_v31))) (V (Proc.devRef .tc main_v75))) (broadcastInDim S2048x32 ![0, 1] bcast_S1x32_S2048x32_0_1 (broadcastInDim S1x32 ![1] bcast_S32_S1x32_1 (V (Proc.devRef .tc main_arg3))))) (broadcastInDim S2048x32 ![] bcast_S_S2048x32 (constant S_ .f32 0x00000000#32))) (V (Proc.devRef .tc main_arg4)) := by
  simp only [seg14]
  after_results_simp
  rfl

set_option maxRecDepth 16384 in
set_option maxHeartbeats 1000000 in
theorem seg14_v89 (V : Valuation τ sig (Elt F)) :
    after (seg14 (F := F)) V (Proc.devRef .tc main_v89) = broadcastInDim S4196352 ![] bcast_S_S4196352 (constantI S_ 32 0#32) := by
  simp only [seg14]
  after_results_simp

set_option maxRecDepth 16384 in
set_option maxHeartbeats 1000000 in
theorem seg15_v106 (V : Valuation τ sig (Elt F)) :
    after (seg15 (F := F)) V (Proc.devRef .tc main_v106) = Host.scatterAdd scatter_S2048x16_S4196352x1_S4196352x16_1_0_0_1 (broadcastInDim S2048x16 ![] bcast_S_S2048x16 (constant S_ .f32 0x00000000#32)) (Stages.column (V (Proc.devRef .tc main_v31))) (mulf (Host.gather gather_S2048x16_S4196352x1_S4196352x16_1_0_n_n_0_1_116 (V (Proc.devRef .tc main_v88)) (broadcastInDim S4196352x1 ![0] bcast_S4196352_S4196352x1_0 (select (cmpi .slt (V (Proc.devRef .tc main_v30)) (V (Proc.devRef .tc main_v89))) (addi (V (Proc.devRef .tc main_v30)) (broadcastInDim S4196352 ![] bcast_S_S4196352 (constantI S_ 32 2048#32))) (V (Proc.devRef .tc main_v30))))) (broadcastInDim S4196352x16 ![0, 1] bcast_S4196352x1_S4196352x16_0_1 (broadcastInDim S4196352x1 ![0] bcast_S4196352_S4196352x1_0 (V (Proc.devRef .tc main_v64))))) := by
  simp only [seg15]
  after_results_simp
  rfl

set_option maxRecDepth 16384 in
set_option maxHeartbeats 1000000 in
theorem seg16_v119 (V : Valuation τ sig (Elt F)) :
    after (seg16 (F := F)) V (Proc.devRef .tc main_v119) = Host.divf (broadcastInDim S2048x16 ![] bcast_S_S2048x16 (constant S_ .f32 0x3F800000#32)) (addf (broadcastInDim S2048x16 ![] bcast_S_S2048x16 (constant S_ .f32 0x3F800000#32)) (Host.exp (Host.negf (mulf (broadcastInDim S2048x16 ![0, 1] bcast_S1x1_S2048x16_0_1 (broadcastInDim S1x1 ![1] bcast_S1_S1x1_1 (V (Proc.devRef .tc main_arg6)))) (addf (addf (V (Proc.devRef .tc main_v106)) (broadcastInDim S2048x16 ![0, 1] bcast_S1x16_S2048x16_0_1 (broadcastInDim S1x16 ![1] bcast_S16_S1x16_1 (V (Proc.devRef .tc main_arg5))))) (V (Proc.devRef .tc main_arg1))))))) := by
  simp only [seg16]
  after_results_simp

/-! ## The contents after the first segments, at the buffers still needed -/

/-! ### Through seg00 -/

theorem val00_v1 (V : Valuation τ sig (Elt F)) :
    val00 V (Proc.devRef .tc main_v1) = Stages.mask (V (Proc.devRef .tc main_arg0)) := by
  refine (seg00_v1 V).trans ?_
  rfl

/-! ### Through seg01 -/

theorem val01_v1 (V : Valuation τ sig (Elt F)) :
    val01 V (Proc.devRef .tc main_v1) = Stages.mask (V (Proc.devRef .tc main_arg0)) :=
  (val01_keep V main_v1 (by decide)).trans (val00_v1 V)
theorem val01_v2 (V : Valuation τ sig (Elt F)) :
    val01 V (Proc.devRef .tc main_v2) = Stages.count1 (Stages.mask (V (Proc.devRef .tc main_arg0))) := by
  refine (seg01_v2 (val00 V)).trans ?_
  rw [val00_v1 V]
  <;> rfl

/-! ### Through seg02 -/

theorem val02_v1 (V : Valuation τ sig (Elt F)) :
    val02 V (Proc.devRef .tc main_v1) = Stages.mask (V (Proc.devRef .tc main_arg0)) :=
  (val02_keep V main_v1 (by decide)).trans (val01_v1 V)
theorem val02_v12 (V : Valuation τ sig (Elt F)) :
    val02 V (Proc.devRef .tc main_v12) = Stages.hist (Stages.count1 (Stages.mask (V (Proc.devRef .tc main_arg0)))) := by
  refine (seg02_v12 (val01 V)).trans ?_
  rw [val01_v2 V]
  <;> rfl

/-! ### Through seg03 -/

theorem val03_v1 (V : Valuation τ sig (Elt F)) :
    val03 V (Proc.devRef .tc main_v1) = Stages.mask (V (Proc.devRef .tc main_arg0)) :=
  (val03_keep V main_v1 (by decide)).trans (val02_v1 V)
theorem val03_v13 (V : Valuation τ sig (Elt F)) :
    val03 V (Proc.devRef .tc main_v13) = Stages.flat (V (Proc.devRef .tc main_arg0)) := by
  refine (seg03_v13 (val02 V)).trans ?_
  rw [val02_v12 V]
  <;> rfl

/-! ### Through seg04 -/

theorem val04_v1 (V : Valuation τ sig (Elt F)) :
    val04 V (Proc.devRef .tc main_v1) = Stages.mask (V (Proc.devRef .tc main_arg0)) :=
  (val04_keep V main_v1 (by decide)).trans (val03_v1 V)
theorem val04_v13 (V : Valuation τ sig (Elt F)) :
    val04 V (Proc.devRef .tc main_v13) = Stages.flat (V (Proc.devRef .tc main_arg0)) :=
  (val04_keep V main_v13 (by decide)).trans (val03_v13 V)
theorem val04_v14 (V : Valuation τ sig (Elt F)) :
    val04 V (Proc.devRef .tc main_v14) = Stages.floorDiv (Stages.flat (V (Proc.devRef .tc main_arg0))) (constantI S_ 32 2048#32) := by
  refine (seg04_v14 (val03 V)).trans ?_
  rw [val03_v13 V]
  <;> rfl

/-! ### Through seg05 -/

theorem val05_v1 (V : Valuation τ sig (Elt F)) :
    val05 V (Proc.devRef .tc main_v1) = Stages.mask (V (Proc.devRef .tc main_arg0)) :=
  (val05_keep V main_v1 (by decide)).trans (val04_v1 V)
theorem val05_v13 (V : Valuation τ sig (Elt F)) :
    val05 V (Proc.devRef .tc main_v13) = Stages.flat (V (Proc.devRef .tc main_arg0)) :=
  (val05_keep V main_v13 (by decide)).trans (val04_v13 V)
theorem val05_v15 (V : Valuation τ sig (Elt F)) :
    val05 V (Proc.devRef .tc main_v15) = Stages.remainder (Stages.floorDiv (Stages.flat (V (Proc.devRef .tc main_arg0))) (constantI S_ 32 2048#32)) (constantI S_ 32 2048#32) := by
  refine (seg05_v15 (val04 V)).trans ?_
  rw [val04_v14 V]
  <;> rfl

/-! ### Through seg06 -/

theorem val06_v1 (V : Valuation τ sig (Elt F)) :
    val06 V (Proc.devRef .tc main_v1) = Stages.mask (V (Proc.devRef .tc main_arg0)) :=
  (val06_keep V main_v1 (by decide)).trans (val05_v1 V)
theorem val06_v15 (V : Valuation τ sig (Elt F)) :
    val06 V (Proc.devRef .tc main_v15) = Stages.remainder (Stages.floorDiv (Stages.flat (V (Proc.devRef .tc main_arg0))) (constantI S_ 32 2048#32)) (constantI S_ 32 2048#32) :=
  (val06_keep V main_v15 (by decide)).trans (val05_v15 V)
theorem val06_v16 (V : Valuation τ sig (Elt F)) :
    val06 V (Proc.devRef .tc main_v16) = Stages.floorDiv (Stages.flat (V (Proc.devRef .tc main_arg0))) (constantI S_ 32 1#32) := by
  refine (seg06_v16 (val05 V)).trans ?_
  rw [val05_v13 V]
  <;> rfl

/-! ### Through seg07 -/

theorem val07_v1 (V : Valuation τ sig (Elt F)) :
    val07 V (Proc.devRef .tc main_v1) = Stages.mask (V (Proc.devRef .tc main_arg0)) :=
  (val07_keep V main_v1 (by decide)).trans (val06_v1 V)
theorem val07_v15 (V : Valuation τ sig (Elt F)) :
    val07 V (Proc.devRef .tc main_v15) = Stages.remainder (Stages.floorDiv (Stages.flat (V (Proc.devRef .tc main_arg0))) (constantI S_ 32 2048#32)) (constantI S_ 32 2048#32) :=
  (val07_keep V main_v15 (by decide)).trans (val06_v15 V)
theorem val07_v17 (V : Valuation τ sig (Elt F)) :
    val07 V (Proc.devRef .tc main_v17) = Stages.remainder (Stages.floorDiv (Stages.flat (V (Proc.devRef .tc main_arg0))) (constantI S_ 32 1#32)) (constantI S_ 32 2048#32) := by
  refine (seg07_v17 (val06 V)).trans ?_
  rw [val06_v16 V]
  <;> rfl

/-! ### Through seg08 -/

theorem val08_v23 (V : Valuation τ sig (Elt F)) :
    val08 V (Proc.devRef .tc main_v23) = Stages.fillPast (Stages.mask (V (Proc.devRef .tc main_arg0))) (Stages.remainder (Stages.floorDiv (Stages.flat (V (Proc.devRef .tc main_arg0))) (constantI S_ 32 2048#32)) (constantI S_ 32 2048#32)) := by
  refine (seg08_v23 (val07 V)).trans ?_
  rw [val07_v1 V, val07_v15 V]
  <;> rfl
theorem val08_v24 (V : Valuation τ sig (Elt F)) :
    val08 V (Proc.devRef .tc main_v24) = Stages.fillPast (Stages.mask (V (Proc.devRef .tc main_arg0))) (Stages.remainder (Stages.floorDiv (Stages.flat (V (Proc.devRef .tc main_arg0))) (constantI S_ 32 1#32)) (constantI S_ 32 2048#32)) := by
  refine (seg08_v24 (val07 V)).trans ?_
  rw [val07_v1 V, val07_v17 V]
  <;> rfl

/-! ### Through seg09 -/

theorem val09_v23 (V : Valuation τ sig (Elt F)) :
    val09 V (Proc.devRef .tc main_v23) = Stages.fillPast (Stages.mask (V (Proc.devRef .tc main_arg0))) (Stages.remainder (Stages.floorDiv (Stages.flat (V (Proc.devRef .tc main_arg0))) (constantI S_ 32 2048#32)) (constantI S_ 32 2048#32)) :=
  (val09_keep V main_v23 (by decide)).trans (val08_v23 V)
theorem val09_v24 (V : Valuation τ sig (Elt F)) :
    val09 V (Proc.devRef .tc main_v24) = Stages.fillPast (Stages.mask (V (Proc.devRef .tc main_arg0))) (Stages.remainder (Stages.floorDiv (Stages.flat (V (Proc.devRef .tc main_arg0))) (constantI S_ 32 1#32)) (constantI S_ 32 2048#32)) :=
  (val09_keep V main_v24 (by decide)).trans (val08_v24 V)
theorem val09_v28 (V : Valuation τ sig (Elt F)) :
    val09 V (Proc.devRef .tc main_v28) = Stages.validBits (V (Proc.devRef .tc main_arg0)) := by
  refine (seg09_v28 (val08 V)).trans ?_
  rw [val08_arg0 V]
  <;> rfl

/-! ### Through seg10 -/

theorem val10_v30 (V : Valuation τ sig (Elt F)) :
    val10 V (Proc.devRef .tc main_v30) = Stages.src (V (Proc.devRef .tc main_arg0)) := by
  refine (seg10_v30 (val09 V)).trans ?_
  rw [val09_v23 V]
  <;> rfl
theorem val10_v31 (V : Valuation τ sig (Elt F)) :
    val10 V (Proc.devRef .tc main_v31) = Stages.dst (V (Proc.devRef .tc main_arg0)) := by
  refine (seg10_v31 (val09 V)).trans ?_
  rw [val09_v24 V]
  <;> rfl
theorem val10_v34 (V : Valuation τ sig (Elt F)) :
    val10 V (Proc.devRef .tc main_v34) = Stages.validf (V (Proc.devRef .tc main_arg0)) := by
  refine (seg10_v34 (val09 V)).trans ?_
  rw [val09_v28 V]
  <;> rfl

/-! ### Through seg11 -/

theorem val11_v30 (V : Valuation τ sig (Elt F)) :
    val11 V (Proc.devRef .tc main_v30) = Stages.src (V (Proc.devRef .tc main_arg0)) :=
  (val11_keep V main_v30 (by decide)).trans (val10_v30 V)
theorem val11_v31 (V : Valuation τ sig (Elt F)) :
    val11 V (Proc.devRef .tc main_v31) = Stages.dst (V (Proc.devRef .tc main_arg0)) :=
  (val11_keep V main_v31 (by decide)).trans (val10_v31 V)
theorem val11_v34 (V : Valuation τ sig (Elt F)) :
    val11 V (Proc.devRef .tc main_v34) = Stages.validf (V (Proc.devRef .tc main_arg0)) :=
  (val11_keep V main_v34 (by decide)).trans (val10_v34 V)
theorem val11_v42 (V : Valuation τ sig (Elt F)) :
    val11 V (Proc.devRef .tc main_v42) = Stages.degree (V (Proc.devRef .tc main_arg0)) := by
  refine (seg11_v42 (val10 V)).trans ?_
  rw [val10_v31 V, val10_v34 V]
  <;> rfl

/-! ### Through seg12 -/

theorem val12_v30 (V : Valuation τ sig (Elt F)) :
    val12 V (Proc.devRef .tc main_v30) = Stages.src (V (Proc.devRef .tc main_arg0)) :=
  (val12_keep V main_v30 (by decide)).trans (val11_v30 V)
theorem val12_v31 (V : Valuation τ sig (Elt F)) :
    val12 V (Proc.devRef .tc main_v31) = Stages.dst (V (Proc.devRef .tc main_arg0)) :=
  (val12_keep V main_v31 (by decide)).trans (val11_v31 V)
theorem val12_v34 (V : Valuation τ sig (Elt F)) :
    val12 V (Proc.devRef .tc main_v34) = Stages.validf (V (Proc.devRef .tc main_arg0)) :=
  (val12_keep V main_v34 (by decide)).trans (val11_v34 V)
theorem val12_v48 (V : Valuation τ sig (Elt F)) :
    val12 V (Proc.devRef .tc main_v48) = Stages.invSqrt (Stages.degree (V (Proc.devRef .tc main_arg0))) := by
  refine (seg12_v48 (val11 V)).trans ?_
  rw [val11_v42 V]
  <;> rfl
theorem val12_v55 (V : Valuation τ sig (Elt F)) :
    val12 V (Proc.devRef .tc main_v55) = Stages.pick (Stages.invSqrt (Stages.degree (V (Proc.devRef .tc main_arg0)))) (Stages.src (V (Proc.devRef .tc main_arg0))) := by
  refine (seg12_v55 (val11 V)).trans ?_
  rw [val11_v42 V, val11_v30 V]
  <;> rfl

/-! ### Through seg13 -/

theorem val13_v30 (V : Valuation τ sig (Elt F)) :
    val13 V (Proc.devRef .tc main_v30) = Stages.src (V (Proc.devRef .tc main_arg0)) :=
  (val13_keep V main_v30 (by decide)).trans (val12_v30 V)
theorem val13_v31 (V : Valuation τ sig (Elt F)) :
    val13 V (Proc.devRef .tc main_v31) = Stages.dst (V (Proc.devRef .tc main_arg0)) :=
  (val13_keep V main_v31 (by decide)).trans (val12_v31 V)
theorem val13_v64 (V : Valuation τ sig (Elt F)) :
    val13 V (Proc.devRef .tc main_v64) = Stages.norm (V (Proc.devRef .tc main_arg0)) := by
  refine (seg13_v64 (val12 V)).trans ?_
  rw [val12_v55 V, val12_v48 V, val12_v31 V, val12_v34 V]
  <;> rfl
theorem val13_v75 (V : Valuation τ sig (Elt F)) :
    val13 V (Proc.devRef .tc main_v75) = mulf (Host.gather gather_S2048x32_S4196352x1_S4196352x32_1_0_n_n_0_1_132 (Host.dotGeneral dot_S2048x16_S16x32_S2048x32_1_0_0_1_n_n none (V (Proc.devRef .tc main_arg1)) (V (Proc.devRef .tc main_arg2))) (Stages.column (Stages.src (V (Proc.devRef .tc main_arg0))))) (broadcastInDim S4196352x32 ![0, 1] bcast_S4196352x1_S4196352x32_0_1 (broadcastInDim S4196352x1 ![0] bcast_S4196352_S4196352x1_0 (Stages.norm (V (Proc.devRef .tc main_arg0))))) := by
  refine (seg13_v75 (val12 V)).trans ?_
  rw [val12_arg1 V, val12_arg2 V, val12_v30 V, val12_v55 V, val12_v48 V, val12_v31 V, val12_v34 V]
  <;> rfl

/-! ### Through seg14 -/

theorem val14_v30 (V : Valuation τ sig (Elt F)) :
    val14 V (Proc.devRef .tc main_v30) = Stages.src (V (Proc.devRef .tc main_arg0)) :=
  (val14_keep V main_v30 (by decide)).trans (val13_v30 V)
theorem val14_v31 (V : Valuation τ sig (Elt F)) :
    val14 V (Proc.devRef .tc main_v31) = Stages.dst (V (Proc.devRef .tc main_arg0)) :=
  (val14_keep V main_v31 (by decide)).trans (val13_v31 V)
theorem val14_v64 (V : Valuation τ sig (Elt F)) :
    val14 V (Proc.devRef .tc main_v64) = Stages.norm (V (Proc.devRef .tc main_arg0)) :=
  (val14_keep V main_v64 (by decide)).trans (val13_v64 V)
theorem val14_v88 (V : Valuation τ sig (Elt F)) :
    val14 V (Proc.devRef .tc main_v88) = Host.dotGeneral dot_S2048x32_S32x16_S2048x16_1_0_0_1_n_n none (Stages.hidden (V (Proc.devRef .tc main_arg0)) (V (Proc.devRef .tc main_arg1)) (V (Proc.devRef .tc main_arg2)) (V (Proc.devRef .tc main_arg3))) (V (Proc.devRef .tc main_arg4)) := by
  refine (seg14_v88 (val13 V)).trans ?_
  rw [val13_v31 V, val13_v75 V, val13_arg3 V, val13_arg4 V]
  <;> rfl
theorem val14_v89 (V : Valuation τ sig (Elt F)) :
    val14 V (Proc.devRef .tc main_v89) = broadcastInDim S4196352 ![] bcast_S_S4196352 (constantI S_ 32 0#32) := by
  refine (seg14_v89 (val13 V)).trans ?_
  rfl

/-! ### Through seg15 -/

theorem val15_v106 (V : Valuation τ sig (Elt F)) :
    val15 V (Proc.devRef .tc main_v106) = Stages.propagate16 (V (Proc.devRef .tc main_arg0)) (Host.dotGeneral dot_S2048x32_S32x16_S2048x16_1_0_0_1_n_n none (Stages.hidden (V (Proc.devRef .tc main_arg0)) (V (Proc.devRef .tc main_arg1)) (V (Proc.devRef .tc main_arg2)) (V (Proc.devRef .tc main_arg3))) (V (Proc.devRef .tc main_arg4))) := by
  refine (seg15_v106 (val14 V)).trans ?_
  rw [val14_v31 V, val14_v88 V, val14_v30 V, val14_v89 V, val14_v64 V]
  <;> rfl

/-! ### Through seg16 -/

theorem val16_v119 (V : Valuation τ sig (Elt F)) :
    val16 V (Proc.devRef .tc main_v119) = Stages.out (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  refine (seg16_v119 (val15 V)).trans ?_
  rw [val15_arg6 V, val15_v106 V, val15_arg5 V, val15_arg1 V]
  <;> rfl

/-! ## The whole line -/

/-- The result buffer after the whole line: the network's output, as a function of the arguments' contents. -/
theorem ops_out (V : Valuation τ sig (Elt F)) :
    after ops V (Proc.devRef .tc main_v119)
      = Stages.out (V (Proc.devRef .tc main_arg0)) (V (Proc.devRef .tc main_arg1)) (V (Proc.devRef .tc main_arg2)) (V (Proc.devRef .tc main_arg3))
          (V (Proc.devRef .tc main_arg4)) (V (Proc.devRef .tc main_arg5)) (V (Proc.devRef .tc main_arg6)) := by
  rw [after_ops]; exact val16_v119 V
theorem ops_arg0 (V : Valuation τ sig (Elt F)) : after ops V (Proc.devRef .tc main_arg0) = V (Proc.devRef .tc main_arg0) := by
  rw [after_ops]; exact val16_arg0 V
theorem ops_arg1 (V : Valuation τ sig (Elt F)) : after ops V (Proc.devRef .tc main_arg1) = V (Proc.devRef .tc main_arg1) := by
  rw [after_ops]; exact val16_arg1 V
theorem ops_arg2 (V : Valuation τ sig (Elt F)) : after ops V (Proc.devRef .tc main_arg2) = V (Proc.devRef .tc main_arg2) := by
  rw [after_ops]; exact val16_arg2 V
theorem ops_arg3 (V : Valuation τ sig (Elt F)) : after ops V (Proc.devRef .tc main_arg3) = V (Proc.devRef .tc main_arg3) := by
  rw [after_ops]; exact val16_arg3 V
theorem ops_arg4 (V : Valuation τ sig (Elt F)) : after ops V (Proc.devRef .tc main_arg4) = V (Proc.devRef .tc main_arg4) := by
  rw [after_ops]; exact val16_arg4 V
theorem ops_arg5 (V : Valuation τ sig (Elt F)) : after ops V (Proc.devRef .tc main_arg5) = V (Proc.devRef .tc main_arg5) := by
  rw [after_ops]; exact val16_arg5 V
theorem ops_arg6 (V : Valuation τ sig (Elt F)) : after ops V (Proc.devRef .tc main_arg6) = V (Proc.devRef .tc main_arg6) := by
  rw [after_ops]; exact val16_arg6 V

/-- On every device, for any float values, from any memory with zero counters: every weakly fair execution of @main
    terminates with the result buffer at the network's output of the arguments' launch contents, and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v119)
        = Stages.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v119).trans (ops_out _),
      (h c main_arg0).trans (ops_arg0 _),
      (h c main_arg1).trans (ops_arg1 _),
      (h c main_arg2).trans (ops_arg2 _),
      (h c main_arg3).trans (ops_arg3 _),
      (h c main_arg4).trans (ops_arg4 _),
      (h c main_arg5).trans (ops_arg5 _),
      (h c main_arg6).trans (ops_arg6 _)⟩)
    (run_after m ρ)

end Cert.ReferenceIdeal.HandRun

end
-- ==== Proof.LibNonzeroEnum.lean ====
/-
  Enumerating, by counting, the positions at which a predicate holds.

  Let `m` be a predicate on the positions `0, …, N-1`.  Write `cnt m k` for the number of positions `≤ k`
  at which `m` holds (the inclusive running count), and `pos m N e` for the number of positions `k < N` whose
  running count is at most `e`.  Because the running count never decreases and rises by at most one per step,
  the positions with running count `≤ e` form an initial segment `0, …, p-1`, and its length `p = pos m N e` is —
  as long as `e` is smaller than the total count — exactly the position of the `(e+1)`-st place where `m` holds:
  `m p` holds and `cnt m p = e + 1`.  Conversely a position `k` at which `m` holds is `pos m N (cnt m k - 1)`.
  So `e ↦ pos m N e` is a bijection from `0, …, total-1` onto the positions where `m` holds, increasing in `e`, and
  a sum over the former of `f (pos m N e)` is the sum of `f` over the latter (`sum_pos`).

  This is what "the running sum of a 0/1 mask, a histogram of the running sums, and the running sum of that
  histogram" computes: the histogram's entry `v` is the number of positions whose running count is `v`, and the
  running sum of the histogram at `e` is the number of positions whose running count is `≤ e`
  (`sum_card_fiber`), that is `pos m N e` — the flat index of the `(e+1)`-st position where the mask is set.
-/
import Mathlib

namespace NonzeroEnum

open Finset

/-- A finite set of naturals closed under going down is an initial segment, of its own cardinality. -/
theorem eq_range_card_of_lower {S : Finset ℕ} (h : ∀ a ∈ S, ∀ b, b < a → b ∈ S) : S = range S.card := by
  apply Finset.eq_of_subset_of_card_le
  · intro a ha
    rw [mem_range]
    have hsub : range (a + 1) ⊆ S := by
      intro b hb
      rw [mem_range, Nat.lt_succ_iff] at hb
      rcases hb.eq_or_lt with rfl | hlt
      · exact ha
      · exact h a ha b hlt
    have hc := card_le_card hsub
    rw [card_range] at hc
    omega
  · rw [card_range]

/-- The sizes of the level sets `{k < N | c k = v}`, added over `v ≤ e`, count the positions with `c k ≤ e`. -/
theorem sum_card_fiber (c : ℕ → ℕ) (N e : ℕ) :
    ∑ v ∈ range (e + 1), ((range N).filter (fun k => c k = v)).card
      = ((range N).filter (fun k => c k ≤ e)).card := by
  rw [Finset.card_eq_sum_card_fiberwise (f := c) (s := (range N).filter (fun k => c k ≤ e)) (t := range (e + 1))
    (by intro k hk; simp only [coe_filter, mem_range, Set.mem_setOf_eq] at hk; simp only [coe_range, Set.mem_Iio]; omega)]
  refine Finset.sum_congr rfl fun v hv => ?_
  rw [mem_range] at hv
  congr 1
  ext k
  simp only [mem_filter, mem_range]
  constructor
  · rintro ⟨hk, rfl⟩; exact ⟨⟨hk, by omega⟩, rfl⟩
  · rintro ⟨⟨hk, _⟩, rfl⟩; exact ⟨hk, rfl⟩

variable (m : ℕ → Prop) [DecidablePred m]

/-- The inclusive running count: how many positions `≤ k` satisfy `m`. -/
def cnt (k : ℕ) : ℕ := ((range (k + 1)).filter m).card

theorem cnt_zero : cnt m 0 = if m 0 then 1 else 0 := by
  unfold cnt
  rw [show range (0 + 1) = {0} from rfl, Finset.filter_singleton]
  split_ifs <;> simp

theorem cnt_succ (k : ℕ) : cnt m (k + 1) = cnt m k + if m (k + 1) then 1 else 0 := by
  unfold cnt
  rw [Finset.range_add_one (n := k + 1), Finset.filter_insert]
  split_ifs with h
  · rw [Finset.card_insert_of_notMem (by simp)]
  · simp

theorem cnt_mono {k k' : ℕ} (h : k ≤ k') : cnt m k ≤ cnt m k' := by
  unfold cnt
  exact card_le_card (filter_subset_filter _ (range_mono (by omega)))

theorem cnt_pos_of {k : ℕ} (hm : m k) : 1 ≤ cnt m k := by
  cases k with
  | zero => rw [cnt_zero, if_pos hm]
  | succ k => rw [cnt_succ, if_pos hm]; omega

/-- The number of positions `k < N` whose running count is at most `e`. -/
def pos (N e : ℕ) : ℕ := ((range N).filter (fun k => cnt m k ≤ e)).card

/-- Those positions are exactly `0, …, pos m N e - 1`: the running count never decreases. -/
theorem filter_le_eq_range (N e : ℕ) : (range N).filter (fun k => cnt m k ≤ e) = range (pos m N e) := by
  unfold pos
  apply eq_range_card_of_lower
  intro a ha b hb
  rw [mem_filter, mem_range] at ha ⊢
  exact ⟨by omega, le_trans (cnt_mono m hb.le) ha.2⟩

theorem lt_pos_iff (N e k : ℕ) : k < pos m N e ↔ k < N ∧ cnt m k ≤ e := by
  rw [← mem_range, ← filter_le_eq_range, mem_filter, mem_range]

theorem pos_le (N e : ℕ) : pos m N e ≤ N := by
  unfold pos
  exact (card_filter_le _ _).trans (by rw [card_range])

variable {m}

/-- Below the total count, `pos m N e` is a position. -/
theorem pos_lt {N e : ℕ} (hN : 0 < N) (he : e < cnt m (N - 1)) : pos m N e < N := by
  rcases (pos_le m N e).eq_or_lt with h | h
  · exfalso
    have : N - 1 < pos m N e := by omega
    rw [lt_pos_iff] at this
    omega
  · exact h

/-- … at which `m` holds, and it is the `(e+1)`-st such position. -/
theorem cnt_pos {N e : ℕ} (hN : 0 < N) (he : e < cnt m (N - 1)) :
    cnt m (pos m N e) = e + 1 ∧ m (pos m N e) := by
  have hlt := pos_lt hN he
  have hnot : ¬ (cnt m (pos m N e) ≤ e) := fun hle => by
    have := (lt_pos_iff m N e (pos m N e)).mpr ⟨hlt, hle⟩
    omega
  rcases hp : pos m N e with _ | q
  · rw [hp] at hnot
    rw [cnt_zero] at hnot ⊢
    by_cases h0 : m 0
    · rw [if_pos h0] at hnot ⊢; exact ⟨by omega, h0⟩
    · rw [if_neg h0] at hnot; omega
  · rw [hp] at hnot
    have hq : cnt m q ≤ e := ((lt_pos_iff m N e q).mp (by omega)).2
    rw [cnt_succ] at hnot ⊢
    by_cases h1 : m (q + 1)
    · rw [if_pos h1] at hnot ⊢; exact ⟨by omega, h1⟩
    · rw [if_neg h1] at hnot; omega

/-- A position at which `m` holds is found again from its own running count. -/
theorem pos_cnt {N k : ℕ} (hk : k < N) (hm : m k) : pos m N (cnt m k - 1) = k := by
  have h1 := cnt_pos_of m hm
  have hset : (range N).filter (fun k' => cnt m k' ≤ cnt m k - 1) = range k := by
    ext k'
    rw [mem_filter, mem_range, mem_range]
    constructor
    · rintro ⟨_, hle⟩
      by_contra hge
      have := cnt_mono m (Nat.le_of_not_lt hge)
      omega
    · intro hlt
      refine ⟨by omega, ?_⟩
      obtain ⟨j, rfl⟩ : ∃ j, k = j + 1 := ⟨k - 1, by omega⟩
      have := cnt_mono m (show k' ≤ j by omega)
      rw [cnt_succ, if_pos hm]
      omega
  unfold pos
  rw [hset, card_range]

/-- A sum over `e` below the total count of `f` at the `(e+1)`-st position where `m` holds is the sum of `f`
    over the positions where `m` holds. -/
theorem sum_pos {M : Type*} [AddCommMonoid M] (f : ℕ → M) {N : ℕ} (hN : 0 < N) :
    ∑ e ∈ range (cnt m (N - 1)), f (pos m N e) = ∑ k ∈ (range N).filter m, f k := by
  refine Finset.sum_nbij' (fun e => pos m N e) (fun k => cnt m k - 1) ?_ ?_ ?_ ?_ ?_
  · intro e he
    rw [mem_range] at he
    rw [mem_filter, mem_range]
    exact ⟨pos_lt hN he, (cnt_pos hN he).2⟩
  · intro k hk
    rw [mem_filter, mem_range] at hk
    rw [mem_range]
    have h1 := cnt_pos_of m hk.2
    have h2 := cnt_mono m (show k ≤ N - 1 by omega)
    omega
  · intro e he
    rw [mem_range] at he
    show cnt m (pos m N e) - 1 = e
    rw [(cnt_pos hN he).1]; rfl
  · intro k hk
    rw [mem_filter, mem_range] at hk
    exact pos_cnt hk.1 hk.2
  · intro e _; rfl

end NonzeroEnum
-- ==== Proof.LibCumsumWindow.lean ====
/-
  An integer running sum written as a windowed reduction, read at a position.

  A running sum of a length-`N` sequence can be written as a sliding-window sum: pad the sequence with `N - 1`
  zeros in front, slide a window of width `N` with stride one, and add up each window.  The window at position
  `j` then covers the padding and the entries `0, …, j` of the sequence, so its sum is `x 0 + ⋯ + x j`
  (`reduceWindow_addi_cumsum`, for words of any width; the sum is the words' sum, that is, modulo `2 ^ w`).
  When the numbers `(x k).toNat` for `k ≤ j` add up to less than `2 ^ w` nothing wraps and the word at `j`
  is that natural number (`toNat_sum_of_lt`).
-/
import Idealize.ShloMosaic.PureOps.Contract
import Mathlib

namespace Idealize.ShloMosaic

open Finset

/-- A left fold that adds one term per list element is the starting value plus the sum of the terms. -/
theorem foldl_add_eq_add_sum {M ι : Type*} [AddCommMonoid M] (g : ι → M) (l : List ι) (v : M) :
    l.foldl (fun r n => r + g n) v = v + (l.map g).sum := by
  induction l generalizing v with
  | nil => simp
  | cons a l ih => rw [List.foldl_cons, ih, List.map_cons, List.sum_cons, add_assoc]

/-- The natural number of a sum of words whose natural numbers add up to less than `2 ^ w` is the sum of
    those numbers: no partial sum wraps. -/
theorem toNat_sum_of_lt {w : ℕ} {ι : Type*} [DecidableEq ι] (s : Finset ι) (f : ι → BitVec w)
    (h : ∑ i ∈ s, (f i).toNat < 2 ^ w) : (∑ i ∈ s, f i).toNat = ∑ i ∈ s, (f i).toNat := by
  induction s using Finset.induction_on with
  | empty => simp
  | insert a s ha ih =>
    rw [Finset.sum_insert ha] at h ⊢
    rw [Finset.sum_insert ha, BitVec.toNat_add, ih (by omega), Nat.mod_eq_of_lt h]

/-- The rank-one index at position `k`. -/
def idx1 (N : ℕ) (k : Fin N) : (⟨1, ![N]⟩ : Shape).Idx :=
  fun a => ⟨k.val, by have : a = 0 := Subsingleton.elim _ _; subst this; exact k.isLt⟩

@[simp] theorem idx1_zero (N : ℕ) (k : Fin N) : (idx1 N k (0 : Fin 1)).val = k.val := rfl

theorem eq_idx1 {N : ℕ} (j : (⟨1, ![N]⟩ : Shape).Idx) : j = idx1 N ⟨(j 0).val, (j 0).isLt⟩ := by
  funext a
  have : a = 0 := Subsingleton.elim _ _
  subst this
  exact Fin.ext rfl

/-- The window sum at position `j` of a length-`N` sequence padded with `P = N - 1` zeros in front, window
    `N`, stride one: the sum of the entries `0, …, j`. -/
theorem reduceWindow_addi_cumsum {w N P : ℕ} (hP : P + 1 = N) {u : Shape}
    (x : (⟨1, ![N]⟩ : Shape).Idx → BitVec w) (init : u.Idx → BitVec w)
    (h : (⟨1, ![N]⟩ : Shape).ReduceWindows ![N] ![1] ![P] ![0] ⟨1, ![N]⟩) (hu : 0 < u.numel)
    (hinit : init (Shape.Idx.first hu) = 0) (j : (⟨1, ![N]⟩ : Shape).Idx) :
    Host.reduceWindow IntOp.addi ![N] ![1] ![P] ![0] x init h hu j
      = ∑ k ∈ range ((j 0).val + 1), if hk : k < N then x (idx1 N ⟨k, hk⟩) else 0 := by
  have hj : (j 0).val < N := (j 0).isLt
  -- the entry the window's `n`-th position contributes
  let x' : ℕ → BitVec w := fun k => if hk : k < N then x (idx1 N ⟨k, hk⟩) else 0
  let G : ℕ → BitVec w := fun n => if P ≤ (j 0).val + n ∧ (j 0).val + n - P < N then x' ((j 0).val + n - P) else 0
  have hfold : Host.reduceWindow IntOp.addi ![N] ![1] ![P] ![0] x init h hu j
      = (List.finRange (⟨1, ![N]⟩ : Shape).numel).foldl
          (fun r n => r + G (((⟨1, ![N]⟩ : Shape).rowMajor.symm n (0 : Fin 1))).val) 0 := by
    unfold Host.reduceWindow
    simp only [hinit]
    congr 1
    funext r n
    unfold IntOp.addi
    congr 1
    have hcast : ∀ a : Fin 1, (j (Fin.cast h.1.symm a)).val = (j 0).val := fun a => by
      have : Fin.cast h.1.symm a = 0 := Subsingleton.elim _ _
      rw [this]
    by_cases hc : P ≤ (j 0).val + ((⟨1, ![N]⟩ : Shape).rowMajor.symm n (0 : Fin 1)).val
        ∧ (j 0).val + ((⟨1, ![N]⟩ : Shape).rowMajor.symm n (0 : Fin 1)).val - P < N
    · have hin : ∀ a : Fin 1, (![P] : Fin 1 → ℕ) a ≤ (j (Fin.cast h.1.symm a)).val * (![1] : Fin 1 → ℕ) a
            + ((⟨1, ![N]⟩ : Shape).rowMajor.symm n a).val
          ∧ (j (Fin.cast h.1.symm a)).val * (![1] : Fin 1 → ℕ) a + ((⟨1, ![N]⟩ : Shape).rowMajor.symm n a).val
            - (![P] : Fin 1 → ℕ) a < (⟨1, ![N]⟩ : Shape).size a := by
        intro a
        have : a = 0 := Subsingleton.elim _ _
        subst this
        rw [hcast]
        simpa using hc
      rw [dif_pos hin]
      show _ = G _
      simp only [G, if_pos hc, x', dif_pos hc.2]
      congr 1
      funext a
      have : a = 0 := Subsingleton.elim _ _
      subst this
      apply Fin.ext
      show (j (Fin.cast h.1.symm 0)).val * 1 + _ - P = _
      rw [hcast]
      simp
    · have hin : ¬ ∀ a : Fin 1, (![P] : Fin 1 → ℕ) a ≤ (j (Fin.cast h.1.symm a)).val * (![1] : Fin 1 → ℕ) a
            + ((⟨1, ![N]⟩ : Shape).rowMajor.symm n a).val
          ∧ (j (Fin.cast h.1.symm a)).val * (![1] : Fin 1 → ℕ) a + ((⟨1, ![N]⟩ : Shape).rowMajor.symm n a).val
            - (![P] : Fin 1 → ℕ) a < (⟨1, ![N]⟩ : Shape).size a := by
        intro hall
        apply hc
        have := hall 0
        rw [hcast] at this
        simpa using this
      rw [dif_neg hin]
      show _ = G _
      simp only [G, if_neg hc]
  rw [hfold, foldl_add_eq_add_sum, zero_add, ← Fin.sum_univ_def]
  -- positions of the window, by their one coordinate
  rw [← Equiv.sum_comp (⟨1, ![N]⟩ : Shape).rowMajor (fun n => G (((⟨1, ![N]⟩ : Shape).rowMajor.symm n (0 : Fin 1))).val)]
  simp only [Equiv.symm_apply_apply]
  rw [← Equiv.sum_comp (Equiv.piUnique (fun a : Fin 1 => Fin ((![N] : Fin 1 → ℕ) a))).symm
    (fun i : (⟨1, ![N]⟩ : Shape).Idx => G (i 0).val)]
  show ∑ k : Fin N, G k.val = _
  rw [Fin.sum_univ_eq_sum_range (fun n => G n) N]
  -- the window's positions that fall on the sequence, against the entries up to `j`
  simp only [G]
  rw [← Finset.sum_filter]
  refine Finset.sum_nbij' (fun n => (j 0).val + n - P) (fun k => k + P - (j 0).val) ?_ ?_ ?_ ?_ ?_
  · intro n hn
    rw [mem_filter, mem_range] at hn
    rw [mem_range]; omega
  · intro k hk
    rw [mem_range] at hk
    rw [mem_filter, mem_range]; omega
  · intro n hn
    rw [mem_filter, mem_range] at hn
    show (j 0).val + n - P + P - (j 0).val = n
    omega
  · intro k hk
    rw [mem_range] at hk
    show (j 0).val + (k + P - (j 0).val) - P = k
    omega
  · intro n _; rfl

end Idealize.ShloMosaic
-- ==== Proof.LibVecScatter.lean ====
/-
  Accumulating scalars into a vector at given positions.

  * `scatter_add_apply`: a scatter whose combining function is the addition of a commutative monoid, run as a left
    fold over the update entries in any fixed order, leaves at each operand entry the operand's value plus the sum of
    the update entries that land on it — whatever the dimension numbers. (An update that lands outside the operand
    contributes nothing.)
  * For an operand that is a vector of length `N`, a column of `R` positions (an `R × 1` integer array) and `R`
    scalar updates: update `e` lands on entry `r` exactly when the `e`-th position, read as a signed integer, is
    `r` (`vec_resultIdx?_eq_some_iff`). So the result at `r` is the operand's entry plus the sum of the updates
    whose position is `r`: for machine words (`scatter_addi_vec_apply`, a histogram when the updates are ones) and
    for extended reals (`host_scatterAdd_vec_apply`).
-/
import Idealize.ShloMosaic.PureOps.Ideal
import Idealize.ShloMosaic.PureOps.Contract
import Idealize.ShloMosaic.Lib.ValueIdx
import Mathlib

noncomputable section

namespace Idealize.ShloMosaic.VecScatter

open Idealize.ShloMosaic Idealize.ShloMosaic.ValueIdx

/-- A left fold whose every step adds, at each entry, the update exactly when it lands there: at a fixed entry `i`
    the fold leaves the starting value plus the sum of the updates landing on `i`. -/
theorem fold_step_apply {α : Type*} [AddCommMonoid α] {S : Type*} [DecidableEq S] {ι : Type*}
    (land : ι → Option S) (upd : ι → α) (step : (S → α) → ι → (S → α))
    (hstep : ∀ r n i, step r n i = r i + (if land n = some i then upd n else 0))
    (l : List ι) (r : S → α) (i : S) :
    (l.foldl step r) i = r i + (l.map fun n => if land n = some i then upd n else 0).sum := by
  induction l generalizing r with
  | nil => simp
  | cons n l ih => rw [List.foldl_cons, ih, hstep, List.map_cons, List.sum_cons, add_assoc]

/-- A scatter that ADDS, read at an operand entry: the entry plus the sum of the updates landing on it. -/
theorem scatter_add_apply {α : Type} [AddCommMonoid α] {s si u : Shape} {w : Nat} (d : ScatterDims s si u)
    (f : α → α → α) (hf : ∀ a b, f a b = a + b)
    (x : s.Idx → α) (idx : IVec si w) (upd : u.Idx → α) (i : s.Idx) :
    Host.scatter d f x idx upd i
      = x i + ∑ j ∈ Finset.univ.filter (fun j => d.resultIdx? j idx = some i), upd j := by
  unfold Host.scatter
  rw [fold_step_apply (fun n : Fin u.numel => d.resultIdx? (u.rowMajor.symm n) idx)
    (fun n => upd (u.rowMajor.symm n)) _ (by
      intro r n i'
      show (match d.resultIdx? (u.rowMajor.symm n) idx with
        | some i0 => fun i'' => if i'' = i0 then f (r i0) (upd (u.rowMajor.symm n)) else r i''
        | none => r) i' = _
      cases d.resultIdx? (u.rowMajor.symm n) idx with
      | none => simp
      | some i0 =>
        show (if i' = i0 then f (r i0) (upd (u.rowMajor.symm n)) else r i') = _
        by_cases h : i' = i0
        · subst h; rw [if_pos rfl, hf, if_pos rfl]
        · rw [if_neg h, if_neg (fun e => h (Option.some.inj e).symm), add_zero])]
  rw [← Fin.sum_univ_def, Finset.sum_filter]
  congr 1
  exact (Equiv.sum_comp u.rowMajor.symm (fun j => if d.resultIdx? j idx = some i then upd j else 0))

/-! ## A vector operand, a column of positions, scalar updates -/

/-- The dimension numbers of scattering `R` scalars into a length-`N` vector at an `R × 1` column of positions. -/
abbrev vecDims (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

variable {N R w : Nat} (wf : ScatterDims.WF ⟨1, ![N]⟩ ⟨2, ![R, 1]⟩ ⟨1, ![R]⟩ [] [0] [0] 1)

/-- The window of update `e` starts at the `e`-th position, read signed. -/
theorem vec_start (idx : IVec ⟨2, ![R, 1]⟩ w) (e : Fin R) :
    (vecDims N R wf).start (ix1 e) idx 0 = (idx (ix2 e (0 : Fin 1))).toInt := by
  unfold ScatterDims.start
  rw [dif_pos (show (0 : Fin 1) ∈ (vecDims N R wf).scatterDimsToOperandDims from List.mem_singleton.mpr rfl)]
  have hsi : (vecDims N R wf).siIdx (ix1 e) ⟨List.idxOf (0 : Fin 1) (vecDims N R wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The one operand axis is inserted: no window coordinate. -/
theorem vec_window (j : (⟨1, ![R]⟩ : Shape).Idx) : (vecDims N R wf).window j 0 = 0 := by
  unfold ScatterDims.window
  rw [dif_neg (show ¬ (0 : Fin 1) ∈ (vecDims N R wf).sKept from by
    show ¬ (0 : Fin 1) ∈ ([] : List (Fin 1)); exact List.not_mem_nil)]

/-- WHERE AN UPDATE LANDS: update `e` lands on entry `i` exactly when the `e`-th position, read signed, is `i`. -/
theorem vec_resultIdx?_eq_some_iff (idx : IVec ⟨2, ![R, 1]⟩ w) (e : Fin R) (i : (⟨1, ![N]⟩ : Shape).Idx) :
    (vecDims N R wf).resultIdx? (ix1 e) idx = some i ↔ (idx (ix2 e (0 : Fin 1))).toInt = ((i 0).val : Int) := by
  have hs0 := vec_start wf idx e
  have hw0 := vec_window wf (ix1 e)
  have hi0 : (i 0).val < N := (i 0).isLt
  unfold ScatterDims.resultIdx?
  split
  · rename_i h
    rw [Option.some.injEq]
    have h0 := h 0
    rw [hs0, hw0] at h0
    constructor
    · intro he
      have e0 : ((vecDims N R wf).start (ix1 e) idx 0 + ((vecDims N R wf).window (ix1 e) 0 : Nat)).toNat = (i 0).val :=
        congrArg (fun f : (⟨1, ![N]⟩ : Shape).Idx => (f 0).val) he
      rw [hs0, hw0] at e0
      omega
    · intro g0
      funext a; apply Fin.ext
      match a with
      | ⟨0, _⟩ =>
        show ((vecDims N R wf).start (ix1 e) idx 0 + ((vecDims N R wf).window (ix1 e) 0 : Nat)).toNat = (i 0).val
        rw [hs0, hw0]; omega
  · rename_i h
    constructor
    · intro he; cases he
    · intro g0
      exfalso; apply h
      intro a
      match a with
      | ⟨0, _⟩ =>
        show 0 ≤ (vecDims N R wf).start (ix1 e) idx 0 + ((vecDims N R wf).window (ix1 e) 0 : Nat)
          ∧ (vecDims N R wf).start (ix1 e) idx 0 + ((vecDims N R wf).window (ix1 e) 0 : Nat) < (N : Int)
        rw [hs0, hw0]; omega

/-- A sum over the rank-one indices is the sum over their coordinate. -/
theorem sum_idx1 {M : Type*} [AddCommMonoid M] {n : Nat} (f : (⟨1, ![n]⟩ : Shape).Idx → M) :
    ∑ j, f j = ∑ k : Fin n, f (ix1 k) := by
  refine (Equiv.sum_comp (⟨fun k => ix1 k, fun j => j 0, fun k => rfl, fun j => (eq_ix1 j).symm⟩ :
    Fin n ≃ (⟨1, ![n]⟩ : Shape).Idx) f).symm

/-- The sum of the updates landing on entry `r`, as a sum over the update's number. -/
theorem sum_landing {M : Type*} [AddCommMonoid M] (idx : IVec ⟨2, ![R, 1]⟩ w) (upd : (⟨1, ![R]⟩ : Shape).Idx → M) (r : Fin N) :
    ∑ j ∈ Finset.univ.filter (fun j => (vecDims N R wf).resultIdx? j idx = some (ix1 r)), upd j
      = ∑ e : Fin R, if (idx (ix2 e (0 : Fin 1))).toInt = (r.val : Int) then upd (ix1 e) else 0 := by
  rw [Finset.sum_filter, sum_idx1]
  refine Finset.sum_congr rfl fun e _ => ?_
  have := vec_resultIdx?_eq_some_iff wf idx e (ix1 r)
  by_cases h : (idx (ix2 e (0 : Fin 1))).toInt = (r.val : Int)
  · rw [if_pos (this.mpr h), if_pos h]
  · rw [if_neg (fun hh => h (this.mp hh)), if_neg h]

/-- Words added into a vector at positions: the entry plus the sum of the updates whose position is `r`. -/
theorem scatter_addi_vec_apply {b : Nat} (x : (⟨1, ![N]⟩ : Shape).Idx → BitVec b) (idx : IVec ⟨2, ![R, 1]⟩ w)
    (upd : (⟨1, ![R]⟩ : Shape).Idx → BitVec b) (r : Fin N) :
    Host.scatter (vecDims N R wf) IntOp.addi x idx upd (ix1 r)
      = x (ix1 r) + ∑ e : Fin R, if (idx (ix2 e (0 : Fin 1))).toInt = (r.val : Int) then upd (ix1 e) else 0 := by
  rw [scatter_add_apply (vecDims N R wf) IntOp.addi (fun _ _ => rfl), sum_landing]

/-- Extended reals added into a vector at positions. -/
theorem host_scatterAdd_vec_apply (x : FVec Ideal ⟨1, ![N]⟩ .f32) (idx : IVec ⟨2, ![R, 1]⟩ w)
    (upd : FVec Ideal ⟨1, ![R]⟩ .f32) (r : Fin N) :
    Host.scatterAdd (F := Ideal) (vecDims N R wf) x idx upd (ix1 r)
      = x (ix1 r) + ∑ e : Fin R, if (idx (ix2 e (0 : Fin 1))).toInt = (r.val : Int) then upd (ix1 e) else 0 := by
  show Ideal.hostScatterAdd (vecDims N R wf) x idx upd (ix1 r) = _
  unfold Ideal.hostScatterAdd
  rw [sum_landing]

end Idealize.ShloMosaic.VecScatter

end
-- ==== Proof.LibNonzeroWords.lean ====
/-
  The flat position of the (e+1)-st set entry of a 0/1 mask, computed with 32-bit words.

  For a mask of `N < 2^31` one-bit entries: (1) the running sum of the entries widened to 32 bits is, at position
  `k`, the word of `cnt k`, the number of set entries among `0, …, k` (`cumsum_mask_toNat`: nothing wraps since
  `cnt k ≤ N`); (2) a histogram of words `c k` — ones added into a zero vector at the positions `c k` — holds at
  `v` the number of `k` with `c k = v` (`hist_toNat`); (3) the running sum of such a histogram holds at `e` the
  number of `k` with `c k ≤ e` (`cumsum_hist_toNat`).  With `c = cnt` that number is `NonzeroEnum.pos`, the
  position of the `(e+1)`-st set entry.
-/
import proofs.«173982_g33990371181433_cont_sun_m_937_10_alg».proof.Proof.LibNonzeroEnum
import proofs.«173982_g33990371181433_cont_sun_m_937_10_alg».proof.Proof.LibCumsumWindow
import proofs.«173982_g33990371181433_cont_sun_m_937_10_alg».proof.Proof.LibVecScatter
import Idealize.ShloMosaic.Lib.Pipeline.Value

noncomputable section

namespace Idealize.ShloMosaic.NonzeroWords

open NonzeroEnum Idealize.ShloMosaic.ValueIdx Idealize.ShloMosaic.VecScatter

variable {N : ℕ}

theorem idx1_eq_ix1 (k : Fin N) : idx1 N k = ix1 k := by
  funext a; match a with | ⟨0, _⟩ => rfl

/-- Position `k` carries a set bit. -/
def maskP (mk : (⟨1, ![N]⟩ : Shape).Idx → BitVec 1) (k : ℕ) : Prop := ∃ hk : k < N, mk (ix1 ⟨k, hk⟩) = 1#1

instance (mk : (⟨1, ![N]⟩ : Shape).Idx → BitVec 1) : DecidablePred (maskP mk) := fun k => by
  unfold maskP; infer_instance

/-- A one-bit word widened to 32 bits is the number 1 or 0. -/
theorem bit_toNat (b : BitVec 1) : (b.setWidth 32).toNat = if b = 1#1 then 1 else 0 := by
  by_cases h : b = 1#1
  · subst h; rfl
  · have := eq_zero_of_ne_one h; subst this; rfl

theorem cnt_le (m : ℕ → Prop) [DecidablePred m] (k : ℕ) : cnt m k ≤ k + 1 := by
  unfold cnt
  exact (Finset.card_filter_le _ _).trans (by rw [Finset.card_range])

/-- The running sum of the widened mask at `j` is the word of the running count. -/
theorem cumsum_mask_toNat {P : ℕ} (hP : P + 1 = N) (hN : N < 2 ^ 32) (mk : (⟨1, ![N]⟩ : Shape).Idx → BitVec 1)
    (hlt : 1 < 32) {u : Shape} (init : u.Idx → BitVec 32)
    (h : (⟨1, ![N]⟩ : Shape).ReduceWindows ![N] ![1] ![P] ![0] ⟨1, ![N]⟩) (hu : 0 < u.numel)
    (hinit : init (Shape.Idx.first hu) = 0) (j : (⟨1, ![N]⟩ : Shape).Idx) :
    (Host.reduceWindow IntOp.addi ![N] ![1] ![P] ![0] (extui 32 mk hlt) init h hu j).toNat = cnt (maskP mk) (j 0).val := by
  have hj : (j 0).val < N := (j 0).isLt
  rw [reduceWindow_addi_cumsum hP _ _ h hu hinit j]
  have hterm : ∀ k, (if hk : k < N then (extui 32 mk hlt) (idx1 N ⟨k, hk⟩) else (0 : BitVec 32)).toNat
      = if maskP mk k then 1 else 0 := fun k => by
    by_cases hk : k < N
    · rw [dif_pos hk, extui_apply, bit_toNat, idx1_eq_ix1]
      by_cases hb : mk (ix1 ⟨k, hk⟩) = 1#1
      · rw [if_pos hb, if_pos ⟨hk, hb⟩]
      · rw [if_neg hb, if_neg (fun ⟨_, hh⟩ => hb hh)]
    · rw [dif_neg hk, if_neg (fun ⟨hh, _⟩ => hk hh)]; rfl
  have hsum : ∑ k ∈ Finset.range ((j 0).val + 1),
      (if hk : k < N then (extui 32 mk hlt) (idx1 N ⟨k, hk⟩) else (0 : BitVec 32)).toNat = cnt (maskP mk) (j 0).val := by
    simp only [hterm]
    unfold cnt
    rw [Finset.card_filter]
  rw [toNat_sum_of_lt _ _ (by rw [hsum]; have := cnt_le (maskP mk) (j 0).val; omega), hsum]

/-- A column made of a vector (each entry in its own row) read at row `e`. -/
theorem column_apply {α : Type} (bc : (⟨1, ![N]⟩ : Shape).BroadcastsInDim ⟨2, ![N, 1]⟩ ![0])
    (x : (⟨1, ![N]⟩ : Shape).Idx → α) (e : Fin N) :
    broadcastInDim ⟨2, ![N, 1]⟩ ![0] bc x (ix2 e (0 : Fin 1)) = x (ix1 e) := by
  refine broadcastInDim_apply _ bc x _ (ix1 e) fun a => ?_
  match a with
  | ⟨0, _⟩ =>
    show e.val = if N = 1 then 0 else e.val
    split_ifs with h1
    · have := e.isLt; omega
    · rfl

/-- Ones added into a zero vector at the positions `c k`: entry `v` counts the `k` with `c k = v`. -/
theorem hist_toNat (hN : N < 2 ^ 31) (wf : ScatterDims.WF ⟨1, ![N]⟩ ⟨2, ![N, 1]⟩ ⟨1, ![N]⟩ [] [0] [0] 1)
    (bc : (⟨1, ![N]⟩ : Shape).BroadcastsInDim ⟨2, ![N, 1]⟩ ![0])
    (idx : IVec ⟨1, ![N]⟩ 32) (c : ℕ → ℕ) (hidx : ∀ k : Fin N, (idx (ix1 k)).toNat = c k.val) (hc : ∀ k, k < N → c k < 2 ^ 31)
    (zero one : IVec ⟨1, ![N]⟩ 32) (hzero : ∀ i, zero i = 0#32) (hone : ∀ i, one i = 1#32) (v : Fin N) :
    (Host.scatter (vecDims N N wf) IntOp.addi zero (broadcastInDim ⟨2, ![N, 1]⟩ ![0] bc idx) one (ix1 v)).toNat
      = ((Finset.range N).filter (fun k => c k = v.val)).card := by
  rw [scatter_addi_vec_apply, hzero, BitVec.zero_add]
  have hcond : ∀ e : Fin N, ((broadcastInDim ⟨2, ![N, 1]⟩ ![0] bc idx (ix2 e (0 : Fin 1))).toInt = (v.val : Int))
      ↔ c e.val = v.val := fun e => by
    rw [column_apply, BitVec.toInt_eq_toNat_of_lt (by rw [hidx]; have := hc e.val e.isLt; omega), hidx]
    omega
  have hterm : ∀ e : Fin N, (if (broadcastInDim ⟨2, ![N, 1]⟩ ![0] bc idx (ix2 e (0 : Fin 1))).toInt = (v.val : Int)
      then one (ix1 e) else 0) = (fun k : ℕ => if c k = v.val then (1#32 : BitVec 32) else 0) e.val := fun e => by
    by_cases hh : c e.val = v.val
    · rw [if_pos ((hcond e).mpr hh), hone]; simp [hh]
    · rw [if_neg (fun h' => hh ((hcond e).mp h'))]; simp [hh]
  simp only [hterm]
  rw [Fin.sum_univ_eq_sum_range (fun k => if c k = v.val then (1#32 : BitVec 32) else 0) N]
  have hsum : ∑ k ∈ Finset.range N, (if c k = v.val then (1#32 : BitVec 32) else 0).toNat
      = ((Finset.range N).filter (fun k => c k = v.val)).card := by
    rw [Finset.card_filter]
    refine Finset.sum_congr rfl fun k _ => ?_
    split_ifs <;> rfl
  rw [toNat_sum_of_lt _ _ (by
    rw [hsum]; have := (Finset.card_filter_le (Finset.range N) (fun k => c k = v.val)); rw [Finset.card_range] at this; omega), hsum]

/-- The running sum of a histogram at `e` counts the `k` with `c k ≤ e`. -/
theorem cumsum_hist_toNat {P : ℕ} (hP : P + 1 = N) (hN : N < 2 ^ 32) (bins : IVec ⟨1, ![N]⟩ 32) (c : ℕ → ℕ)
    (hb : ∀ v : Fin N, (bins (ix1 v)).toNat = ((Finset.range N).filter (fun k => c k = v.val)).card)
    {u : Shape} (init : u.Idx → BitVec 32)
    (h : (⟨1, ![N]⟩ : Shape).ReduceWindows ![N] ![1] ![P] ![0] ⟨1, ![N]⟩) (hu : 0 < u.numel)
    (hinit : init (Shape.Idx.first hu) = 0) (j : (⟨1, ![N]⟩ : Shape).Idx) :
    (Host.reduceWindow IntOp.addi ![N] ![1] ![P] ![0] bins init h hu j).toNat
      = ((Finset.range N).filter (fun k => c k ≤ (j 0).val)).card := by
  have hj : (j 0).val < N := (j 0).isLt
  rw [reduceWindow_addi_cumsum hP _ _ h hu hinit j]
  have hsum : ∑ v ∈ Finset.range ((j 0).val + 1), (if hv : v < N then bins (idx1 N ⟨v, hv⟩) else (0 : BitVec 32)).toNat
      = ((Finset.range N).filter (fun k => c k ≤ (j 0).val)).card := by
    rw [← sum_card_fiber c N (j 0).val]
    refine Finset.sum_congr rfl fun v hv => ?_
    rw [Finset.mem_range] at hv
    rw [dif_pos (show v < N by omega), idx1_eq_ix1, hb]
  rw [toNat_sum_of_lt _ _ (by
    rw [hsum]; have := (Finset.card_filter_le (Finset.range N) (fun k => c k ≤ (j 0).val)); rw [Finset.card_range] at this; omega), hsum]

end Idealize.ShloMosaic.NonzeroWords

end
-- ==== Proof.RefEdgeFacts.lean ====
/-
  What the reference's edge list is, as a statement.

  With `marked A k` — flat position `k` of the adjacency matrix holds a nonzero entry — and `nnz A` the number of
  marked positions, the edge list (source, target and weight of each of its `2048² + 2048` entries) is:
  entry `e < nnz A` is the `(e+1)`-st nonzero entry's (row, column) with weight one; the entries from `nnz A` up to
  `2048²` are empty (weight zero, pointing at node 0); the last `2048` entries are the self loops with weight one.
-/
import proofs.«173982_g33990371181433_cont_sun_m_937_10_alg».proof.Proof.RefStages
import proofs.«173982_g33990371181433_cont_sun_m_937_10_alg».proof.Proof.LibNonzeroWords

noncomputable section

namespace Cert.ReferenceIdeal.IndexMath

open Cert.ReferenceIdeal Cert.ReferenceIdeal.Gen Cert.ReferenceIdeal.Stages Idealize.ShloMosaic Idealize.ShloMosaic.ValueIdx
  Idealize.ShloMosaic.NonzeroWords NonzeroEnum

/-- The nonzero pattern laid out row by row. -/
abbrev flatMask (A : FVec Ideal S2048x2048 .f32) : IVec S4194304 1 :=
  shapeCast S4194304 (mask A) shapeCasts_S2048x2048_S4194304

/-- Flat position `k` is marked. -/
abbrev marked (A : FVec Ideal S2048x2048 .f32) (k : ℕ) : Prop := maskP (flatMask A) k

/-- The number of nonzero entries. -/
abbrev nnz (A : FVec Ideal S2048x2048 .f32) : ℕ := cnt (marked A) 4194303

/-- The source node, target node and weight of each entry of the edge list. -/
structure EdgeFacts (A : FVec Ideal S2048x2048 .f32) : Prop where
  marked_iff : ∀ k : ℕ, marked A k ↔
    ∃ (hi : k / 2048 < 2048), A (ix2 (⟨k / 2048, hi⟩ : Fin 2048) (⟨k % 2048, Nat.mod_lt _ (by norm_num)⟩ : Fin 2048)) ≠ 0
  edge : ∀ e : Fin 4196352, e.val < nnz A →
    (column (src A) (ix2 e (0 : Fin 1))).toNat = pos (marked A) 4194304 e.val / 2048
    ∧ (column (dst A) (ix2 e (0 : Fin 1))).toNat = pos (marked A) 4194304 e.val % 2048
    ∧ validf A (ix1 e) = 1
  pad : ∀ e : Fin 4196352, nnz A ≤ e.val → e.val < 4194304 →
    (column (src A) (ix2 e (0 : Fin 1))).toNat = 0 ∧ (column (dst A) (ix2 e (0 : Fin 1))).toNat = 0 ∧ validf A (ix1 e) = 0
  loop : ∀ e : Fin 4196352, 4194304 ≤ e.val →
    (column (src A) (ix2 e (0 : Fin 1))).toNat = e.val - 4194304
    ∧ (column (dst A) (ix2 e (0 : Fin 1))).toNat = e.val - 4194304 ∧ validf A (ix1 e) = 1

end Cert.ReferenceIdeal.IndexMath

end
-- ==== Proof.LibFloorDivWords.lean ====
/-
  FLOOR DIVISION AND REMAINDER OF NONNEGATIVE 32-BIT WORDS.

  For integers x and d with d > 0, the floor quotient ⌊x / d⌋ is the largest integer q with q * d ≤ x, and the
  remainder x − ⌊x / d⌋ * d lies in [0, d). The machine's signed division rounds toward zero instead, and its
  remainder takes the dividend's sign, so a program that wants the floor quotient corrects the truncated quotient by
  one when the operands' signs differ and the remainder is not zero; a program that wants the nonnegative remainder
  adds the divisor back when remainder and divisor have different signs and the remainder is not zero.

  When both operands are nonnegative as signed numbers (their natural values are below 2³¹) and the divisor is not
  zero, rounding toward zero and rounding down agree: the truncated quotient is already the natural-number quotient
  and the truncated remainder is already the natural-number remainder, lying in [0, d). Neither correction fires:
  for the quotient, either the signs agree (both operands positive), or the dividend is zero and then the remainder
  is zero; for the remainder, remainder and divisor are both nonnegative. Such operands are also never at a
  division corner (a zero divisor, or the least word divided by minus one), so the answer does not depend on which
  arithmetic unit divides. This file proves exactly that, together with a few facts about comparisons and the signed
  maximum on words whose natural value is below 2³¹.
-/
import Mathlib.Data.BitVec
import Idealize.ShloMosaic.PureOps.Float
import Idealize.ShloMosaic.Lib.WordArith

namespace Idealize.ShloMosaic.FloorDivWords

/-! ## Words that are nonnegative as signed numbers -/

/-- A word whose natural value is below `2³¹` has its top bit clear. -/
theorem msb_of_lt (x : BitVec 32) (hx : x.toNat < 2 ^ 31) : x.msb = false :=
  BitVec.msb_eq_false_iff_two_mul_lt.mpr (by omega)

/-- A word whose natural value is below `2³¹` reads signed as its natural value. -/
theorem toInt_of_lt (x : BitVec 32) (hx : x.toNat < 2 ^ 31) : x.toInt = (x.toNat : Int) :=
  BitVec.toInt_eq_toNat_of_lt (by omega)

/-- A word whose natural value is positive is not the zero word. -/
theorem ne_zero_of_pos (d : BitVec 32) (hd0 : 0 < d.toNat) : d ≠ 0 := by
  intro h
  rw [h] at hd0
  simp at hd0

/-- The signed maximum of zero and a signed-nonnegative word is that word. -/
theorem maxsi_zero_of_lt (x : BitVec 32) (hx : x.toNat < 2 ^ 31) : IntOp.maxsi 0#32 x = x := by
  unfold IntOp.maxsi
  have h0 : (0#32 : BitVec 32).toInt = 0 := by decide
  have hs : ¬(x.slt 0#32 = true) := by
    rw [BitVec.slt_iff_toInt_lt, h0, toInt_of_lt x hx]
    omega
  rw [if_neg hs]

/-- A signed-nonnegative word is not signed-below zero. -/
theorem cmpi_slt_zero_of_lt (x : BitVec 32) (hx : x.toNat < 2 ^ 31) : IntOp.cmpi .slt x 0#32 = 0#1 := by
  have h0 : (0#32 : BitVec 32).toInt = 0 := by decide
  have hs : x.slt 0#32 = false := by
    rw [BitVec.slt_eq_decide, h0, toInt_of_lt x hx, decide_eq_false_iff_not]
    omega
  show BitVec.ofBool (x.slt 0#32) = 0#1
  rw [hs]
  rfl

/-- On signed-nonnegative words the signed "less than" is the natural numbers'. -/
theorem cmpi_slt_of_lt (a b : BitVec 32) (ha : a.toNat < 2 ^ 31) (hb : b.toNat < 2 ^ 31) :
    IntOp.cmpi .slt a b = BitVec.ofBool (decide (a.toNat < b.toNat)) := by
  show BitVec.ofBool (a.slt b) = BitVec.ofBool (decide (a.toNat < b.toNat))
  rw [BitVec.slt_eq_decide, toInt_of_lt a ha, toInt_of_lt b hb]
  congr 1
  exact decide_eq_decide.mpr (by omega)

/-- On signed-nonnegative words the signed "greater or equal" is the natural numbers'. -/
theorem cmpi_sge_of_lt (a b : BitVec 32) (ha : a.toNat < 2 ^ 31) (hb : b.toNat < 2 ^ 31) :
    IntOp.cmpi .sge a b = BitVec.ofBool (decide (b.toNat ≤ a.toNat)) := by
  show BitVec.ofBool (b.sle a) = BitVec.ofBool (decide (b.toNat ≤ a.toNat))
  rw [BitVec.sle_eq_decide, toInt_of_lt a ha, toInt_of_lt b hb]
  congr 1
  exact decide_eq_decide.mpr (by omega)

/-- A natural number below `2³²`, as a 32-bit word, has itself as natural value. -/
theorem toNat_ofNat_of_lt (k : Nat) (hk : k < 2 ^ 32) : (BitVec.ofNat 32 k).toNat = k := by
  rw [BitVec.toNat_ofNat]
  exact Nat.mod_eq_of_lt hk

/-! ## Signed division of nonnegative words by a positive word -/

/-- A signed-nonnegative dividend and a positive divisor are not at a signed-division corner: the divisor is not zero
and the dividend is not the least word. -/
theorem not_sdivCorner (x d : BitVec 32) (hx : x.toNat < 2 ^ 31) (hd0 : 0 < d.toNat) : ¬IntOp.SDivCorner x d := by
  rintro (h | ⟨h, _⟩)
  · exact ne_zero_of_pos d hd0 h
  · rw [h] at hx
    revert hx
    decide

/-- The truncating signed quotient of a signed-nonnegative word by a positive signed-nonnegative word is the unsigned
quotient, on every arithmetic unit. -/
theorem divsi_eq_udiv (u : ArithUnit) (x d : BitVec 32) (hx : x.toNat < 2 ^ 31) (hd0 : 0 < d.toNat)
    (hd : d.toNat < 2 ^ 31) : IntOp.divsi u x d = x / d := by
  unfold IntOp.divsi
  rw [if_neg (not_sdivCorner x d hx hd0), BitVec.sdiv_eq, msb_of_lt x hx, msb_of_lt d hd]
  rfl

/-- The truncating signed remainder of a signed-nonnegative word by a positive signed-nonnegative word is the unsigned
remainder, on every arithmetic unit. -/
theorem remsi_eq_umod (u : ArithUnit) (x d : BitVec 32) (hx : x.toNat < 2 ^ 31) (hd0 : 0 < d.toNat)
    (hd : d.toNat < 2 ^ 31) : IntOp.remsi u x d = x % d := by
  unfold IntOp.remsi
  rw [if_neg (not_sdivCorner x d hx hd0), BitVec.srem_eq, msb_of_lt x hx, msb_of_lt d hd]

/-! ## Floor division -/

/-- the sign word: 0, 1 or -1 -/
def sgn (y : BitVec 32) : BitVec 32 := if y = 0 then 0 else if y.msb then -1 else 1

/-- jnp.floor_divide on one pair of words, operation by operation as jax lowers it:
    q = x / d (truncating), corrected by one when the signs differ and the remainder is not zero -/
def floorDivWord (u : ArithUnit) (x d : BitVec 32) : BitVec 32 :=
  Scalar.select (IntOp.andi (IntOp.cmpi .ne (sgn x) (sgn d)) (IntOp.cmpi .ne (IntOp.remsi u x d) 0#32))
    (IntOp.subi (IntOp.divsi u x d) 1#32) (IntOp.divsi u x d)

/-- The sign word of a positive signed-nonnegative word is one. -/
theorem sgn_of_pos (d : BitVec 32) (hd0 : 0 < d.toNat) (hd : d.toNat < 2 ^ 31) : sgn d = 1 := by
  unfold sgn
  rw [if_neg (ne_zero_of_pos d hd0), msb_of_lt d hd]
  rfl

/-- On a signed-nonnegative dividend and a positive signed-nonnegative divisor the correction of the truncated
quotient does not fire: a positive dividend has the divisor's sign, and a zero dividend leaves no remainder. -/
theorem floorDivWord_eq_udiv (u : ArithUnit) (x d : BitVec 32) (hx : x.toNat < 2 ^ 31) (hd0 : 0 < d.toNat)
    (hd : d.toNat < 2 ^ 31) : floorDivWord u x d = x / d := by
  unfold floorDivWord
  rw [remsi_eq_umod u x d hx hd0 hd, divsi_eq_udiv u x d hx hd0 hd, sgn_of_pos d hd0 hd]
  have hc : IntOp.andi (IntOp.cmpi .ne (sgn x) 1) (IntOp.cmpi .ne (x % d) 0#32) = 0#1 := by
    by_cases hx0 : x = 0
    · subst hx0
      have hz : (0 : BitVec 32) % d = 0#32 := BitVec.zero_umod
      have h2 : IntOp.cmpi .ne ((0 : BitVec 32) % d) 0#32 = 0#1 := by
        rw [hz]
        decide
      rw [h2]
      unfold IntOp.andi
      exact BitVec.and_zero
    · have hxpos : 0 < x.toNat := by
        rcases Nat.eq_zero_or_pos x.toNat with h | h
        · exact absurd (BitVec.eq_of_toNat_eq (by simpa using h)) hx0
        · exact h
      rw [sgn_of_pos x hxpos hx]
      have h1 : IntOp.cmpi .ne (1 : BitVec 32) 1 = 0#1 := by decide
      rw [h1]
      unfold IntOp.andi
      exact BitVec.zero_and
  rw [hc]
  unfold Scalar.select
  rw [if_neg (by decide)]

theorem floorDivWord_toNat (u : ArithUnit) (x d : BitVec 32) (hx : x.toNat < 2 ^ 31) (hd0 : 0 < d.toNat) (hd : d.toNat < 2 ^ 31) :
    (floorDivWord u x d).toNat = x.toNat / d.toNat := by
  rw [floorDivWord_eq_udiv u x d hx hd0 hd, BitVec.toNat_udiv]

/-! ## Remainder -/

/-- jnp.remainder on one pair of words as jax lowers it: a zero divisor is replaced by one, the truncating
    remainder is taken, and the divisor is added back when remainder and divisor have different signs and the remainder is not zero -/
def remainderWord (u : ArithUnit) (y d : BitVec 32) : BitVec 32 :=
  let d' := Scalar.select (IntOp.cmpi .eq d 0#32) 1#32 d
  let r := IntOp.remsi u y d'
  Scalar.select (IntOp.andi (IntOp.cmpi .ne (IntOp.cmpi .slt r 0#32) (IntOp.cmpi .slt d' 0#32)) (IntOp.cmpi .ne r 0#32))
    (IntOp.addi r d') r

/-- A positive divisor is not replaced: the guard "the divisor is zero" is false. -/
theorem select_eq_zero_of_pos (d : BitVec 32) (hd0 : 0 < d.toNat) :
    Scalar.select (IntOp.cmpi .eq d 0#32) 1#32 d = d := by
  have hne : d ≠ 0#32 := ne_zero_of_pos d hd0
  have hb : (d == 0#32) = false := by
    rw [beq_eq_false_iff_ne]
    exact hne
  have hc : IntOp.cmpi .eq d 0#32 = 0#1 := by
    show BitVec.ofBool (d == 0#32) = 0#1
    rw [hb]
    rfl
  rw [hc]
  unfold Scalar.select
  rw [if_neg (by decide)]

/-- On a signed-nonnegative dividend and a positive signed-nonnegative divisor the truncating remainder is already in
`[0, d)`, so remainder and divisor are both nonnegative and the divisor is not added back. -/
theorem remainderWord_eq_umod (u : ArithUnit) (y d : BitVec 32) (hy : y.toNat < 2 ^ 31) (hd0 : 0 < d.toNat)
    (hd : d.toNat < 2 ^ 31) : remainderWord u y d = y % d := by
  unfold remainderWord
  simp only []
  rw [select_eq_zero_of_pos d hd0, remsi_eq_umod u y d hy hd0 hd]
  have hr : (y % d).toNat < 2 ^ 31 := by
    rw [BitVec.toNat_umod]
    have := Nat.mod_lt y.toNat hd0
    omega
  rw [cmpi_slt_zero_of_lt (y % d) hr, cmpi_slt_zero_of_lt d hd]
  have h1 : IntOp.cmpi .ne (0#1 : BitVec 1) 0#1 = 0#1 := by decide
  rw [h1]
  have hc : IntOp.andi (0#1 : BitVec 1) (IntOp.cmpi .ne (y % d) 0#32) = 0#1 := by
    unfold IntOp.andi
    exact BitVec.zero_and
  rw [hc]
  unfold Scalar.select
  rw [if_neg (by decide)]

theorem remainderWord_toNat (u : ArithUnit) (y d : BitVec 32) (hy : y.toNat < 2 ^ 31) (hd0 : 0 < d.toNat) (hd : d.toNat < 2 ^ 31) :
    (remainderWord u y d).toNat = y.toNat % d.toNat := by
  rw [remainderWord_eq_umod u y d hy hd0 hd, BitVec.toNat_umod]

end Idealize.ShloMosaic.FloorDivWords
-- ==== Proof.LibEdgeSums.lean ====
/-
  A sum over the listed edges of a graph, regrouped as a sum over the nodes.

  A directed graph on `n` nodes is given by a predicate `mask i j` ("there is an edge from `i` to `j`"), laid out
  row by row at the flat positions `k = i · n + j` of `0, …, n·n − 1`.  Listing the edges in the order of their flat
  positions (`NonzeroEnum.pos`: the `e`-th edge sits at flat position `pos e`, so it goes from `pos e / n` to
  `pos e % n`), the sum over the listed edges that END at node `r` of a quantity `F (source) (target)` is the sum
  over the nodes `i` with an edge `i → r` of `F i r` (`edge_sum`).
-/
import proofs.«173982_g33990371181433_cont_sun_m_937_10_alg».proof.Proof.LibNonzeroEnum

namespace NonzeroEnum

open Finset

/-- A sum over the flat positions of an `a × b` table is the double sum over rows and columns. -/
theorem sum_range_mul {M : Type*} [AddCommMonoid M] (a b : ℕ) (g : ℕ → M) :
    ∑ k ∈ range (a * b), g k = ∑ i ∈ range a, ∑ j ∈ range b, g (i * b + j) := by
  induction a with
  | zero => simp
  | succ a ih =>
    rw [Nat.succ_mul, Finset.sum_range_add, ih, Finset.sum_range_succ]

variable {M : Type*} [AddCommMonoid M]

/-- The sum over the listed edges ending at `r`, as a sum over the sources of the edges into `r`. -/
theorem edge_sum (n : ℕ) (hn : 0 < n) (mask : ℕ → ℕ → Prop) [∀ i j, Decidable (mask i j)]
    (F : ℕ → ℕ → M) (r : ℕ) (hr : r < n) :
    ∑ e ∈ range (cnt (fun k => mask (k / n) (k % n)) (n * n - 1)),
        (if pos (fun k => mask (k / n) (k % n)) (n * n) e % n = r
          then F (pos (fun k => mask (k / n) (k % n)) (n * n) e / n) (pos (fun k => mask (k / n) (k % n)) (n * n) e % n)
          else 0)
      = ∑ i ∈ range n, if mask i r then F i r else 0 := by
  have hN : 0 < n * n := Nat.mul_pos hn hn
  rw [sum_pos (m := fun k => mask (k / n) (k % n)) (fun k => if k % n = r then F (k / n) (k % n) else 0) hN,
    Finset.sum_filter, sum_range_mul]
  refine Finset.sum_congr rfl fun i _ => ?_
  have hdiv : ∀ j, j < n → (i * n + j) / n = i := fun j hj => by
    rw [Nat.add_comm, Nat.add_mul_div_right _ _ hn, Nat.div_eq_of_lt hj, Nat.zero_add]
  have hmod : ∀ j, j < n → (i * n + j) % n = j := fun j hj => by
    rw [Nat.add_comm, Nat.add_mul_mod_self_right, Nat.mod_eq_of_lt hj]
  rw [Finset.sum_congr rfl (g := fun j => if j = r then (if mask i r then F i r else 0) else 0) (fun j hj => by
    rw [mem_range] at hj
    rw [hdiv j hj, hmod j hj]
    by_cases hjr : j = r
    · subst hjr; simp
    · simp [hjr])]
  rw [Finset.sum_ite_eq' (range n) r, if_pos (mem_range.mpr hr)]

theorem cnt_le' (m : ℕ → Prop) [DecidablePred m] (k : ℕ) : cnt m k ≤ k + 1 := by
  unfold cnt
  exact (card_filter_le _ _).trans (by rw [card_range])

/-- The whole edge list of the graph with self loops: `n·n` slots for the listed edges — of which only the first
    `cnt … (n·n − 1)` hold an edge, the `e`-th of them ending at `pos e % n` and weighing `F (source) (target)`,
    the remaining slots weighing zero wherever they point — followed by one self loop per node weighing `G`.  The
    sum of the weights of the entries that end at node `r` is the sum over the edges `i → r` of `F i r`, plus `G r`. -/
theorem sum_edge_list (n : ℕ) (hn : 0 < n) (mask : ℕ → ℕ → Prop) [∀ i j, Decidable (mask i j)]
    (t : ℕ → M) (dst : ℕ → ℕ) (F : ℕ → ℕ → M) (G : ℕ → M) (r : ℕ) (hr : r < n)
    (h1 : ∀ e, e < cnt (fun k => mask (k / n) (k % n)) (n * n - 1) →
      dst e = pos (fun k => mask (k / n) (k % n)) (n * n) e % n
      ∧ t e = F (pos (fun k => mask (k / n) (k % n)) (n * n) e / n) (pos (fun k => mask (k / n) (k % n)) (n * n) e % n))
    (h2 : ∀ e, cnt (fun k => mask (k / n) (k % n)) (n * n - 1) ≤ e → e < n * n → t e = 0)
    (h3 : ∀ l, l < n → dst (n * n + l) = l ∧ t (n * n + l) = G l) :
    ∑ e ∈ range (n * n + n), (if dst e = r then t e else 0)
      = (∑ i ∈ range n, if mask i r then F i r else 0) + G r := by
  have hN : 0 < n * n := Nat.mul_pos hn hn
  have hle : cnt (fun k => mask (k / n) (k % n)) (n * n - 1) ≤ n * n := by
    have := cnt_le' (fun k => mask (k / n) (k % n)) (n * n - 1); omega
  rw [Finset.sum_range_add]
  congr 1
  · rw [Finset.range_eq_Ico, ← Finset.sum_Ico_consecutive _ (Nat.zero_le _) hle, ← Finset.range_eq_Ico]
    rw [Finset.sum_eq_zero (s := Ico _ (n * n)) (fun e he => by
      rw [mem_Ico] at he
      rw [h2 e he.1 he.2, ite_self]), add_zero]
    rw [← edge_sum n hn mask F r hr]
    refine Finset.sum_congr rfl fun e he => ?_
    rw [mem_range] at he
    rw [(h1 e he).1, (h1 e he).2]
  · rw [Finset.sum_congr rfl (g := fun l => if l = r then G l else 0) (fun l hl => by
      rw [mem_range] at hl
      rw [(h3 l hl).1, (h3 l hl).2])]
    rw [Finset.sum_ite_eq' (range n) r, if_pos (mem_range.mpr hr)]

end NonzeroEnum
-- ==== Proof.RefIndexMath.lean ====
/-
  The reference's edge list, read as numbers.

  `flatMask A` is the adjacency matrix's nonzero pattern laid out row by row; position `k` is marked exactly when
  the entry in row `k / 2048`, column `k % 2048` is not zero (`marked_iff`).  The running count of marks, the
  histogram of the running counts and its running sum are all below `2^31`, nothing wraps, and the word the flat
  vector holds at `e` is the number `NonzeroEnum.pos` — the flat position of the `(e+1)`-st nonzero entry
  (`flat_toNat`).
-/
import proofs.«173982_g33990371181433_cont_sun_m_937_10_alg».proof.Proof.RefEdgeFacts
import proofs.«173982_g33990371181433_cont_sun_m_937_10_alg».proof.Proof.LibFloorDivWords
import proofs.«173982_g33990371181433_cont_sun_m_937_10_alg».proof.Proof.LibEdgeSums
import Idealize.ShloMosaic.Lib.IdealHost

noncomputable section

namespace Cert.ReferenceIdeal.IndexMath

open Cert.ReferenceIdeal Cert.ReferenceIdeal.Gen Cert.ReferenceIdeal.Stages Idealize.ShloMosaic Idealize.ShloMosaic.ValueIdx
  Idealize.ShloMosaic.NonzeroWords Idealize.ShloMosaic.FloorDivWords NonzeroEnum

/-- The running count of marks at a flat position, as a number. -/
theorem count1_toNat (A : FVec Ideal S2048x2048 .f32) (j : S4194304.Idx) :
    (count1 (mask A) j).toNat = cnt (marked A) (j 0).val := by
  unfold count1 runningSum
  have hinit : (broadcastInDim S_ ![] bcast_S_S_ (constantI S_ 32 0#32)) (Shape.Idx.first h_S_) = (0 : BitVec 32) := rfl
  exact cumsum_mask_toNat (N := 4194304) (P := 4194303) (by norm_num) (by norm_num) (flatMask A) natLt_1_32
    (broadcastInDim S_ ![] bcast_S_S_ (constantI S_ 32 0#32)) reduceWindows_S4194304_S4194304_w4194304s1p4194303_0 h_S_ hinit j

theorem count1_lt (A : FVec Ideal S2048x2048 .f32) (j : S4194304.Idx) : (count1 (mask A) j).toNat < 2 ^ 31 := by
  rw [count1_toNat]
  have h1 := cnt_le (marked A) (j 0).val
  have h2 : (j 0).val < 4194304 := (j 0).isLt
  omega

/-- The running counts are nonnegative, so they are their own histogram positions. -/
theorem positions_count1 (A : FVec Ideal S2048x2048 .f32) (j : S4194304.Idx) :
    positions (count1 (mask A)) j = count1 (mask A) j := by
  have hlt := count1_lt A j
  show Scalar.select (IntOp.cmpi .slt (IntOp.maxsi 0#32 (count1 (mask A) j)) 0#32)
    (IntOp.addi (IntOp.maxsi 0#32 (count1 (mask A) j)) 4194304#32) (IntOp.maxsi 0#32 (count1 (mask A) j)) = _
  rw [maxsi_zero_of_lt _ hlt, cmpi_slt_zero_of_lt _ hlt, select_zero]

/-- The histogram entry `v` counts the flat positions whose running count is `v`. -/
theorem hist_toNat' (A : FVec Ideal S2048x2048 .f32) (v : Fin 4194304) :
    (hist (count1 (mask A)) (ix1 v)).toNat
      = ((Finset.range 4194304).filter (fun k => cnt (marked A) k = v.val)).card := by
  refine hist_toNat (N := 4194304) (by norm_num) scatter_S4194304_S4194304x1_S4194304_n_0_0_1_wf
    bcast_S4194304_S4194304x1_0 (positions (count1 (mask A))) (fun k => cnt (marked A) k) (fun k => ?_) (fun k hk => ?_)
    _ _ (fun _ => rfl) (fun _ => rfl) v
  · rw [positions_count1, count1_toNat]
  · have := cnt_le (marked A) k; omega

/-- The flat vector at `e` is the flat position of the `(e+1)`-st mark. -/
theorem flat_toNat (A : FVec Ideal S2048x2048 .f32) (j : S4194304.Idx) :
    (flat A j).toNat = pos (marked A) 4194304 (j 0).val := by
  unfold flat runningSum
  have hinit : (broadcastInDim S_ ![] bcast_S_S_ (constantI S_ 32 0#32)) (Shape.Idx.first h_S_) = (0 : BitVec 32) := rfl
  rw [cumsum_hist_toNat (N := 4194304) (P := 4194303) (by norm_num) (by norm_num) (hist (count1 (mask A)))
    (fun k => cnt (marked A) k) (fun v => hist_toNat' A v) (broadcastInDim S_ ![] bcast_S_S_ (constantI S_ 32 0#32))
    reduceWindows_S4194304_S4194304_w4194304s1p4194303_0 h_S_ hinit j]
  rfl

theorem flat_lt (A : FVec Ideal S2048x2048 .f32) (j : S4194304.Idx) : (flat A j).toNat < 2 ^ 31 := by
  rw [flat_toNat]
  have := pos_le (marked A) 4194304 (j 0).val
  omega

/-- An entry of the flattened pattern is the matrix's pattern at its row and column. -/
theorem flatMask_apply (A : FVec Ideal S2048x2048 .f32) (k : ℕ) (hk : k < 4194304) (hi : k / 2048 < 2048) :
    flatMask A (ix1 (⟨k, hk⟩ : Fin 4194304))
      = mask A (ix2 (⟨k / 2048, hi⟩ : Fin 2048) (⟨k % 2048, Nat.mod_lt _ (by norm_num)⟩ : Fin 2048)) := by
  refine shapeCast_apply (mask A) shapeCasts_S2048x2048_S4194304 _ _ ?_
  rw [Shape.rowMajor_val_two, Shape.rowMajor_val_one]
  show k / 2048 * 2048 + k % 2048 = k
  exact Nat.div_add_mod' k 2048

/-- The pattern's bit is set exactly at the nonzero entries. -/
theorem mask_eq_one_iff (A : FVec Ideal S2048x2048 .f32) (i : S2048x2048.Idx) : mask A i = 1#1 ↔ A i ≠ 0 := by
  show Ideal.cmp .une (A i) (Ideal.ofBits .f32 0x00000000#32) = 1#1 ↔ _
  rw [Ideal.ofBits_zero_f32]
  unfold Ideal.cmp
  by_cases h : A i = 0 <;> simp [h]

/-- A flat position is marked exactly when the matrix entry at its row and column is not zero. -/
theorem marked_iff (A : FVec Ideal S2048x2048 .f32) (k : ℕ) : marked A k ↔
    ∃ (hi : k / 2048 < 2048), A (ix2 (⟨k / 2048, hi⟩ : Fin 2048) (⟨k % 2048, Nat.mod_lt _ (by norm_num)⟩ : Fin 2048)) ≠ 0 := by
  constructor
  · rintro ⟨hk, hb⟩
    have hi : k / 2048 < 2048 := by omega
    refine ⟨hi, ?_⟩
    rw [flatMask_apply A k hk hi, mask_eq_one_iff] at hb
    exact hb
  · rintro ⟨hi, hne⟩
    have hk : k < 4194304 := by omega
    refine ⟨hk, ?_⟩
    rw [flatMask_apply A k hk hi, mask_eq_one_iff]
    exact hne

/-- The row of the `(e+1)`-st nonzero entry, as a word. -/
theorem rowWord_toNat (A : FVec Ideal S2048x2048 .f32) (j : S4194304.Idx) :
    (remainder (floorDiv (flat A) (constantI S_ 32 2048#32)) (constantI S_ 32 2048#32) j).toNat
      = pos (marked A) 4194304 (j 0).val / 2048 % 2048 := by
  show (remainderWord .host (floorDivWord .host (flat A j) 2048#32) 2048#32).toNat = _
  have h1 : (floorDivWord .host (flat A j) 2048#32).toNat = (flat A j).toNat / 2048 :=
    floorDivWord_toNat .host (flat A j) 2048#32 (flat_lt A j) (by decide) (by decide)
  have h2 : (remainderWord .host (floorDivWord .host (flat A j) 2048#32) 2048#32).toNat
      = (floorDivWord .host (flat A j) 2048#32).toNat % 2048 :=
    remainderWord_toNat .host _ 2048#32 (by rw [h1]; have := flat_lt A j; omega) (by decide) (by decide)
  rw [h2, h1, flat_toNat]

/-- Its column. -/
theorem colWord_toNat (A : FVec Ideal S2048x2048 .f32) (j : S4194304.Idx) :
    (remainder (floorDiv (flat A) (constantI S_ 32 1#32)) (constantI S_ 32 2048#32) j).toNat
      = pos (marked A) 4194304 (j 0).val % 2048 := by
  show (remainderWord .host (floorDivWord .host (flat A j) 1#32) 2048#32).toNat = _
  have h1 : (floorDivWord .host (flat A j) 1#32).toNat = (flat A j).toNat / 1 :=
    floorDivWord_toNat .host (flat A j) 1#32 (flat_lt A j) (by decide) (by decide)
  have h2 : (remainderWord .host (floorDivWord .host (flat A j) 1#32) 2048#32).toNat
      = (floorDivWord .host (flat A j) 1#32).toNat % 2048 :=
    remainderWord_toNat .host _ 2048#32 (by rw [h1, Nat.div_one]; exact flat_lt A j) (by decide) (by decide)
  rw [h2, h1, Nat.div_one, flat_toNat]

/-- The flat position of row `a`, column `b` is marked exactly when that entry is not zero. -/
theorem marked_at (A : FVec Ideal S2048x2048 .f32) (a b : Fin 2048) : marked A (a.val * 2048 + b.val) ↔ A (ix2 a b) ≠ 0 := by
  have hd : (a.val * 2048 + b.val) / 2048 = a.val := by have := b.isLt; omega
  have hmod : (a.val * 2048 + b.val) % 2048 = b.val := by have := b.isLt; omega
  rw [marked_iff]
  constructor
  · rintro ⟨hi, hne⟩
    have ea : (⟨(a.val * 2048 + b.val) / 2048, hi⟩ : Fin 2048) = a := Fin.ext hd
    have eb : (⟨(a.val * 2048 + b.val) % 2048, Nat.mod_lt _ (by norm_num)⟩ : Fin 2048) = b := Fin.ext hmod
    rw [ea, eb] at hne
    exact hne
  · intro hne
    have hi : (a.val * 2048 + b.val) / 2048 < 2048 := by rw [hd]; exact a.isLt
    have ea : (⟨(a.val * 2048 + b.val) / 2048, hi⟩ : Fin 2048) = a := Fin.ext hd
    have eb : (⟨(a.val * 2048 + b.val) % 2048, Nat.mod_lt _ (by norm_num)⟩ : Fin 2048) = b := Fin.ext hmod
    exact ⟨hi, by rw [ea, eb]; exact hne⟩

/-- The sum of the pattern's bits over the whole matrix is the number of nonzero entries. -/
theorem total_toNat (A : FVec Ideal S2048x2048 .f32) (j0 : S_.Idx) : (total (mask A) j0).toNat = nnz A := by
  haveI : Subsingleton S_.Idx := ⟨fun a b => funext fun d => d.elim0⟩
  unfold total
  rw [Host.reduce_eq_fold, Finset.filter_true_of_mem (fun i _ => Subsingleton.elim _ _)]
  have hfold : (Finset.univ : Finset S2048x2048.Idx).fold IntOp.addi ((constantI S_ 32 0#32) (Shape.Idx.first h_S_))
      (extui 32 (mask A) natLt_1_32) = ∑ i, extui 32 (mask A) natLt_1_32 i := by
    rw [Finset.sum_eq_fold]; rfl
  rw [hfold]
  have hterm : ∀ i : S2048x2048.Idx, (extui 32 (mask A) natLt_1_32 i).toNat = if A i ≠ 0 then 1 else 0 := fun i => by
    rw [extui_apply, bit_toNat]
    by_cases h : A i ≠ 0
    · rw [if_pos ((mask_eq_one_iff A i).mpr h), if_pos h]
    · rw [if_neg (fun hh => h ((mask_eq_one_iff A i).mp hh)), if_neg h]
  have hsum : ∑ i : S2048x2048.Idx, (extui 32 (mask A) natLt_1_32 i).toNat = nnz A := by
    simp only [hterm]
    rw [sum_idx2]
    show _ = cnt (marked A) 4194303
    unfold cnt
    rw [Finset.card_filter, show (4194303 + 1) = 2048 * 2048 from rfl, sum_range_mul,
      ← Fin.sum_univ_eq_sum_range (fun i => ∑ j ∈ Finset.range 2048, if marked A (i * 2048 + j) then 1 else 0) 2048]
    refine Finset.sum_congr rfl fun a _ => ?_
    rw [← Fin.sum_univ_eq_sum_range (fun j => if marked A (a.val * 2048 + j) then 1 else 0) 2048]
    refine Finset.sum_congr rfl fun b _ => ?_
    by_cases h : A (ix2 a b) ≠ 0
    · rw [if_pos h, if_pos ((marked_at A a b).mpr h)]
    · rw [if_neg h, if_neg (fun hh => h ((marked_at A a b).mp hh))]
  rw [toNat_sum_of_lt _ _ (by
    rw [hsum]; show cnt (marked A) 4194303 < 2 ^ 32; have := cnt_le (marked A) 4194303; omega), hsum]

theorem nnz_le (A : FVec Ideal S2048x2048 .f32) : nnz A ≤ 4194304 := by
  show cnt (marked A) 4194303 ≤ 4194304
  have := cnt_le (marked A) 4194303; omega

theorem iota_toNat (j : S4194304.Idx) : (iotaInDim S4194304 32 0 j).toNat = (j 0).val := by
  show (BitVec.ofNat 32 (j 0).val).toNat = _
  exact toNat_ofNat_of_lt _ (by have : (j 0).val < 4194304 := (j 0).isLt; omega)

attribute [local irreducible] Host.reduce in
/-- Past the number of nonzero entries the list is filled with zero. -/
theorem fillPast_apply (A : FVec Ideal S2048x2048 .f32) (v : IVec S4194304 32) (j : S4194304.Idx) :
    fillPast (mask A) v j = if nnz A ≤ (j 0).val then 0#32 else v j := by
  have hj : (j 0).val < 4194304 := (j 0).isLt
  have hn := nnz_le A
  show Scalar.select (IntOp.cmpi .sge (iotaInDim S4194304 32 0 j) (broadcastInDim S4194304 ![] bcast_S_S4194304 (total (mask A)) j))
    0#32 (v j) = _
  rw [broadcastInDim_scalar_apply, cmpi_sge_of_lt _ _ (by rw [iota_toNat]; omega) (by rw [total_toNat]; omega), total_toNat, iota_toNat]
  by_cases h : nnz A ≤ (j 0).val
  · rw [if_pos h, decide_eq_true h]; exact select_one _ _
  · rw [if_neg h, decide_eq_false h]; exact select_zero _ _

attribute [local irreducible] Host.reduce in
/-- An entry of the list holds an edge exactly below the number of nonzero entries. -/
theorem validBits_apply (A : FVec Ideal S2048x2048 .f32) (j : S4194304.Idx) :
    validBits A j = BitVec.ofBool (decide ((j 0).val < nnz A)) := by
  have hj : (j 0).val < 4194304 := (j 0).isLt
  have hn := nnz_le A
  show IntOp.cmpi .slt (iotaInDim S4194304 32 0 j) (broadcastInDim S4194304 ![] bcast_S_S4194304 (total (mask A)) j) = _
  rw [broadcastInDim_scalar_apply, cmpi_slt_of_lt _ _ (by rw [iota_toNat]; omega) (by rw [total_toNat]; omega), total_toNat, iota_toNat]

/-- The appended list read at an edge entry. -/
theorem withLoops_left {α : Type} (a : S4194304.Idx → α) (b : S2048.Idx → α) (e : Fin 4196352) (he : e.val < 4194304) :
    withLoops a b (ix1 e) = a (ix1 (⟨e.val, he⟩ : Fin 4194304)) := by
  refine concatenate_pair_apply_left (0 : Fin 1) a b concatenates_S4194304_S2048_S4196352_d0 (ix1 e) rfl _ fun bb => ?_
  match bb with
  | ⟨0, _⟩ => rfl

/-- The appended list read at a self-loop entry. -/
theorem withLoops_right {α : Type} (a : S4194304.Idx → α) (b : S2048.Idx → α) (e : Fin 4196352) (he : 4194304 ≤ e.val) :
    withLoops a b (ix1 e) = b (ix1 (⟨e.val - 4194304, by have := e.isLt; omega⟩ : Fin 2048)) := by
  refine concatenate_pair_apply_right (0 : Fin 1) a b concatenates_S4194304_S2048_S4196352_d0 (ix1 e) rfl rfl _ (fun bb hbb => ?_) ?_
  · match bb with
    | ⟨0, _⟩ => exact absurd rfl hbb
  · show e.val - 4194304 + 4194304 = e.val
    omega

/-- A nonnegative node number is its own position. -/
theorem column_apply_of_lt (i : IVec S4196352 32) (e : Fin 4196352) (h : (i (ix1 e)).toNat < 2 ^ 31) :
    column i (ix2 e (0 : Fin 1)) = i (ix1 e) := by
  unfold column
  rw [NonzeroWords.column_apply (N := 4196352)]
  show Scalar.select (IntOp.cmpi .slt (i (ix1 e)) 0#32) (IntOp.addi (i (ix1 e)) 2048#32) (i (ix1 e)) = _
  rw [cmpi_slt_zero_of_lt _ h, select_zero]

/-- The weight of an entry is its valid bit, read as a number. -/
theorem validf_apply (A : FVec Ideal S2048x2048 .f32) (e : Fin 4196352) :
    validf A (ix1 e)
      = (((withLoops (validBits A) (broadcastInDim S2048 ![] bcast_S_S2048 (constantI S_ 1 1#1)) (ix1 e)).toNat : ℝ) : EReal) := rfl

/-- The edge list is what `EdgeFacts` says. -/
theorem edgeFacts (A : FVec Ideal S2048x2048 .f32) : EdgeFacts A where
  marked_iff := marked_iff A
  edge := fun e he => by
    have hn := nnz_le A
    have heN : e.val < 4194304 := by omega
    have hp : pos (marked A) 4194304 e.val < 4194304 :=
      pos_lt (m := marked A) (N := 4194304) (by norm_num) (show e.val < cnt (marked A) (4194304 - 1) from he)
    have hsrc : (src A (ix1 e)).toNat = pos (marked A) 4194304 e.val / 2048 := by
      unfold src
      rw [withLoops_left _ _ e heN, fillPast_apply, if_neg (show ¬ nnz A ≤ e.val by omega), rowWord_toNat]
      show pos (marked A) 4194304 e.val / 2048 % 2048 = _
      exact Nat.mod_eq_of_lt (by omega)
    have hdst : (dst A (ix1 e)).toNat = pos (marked A) 4194304 e.val % 2048 := by
      unfold dst
      rw [withLoops_left _ _ e heN, fillPast_apply, if_neg (show ¬ nnz A ≤ e.val by omega), colWord_toNat]
    refine ⟨?_, ?_, ?_⟩
    · rw [column_apply_of_lt _ e (by rw [hsrc]; omega), hsrc]
    · rw [column_apply_of_lt _ e (by rw [hdst]; omega), hdst]
    · rw [validf_apply, withLoops_left _ _ e heN, validBits_apply, decide_eq_true (show e.val < nnz A from he),
        show (BitVec.ofBool true).toNat = 1 from rfl]
      norm_num
  pad := fun e h1 h2 => by
    have hsrc : (src A (ix1 e)).toNat = 0 := by
      unfold src
      rw [withLoops_left _ _ e h2, fillPast_apply, if_pos (show nnz A ≤ e.val from h1)]; rfl
    have hdst : (dst A (ix1 e)).toNat = 0 := by
      unfold dst
      rw [withLoops_left _ _ e h2, fillPast_apply, if_pos (show nnz A ≤ e.val from h1)]; rfl
    refine ⟨?_, ?_, ?_⟩
    · rw [column_apply_of_lt _ e (by rw [hsrc]; norm_num), hsrc]
    · rw [column_apply_of_lt _ e (by rw [hdst]; norm_num), hdst]
    · rw [validf_apply, withLoops_left _ _ e h2, validBits_apply, decide_eq_false (show ¬ e.val < nnz A by omega),
        show (BitVec.ofBool false).toNat = 0 from rfl]
      norm_num
  loop := fun e h => by
    have he := e.isLt
    have hw : (BitVec.ofNat 32 (e.val - 4194304)).toNat = e.val - 4194304 := toNat_ofNat_of_lt _ (by omega)
    have hsrc : (src A (ix1 e)).toNat = e.val - 4194304 := by
      unfold src
      rw [withLoops_right _ _ e h]; exact hw
    have hdst : (dst A (ix1 e)).toNat = e.val - 4194304 := by
      unfold dst
      rw [withLoops_right _ _ e h]; exact hw
    refine ⟨?_, ?_, ?_⟩
    · rw [column_apply_of_lt _ e (by rw [hsrc]; omega), hsrc]
    · rw [column_apply_of_lt _ e (by rw [hdst]; omega), hdst]
    · rw [validf_apply, withLoops_right _ _ e h]
      show ((((1#1 : BitVec 1).toNat : ℕ) : ℝ) : EReal) = 1
      rw [show (1#1 : BitVec 1).toNat = 1 from rfl]
      norm_num

end Cert.ReferenceIdeal.IndexMath

end
-- ==== Proof.LibRealValued.lean ====
/-
  Extended reals that are real numbers: a small library for value proofs whose algebra fails at the infinities.

  The extended reals have the two infinities, and `a - a` is 0 only when `a` is neither of them; likewise cancelling,
  distributing and moving a factor across a sum hold for real numbers and can fail at an infinity. A proof that needs such
  a law first shows that the terms involved are real numbers. This file has

    * `IsReal` and its closure under sums, products and finite sums;
    * the evaluations a real number minus itself is 0, exp 0 = 1, 1 / 1 = 1, and max (-inf) y = y — together, the softmax
      over an axis of length one is exp (s - s) / (0 + exp (s - s)) = 1 for a real score `s`;
    * a float pattern whose exponent field is not all ones denotes a real number (so a finite literal is `IsReal`, by
      `decide` on its bits, without evaluating it);
    * a fold over an axis of length one;
    * the "every float input is finite" precondition read back: |a| < +inf says `a` is a real number, and one
      "all entries have |a| < +inf" conjunct gives it of every entry.
-/
import Idealize.ShloMosaic.PureOps.Ideal
import Idealize.ShloMosaic.Lib.ReduceAll
import Idealize.ShloMosaic.Lib.ValueIdx

noncomputable section

namespace Cert.RealValued

open Idealize.ShloMosaic Idealize.ShloMosaic.ValueIdx

/-- An extended real that is a real number: neither infinity. -/
def IsReal (a : EReal) : Prop := ∃ r : ℝ, a = (r : EReal)

/-- The sum of two real numbers is a real number. -/
theorem IsReal.add {a b : EReal} (ha : IsReal a) (hb : IsReal b) : IsReal (a + b) := by
  obtain ⟨r, rfl⟩ := ha
  obtain ⟨s, rfl⟩ := hb
  exact ⟨r + s, (EReal.coe_add r s).symm⟩

/-- The product of two real numbers is a real number. -/
theorem IsReal.mul {a b : EReal} (ha : IsReal a) (hb : IsReal b) : IsReal (a * b) := by
  obtain ⟨r, rfl⟩ := ha
  obtain ⟨s, rfl⟩ := hb
  exact ⟨r * s, (EReal.coe_mul r s).symm⟩

/-- Zero is a real number. -/
theorem isReal_zero : IsReal 0 := ⟨0, EReal.coe_zero.symm⟩

/-- A finite sum of real numbers is a real number. -/
theorem isReal_sum {ι : Type} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- A real number minus itself is 0 (false at either infinity). -/
theorem sub_self_of_isReal {a : EReal} (h : IsReal a) : a - a = 0 := by
  obtain ⟨r, rfl⟩ := h
  rw [← EReal.coe_sub, sub_self, EReal.coe_zero]

/-- The exponential of zero is one. -/
theorem exp_zero : Ideal.exp 0 = 1 := by
  rw [← EReal.coe_zero, Ideal.exp_coe, Real.exp_zero, EReal.coe_one]

/-- One divided by one is one. -/
theorem div_one_one : Ideal.div 1 1 = 1 := by
  have h := Ideal.div_coe (y := 1) one_ne_zero (1 : EReal)
  simpa using h

/-- A float pattern whose exponent field is not all ones denotes a real number. -/
theorem ieee_isReal (e m : Nat) {w : Nat} (b : BitVec w) (h : (b.extractLsb' m e).toNat ≠ 2 ^ e - 1) :
    IsReal (Ideal.ieee e m b) := by
  unfold Ideal.ieee
  dsimp only
  rw [if_neg h]
  split <;> exact ⟨_, rfl⟩

/-- The f32 pattern of minus infinity is the least extended real: the maximum with it changes nothing. -/
theorem max_negInf_left (y : EReal) : max (Ideal.ofBits .f32 0xFF800000#32) y = y := by
  simp [Ideal.ofBits, Ideal.ieee]

/-- The same with the operands in the other order. -/
theorem max_negInf_right (y : EReal) : max y (Ideal.ofBits .f32 0xFF800000#32) = y := by
  rw [max_comm]; exact max_negInf_left y

/-- A fold over an axis of length one meets its one term once. -/
theorem fold_fin_one {α : Type} (op : α → α → α) [Std.Commutative op] [Std.Associative op] (b : α) (f : Fin 1 → α) :
    (Finset.univ : Finset (Fin 1)).fold op b f = op (f 0) b := by
  rw [Finset.univ_unique, Finset.fold_singleton]
  rfl

/-- |a| < +inf on the extended reals, where |a| = max a (-a) is +inf at either infinity: `a` is a real number. -/
theorem isReal_of_abs_lt_inf (a : EReal)
    (h : Ideal.cmp .olt (max a (-a)) (Ideal.ofBits .f32 0x7F800000#32) = 1#1) : IsReal a := by
  have htop : Ideal.ofBits .f32 0x7F800000#32 = ⊤ := by simp [Ideal.ofBits, Ideal.ieee]
  rw [htop] at h
  induction a using EReal.rec with
  | bot => simp [Ideal.cmp] at h
  | top => simp [Ideal.cmp] at h
  | coe r => exact ⟨r, rfl⟩

/-- One conjunct of a finiteness precondition, "all entries of `a` have |a| < +inf" (a reduction by `and`, over every axis,
    of the comparison of |a| with the +inf pattern broadcast from a scalar), gives that every entry is a real number. -/
theorem all_isReal {s : Shape} {axes : List (Fin s.rank)} (a : FVec Ideal s .f32)
    (dims : Fin (⟨0, ![]⟩ : Shape).rank → Fin s.rank) (bc : (⟨0, ![]⟩ : Shape).BroadcastsInDim s dims)
    (h' : s.ReducesTo axes ⟨0, ![]⟩) (hu : 0 < (⟨0, ![]⟩ : Shape).numel)
    (e : Host.reduce IntOp.andi
      (cmpf .olt (Host.absf a) (broadcastInDim s dims bc (constant (F := Ideal) ⟨0, ![]⟩ .f32 0x7F800000#32)))
      (constantI ⟨0, ![]⟩ 1 1#1) h' hu ix0 = 1#1) (i : s.Idx) : IsReal (a i) := by
  haveI : Subsingleton (⟨0, ![]⟩ : Shape).Idx := ⟨fun a b => funext fun d => d.elim0⟩
  exact isReal_of_abs_lt_inf (a i) (Host.reduce_andi_all _ _ h' hu ix0 e i)

end Cert.RealValued

end
-- ==== Proof.LibRealSums.lean ====
/-
  Sums of products of real numbers inside the extended reals.

  The extended reals are not a semiring: a product does not distribute over a sum when an infinity is present. For
  real numbers it does. This file has

    * the coercion of a finite real sum is the sum of the coercions;
    * the exchange law behind "aggregate, then multiply by a matrix = multiply by the matrix, then aggregate": for
      real x (e, k), w (k), v (e) and any selection p of the e's,
          ∑ e ∈ p, (∑ k, x (e, k) · w (k)) · v (e)  =  ∑ k, (∑ e ∈ p, x (e, k) · v (e)) · w (k),
      stated on the extended reals with the selection written as an `if`;
    * the larger of two real numbers is a real number.

  Nothing here depends on a particular program.
-/
import Mathlib.Data.EReal.Basic
import Mathlib.Algebra.BigOperators.Ring.Finset
import Mathlib.Algebra.BigOperators.Group.Finset.Sigma
import Mathlib.Tactic.Ring

noncomputable section

namespace Cert.RealSums

open scoped BigOperators

/-- The coercion of a finite sum of real numbers is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The exchange law over the real numbers. -/
theorem exchange_real {ι κ : Type} [Fintype ι] [Fintype κ] (p : ι → Prop) [DecidablePred p]
    (x : ι → κ → ℝ) (w : κ → ℝ) (v : ι → ℝ) :
    ∑ e, (if p e then (∑ k, x e k * w k) * v e else 0) = ∑ k, (∑ e, if p e then x e k * v e else 0) * w k := by
  simp only [Finset.sum_mul]
  rw [Finset.sum_comm]
  refine Finset.sum_congr rfl fun e _ => ?_
  by_cases h : p e
  · simp only [if_pos h]
    refine Finset.sum_congr rfl fun k _ => by ring
  · simp only [if_neg h, zero_mul, Finset.sum_const_zero]

/-- The exchange law on the extended reals, for entries that are real numbers. -/
theorem exchange {ι κ : Type} [Fintype ι] [Fintype κ] (p : ι → Prop) [DecidablePred p]
    (x : ι → κ → ℝ) (w : κ → ℝ) (v : ι → ℝ) :
    ∑ e, (if p e then (∑ k, (x e k : EReal) * (w k : EReal)) * (v e : EReal) else 0)
      = ∑ k, (∑ e, if p e then (x e k : EReal) * (v e : EReal) else 0) * (w k : EReal) := by
  have hL : ∀ e, (if p e then (∑ k, (x e k : EReal) * (w k : EReal)) * (v e : EReal) else 0)
      = ((if p e then (∑ k, x e k * w k) * v e else 0 : ℝ) : EReal) := by
    intro e
    by_cases h : p e
    · rw [if_pos h, if_pos h, EReal.coe_mul, coe_sum]
      simp only [EReal.coe_mul]
    · rw [if_neg h, if_neg h, EReal.coe_zero]
  have hR : ∀ k, (∑ e, if p e then (x e k : EReal) * (v e : EReal) else 0) * (w k : EReal)
      = (((∑ e, if p e then x e k * v e else 0) * w k : ℝ) : EReal) := by
    intro k
    rw [EReal.coe_mul, coe_sum]
    congr 1
    refine Finset.sum_congr rfl fun e _ => ?_
    by_cases h : p e
    · rw [if_pos h, if_pos h, EReal.coe_mul]
    · rw [if_neg h, if_neg h, EReal.coe_zero]
  rw [Finset.sum_congr rfl fun e _ => hL e, Finset.sum_congr rfl fun k _ => hR k, ← coe_sum, ← coe_sum,
    exchange_real]

/-- The larger of two real numbers is one of them, so a real number. -/
theorem max_real {a b : EReal} (ha : ∃ r : ℝ, a = (r : EReal)) (hb : ∃ r : ℝ, b = (r : EReal)) :
    ∃ r : ℝ, max a b = (r : EReal) := by
  rcases max_choice a b with h | h
  · rw [h]; exact ha
  · rw [h]; exact hb

end Cert.RealSums

end
-- ==== Proof.GcnEdgeAlgebra.lean ====
/-
  One propagation step written edge by edge equals the dense form, for a 0/1 adjacency matrix and real entries.

  Edge by edge, node `r` receives from every node `i` with an edge `i → r` the message `h i · (dis i · dis r · 1)`,
  and from itself `h r · (dis r · dis r · 1)`.  Densely it is `dis r · ((∑ i, A(i,r) · (dis i · h i)) + dis r · h r)`.
  When every entry of `A` is 0 or 1, "there is an edge `i → r`" is "`A(i,r) ≠ 0`" and the indicator is `A(i,r)`
  itself; the two forms then differ by the distributive law, which holds because every quantity is a real number
  (on the extended reals it can fail at the infinities).
-/
import proofs.«173982_g33990371181433_cont_sun_m_937_10_alg».proof.Proof.GcnSpec
import proofs.«173982_g33990371181433_cont_sun_m_937_10_alg».proof.Proof.LibRealValued
import proofs.«173982_g33990371181433_cont_sun_m_937_10_alg».proof.Proof.LibRealSums

noncomputable section

namespace Cert.Gcn

open Idealize.ShloMosaic Idealize.ShloMosaic.ValueIdx Cert.RealValued

/-- The edge form of a propagation step is the dense form. -/
theorem conv_of_edges {C : ℕ} (A : FVec Ideal SA .f32) (hA : ∀ i j, A (ix2 i j) = 0 ∨ A (ix2 i j) = 1)
    (d : Fin 2048 → EReal) (hd : ∀ i, IsReal (d i)) (h : Fin 2048 → Fin C → EReal) (hh : ∀ i q, IsReal (h i q))
    (r : Fin 2048) (q : Fin C) :
    (∑ i : Fin 2048, if A (ix2 i r) ≠ 0 then h i q * (d i * d r * 1) else 0) + h r q * (d r * d r * 1)
      = d r * ((∑ i : Fin 2048, A (ix2 i r) * (d i * h i q)) + d r * h r q) := by
  choose d' hd' using hd
  choose h' hh' using hh
  have hL : ∀ i, (if A (ix2 i r) ≠ 0 then h i q * (d i * d r * 1) else 0)
      = (((if A (ix2 i r) ≠ 0 then h' i q * (d' i * d' r * 1) else 0 : ℝ)) : EReal) := fun i => by
    split_ifs
    · rw [hh', hd', hd']; norm_cast
    · simp
  have hR : ∀ i, A (ix2 i r) * (d i * h i q)
      = (((if A (ix2 i r) ≠ 0 then 1 else 0 : ℝ) * (d' i * h' i q) : ℝ) : EReal) := fun i => by
    rcases hA i r with h0 | h1
    · rw [if_neg (by simp [h0]), h0, zero_mul, zero_mul, EReal.coe_zero]
    · rw [if_pos (by rw [h1]; exact one_ne_zero), h1, one_mul, one_mul, hd', hh']; norm_cast
  simp only [hL, hR]
  rw [← Cert.RealSums.coe_sum, ← Cert.RealSums.coe_sum, hh', hd']
  norm_cast
  rw [mul_add, Finset.mul_sum]
  congr 1
  · refine Finset.sum_congr rfl fun i _ => ?_
    split_ifs <;> ring
  · ring

end Cert.Gcn

end
-- ==== Proof.LibRowScatterAdd.lean ====
/-
  A general fact about accumulating rows into a matrix.

  Take an operand with N rows and C columns, a column of R row numbers (an R × 1 integer array) and an R × C array of
  update rows. Scattering with one window axis (the columns), one inserted axis (the rows) and the row number naming
  the row axis adds update row e onto operand row k, where k is the e-th row number read as a signed integer; a row
  number outside 0 … N − 1 drops its update row. On the extended reals the result at (r, c) is therefore the operand's
  entry plus the sum, over the update rows e whose row number is r, of the update entry (e, c). Nothing here depends on
  a particular program.
-/
import Idealize.ShloMosaic.PureOps.Ideal
import Idealize.ShloMosaic.Lib.ValueIdx

noncomputable section

namespace Idealize.ShloMosaic.RowScatter

open Idealize.ShloMosaic Idealize.ShloMosaic.ValueIdx

/-- The dimension numbers of a whole-row accumulation into an `N × C` operand at an `R × 1` column of row numbers. -/
abbrev rowDims (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

variable {N R C w : Nat} (wf : ScatterDims.WF ⟨2, ![N, C]⟩ ⟨2, ![R, 1]⟩ ⟨2, ![R, C]⟩ [1] [0] [0] 1)

/-- On the row axis the window of update entry `(e, c)` starts at the `e`-th row number, read signed. -/
theorem start_row (idx : IVec ⟨2, ![R, 1]⟩ w) (e : Fin R) (c : Fin C) :
    (rowDims N R C wf).start (ix2 e c) idx 0 = (idx (ix2 e (0 : Fin 1))).toInt := by
  unfold ScatterDims.start
  rw [dif_pos (show (0 : Fin 2) ∈ (rowDims N R C wf).scatterDimsToOperandDims from List.mem_singleton.mpr rfl)]
  have hsi : (rowDims N R C wf).siIdx (ix2 e c) ⟨List.idxOf (0 : Fin 2) (rowDims N R C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis it starts at 0. -/
theorem start_col (idx : IVec ⟨2, ![R, 1]⟩ w) (j : (⟨2, ![R, C]⟩ : Shape).Idx) :
    (rowDims N R C wf).start j idx 1 = 0 := by
  unfold ScatterDims.start
  rw [dif_neg (show ¬ (1 : Fin 2) ∈ (rowDims N R C wf).scatterDimsToOperandDims from
    fun h => absurd (List.mem_singleton.mp h) (show ¬ (1 : Fin 2) = 0 by decide))]

/-- The operand's axes that are not inserted: the columns only. -/
theorem sKept_eq : (rowDims N R C wf).sKept = [(1 : Fin 2)] := rfl

/-- The row axis is inserted: no window coordinate. -/
theorem window_row (j : (⟨2, ![R, C]⟩ : Shape).Idx) : (rowDims N R C wf).window j 0 = 0 := by
  unfold ScatterDims.window
  rw [dif_neg (show ¬ (0 : Fin 2) ∈ (rowDims N R C wf).sKept from by
    rw [sKept_eq]; exact fun h => absurd (List.mem_singleton.mp h) (show ¬ (0 : Fin 2) = 1 by decide))]

/-- The column axis carries the update's column. -/
theorem window_col (e : Fin R) (c : Fin C) : (rowDims N R C wf).window (ix2 e c) 1 = c.val := by
  unfold ScatterDims.window
  rw [dif_pos (show (1 : Fin 2) ∈ (rowDims N R C wf).sKept from by
    rw [sKept_eq]; exact List.mem_singleton.mpr rfl)]
  rfl

/-- WHERE AN UPDATE ENTRY LANDS: update entry `(e, c)` lands on operand entry `i` exactly when the `e`-th row number, read
    signed, is `i`'s row and `c` is `i`'s column. (A row number outside the operand lands nowhere.) -/
theorem resultIdx?_eq_some_iff (idx : IVec ⟨2, ![R, 1]⟩ w) (e : Fin R) (c : Fin C) (i : (⟨2, ![N, C]⟩ : Shape).Idx) :
    (rowDims N R C wf).resultIdx? (ix2 e c) idx = some i
      ↔ (idx (ix2 e (0 : Fin 1))).toInt = ((i 0).val : Int) ∧ c.val = (i 1).val := by
  have hs0 := start_row wf idx e c
  have hs1 := start_col wf idx (ix2 e c)
  have hw0 := window_row wf (ix2 e c)
  have hw1 := window_col wf e c
  have hi0 : (i 0).val < N := (i 0).isLt
  have hi1 : (i 1).val < C := (i 1).isLt
  have hc : c.val < C := c.isLt
  unfold ScatterDims.resultIdx?
  split
  · rename_i h
    rw [Option.some.injEq]
    have h0 := h 0
    rw [hs0, hw0] at h0
    constructor
    · intro he
      have e0 : ((rowDims N R C wf).start (ix2 e c) idx 0 + ((rowDims N R C wf).window (ix2 e c) 0 : Nat)).toNat = (i 0).val :=
        congrArg (fun f : (⟨2, ![N, C]⟩ : Shape).Idx => (f 0).val) he
      have e1 : ((rowDims N R C wf).start (ix2 e c) idx 1 + ((rowDims N R C wf).window (ix2 e c) 1 : Nat)).toNat = (i 1).val :=
        congrArg (fun f : (⟨2, ![N, C]⟩ : Shape).Idx => (f 1).val) he
      rw [hs0, hw0] at e0
      rw [hs1, hw1] at e1
      constructor <;> omega
    · rintro ⟨g0, g1⟩
      funext a; apply Fin.ext
      match a with
      | ⟨0, _⟩ =>
        show ((rowDims N R C wf).start (ix2 e c) idx 0 + ((rowDims N R C wf).window (ix2 e c) 0 : Nat)).toNat = (i 0).val
        rw [hs0, hw0]; omega
      | ⟨1, _⟩ =>
        show ((rowDims N R C wf).start (ix2 e c) idx 1 + ((rowDims N R C wf).window (ix2 e c) 1 : Nat)).toNat = (i 1).val
        rw [hs1, hw1]; omega
  · rename_i h
    constructor
    · intro he; cases he
    · rintro ⟨g0, g1⟩
      exfalso; apply h
      intro a
      match a with
      | ⟨0, _⟩ =>
        show 0 ≤ (rowDims N R C wf).start (ix2 e c) idx 0 + ((rowDims N R C wf).window (ix2 e c) 0 : Nat)
          ∧ (rowDims N R C wf).start (ix2 e c) idx 0 + ((rowDims N R C wf).window (ix2 e c) 0 : Nat) < (N : Int)
        rw [hs0, hw0]; omega
      | ⟨1, _⟩ =>
        show 0 ≤ (rowDims N R C wf).start (ix2 e c) idx 1 + ((rowDims N R C wf).window (ix2 e c) 1 : Nat)
          ∧ (rowDims N R C wf).start (ix2 e c) idx 1 + ((rowDims N R C wf).window (ix2 e c) 1 : Nat) < (C : Int)
        rw [hs1, hw1]; omega

/-- THE ACCUMULATED ROWS AT AN ENTRY: the operand's entry plus the sum, over the update rows whose row number is
    `r`, of their entries in column `c`. -/
theorem scatterAdd_row_apply (x : (⟨2, ![N, C]⟩ : Shape).Idx → EReal) (idx : IVec ⟨2, ![R, 1]⟩ w)
    (upd : (⟨2, ![R, C]⟩ : Shape).Idx → EReal) (r : Fin N) (c : Fin C) :
    Ideal.hostScatterAdd (rowDims N R C wf) x idx upd (ix2 r c)
      = x (ix2 r c) + ∑ e : Fin R, if (idx (ix2 e (0 : Fin 1))).toInt = (r.val : Int) then upd (ix2 e c) else 0 := by
  unfold Ideal.hostScatterAdd
  congr 1
  rw [Finset.sum_filter, sum_idx2]
  refine Finset.sum_congr rfl fun e _ => ?_
  have hiff : ∀ c' : Fin C, ((rowDims N R C wf).resultIdx? (ix2 e c') idx = some (ix2 r c))
      ↔ ((idx (ix2 e (0 : Fin 1))).toInt = (r.val : Int) ∧ c' = c) := fun c' =>
    (resultIdx?_eq_some_iff wf idx e c' (ix2 r c)).trans (and_congr Iff.rfl Fin.val_inj)
  simp only [hiff]
  by_cases hr : (idx (ix2 e (0 : Fin 1))).toInt = (r.val : Int)
  · simp only [hr, true_and, if_true, Finset.sum_ite_eq', Finset.mem_univ]
  · simp only [hr, false_and, if_false, Finset.sum_const_zero]

/-- The same, spelt as the host's operation at the extended reals. -/
theorem host_scatterAdd_row_apply (x : FVec Ideal ⟨2, ![N, C]⟩ .f32) (idx : IVec ⟨2, ![R, 1]⟩ w)
    (upd : FVec Ideal ⟨2, ![R, C]⟩ .f32) (r : Fin N) (c : Fin C) :
    Host.scatterAdd (F := Ideal) (rowDims N R C wf) x idx upd (ix2 r c)
      = x (ix2 r c) + ∑ e : Fin R, if (idx (ix2 e (0 : Fin 1))).toInt = (r.val : Int) then upd (ix2 e c) else 0 :=
  scatterAdd_row_apply wf x idx upd r c

end Idealize.ShloMosaic.RowScatter

end
-- ==== Proof.LibRowGather.lean ====
/-
  A general fact about gathering whole rows of a matrix.

  Take a table with N rows and C columns and a column of R start indices (an R × 1 integer array). Gathering with one
  collapsed axis (the rows), one offset axis (the columns), the start index naming the row axis and slices of one
  whole row produces an R × C array whose entry (r, o) is the table's entry (k, o), where k is the r-th start index
  read as a signed integer and clamped into 0 … N − 1. Nothing here depends on a particular program.
-/
import Idealize.ShloMosaic.PureOps.Ideal
import Idealize.ShloMosaic.Lib.ValueIdx

noncomputable section

namespace Idealize.ShloMosaic.RowGather

open Idealize.ShloMosaic Idealize.ShloMosaic.ValueIdx

variable {α : Type}

/-- The dimension numbers of a whole-row gather from an `N × C` table at an `R × 1` column of start indices. -/
abbrev rowDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- Entry `(r, o)` of a whole-row gather is the table's entry `(k, o)`, `k` the `r`-th start index read signed and
    clamped into `0 … N − 1`. -/
theorem gather_row_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (o : Fin C) :
    Host.gather (rowDims N R C wf) x idx (ix2 r o)
      = x (ix2 (⟨min (idx (ix2 r (0 : Fin 1))).toInt.toNat (N - 1), by omega⟩ : Fin N) o) := by
  unfold Host.gather
  congr 1
  funext a
  refine Fin.ext ?_
  match a with
  | ⟨0, _⟩ =>
    show (rowDims N R C wf).start (ix2 r o) idx 0 + (rowDims N R C wf).batchCoord (ix2 r o) 0
        + (rowDims N R C wf).offCoord (ix2 r o) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 r o) ⟨List.idxOf (0 : Fin 2) (rowDims N R C wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowDims N R C wf).start (ix2 r o) idx 1 + (rowDims N R C wf).batchCoord (ix2 r o) 1
        + (rowDims N R C wf).offCoord (ix2 r o) 1 = o.val
    rw [GatherDims.batchCoord_eq_zero _ _ _ List.not_mem_nil]
    unfold GatherDims.start
    rw [dif_neg (show ¬ (1 : Fin 2) ∈ (rowDims N R C wf).startIndexMap from
      fun h => absurd (List.mem_singleton.mp h) (show ¬ (1 : Fin 2) = 0 by decide))]
    simp only [Nat.add_zero, Nat.zero_add]
    rfl

end Idealize.ShloMosaic.RowGather

end
-- ==== Proof.LibVecGather.lean ====
/-
  Picking entries of a vector at a column of positions.

  A gather of single entries of a length-`N` vector at an `R × 1` column of positions yields a length-`R` vector
  whose entry `e` is the vector's entry at the `e`-th position, read as a signed integer and clamped into
  `0 … N − 1` (`gather_vec_apply`); when the position's word is a number below `N` that is simply the entry at
  that number (`gather_vec_apply_of_lt`).
-/
import Idealize.ShloMosaic.Lib.ValueIdx

noncomputable section

namespace Idealize.ShloMosaic.VecGather

open Idealize.ShloMosaic Idealize.ShloMosaic.ValueIdx

variable {α : Type}

/-- The dimension numbers of taking single entries of a vector at an `R × 1` column of positions. -/
abbrev vecDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The gather read at `e`: the vector at the `e`-th position, read signed and clamped into `[0, N − 1]`. -/
theorem gather_vec_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (vecDims N R wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (vecDims N R wf).start (ix1 e) idx 0 + (vecDims N R wf).batchCoord (ix1 e) 0 + (vecDims N R wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N R wf).startIndexMap from List.mem_singleton.mpr rfl)]
  have hsi : (vecDims N R wf).siIdx (ix1 e) ⟨List.idxOf (0 : Fin 1) (vecDims N R wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- The same when the position's word is a number `k < N` (below `2^31`, so nonnegative as a signed number). -/
theorem gather_vec_apply_of_lt {N R : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ 32) (e : Fin R) (k : Fin N)
    (hk : (idx (ix2 e (0 : Fin 1))).toNat = k.val) (hN31 : N ≤ 2 ^ 31) :
    Host.gather (vecDims N R wf) x idx (ix1 e) = x (ix1 k) := by
  rw [gather_vec_apply hN]
  congr 2
  apply Fin.ext
  show min (idx (ix2 e (0 : Fin 1))).toInt.toNat (N - 1) = k.val
  have hlt := k.isLt
  rw [BitVec.toInt_eq_toNat_of_lt (by omega), hk]
  simp only [Int.toNat_natCast]
  omega

end Idealize.ShloMosaic.VecGather

end
-- ==== Proof.RefEdgeMathSums.lean ====
/-
  Sums over a graph's edge list, indexed by the list's positions, regrouped as sums over the nodes; and the few facts
  about numbers the regrouping needs.

  The edge list has `n·n + n` entries: `n·n` slots for the edges, of which the first `cnt` hold the graph's edges in the
  order of their flat positions and the rest are empty, then one self loop per node. Summing, over the entries that end
  at node `r`, a weight that is `F source target` on an edge, zero on an empty slot and `G node` on a self loop gives
  the sum over the edges `i → r` of `F i r`, plus `G r`.
-/
import proofs.«173982_g33990371181433_cont_sun_m_937_10_alg».proof.Proof.LibEdgeSums
import proofs.«173982_g33990371181433_cont_sun_m_937_10_alg».proof.Proof.LibRealValued
import proofs.«173982_g33990371181433_cont_sun_m_937_10_alg».proof.Proof.LibRealSums
import Idealize.ShloMosaic.Lib.IdealHost

noncomputable section

open scoped BigOperators

namespace NonzeroEnum

open Finset

/-- The running count depends only on where the predicate holds. -/
theorem cnt_congr {m m' : ℕ → Prop} [DecidablePred m] [DecidablePred m'] (h : ∀ k, m k ↔ m' k) (k : ℕ) :
    cnt m k = cnt m' k := by
  unfold cnt
  exact congrArg Finset.card (Finset.filter_congr fun x _ => h x)

/-- So does the enumeration. -/
theorem pos_congr {m m' : ℕ → Prop} [DecidablePred m] [DecidablePred m'] (h : ∀ k, m k ↔ m' k) (N e : ℕ) :
    pos m N e = pos m' N e := by
  unfold pos
  refine congrArg Finset.card (Finset.filter_congr fun x _ => ?_)
  rw [cnt_congr h]

variable {M : Type*} [AddCommMonoid M]

/-- The edge-list sum with the list's entries numbered by `Fin R`, `R = n·n + n`, and the nodes by `Fin n`. -/
theorem sum_fin_edge_list (n R : ℕ) (hn : 0 < n) (hR : R = n * n + n) (mask : ℕ → ℕ → Prop) [∀ i j, Decidable (mask i j)]
    (t : Fin R → M) (dst : Fin R → ℕ) (F : ℕ → ℕ → M) (G : ℕ → M) (r : Fin n)
    (h1 : ∀ e : Fin R, e.val < cnt (fun k => mask (k / n) (k % n)) (n * n - 1) →
      dst e = pos (fun k => mask (k / n) (k % n)) (n * n) e.val % n
      ∧ t e = F (pos (fun k => mask (k / n) (k % n)) (n * n) e.val / n) (pos (fun k => mask (k / n) (k % n)) (n * n) e.val % n))
    (h2 : ∀ e : Fin R, cnt (fun k => mask (k / n) (k % n)) (n * n - 1) ≤ e.val → e.val < n * n → t e = 0)
    (h3 : ∀ e : Fin R, n * n ≤ e.val → dst e = e.val - n * n ∧ t e = G (e.val - n * n)) :
    ∑ e : Fin R, (if dst e = r.val then t e else 0)
      = (∑ i : Fin n, if mask i.val r.val then F i.val r.val else 0) + G r.val := by
  subst hR
  have hext : ∀ e : Fin (n * n + n), (if dst e = r.val then t e else 0)
      = (fun k : ℕ => if (if hk : k < n * n + n then dst ⟨k, hk⟩ else 0) = r.val
          then (if hk : k < n * n + n then t ⟨k, hk⟩ else 0) else 0) e.val := fun e => by
    simp only [dif_pos e.isLt]
  rw [Finset.sum_congr rfl fun e _ => hext e, Fin.sum_univ_eq_sum_range
    (fun k : ℕ => if (if hk : k < n * n + n then dst ⟨k, hk⟩ else 0) = r.val
      then (if hk : k < n * n + n then t ⟨k, hk⟩ else 0) else 0) (n * n + n)]
  rw [sum_edge_list n hn mask (fun k => if hk : k < n * n + n then t ⟨k, hk⟩ else 0)
    (fun k => if hk : k < n * n + n then dst ⟨k, hk⟩ else 0) F G r.val r.isLt]
  · rw [Fin.sum_univ_eq_sum_range (fun i : ℕ => if mask i r.val then F i r.val else 0) n]
  · intro e he
    have hle : cnt (fun k => mask (k / n) (k % n)) (n * n - 1) ≤ n * n := by
      have := cnt_le' (fun k => mask (k / n) (k % n)) (n * n - 1)
      have : 0 < n * n := Nat.mul_pos hn hn
      omega
    have hk : e < n * n + n := by omega
    simp only [dif_pos hk]
    exact h1 ⟨e, hk⟩ he
  · intro e he1 he2
    have hk : e < n * n + n := by omega
    simp only [dif_pos hk]
    exact h2 ⟨e, hk⟩ he1 he2
  · intro l hl
    have hk : n * n + l < n * n + n := by omega
    simp only [dif_pos hk]
    have := h3 ⟨n * n + l, hk⟩ (by show n * n ≤ n * n + l; omega)
    simpa using this

end NonzeroEnum

namespace Cert.RealValued

open Idealize.ShloMosaic

/-- A 32-bit word that is a number below `2^31` reads the same signed and unsigned. -/
theorem toInt_eq_iff_toNat_eq (w : BitVec 32) (b r : ℕ) (hw : w.toNat < b) (hb : b ≤ 2 ^ 31) :
    w.toInt = (r : Int) ↔ w.toNat = r := by
  rw [BitVec.toInt_eq_toNat_of_lt (by omega)]
  exact Int.natCast_inj

/-- An extended real that is 0 or 1 is the indicator of its being nonzero, as a real number. -/
theorem zero_one_eq_indicator {a : EReal} (h : a = 0 ∨ a = 1) : a = (((if a ≠ 0 then 1 else 0 : ℝ)) : EReal) := by
  rcases h with h | h
  · rw [if_neg (by simp [h]), h, EReal.coe_zero]
  · rw [if_pos (by rw [h]; exact one_ne_zero), h, EReal.coe_one]

/-- One over the square root of a real number at least one, both ways of writing it: the quotient `1 / √x` selected
    when `x > 0`, and the reciprocal square root. -/
theorem select_div_sqrt_eq_rsqrt (x : ℝ) (hx : 1 ≤ x) :
    Scalar.select (Ideal.cmp .ogt (x : EReal) (Ideal.ofBits .f32 0x00000000#32))
        (Ideal.div (Ideal.ofBits .f32 0x3F800000#32) (Ideal.sqrt (x : EReal))) (Ideal.ofBits .f32 0x00000000#32)
      = Ideal.rsqrt (x : EReal) := by
  have hpos : 0 < x := by linarith
  have hsq : Real.sqrt x ≠ 0 := (Real.sqrt_pos.mpr hpos).ne'
  have hc : Ideal.cmp .ogt (x : EReal) (Ideal.ofBits .f32 0x00000000#32) = 1#1 := by
    rw [Ideal.ofBits_zero_f32]
    unfold Ideal.cmp
    simp [hpos]
  rw [hc]
  show Ideal.div (Ideal.ofBits .f32 0x3F800000#32) (Ideal.sqrt (x : EReal)) = _
  rw [Ideal.ofBits_one_f32, Ideal.sqrt_coe, if_neg (not_lt.mpr hpos.le), Ideal.div_coe hsq, one_mul, Ideal.rsqrt_coe,
    if_neg (not_lt.mpr hpos.le), if_neg hpos.ne', one_div]

/-- The reciprocal square root of a real number at least one is a real number. -/
theorem isReal_rsqrt (x : ℝ) (hx : 1 ≤ x) : IsReal (Ideal.rsqrt (x : EReal)) := by
  have hpos : 0 < x := by linarith
  rw [Ideal.rsqrt_coe, if_neg (not_lt.mpr hpos.le), if_neg hpos.ne']
  exact ⟨_, rfl⟩

end Cert.RealValued

end
-- ==== Proof.RefEdgeMath.lean ====
/-
  The reference network's floating-point stages, read edge by edge and regrouped node by node.

  The reference accumulates over an edge list (source, target and weight of each entry: the graph's edges, then empty
  slots of weight zero, then one self loop per node). Given what the entries of that list are, as numbers
  (`EdgeFacts`), and a 0/1 adjacency matrix, this file shows: the accumulated degree of node `r` is the number of
  edges into `r` plus one, that is `Cert.Gcn.deg`; its reciprocal square root is `Cert.Gcn.dis`; and one propagation
  of a table along the edges is `Cert.Gcn.conv` of the table.
-/
import proofs.«173982_g33990371181433_cont_sun_m_937_10_alg».proof.Proof.RefStages
import proofs.«173982_g33990371181433_cont_sun_m_937_10_alg».proof.Proof.RefEdgeFacts
import proofs.«173982_g33990371181433_cont_sun_m_937_10_alg».proof.Proof.GcnSpec
import proofs.«173982_g33990371181433_cont_sun_m_937_10_alg».proof.Proof.GcnEdgeAlgebra
import proofs.«173982_g33990371181433_cont_sun_m_937_10_alg».proof.Proof.LibRowScatterAdd
import proofs.«173982_g33990371181433_cont_sun_m_937_10_alg».proof.Proof.LibVecScatter
import proofs.«173982_g33990371181433_cont_sun_m_937_10_alg».proof.Proof.LibRowGather
import proofs.«173982_g33990371181433_cont_sun_m_937_10_alg».proof.Proof.LibVecGather
import proofs.«173982_g33990371181433_cont_sun_m_937_10_alg».proof.Proof.RefEdgeMathSums
import Idealize.ShloMosaic.Lib.IdealHost
import Idealize.ShloMosaic.Lib.Pipeline.Value

noncomputable section

open scoped BigOperators

namespace Cert.ReferenceIdeal.EdgeMath

open Cert.ReferenceIdeal Cert.ReferenceIdeal.Gen Cert.ReferenceIdeal.Stages Cert.ReferenceIdeal.IndexMath
  Idealize.ShloMosaic Idealize.ShloMosaic.ValueIdx Cert.RealValued NonzeroEnum

variable (A : FVec Ideal S2048x2048 .f32)

/-! ## The graph and the numbers the edge list holds -/

/-- There is an edge from node `i` to node `j`. -/
def IsEdge (i j : ℕ) : Prop := ∃ (hi : i < 2048) (hj : j < 2048), A (ix2 (⟨i, hi⟩ : Fin 2048) (⟨j, hj⟩ : Fin 2048)) ≠ 0

instance isEdgeDecidable (i j : ℕ) : Decidable (IsEdge A i j) := Classical.propDecidable _

/-- Between two nodes, an edge is a nonzero entry. -/
theorem isEdge_iff (i j : Fin 2048) : IsEdge A i.val j.val ↔ A (ix2 i j) ≠ 0 :=
  ⟨fun ⟨_, _, h⟩ => h, fun h => ⟨i.isLt, j.isLt, h⟩⟩

/-- The target node of entry `e` of the edge list, and its source node. -/
def tgt (e : Fin 4196352) : ℕ := (column (dst A) (ix2 e (0 : Fin 1))).toNat
def srcN (e : Fin 4196352) : ℕ := (column (src A) (ix2 e (0 : Fin 1))).toNat

variable {A}

/-- The flat position `k` is marked exactly when there is an edge from its row to its column. -/
theorem isEdge_flat (hE : EdgeFacts A) (k : ℕ) : IsEdge A (k / 2048) (k % 2048) ↔ marked A k :=
  ⟨fun ⟨hi, _, h⟩ => (hE.marked_iff k).mpr ⟨hi, h⟩,
   fun h => let ⟨hi, h'⟩ := (hE.marked_iff k).mp h; ⟨hi, Nat.mod_lt _ (by norm_num), h'⟩⟩

theorem cnt_isEdge (hE : EdgeFacts A) : cnt (fun k => IsEdge A (k / 2048) (k % 2048)) (2048 * 2048 - 1) = nnz A :=
  cnt_congr (isEdge_flat hE) _

theorem pos_isEdge (hE : EdgeFacts A) (e : ℕ) :
    pos (fun k => IsEdge A (k / 2048) (k % 2048)) (2048 * 2048) e = pos (marked A) 4194304 e :=
  pos_congr (isEdge_flat hE) _ e

/-- Below the number of edges, the enumerated flat position is inside the matrix. -/
theorem pos_lt_flat {e : ℕ} (he : e < nnz A) : pos (marked A) 4194304 e < 4194304 :=
  pos_lt (m := marked A) (N := 4194304) (by norm_num) he

/-- Every target is a node. -/
theorem tgt_lt (hE : EdgeFacts A) (e : Fin 4196352) : tgt A e < 2048 := by
  unfold tgt
  by_cases h1 : e.val < nnz A
  · rw [(hE.edge e h1).2.1]; exact Nat.mod_lt _ (by norm_num)
  · by_cases h2 : e.val < 4194304
    · rw [(hE.pad e (by omega) h2).2.1]; norm_num
    · rw [(hE.loop e (by omega)).2.1]; have := e.isLt; omega

/-- Every source is a node. -/
theorem srcN_lt (hE : EdgeFacts A) (e : Fin 4196352) : srcN A e < 2048 := by
  unfold srcN
  by_cases h1 : e.val < nnz A
  · rw [(hE.edge e h1).1]; have := pos_lt_flat h1; omega
  · by_cases h2 : e.val < 4194304
    · rw [(hE.pad e (by omega) h2).1]; norm_num
    · rw [(hE.loop e (by omega)).1]; have := e.isLt; omega

/-- "The target word of entry `e`, read signed, is `r`" is "the target node of `e` is `r`". -/
theorem tgt_word_iff (hE : EdgeFacts A) (e : Fin 4196352) (r : Fin 2048) :
    (column (dst A) (ix2 e (0 : Fin 1))).toInt = (r.val : Int) ↔ tgt A e = r.val :=
  toInt_eq_iff_toNat_eq _ 2048 r.val (tgt_lt hE e) (by norm_num)

/-- THE REGROUPING for this graph: a sum over the edge list's entries ending at `r`, of a weight that is
    `F source target` times the entry's own weight on an edge or a self loop, is the sum over the edges into `r` plus
    the self loop's term. -/
theorem sum_edges (hE : EdgeFacts A) (F : ℕ → ℕ → EReal) (r : Fin 2048) :
    ∑ e : Fin 4196352, (if tgt A e = r.val then F (srcN A e) (tgt A e) * validf A (ix1 e) else 0)
      = (∑ i : Fin 2048, if A (ix2 i r) ≠ 0 then F i.val r.val * 1 else 0) + F r.val r.val * 1 := by
  rw [sum_fin_edge_list 2048 4196352 (by norm_num) (by norm_num) (IsEdge A)
    (fun e => F (srcN A e) (tgt A e) * validf A (ix1 e)) (tgt A) (fun i j => F i j * 1) (fun l => F l l * 1) r]
  · refine congrArg (· + F r.val r.val * 1) (Finset.sum_congr rfl fun i _ => ?_)
    exact if_congr (isEdge_iff A i r) rfl rfl
  · intro e he
    rw [cnt_isEdge hE] at he
    obtain ⟨hs, ht, hv⟩ := hE.edge e he
    rw [pos_isEdge hE]
    refine ⟨ht, ?_⟩
    show F (srcN A e) (tgt A e) * validf A (ix1 e) = _
    rw [hv, show srcN A e = _ from hs, show tgt A e = _ from ht]
  · intro e he1 he2
    rw [cnt_isEdge hE] at he1
    show F (srcN A e) (tgt A e) * validf A (ix1 e) = 0
    rw [(hE.pad e he1 (by omega)).2.2, mul_zero]
  · intro e he
    obtain ⟨hs, ht, hv⟩ := hE.loop e (by omega)
    have e1 : (2048 * 2048 : ℕ) = 4194304 := by norm_num
    refine ⟨by rw [e1]; exact ht, ?_⟩
    show F (srcN A e) (tgt A e) * validf A (ix1 e) = _
    rw [hv, show srcN A e = _ from hs, show tgt A e = _ from ht, e1]

/-! ## The degrees -/

variable (A) in
/-- The accumulated degree at node `r`, entry by entry of the edge list. -/
theorem degree_apply (r : Fin 2048) :
    degree A (ix1 r)
      = ∑ e : Fin 4196352, if (column (dst A) (ix2 e (0 : Fin 1))).toInt = (r.val : Int) then validf A (ix1 e) else 0 := by
  have key := VecScatter.host_scatterAdd_vec_apply scatter_S2048_S4196352x1_S4196352_n_0_0_1_wf
    (broadcastInDim S2048 ![] bcast_S_S2048 (constant (F := Ideal) S_ .f32 0x00000000#32)) (column (dst A)) (validf A) r
  rw [broadcastInDim_scalar_apply, constant_apply, Ideal.ofBits_zero_f32, zero_add] at key
  exact key

/-- The degree of node `r`: the number of edges into `r`, plus one for its self loop. -/
theorem degree_eq (hE : EdgeFacts A) (hA : ∀ i j : Fin 2048, A (ix2 i j) = 0 ∨ A (ix2 i j) = 1) (r : Fin 2048) :
    degree A (ix1 r) = Cert.Gcn.deg A r := by
  rw [degree_apply, Finset.sum_congr rfl fun e _ => if_congr (tgt_word_iff hE e r) rfl rfl]
  have h := sum_edges hE (fun _ _ => 1) r
  simp only [one_mul] at h
  rw [h]
  unfold Cert.Gcn.deg
  refine congrArg₂ (· + ·) (Finset.sum_congr rfl fun i _ => ?_) Ideal.ofBits_one_f32.symm
  rcases hA i r with h0 | h1
  · rw [if_neg (by simp [h0]), h0]
  · rw [if_pos (by rw [h1]; exact one_ne_zero), h1]

/-- A degree is a real number, at least one. -/
theorem deg_real (hA : ∀ i j : Fin 2048, A (ix2 i j) = 0 ∨ A (ix2 i j) = 1) (r : Fin 2048) :
    ∃ x : ℝ, 1 ≤ x ∧ Cert.Gcn.deg A r = (x : EReal) := by
  refine ⟨(∑ i : Fin 2048, (if A (ix2 i r) ≠ 0 then 1 else 0 : ℝ)) + 1, ?_, ?_⟩
  · have : 0 ≤ ∑ i : Fin 2048, (if A (ix2 i r) ≠ 0 then 1 else 0 : ℝ) :=
      Finset.sum_nonneg fun i _ => by split_ifs <;> norm_num
    linarith
  · unfold Cert.Gcn.deg
    rw [EReal.coe_add, Cert.RealSums.coe_sum, EReal.coe_one]
    exact congrArg₂ (· + ·) (Finset.sum_congr rfl fun i _ => zero_one_eq_indicator (hA i r)) Ideal.ofBits_one_f32

/-! ## The normalisation -/

/-- One over the square root, at a node whose degree is a real number at least one. -/
theorem invSqrt_apply (d : FVec Ideal S2048 .f32) (r : Fin 2048) (x : ℝ) (hx : 1 ≤ x) (hd : d (ix1 r) = (x : EReal)) :
    invSqrt d (ix1 r) = Ideal.rsqrt (d (ix1 r)) := by
  show Scalar.select (Ideal.cmp .ogt (d (ix1 r)) (Ideal.ofBits .f32 0x00000000#32))
    (Ideal.div (Ideal.ofBits .f32 0x3F800000#32) (Ideal.sqrt (d (ix1 r)))) (Ideal.ofBits .f32 0x00000000#32) = _
  rw [hd]
  exact select_div_sqrt_eq_rsqrt x hx

theorem invSqrt_eq (hE : EdgeFacts A) (hA : ∀ i j : Fin 2048, A (ix2 i j) = 0 ∨ A (ix2 i j) = 1) (r : Fin 2048) :
    invSqrt (degree A) (ix1 r) = Cert.Gcn.dis A r := by
  obtain ⟨x, hx, hd⟩ := deg_real hA r
  rw [invSqrt_apply (degree A) r x hx ((degree_eq hE hA r).trans hd), degree_eq hE hA r]
  rfl

theorem dis_real (hA : ∀ i j : Fin 2048, A (ix2 i j) = 0 ∨ A (ix2 i j) = 1) (r : Fin 2048) : IsReal (Cert.Gcn.dis A r) := by
  obtain ⟨x, hx, hd⟩ := deg_real hA r
  unfold Cert.Gcn.dis
  rw [hd]
  exact isReal_rsqrt x hx

/-- A per-node vector read at an entry's node, when the entry's word is the number of that node. -/
theorem pick_apply (t : FVec Ideal S2048 .f32) (i : IVec S4196352 32) (e : Fin 4196352) (k : Fin 2048)
    (hk : (column i (ix2 e (0 : Fin 1))).toNat = k.val) : pick t i (ix1 e) = t (ix1 k) :=
  VecGather.gather_vec_apply_of_lt (by norm_num) gather_S2048_S4196352x1_S4196352_n_0_n_n_0_1_1_wf t (column i) e k hk
    (by norm_num)

/-- The normalised weight of entry `e`: the two end nodes' normalisation factors times the entry's own weight. -/
theorem norm_apply (hE : EdgeFacts A) (hA : ∀ i j : Fin 2048, A (ix2 i j) = 0 ∨ A (ix2 i j) = 1) (e : Fin 4196352) :
    norm A (ix1 e)
      = Cert.Gcn.dis A ⟨srcN A e, srcN_lt hE e⟩ * Cert.Gcn.dis A ⟨tgt A e, tgt_lt hE e⟩ * validf A (ix1 e) := by
  unfold Cert.ReferenceIdeal.Stages.norm
  rw [mulf_apply, mulf_apply]
  rw [pick_apply _ (src A) e ⟨srcN A e, srcN_lt hE e⟩ rfl, pick_apply _ (dst A) e ⟨tgt A e, tgt_lt hE e⟩ rfl,
    invSqrt_eq hE hA, invSqrt_eq hE hA]

/-! ## One propagation along the edges -/

/-- A table's row gathered at entry `e`'s source node. -/
theorem gathered_row {C : ℕ}
    (wfG : GatherDims.WF ⟨2, ![2048, C]⟩ ⟨2, ![4196352, 1]⟩ ⟨2, ![4196352, C]⟩ [1] [0] [] [0] [] 1 ![1, C])
    (hE : EdgeFacts A) (h : FVec Ideal ⟨2, ![2048, C]⟩ .f32) (e : Fin 4196352) (q : Fin C) :
    Host.gather (RowGather.rowDims 2048 4196352 C wfG) h (column (src A)) (ix2 e q)
      = h (ix2 (⟨srcN A e, srcN_lt hE e⟩ : Fin 2048) q) := by
  rw [RowGather.gather_row_apply (by norm_num)]
  refine congrArg (fun k : Fin 2048 => h (ix2 k q)) (Fin.ext ?_)
  show min (column (src A) (ix2 e (0 : Fin 1))).toInt.toNat (2048 - 1) = srcN A e
  have hlt := srcN_lt hE e
  unfold srcN at hlt ⊢
  rw [BitVec.toInt_eq_toNat_of_lt (by omega)]
  simp only [Int.toNat_natCast]
  omega

/-- A per-entry weight spread across the columns of the gathered table. -/
theorem weight_across {C : ℕ} (bc2 : S4196352x1.BroadcastsInDim ⟨2, ![4196352, C]⟩ ![0, 1]) (v : FVec Ideal S4196352 .f32)
    (e : Fin 4196352) (q : Fin C) :
    broadcastInDim ⟨2, ![4196352, C]⟩ ![0, 1] bc2 (broadcastInDim S4196352x1 ![0] bcast_S4196352_S4196352x1_0 v) (ix2 e q)
      = v (ix1 e) := by
  refine (broadcastInDim_apply _ bc2 _ (ix2 e q) (ix2 e (0 : Fin 1)) fun a => ?_).trans
    (broadcastInDim_apply _ bcast_S4196352_S4196352x1_0 v (ix2 e (0 : Fin 1)) (ix1 e) fun a => ?_)
  · match a with
    | ⟨0, _⟩ => rfl
    | ⟨1, _⟩ => rfl
  · match a with
    | ⟨0, _⟩ => rfl

/-- ONE PROPAGATION of a table with any number `C` of columns: gather each entry's source row, scale it by the entry's
    normalised weight, accumulate at the entry's target. It is the dense propagation step of the table. -/
theorem propagate_eq {C : ℕ}
    (wfS : ScatterDims.WF ⟨2, ![2048, C]⟩ ⟨2, ![4196352, 1]⟩ ⟨2, ![4196352, C]⟩ [1] [0] [0] 1)
    (wfG : GatherDims.WF ⟨2, ![2048, C]⟩ ⟨2, ![4196352, 1]⟩ ⟨2, ![4196352, C]⟩ [1] [0] [] [0] [] 1 ![1, C])
    (bc0 : S_.BroadcastsInDim ⟨2, ![2048, C]⟩ ![])
    (bc2 : S4196352x1.BroadcastsInDim ⟨2, ![4196352, C]⟩ ![0, 1])
    (hE : EdgeFacts A) (hA : ∀ i j : Fin 2048, A (ix2 i j) = 0 ∨ A (ix2 i j) = 1)
    (h : FVec Ideal ⟨2, ![2048, C]⟩ .f32) (hh : ∀ i, IsReal (h i)) (r : Fin 2048) (q : Fin C) :
    Host.scatterAdd (F := Ideal) (RowScatter.rowDims 2048 4196352 C wfS)
        (broadcastInDim ⟨2, ![2048, C]⟩ ![] bc0 (constant (F := Ideal) S_ .f32 0x00000000#32)) (column (dst A))
        (mulf (Host.gather (RowGather.rowDims 2048 4196352 C wfG) h (column (src A)))
          (broadcastInDim ⟨2, ![4196352, C]⟩ ![0, 1] bc2
            (broadcastInDim S4196352x1 ![0] bcast_S4196352_S4196352x1_0 (norm A)))) (ix2 r q)
      = Cert.Gcn.conv A (fun i q => h (ix2 i q)) r q := by
  rw [RowScatter.host_scatterAdd_row_apply, broadcastInDim_scalar_apply, constant_apply, Ideal.ofBits_zero_f32, zero_add]
  -- the table and the normalisation factors as functions of a node's NUMBER
  let hN : ℕ → EReal := fun i => if hi : i < 2048 then h (ix2 (⟨i, hi⟩ : Fin 2048) q) else 0
  let dN : ℕ → EReal := fun i => if hi : i < 2048 then Cert.Gcn.dis A ⟨i, hi⟩ else 0
  have hterm : ∀ e : Fin 4196352,
      (if (column (dst A) (ix2 e (0 : Fin 1))).toInt = (r.val : Int)
        then (mulf (Host.gather (RowGather.rowDims 2048 4196352 C wfG) h (column (src A)))
          (broadcastInDim ⟨2, ![4196352, C]⟩ ![0, 1] bc2
            (broadcastInDim S4196352x1 ![0] bcast_S4196352_S4196352x1_0 (norm A)))) (ix2 e q) else 0)
      = if tgt A e = r.val then (hN (srcN A e) * (dN (srcN A e) * dN (tgt A e))) * validf A (ix1 e) else 0 := fun e => by
    refine if_congr (tgt_word_iff hE e r) ?_ rfl
    rw [mulf_apply, gathered_row wfG hE, weight_across, norm_apply hE hA]
    show _ = (hN (srcN A e) * (dN (srcN A e) * dN (tgt A e))) * validf A (ix1 e)
    simp only [hN, dN, dif_pos (srcN_lt hE e), dif_pos (tgt_lt hE e), mul_assoc]
  rw [Finset.sum_congr rfl fun e _ => hterm e, sum_edges hE (fun i j => hN i * (dN i * dN j)) r]
  have hconv := Cert.Gcn.conv_of_edges A hA (Cert.Gcn.dis A) (dis_real hA) (fun i q => h (ix2 i q)) (fun i q => hh _) r q
  unfold Cert.Gcn.conv
  rw [← hconv]
  refine congrArg₂ (· + ·) (Finset.sum_congr rfl fun i _ => ?_) ?_
  · refine if_congr Iff.rfl ?_ rfl
    simp only [hN, dN, dif_pos i.isLt, dif_pos r.isLt, mul_assoc]
  · simp only [hN, dN, dif_pos r.isLt, mul_assoc]

theorem propagate32_eq (hE : EdgeFacts A) (hA : ∀ i j : Fin 2048, A (ix2 i j) = 0 ∨ A (ix2 i j) = 1)
    (h : FVec Ideal S2048x32 .f32) (hh : ∀ i, IsReal (h i)) (r : Fin 2048) (q : Fin 32) :
    propagate32 A h (ix2 r q) = Cert.Gcn.conv A (fun i q => h (ix2 i q)) r q :=
  propagate_eq scatter_S2048x32_S4196352x1_S4196352x32_1_0_0_1_wf gather_S2048x32_S4196352x1_S4196352x32_1_0_n_n_0_1_132_wf
    bcast_S_S2048x32 bcast_S4196352x1_S4196352x32_0_1 hE hA h hh r q

theorem propagate16_eq (hE : EdgeFacts A) (hA : ∀ i j : Fin 2048, A (ix2 i j) = 0 ∨ A (ix2 i j) = 1)
    (h : FVec Ideal S2048x16 .f32) (hh : ∀ i, IsReal (h i)) (r : Fin 2048) (c : Fin 16) :
    propagate16 A h (ix2 r c) = Cert.Gcn.conv A (fun i c => h (ix2 i c)) r c :=
  propagate_eq scatter_S2048x16_S4196352x1_S4196352x16_1_0_0_1_wf gather_S2048x16_S4196352x1_S4196352x16_1_0_n_n_0_1_116_wf
    bcast_S_S2048x16 bcast_S4196352x1_S4196352x16_0_1 hE hA h hh r c

end Cert.ReferenceIdeal.EdgeMath

end
-- ==== Proof.LibRowsTimes.lean ====
/-
  The product of two arrays, entry by entry, on the extended reals — general in the extents M, K, N.

  For `a` of shape [M, K] and `w` of shape [K, N] the product `rowsTimes a w` has, at (r, j), the sum over `k` of
  `a (r, k) · w (k, j)`. Three facts:

  * `rowsTimes_of_rows` — rows of a product are products of rows: if a block `a'` of shape [R, K] holds, at its row
    `j 0`, what `a` holds at row `i 0` (and `w'` at column `j 1` what `w` holds at column `i 1`), then `a' · w'`
    at `j` is `a · w` at `i`. This is why a product computed one block of rows at a time is the whole product.
  * `contraction_eq` — a contraction over ONE axis of extent K (how a matrix unit's product into a zero
    accumulator, and the host's `dot_general`, read on the extended reals: a sum over the contraction index of
    left-operand × right-operand entries) is `rowsTimes`, once the contraction index is renamed by its one
    coordinate and the two operand indices are shown to be (row, k) and (k, column).
  * `relu` — the maximum with zero, entry by entry, the zero spelt as the f32 word 0x00000000.

  No finiteness is needed anywhere: both sides of every equation are the same sum of the same products in the
  same order.
-/
import Idealize.ShloMosaic.PureOps.Ideal.Laws
import Idealize.ShloMosaic.Lib.ValueIdx

noncomputable section

namespace Cert.Dense

open Idealize.ShloMosaic Idealize.ShloMosaic.ValueIdx

/-- `(a · w) (r, j) = ∑ k, a (r, k) · w (k, j)`. -/
def rowsTimes {M K N : Nat} (a : (⟨2, ![M, K]⟩ : Shape).Idx → EReal) (w : (⟨2, ![K, N]⟩ : Shape).Idx → EReal) :
    (⟨2, ![M, N]⟩ : Shape).Idx → EReal :=
  fun i => ∑ k : Fin K, a (ix2 (i 0 : Fin M) k) * w (ix2 k (i 1 : Fin N))

/-- The rectifier `x ↦ max x 0`, entry by entry (the zero spelt as the f32 word both programs print it as: the
    same word on both sides, never evaluated). -/
def relu {S : Shape} (x : S.Idx → EReal) : S.Idx → EReal :=
  fun i => max (x i) (Ideal.ofBits .f32 0x00000000#32)

/-- Rows of a product are the products of rows: where `a'` at row `j 0` is `a` at row `i 0`, and `w'` at column
    `j 1` is `w` at column `i 1`, the two products agree at `j` and `i`. -/
theorem rowsTimes_of_rows {M R K N N' : Nat} (a : (⟨2, ![M, K]⟩ : Shape).Idx → EReal) (w : (⟨2, ![K, N]⟩ : Shape).Idx → EReal)
    (a' : (⟨2, ![R, K]⟩ : Shape).Idx → EReal) (w' : (⟨2, ![K, N']⟩ : Shape).Idx → EReal)
    (j : (⟨2, ![R, N']⟩ : Shape).Idx) (i : (⟨2, ![M, N]⟩ : Shape).Idx)
    (ha : ∀ k : Fin K, a' (ix2 (j 0 : Fin R) k) = a (ix2 (i 0 : Fin M) k))
    (hw : ∀ k : Fin K, w' (ix2 k (j 1 : Fin N')) = w (ix2 k (i 1 : Fin N))) :
    rowsTimes a' w' j = rowsTimes a w i :=
  Finset.sum_congr rfl fun k _ => by rw [ha k, hw k]

/-- A contraction over one axis of extent `K` whose left index at (i, q) is (i 0, q) and whose right index is
    (q, i 1) is the product above: the contraction index renamed by its one coordinate. -/
theorem contraction_eq {M K N : Nat} {sl sr so : Shape} (d : DotDims sl sr so) (hr : d.contr.rank = 1)
    (hs : d.contr.size ⟨0, by omega⟩ = K)
    (a : (⟨2, ![M, K]⟩ : Shape).Idx → EReal) (w : (⟨2, ![K, N]⟩ : Shape).Idx → EReal)
    (l : sl.Idx → EReal) (r : sr.Idx → EReal) (i : so.Idx) (i' : (⟨2, ![M, N]⟩ : Shape).Idx)
    (hl : ∀ k : Fin K, l (d.lhsIdx i ((contrEquiv1 d K hr hs).symm k)) = a (ix2 (i' 0 : Fin M) k))
    (hw : ∀ k : Fin K, r (d.rhsIdx i ((contrEquiv1 d K hr hs).symm k)) = w (ix2 k (i' 1 : Fin N))) :
    ∑ q : d.contr.Idx, l (d.lhsIdx i q) * r (d.rhsIdx i q) = rowsTimes a w i' := by
  rw [← Equiv.sum_comp (contrEquiv1 d K hr hs).symm]
  exact Finset.sum_congr rfl fun k _ => by rw [hl k, hw k]

end Cert.Dense

end
-- ==== Proof.LibRowsCols.lean ====
/-
  A contraction of a [R, K] array with a [K, N] array over their one shared axis, read at an entry.

  Both the matrix unit's product into a zero accumulator (the kernel's `tpu.matmul`) and the host's
  `dot_general` are, on the extended reals, the sum over the contraction index of left entry × right entry.
  When the record's left operand index at output (r, j) and contraction position k is (r, k), and the right one
  is (k, j), that sum is `rowsTimes a w (r, j) = ∑ k, a (r, k) · w (k, j)`. A change of float format is the
  identity on the extended reals, so the kernel's casts of its operands to bf16 do not appear.

  Only commutative-monoid facts about the sum are used: nothing here needs the entries to be finite.
-/
import Idealize.ShloMosaic.PureOps.Ideal.Laws
import Idealize.ShloMosaic.Lib.ValueIdx
import proofs.«173982_g33990371181433_cont_sun_m_937_10_alg».proof.Proof.LibRowsTimes

noncomputable section

namespace Cert.Dense

open Idealize.ShloMosaic Idealize.ShloMosaic.ValueIdx

variable {R K N : Nat} (d : DotDims ⟨2, ![R, K]⟩ ⟨2, ![K, N]⟩ ⟨2, ![R, N]⟩)

/-- The record contracts ONE axis, of extent `K`, and its operand indices at output index `j` and contraction
    position `k` are (j 0, k) on the left and (k, j 1) on the right: "rows times columns". -/
structure RowsCols : Prop where
  rank : d.contr.rank = 1
  size : d.contr.size ⟨0, by omega⟩ = K
  l0 : ∀ (j : (⟨2, ![R, N]⟩ : Shape).Idx) (k : d.contr.Idx), (d.lhsIdx j k 0).val = (j 0).val
  l1 : ∀ (j : (⟨2, ![R, N]⟩ : Shape).Idx) (k : d.contr.Idx), (d.lhsIdx j k 1).val = (k ⟨0, by omega⟩).val
  r0 : ∀ (j : (⟨2, ![R, N]⟩ : Shape).Idx) (k : d.contr.Idx), (d.rhsIdx j k 0).val = (k ⟨0, by omega⟩).val
  r1 : ∀ (j : (⟨2, ![R, N]⟩ : Shape).Idx) (k : d.contr.Idx), (d.rhsIdx j k 1).val = (j 1).val

variable {d}

/-- The left operand index, with the contraction position named by its one coordinate `k`, is (j 0, k). -/
theorem RowsCols.lhs (h : RowsCols d) (j : (⟨2, ![R, N]⟩ : Shape).Idx) (k : Fin K) :
    d.lhsIdx j ((contrEquiv1 d K h.rank h.size).symm k) = ix2 (j 0 : Fin R) k := by
  funext x; apply Fin.ext
  match x with
  | ⟨0, _⟩ => exact h.l0 j _
  | ⟨1, _⟩ => exact (h.l1 j _).trans (contrEquiv1_symm_val d K h.rank h.size k)

/-- The right operand index, likewise, is (k, j 1). -/
theorem RowsCols.rhs (h : RowsCols d) (j : (⟨2, ![R, N]⟩ : Shape).Idx) (k : Fin K) :
    d.rhsIdx j ((contrEquiv1 d K h.rank h.size).symm k) = ix2 k (j 1 : Fin N) := by
  funext x; apply Fin.ext
  match x with
  | ⟨0, _⟩ => exact (h.r0 j _).trans (contrEquiv1_symm_val d K h.rank h.size k)
  | ⟨1, _⟩ => exact h.r1 j _

/-- The matrix unit's product of `a` and `w` into the zero accumulator, at (r, j), is `∑ k, a (r, k) · w (k, j)`;
    the operands' float formats are whatever they are (a format is not seen on the extended reals). -/
theorem matmul_zero_apply (h : RowsCols d) (prec : Option ContractPrecision) {φ₁ φ₂ : FTy}
    (a : FVec Ideal ⟨2, ![R, K]⟩ φ₁) (w : FVec Ideal ⟨2, ![K, N]⟩ φ₂) (j : (⟨2, ![R, N]⟩ : Shape).Idx) :
    FloatOps.matmul d prec a w (constant (F := Ideal) ⟨2, ![R, N]⟩ .f32 0x00000000#32) j = rowsTimes a w j := by
  rw [Ideal.matmul_constant_zero_apply]
  exact contraction_eq d h.rank h.size a w a w j j (fun k => congrArg a (h.lhs j k)) (fun k => congrArg w (h.rhs j k))

/-- The host's `dot_general` of `a` and `w`, at (r, j), is the same sum. -/
theorem dotGeneral_apply (h : RowsCols d) (prec : Option ContractPrecision) {φ₁ φ₂ : FTy}
    (a : FVec Ideal ⟨2, ![R, K]⟩ φ₁) (w : FVec Ideal ⟨2, ![K, N]⟩ φ₂) (j : (⟨2, ![R, N]⟩ : Shape).Idx) :
    Host.dotGeneral d prec a w j = rowsTimes a w j := by
  show FloatOps.dotGeneral d prec .single a w j = _
  rw [Ideal.dotGeneral_apply]
  exact contraction_eq d h.rank h.size a w a w j j (fun k => congrArg a (h.lhs j k)) (fun k => congrArg w (h.rhs j k))

/-- So the host's `dot_general` of two whole arrays IS their product, as one function. -/
theorem dotGeneral_eq (h : RowsCols d) (prec : Option ContractPrecision) {φ₁ φ₂ : FTy}
    (a : FVec Ideal ⟨2, ![R, K]⟩ φ₁) (w : FVec Ideal ⟨2, ![K, N]⟩ φ₂) :
    Host.dotGeneral d prec a w = rowsTimes a w := funext (dotGeneral_apply h prec a w)

end Cert.Dense

end
-- ==== Proof.RefNodeMath.lean ====
/-
  The reference network node by node.

  Given that a propagation along the edge list equals the dense propagation step (`propagate32_eq`,
  `propagate16_eq`), each layer of the reference at node `p` is the dense network's layer: the host's matrix
  product is the plain sum of products, a bias kept as a vector is read at its column, the clamp is `max · 0`,
  and `1 / (1 + exp (−t))` is the logistic function of `t`.  Every intermediate is a real number, which is what the
  propagation lemmas ask of the table they propagate.
-/
import proofs.«173982_g33990371181433_cont_sun_m_937_10_alg».proof.Proof.RefEdgeMath
import proofs.«173982_g33990371181433_cont_sun_m_937_10_alg».proof.Proof.LibRowsCols
import Idealize.ShloMosaic.Lib.IdealHost

noncomputable section

namespace Cert.ReferenceIdeal.NodeMath

open Cert.ReferenceIdeal Cert.ReferenceIdeal.Gen Cert.ReferenceIdeal.Stages Cert.ReferenceIdeal.IndexMath
  Cert.ReferenceIdeal.EdgeMath Idealize.ShloMosaic Idealize.ShloMosaic.ValueIdx Cert.RealValued

/-- A vector kept as a `1 × C` row and repeated down `R` rows, read at (p, q): the vector at `q`. -/
theorem row_bcast_apply {α : Type} {R C : ℕ} (bc1 : (⟨1, ![C]⟩ : Shape).BroadcastsInDim ⟨2, ![1, C]⟩ ![1])
    (bc2 : (⟨2, ![1, C]⟩ : Shape).BroadcastsInDim ⟨2, ![R, C]⟩ ![0, 1]) (v : (⟨1, ![C]⟩ : Shape).Idx → α)
    (p : Fin R) (q : Fin C) :
    broadcastInDim ⟨2, ![R, C]⟩ ![0, 1] bc2 (broadcastInDim ⟨2, ![1, C]⟩ ![1] bc1 v) (ix2 p q) = v (ix1 q) := by
  rw [broadcastInDim_apply _ bc2 _ _ (ix2 (0 : Fin 1) q) (fun a => by
    match a with
    | ⟨0, _⟩ => rfl
    | ⟨1, _⟩ =>
      show q.val = if C = 1 then 0 else q.val
      split_ifs with h1
      · have := q.isLt; omega
      · rfl)]
  exact broadcastInDim_apply _ bc1 _ _ (ix1 q) (fun a => by
    match a with
    | ⟨0, _⟩ =>
      show q.val = if C = 1 then 0 else q.val
      split_ifs with h1
      · have := q.isLt; omega
      · rfl)

/-- A one-entry vector kept as a `1 × 1` array and repeated over an `R × C` array, read anywhere: the entry. -/
theorem scalar_bcast_apply {α : Type} {R C : ℕ} (bc1 : (⟨1, ![1]⟩ : Shape).BroadcastsInDim ⟨2, ![1, 1]⟩ ![1])
    (bc2 : (⟨2, ![1, 1]⟩ : Shape).BroadcastsInDim ⟨2, ![R, C]⟩ ![0, 1]) (v : (⟨1, ![1]⟩ : Shape).Idx → α)
    (j : (⟨2, ![R, C]⟩ : Shape).Idx) :
    broadcastInDim ⟨2, ![R, C]⟩ ![0, 1] bc2 (broadcastInDim ⟨2, ![1, 1]⟩ ![1] bc1 v) j = v (ix1 (0 : Fin 1)) := by
  rw [broadcastInDim_apply _ bc2 _ _ (ix2 (0 : Fin 1) (0 : Fin 1)) (fun a => by
    match a with
    | ⟨0, _⟩ => rfl
    | ⟨1, _⟩ => rfl)]
  exact broadcastInDim_apply _ bc1 _ _ (ix1 (0 : Fin 1)) (fun a => by
    match a with
    | ⟨0, _⟩ => rfl)

theorem rc1 : Cert.Dense.RowsCols dot_S2048x16_S16x32_S2048x32_1_0_0_1_n_n :=
  ⟨rfl, rfl, fun _ _ => rfl, fun _ _ => rfl, fun _ _ => rfl, fun _ _ => rfl⟩

theorem rc2 : Cert.Dense.RowsCols dot_S2048x32_S32x16_S2048x16_1_0_0_1_n_n :=
  ⟨rfl, rfl, fun _ _ => rfl, fun _ _ => rfl, fun _ _ => rfl, fun _ _ => rfl⟩

variable {A : FVec Ideal S2048x2048 .f32} {x : FVec Ideal S2048x16 .f32} {W1 : FVec Ideal S16x32 .f32}
  {b1 : FVec Ideal S32 .f32} {W2 : FVec Ideal S32x16 .f32} {b2 : FVec Ideal S16 .f32} {sp : FVec Ideal S1 .f32}

theorem isReal_A (hA : ∀ i j : Fin 2048, A (ix2 i j) = 0 ∨ A (ix2 i j) = 1) (i j : Fin 2048) : IsReal (A (ix2 i j)) := by
  rcases hA i j with h0 | h1
  · rw [h0]; exact isReal_zero
  · rw [h1]; exact ⟨1, by norm_num⟩

/-- A propagation step of a real table is real. -/
theorem conv_real {C : ℕ} (hA : ∀ i j : Fin 2048, A (ix2 i j) = 0 ∨ A (ix2 i j) = 1)
    (h : Fin 2048 → Fin C → EReal) (hh : ∀ i q, IsReal (h i q)) (p : Fin 2048) (q : Fin C) :
    IsReal (Cert.Gcn.conv A h p q) := by
  unfold Cert.Gcn.conv
  exact (dis_real hA p).mul ((isReal_sum _ _ fun i _ => (isReal_A hA i p).mul ((dis_real hA i).mul (hh i q))).add
    ((dis_real hA p).mul (hh p q)))

theorem lin1_eq (p : Fin 2048) (q : Fin 32) :
    Host.dotGeneral dot_S2048x16_S16x32_S2048x32_1_0_0_1_n_n none x W1 (ix2 p q) = Cert.Gcn.lin1 x W1 p q := by
  rw [Cert.Dense.dotGeneral_apply rc1]; rfl

theorem lin1_real (hx : ∀ i, IsReal (x i)) (hW1 : ∀ i, IsReal (W1 i)) (p : Fin 2048) (q : Fin 32) :
    IsReal (Cert.Gcn.lin1 x W1 p q) :=
  isReal_sum _ _ fun k _ => (hx _).mul (hW1 _)

/-- The reference's first layer at node `p`, column `q`. -/
theorem hidden_eq (hE : EdgeFacts A) (hA : ∀ i j : Fin 2048, A (ix2 i j) = 0 ∨ A (ix2 i j) = 1)
    (hx : ∀ i, IsReal (x i)) (hW1 : ∀ i, IsReal (W1 i)) (p : Fin 2048) (q : Fin 32) :
    Stages.hidden A x W1 b1 (ix2 p q) = Cert.Gcn.g1 A x W1 b1 p q := by
  unfold Stages.hidden Cert.Gcn.g1
  have hl : (fun (i : Fin 2048) (q : Fin 32) => Host.dotGeneral dot_S2048x16_S16x32_S2048x32_1_0_0_1_n_n none x W1 (ix2 i q))
      = Cert.Gcn.lin1 x W1 := funext fun i => funext fun q => lin1_eq i q
  rw [maximumf_apply, addf_apply, propagate32_eq hE hA _ (fun i => by
    obtain ⟨p', q', rfl⟩ : ∃ (p' : Fin 2048) (q' : Fin 32), i = ix2 p' q' := ⟨i 0, i 1, eq_ix2 i⟩
    rw [lin1_eq]; exact lin1_real hx hW1 _ _) p q, hl, row_bcast_apply]
  rfl

theorem g1_real (hA : ∀ i j : Fin 2048, A (ix2 i j) = 0 ∨ A (ix2 i j) = 1)
    (hx : ∀ i, IsReal (x i)) (hW1 : ∀ i, IsReal (W1 i)) (hb1 : ∀ i, IsReal (b1 i)) (p : Fin 2048) (q : Fin 32) :
    IsReal (Cert.Gcn.g1 A x W1 b1 p q) := by
  unfold Cert.Gcn.g1
  exact Cert.RealSums.max_real ((conv_real hA _ (lin1_real hx hW1) p q).add (hb1 _))
    ⟨0, by show Ideal.ofBits .f32 0x00000000#32 = _; rw [Ideal.ofBits_zero_f32]; norm_num⟩

theorem lin2_eq (hE : EdgeFacts A) (hA : ∀ i j : Fin 2048, A (ix2 i j) = 0 ∨ A (ix2 i j) = 1)
    (hx : ∀ i, IsReal (x i)) (hW1 : ∀ i, IsReal (W1 i)) (p : Fin 2048) (c : Fin 16) :
    Host.dotGeneral dot_S2048x32_S32x16_S2048x16_1_0_0_1_n_n none (Stages.hidden A x W1 b1) W2 (ix2 p c)
      = Cert.Gcn.lin2 A x W1 b1 W2 p c := by
  rw [Cert.Dense.dotGeneral_apply rc2]
  unfold Cert.Dense.rowsTimes Cert.Gcn.lin2
  refine Finset.sum_congr rfl fun k _ => ?_
  rw [show (ix2 p c 0 : Fin 2048) = p from rfl, show (ix2 p c 1 : Fin 16) = c from rfl, hidden_eq hE hA hx hW1]

theorem lin2_real (hA : ∀ i j : Fin 2048, A (ix2 i j) = 0 ∨ A (ix2 i j) = 1)
    (hx : ∀ i, IsReal (x i)) (hW1 : ∀ i, IsReal (W1 i)) (hb1 : ∀ i, IsReal (b1 i)) (hW2 : ∀ i, IsReal (W2 i))
    (p : Fin 2048) (c : Fin 16) : IsReal (Cert.Gcn.lin2 A x W1 b1 W2 p c) :=
  isReal_sum _ _ fun k _ => (g1_real hA hx hW1 hb1 p k).mul (hW2 _)

/-- The reference's second layer with bias and skip connection at node `p`, column `c`. -/
theorem logits_eq (hE : EdgeFacts A) (hA : ∀ i j : Fin 2048, A (ix2 i j) = 0 ∨ A (ix2 i j) = 1)
    (hx : ∀ i, IsReal (x i)) (hW1 : ∀ i, IsReal (W1 i)) (hb1 : ∀ i, IsReal (b1 i)) (hW2 : ∀ i, IsReal (W2 i))
    (p : Fin 2048) (c : Fin 16) :
    Stages.logits A x W1 b1 W2 b2 (ix2 p c) = Cert.Gcn.g2 A x W1 b1 W2 b2 p c := by
  unfold Stages.logits Cert.Gcn.g2
  have hl : (fun (i : Fin 2048) (c : Fin 16) =>
      Host.dotGeneral dot_S2048x32_S32x16_S2048x16_1_0_0_1_n_n none (Stages.hidden A x W1 b1) W2 (ix2 i c))
      = Cert.Gcn.lin2 A x W1 b1 W2 := funext fun i => funext fun c => lin2_eq hE hA hx hW1 i c
  rw [addf_apply, addf_apply, propagate16_eq hE hA _ (fun i => by
    obtain ⟨p', c', rfl⟩ : ∃ (p' : Fin 2048) (c' : Fin 16), i = ix2 p' c' := ⟨i 0, i 1, eq_ix2 i⟩
    rw [lin2_eq hE hA hx hW1]; exact lin2_real hA hx hW1 hb1 hW2 _ _) p c, hl, row_bcast_apply]

/-- The reference's output array is the dense network's. -/
theorem out_eq (hE : EdgeFacts A) (hA : ∀ i j : Fin 2048, A (ix2 i j) = 0 ∨ A (ix2 i j) = 1)
    (hx : ∀ i, IsReal (x i)) (hW1 : ∀ i, IsReal (W1 i)) (hb1 : ∀ i, IsReal (b1 i)) (hW2 : ∀ i, IsReal (W2 i)) :
    Stages.out A x W1 b1 W2 b2 sp = Cert.Gcn.out A x W1 b1 W2 b2 sp := by
  funext j
  obtain ⟨p, c, rfl⟩ : ∃ (p : Fin 2048) (c : Fin 16), j = ix2 p c := ⟨j 0, j 1, eq_ix2 j⟩
  unfold Stages.out Cert.Gcn.out
  show Ideal.div (Ideal.ofBits .f32 0x3F800000#32)
      (Ideal.ofBits .f32 0x3F800000#32 + Ideal.exp (-(
        broadcastInDim S2048x16 ![0, 1] bcast_S1x1_S2048x16_0_1 (broadcastInDim S1x1 ![1] bcast_S1_S1x1_1 sp) (ix2 p c)
          * Stages.logits A x W1 b1 W2 b2 (ix2 p c)))) = _
  rw [scalar_bcast_apply, logits_eq hE hA hx hW1 hb1 hW2, Ideal.ofBits_one_f32]
  rfl

end Cert.ReferenceIdeal.NodeMath

end
-- ==== Proof.PreFacts.lean ====
/-
  The precondition read back. It says: every entry of each of the seven argument arrays has absolute value below
  +inf, and every entry of the first array (the adjacency matrix) equals 0.0 or equals 1.0. On the extended reals the
  first says each entry is a real number, the second that each entry of the adjacency matrix is the number 0 or the
  number 1. Each "for all entries" is a reduction by "and" over every axis of an array of one-bit words; a reduction
  that is 1 met only 1s, whatever the array's size.
-/
import proofs.«173982_g33990371181433_cont_sun_m_937_10_alg».proof.Defs
import proofs.«173982_g33990371181433_cont_sun_m_937_10_alg».proof.Proof.Gen.Pre_finite_inputs
import proofs.«173982_g33990371181433_cont_sun_m_937_10_alg».proof.Proof.LibRealValued
import Idealize.ShloMosaic.Lib.ReduceAll
import Idealize.ShloMosaic.Lib.ValueIdx
import Idealize.ShloMosaic.Lib.IdealHost
import Idealize.ShloMosaic.PureOps.Ideal.Laws

noncomputable section

namespace Cert.PreFacts

open Idealize.ShloMosaic Idealize.ShloMosaic.ValueIdx Cert.RealValued

/-- The comparison "equal" of two extended reals is the one-bit word 1 only when they are equal. -/
theorem eq_of_cmp_oeq (a b : EReal) (h : Ideal.cmp .oeq a b = 1#1) : a = b := by
  unfold Ideal.cmp at h
  by_contra hne
  simp [hne] at h

/-- "a equals 0.0 or a equals 1.0" as a one-bit word that is 1: `a` is the number 0 or the number 1. -/
theorem zero_or_one_of_word (a : EReal)
    (h : IntOp.ori (Ideal.cmp .oeq a (Ideal.ofBits .f32 0x00000000#32)) (Ideal.cmp .oeq a (Ideal.ofBits .f32 0x3F800000#32)) = 1#1) :
    a = 0 ∨ a = 1 := by
  rw [IntOp.ori_eq_one, Ideal.ofBits_zero_f32, Ideal.ofBits_one_f32] at h
  exact h.imp (eq_of_cmp_oeq a 0) (eq_of_cmp_oeq a 1)

/-- "All entries of `a` equal 0.0 or 1.0" (a reduction by "and", over every axis, of the "or" of the two comparisons with
    the constants broadcast from scalars) gives it of every entry. -/
theorem all_zero_or_one {s : Shape} {axes : List (Fin s.rank)} (a : FVec Ideal s .f32)
    (dims : Fin (⟨0, ![]⟩ : Shape).rank → Fin s.rank) (bc : (⟨0, ![]⟩ : Shape).BroadcastsInDim s dims)
    (h' : s.ReducesTo axes ⟨0, ![]⟩) (hu : 0 < (⟨0, ![]⟩ : Shape).numel)
    (e : Host.reduce IntOp.andi
      (ori (cmpf .oeq a (broadcastInDim s dims bc (constant (F := Ideal) ⟨0, ![]⟩ .f32 0x00000000#32)))
        (cmpf .oeq a (broadcastInDim s dims bc (constant (F := Ideal) ⟨0, ![]⟩ .f32 0x3F800000#32))))
      (constantI ⟨0, ![]⟩ 1 1#1) h' hu ix0 = 1#1) (i : s.Idx) : a i = 0 ∨ a i = 1 := by
  haveI : Subsingleton (⟨0, ![]⟩ : Shape).Idx := ⟨fun a b => funext fun d => d.elim0⟩
  exact zero_or_one_of_word (a i) (Host.reduce_andi_all _ _ h' hu ix0 e i)

/-- The precondition's function, all ones: every argument entry is a real number, every adjacency entry 0 or 1. -/
theorem of_fn (a0 : FVec Ideal Cert.Pre_finite_inputs.S2048x2048 .f32) (a1 : FVec Ideal Cert.Pre_finite_inputs.S2048x16 .f32)
    (a2 : FVec Ideal Cert.Pre_finite_inputs.S16x32 .f32) (a3 : FVec Ideal Cert.Pre_finite_inputs.S32 .f32)
    (a4 : FVec Ideal Cert.Pre_finite_inputs.S32x16 .f32) (a5 : FVec Ideal Cert.Pre_finite_inputs.S16 .f32)
    (a6 : FVec Ideal Cert.Pre_finite_inputs.S1 .f32)
    (h : Cert.Pre_finite_inputs.fn (F := Ideal) a0 a1 a2 a3 a4 a5 a6 = fun _ => 1#1) :
    (∀ i, IsReal (a0 i)) ∧ (∀ i, IsReal (a1 i)) ∧ (∀ i, IsReal (a2 i)) ∧ (∀ i, IsReal (a3 i)) ∧ (∀ i, IsReal (a4 i))
      ∧ (∀ i, IsReal (a5 i)) ∧ (∀ i, IsReal (a6 i)) ∧ (∀ i, a0 i = 0 ∨ a0 i = 1) := by
  have e := congrFun h ix0
  unfold Cert.Pre_finite_inputs.fn Cert.Pre_finite_inputs.fn_part1 Cert.Pre_finite_inputs.fn_part2 at e
  dsimp only at e
  simp only [andi, IntOp.andi_eq_one] at e
  obtain ⟨⟨⟨⟨⟨⟨⟨h0, h1⟩, h2⟩, h3⟩, h4⟩, h5⟩, h6⟩, hA⟩ := e
  exact ⟨all_isReal a0 _ _ _ _ h0, all_isReal a1 _ _ _ _ h1, all_isReal a2 _ _ _ _ h2, all_isReal a3 _ _ _ _ h3,
    all_isReal a4 _ _ _ _ h4, all_isReal a5 _ _ _ _ h5, all_isReal a6 _ _ _ _ h6, all_zero_or_one a0 _ _ _ _ hA⟩

/-- The same of a launch memory of which the kernel's precondition holds, on each device. -/
theorem of_pre (m : (ℓ : Loc Cert.KernelIdeal.nD Cert.KernelIdeal.τ Cert.KernelIdeal.sig) → Buf (Elt Ideal) ℓ)
    (h : Cert.Pre_KernelIdeal m) (c : Dev Cert.KernelIdeal.nD) :
    (∀ i : Cert.KernelIdeal.S2048x2048.Idx, IsReal (m ((c.tc : Thread _ _).loc Cert.KernelIdeal.main_arg0) i))
      ∧ (∀ i : Cert.KernelIdeal.S2048x16.Idx, IsReal (m ((c.tc : Thread _ _).loc Cert.KernelIdeal.main_arg1) i))
      ∧ (∀ i : Cert.KernelIdeal.S16x32.Idx, IsReal (m ((c.tc : Thread _ _).loc Cert.KernelIdeal.main_arg2) i))
      ∧ (∀ i : Cert.KernelIdeal.S32.Idx, IsReal (m ((c.tc : Thread _ _).loc Cert.KernelIdeal.main_arg3) i))
      ∧ (∀ i : Cert.KernelIdeal.S32x16.Idx, IsReal (m ((c.tc : Thread _ _).loc Cert.KernelIdeal.main_arg4) i))
      ∧ (∀ i : Cert.KernelIdeal.S16.Idx, IsReal (m ((c.tc : Thread _ _).loc Cert.KernelIdeal.main_arg5) i))
      ∧ (∀ i : Cert.KernelIdeal.S1.Idx, IsReal (m ((c.tc : Thread _ _).loc Cert.KernelIdeal.main_arg6) i))
      ∧ (∀ i : Cert.KernelIdeal.S2048x2048.Idx, m ((c.tc : Thread _ _).loc Cert.KernelIdeal.main_arg0) i = (0 : EReal) ∨ m ((c.tc : Thread _ _).loc Cert.KernelIdeal.main_arg0) i = (1 : EReal)) :=
  of_fn _ _ _ _ _ _ _ (h c)

end Cert.PreFacts

end
-- ==== Proof.lean ====
/-
  A two-layer graph convolution network computed two ways.

  The kernel is dense: with `deg j = (∑ i, A(i,j)) + 1` and `dis = deg^(-1/2)`, one propagation step is
  `dis · (Aᵀ (dis · h) + dis · h)`, and the network is `logistic (sp · (conv (max (conv (x W1) + b1) 0 · W2) + b2 + x))`.
  The reference is sparse: it lists the nonzero entries of `A` as edges (a running count of the nonzero pattern, a
  histogram of the running counts and its running sum give the flat position of the `e`-th nonzero entry; a floor
  division and a remainder split it into row and column), appends one self loop per node, accumulates the degrees
  over the edge targets, and in each layer gathers the table at the edge sources, scales by
  `dis(source) · dis(target)` and accumulates at the edge targets.

  The reference uses `A` only through its nonzero pattern while the kernel multiplies by its entries, so the two agree
  when every entry of `A` is 0 or 1 — the precondition states it, beside the finiteness of every input.  Then the
  listed edges are exactly the pairs `(i, j)` with `A(i,j) = 1`, each once; a sum over the edges that end at `r` is a
  sum over the nodes `i` with `A(i,r) = 1`; the indicator of that is `A(i,r)` itself; and the remaining difference
  between the two forms is the distributive law, which holds because every quantity is a real number.

  The kernel's run ends at the dense function `Cert.Gcn.out` of its arguments; the reference's run ends at the
  stage-by-stage function `Stages.out`, which under the precondition is the same function.
-/
import proofs.«173982_g33990371181433_cont_sun_m_937_10_alg».proof.Defs
import proofs.«173982_g33990371181433_cont_sun_m_937_10_alg».proof.Proof.Gen.Kernel
import proofs.«173982_g33990371181433_cont_sun_m_937_10_alg».proof.Proof.Gen.Kernel.Skeleton
import proofs.«173982_g33990371181433_cont_sun_m_937_10_alg».proof.Proof.Gen.Kernel.Launch
import proofs.«173982_g33990371181433_cont_sun_m_937_10_alg».proof.Proof.Gen.Kernel.Points
import proofs.«173982_g33990371181433_cont_sun_m_937_10_alg».proof.Proof.Gen.Kernel.Frame
import proofs.«173982_g33990371181433_cont_sun_m_937_10_alg».proof.Proof.Gen.KernelIdeal
import proofs.«173982_g33990371181433_cont_sun_m_937_10_alg».proof.Proof.Gen.KernelIdeal.Skeleton
import proofs.«173982_g33990371181433_cont_sun_m_937_10_alg».proof.Proof.Gen.KernelIdeal.Launch
import proofs.«173982_g33990371181433_cont_sun_m_937_10_alg».proof.Proof.Gen.KernelIdeal.Points
import proofs.«173982_g33990371181433_cont_sun_m_937_10_alg».proof.Proof.Gen.KernelIdeal.Frame
import proofs.«173982_g33990371181433_cont_sun_m_937_10_alg».proof.Proof.Gen.ReferenceIdeal
import proofs.«173982_g33990371181433_cont_sun_m_937_10_alg».proof.Proof.Gen.Pre_finite_inputs
import proofs.«173982_g33990371181433_cont_sun_m_937_10_alg».proof.Proof.KernelValue
import proofs.«173982_g33990371181433_cont_sun_m_937_10_alg».proof.Proof.RefRead
import proofs.«173982_g33990371181433_cont_sun_m_937_10_alg».proof.Proof.RefIndexMath
import proofs.«173982_g33990371181433_cont_sun_m_937_10_alg».proof.Proof.RefNodeMath
import proofs.«173982_g33990371181433_cont_sun_m_937_10_alg».proof.Proof.PreFacts
import Idealize.ShloMosaic.Adequacy
import Idealize.ShloMosaic.Init

noncomputable section

namespace Cert.Proof

open Idealize.ShloMosaic Idealize.SL.Sem Idealize.ShloMosaic.ValueIdx

/-- The word-level kernel runs and leaves its arguments unchanged. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference runs and leaves its arguments unchanged: its run, with the result forgotten. -/
theorem frame_ri : Cert.frame_ReferenceIdeal := fun m ρ _ =>
  (θ_run Cert.ReferenceIdeal.defs _ _).mono (fun _ h c => (h c).2) (Cert.ReferenceIdeal.HandRun.run (F := Ideal) m ρ)

/-- From memories that agree on the arguments, both programs end with the dense network of the arguments: the kernel
    by its own arithmetic, the reference because under the precondition its edge-list network is the dense one. -/
theorem algebraic : Cert.algebraic_KernelIdeal_ReferenceIdeal := by
  intro m ρ m' ρ' hpre hagree
  refine ⟨_, Cert.KernelIdeal.Dense.run m ρ, ?_⟩
  refine (θ_run Cert.ReferenceIdeal.defs _ _).mono (fun _ h c => ⟨(h c).1.trans ?_, (h c).2⟩)
    (Cert.ReferenceIdeal.HandRun.run (F := Ideal) m' ρ')
  obtain ⟨h0, h1, h2, h3, h4, h5, h6⟩ := hagree c
  rw [h0, h1, h2, h3, h4, h5, h6]
  obtain ⟨_, r1, r2, r3, r4, _, _, z01⟩ := Cert.PreFacts.of_pre m hpre c
  exact Cert.ReferenceIdeal.NodeMath.out_eq (Cert.ReferenceIdeal.IndexMath.edgeFacts _) (fun i j => z01 (ix2 i j)) r1 r2 r3 r4

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
